-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel

variable [Facts]

def fn {F : FTy → Type} [FloatOps F] (main_arg0 : FVec F S65536x512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  main_v3
-- ==== Kernel.lean ====
abbrev S65536x512 : Shape := ⟨2, ![65536, 512]⟩
abbrev S32x512 : Shape := ⟨2, ![32, 512]⟩
abbrev S_ : Shape := ⟨0, ![]⟩
abbrev S16 : Shape := ⟨1, ![16]⟩
abbrev S1x16 : Shape := ⟨2, ![1, 16]⟩

abbrev nBuf : Table → Nat
  | .hbm => 2
  | .local .scVector .vmem => 4
  | _ => 0

abbrev bufTy : (tb : Table) → Fin (nBuf tb) → BufTy
  | .hbm, ⟨0, _⟩ => ⟨S65536x512, .f32⟩
  | .hbm, ⟨1, _⟩ => ⟨S65536x512, .f32⟩
  | .local .scVector .vmem, ⟨0, _⟩ => ⟨S32x512, .f32⟩
  | .local .scVector .vmem, ⟨1, _⟩ => ⟨S32x512, .f32⟩
  | .local .scVector .vmem, ⟨2, _⟩ => ⟨S32x512, .f32⟩
  | .local .scVector .vmem, ⟨3, _⟩ => ⟨S32x512, .f32⟩
  | _, _ => ⟨S65536x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v19 : BitVec 32 := Scalar.addi v2 c0_i32
  let c0_i32_3 : BitVec 32 := 0#32
  ![v19.toNat, 0]
def k0_off1_at (r : Fin 4) : BitVec 32 :=
  if r.val < 2 then
    if r.val < 1 then
      0#32
    else
      32#32
  else
    if r.val < 3 then
      1984#32
    else
      2016#32
@[reducible] def k0_t1_loop : Scf.Loop 32 :=
  let c0_i32_8 : BitVec 32 := 0#32
  let c16_i32 : BitVec 32 := 16#32
  let v25 : BitVec 32 := Scalar.addi c0_i32_8 c16_i32
  let c1_i32 : BitVec 32 := 1#32
  ⟨c0_i32_8, v25, c1_i32⟩
def k0_cond1 (k0_t1 : Fin k0_t1_loop.trips) : BitVec 1 :=
  let c0_i32_8 : BitVec 32 := 0#32
  let c1_i32 : BitVec 32 := 1#32
  let arg16 : BitVec 32 := Scf.iv c0_i32_8 c1_i32 k0_t1
  let c4_i32 : BitVec 32 := 4#32
  let v32 : BitVec 32 := Scalar.muli arg16 c4_i32
  let c0_i32_14 : BitVec 32 := 0#32
  let v33 : BitVec 32 := Scalar.addi v32 c0_i32_14
  let c2_i32_15 : BitVec 32 := 2#32
  let v34 : BitVec 1 := Scalar.cmpi .sge v33 c2_i32_15
  let v35 : BitVec 32 := Scalar.extui v34
  let c0_i32_16 : BitVec 32 := 0#32
  let v36 : BitVec 1 := Scalar.cmpi .ne v35 c0_i32_16
  v36

def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_8 : BitVec 32 := 0#32
  let c1_i32 : BitVec 32 := 1#32
  let arg16 : BitVec 32 := Scf.iv c0_i32_8 c1_i32 k0_t1
  let c4_i32 : BitVec 32 := 4#32
  let v32 : BitVec 32 := Scalar.muli arg16 c4_i32
  let c0_i32_14 : BitVec 32 := 0#32
  let v33 : BitVec 32 := Scalar.addi v32 c0_i32_14
  let c2_i32_83 : BitVec 32 := 2#32
  let v104 : BitVec 32 := Scalar.subi v33 c2_i32_83
  let c32_i32_84 : BitVec 32 := 32#32
  let v105 : BitVec 32 := Scalar.muli v104 c32_i32_84
  let v106 : BitVec 32 := Scalar.addi v2 v105
  let c0_i32_85 : BitVec 32 := 0#32
  ![v106.toNat, 0]
def k0_cond2 (k0_t1 : Fin k0_t1_loop.trips) : BitVec 1 :=
  let c0_i32_8 : BitVec 32 := 0#32
  let c1_i32 : BitVec 32 := 1#32
  let arg16 : BitVec 32 := Scf.iv c0_i32_8 c1_i32 k0_t1
  let c4_i32 : BitVec 32 := 4#32
  let v32 : BitVec 32 := Scalar.muli arg16 c4_i32
  let c0_i32_14 : BitVec 32 := 0#32
  let v33 : BitVec 32 := Scalar.addi v32 c0_i32_14
  let c2_i32_17 : BitVec 32 := 2#32
  let v37 : BitVec 32 := Scalar.addi v33 c2_i32_17
  let c64_i32 : BitVec 32 := 64#32
  let v38 : BitVec 1 := Scalar.cmpi .slt v37 c64_i32
  let v39 : BitVec 32 := Scalar.extui v38
  let c0_i32_18 : BitVec 32 := 0#32
  let v40 : BitVec 1 := Scalar.cmpi .ne v39 c0_i32_18
  v40

def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_8 : BitVec 32 := 0#32
  let c1_i32 : BitVec 32 := 1#32
  let arg16 : BitVec 32 := Scf.iv c0_i32_8 c1_i32 k0_t1
  let c4_i32 : BitVec 32 := 4#32
  let v32 : BitVec 32 := Scalar.muli arg16 c4_i32
  let c0_i32_14 : BitVec 32 := 0#32
  let v33 : BitVec 32 := Scalar.addi v32 c0_i32_14
  let c2_i32_83 : BitVec 32 := 2#32
  let v104 : BitVec 32 := Scalar.addi v33 c2_i32_83
  let c32_i32_84 : BitVec 32 := 32#32
  let v105 : BitVec 32 := Scalar.muli v104 c32_i32_84
  let v106 : BitVec 32 := Scalar.addi v2 v105
  let c0_i32_85 : BitVec 32 := 0#32
  ![v106.toNat, 0]
def k0_off4 (i : grid0.Coords) (k0_t1 : Fin k0_t1_loop.trips) (c0_i32_14 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_8 : BitVec 32 := 0#32
  let c1_i32 : BitVec 32 := 1#32
  let arg16 : BitVec 32 := Scf.iv c0_i32_8 c1_i32 k0_t1
  let c4_i32 : BitVec 32 := 4#32
  let v32 : BitVec 32 := Scalar.muli arg16 c4_i32
  let v33 : BitVec 32 := Scalar.addi v32 c0_i32_14
  let c32_i32_19 : BitVec 32 := 32#32
  let v41 : BitVec 32 := Scalar.muli v33 c32_i32_19
  let v42 : BitVec 32 := Scalar.addi v2 v41
  let c0_i32_20 : BitVec 32 := 0#32
  ![v42.toNat, 0]
@[reducible] def k0_t2_loop : Scf.Loop 32 :=
  let c0_i32_23 : BitVec 32 := 0#32
  let c32_i32_24 : BitVec 32 := 32#32
  let v45 : BitVec 32 := Scalar.addi c0_i32_23 c32_i32_24
  let c1_i32_25 : BitVec 32 := 1#32
  ⟨c0_i32_23, v45, c1_i32_25⟩
def k0_off5 (k0_t2 : Fin k0_t2_loop.trips) : Fin 2 → Nat :=
  let c0_i32_23 : BitVec 32 := 0#32
  let c1_i32_25 : BitVec 32 := 1#32
  let arg17 : BitVec 32 := Scf.iv c0_i32_23 c1_i32_25 k0_t2
  let v104 : Index := Scalar.indexCast arg17
  let c0 : Index := 0#32
  ![v104.toNat, 0]
def k0_off6 (k0_t2 : Fin k0_t2_loop.trips) : Fin 2 → Nat :=
  let c0_i32_23 : BitVec 32 := 0#32
  let c1_i32_25 : BitVec 32 := 1#32
  let arg17 : BitVec 32 := Scf.iv c0_i32_23 c1_i32_25 k0_t2
  let v113 : Index := Scalar.indexCast arg17
  let c112 : Index := 112#32
  ![v113.toNat, 112]
def k0_off7 (k0_t2 : Fin k0_t2_loop.trips) : Fin 2 → Nat :=
  let c0_i32_23 : BitVec 32 := 0#32
  let c1_i32_25 : BitVec 32 := 1#32
  let arg17 : BitVec 32 := Scf.iv c0_i32_23 c1_i32_25 k0_t2
  let v122 : Index := Scalar.indexCast arg17
  let c256 : Index := 256#32
  ![v122.toNat, 256]
def k0_off8 (k0_t2 : Fin k0_t2_loop.trips) : Fin 2 → Nat :=
  let c0_i32_23 : BitVec 32 := 0#32
  let c1_i32_25 : BitVec 32 := 1#32
  let arg17 : BitVec 32 := Scf.iv c0_i32_23 c1_i32_25 k0_t2
  let v131 : Index := Scalar.indexCast arg17
  let c320 : Index := 320#32
  ![v131.toNat, 320]
def k0_off9 (k0_t2 : Fin k0_t2_loop.trips) : Fin 2 → Nat :=
  let c0_i32_23 : BitVec 32 := 0#32
  let c1_i32_25 : BitVec 32 := 1#32
  let arg17 : BitVec 32 := Scf.iv c0_i32_23 c1_i32_25 k0_t2
  let v140 : Index := Scalar.indexCast arg17
  let c336 : Index := 336#32
  ![v140.toNat, 336]
def k0_off10 (k0_t2 : Fin k0_t2_loop.trips) : Fin 2 → Nat :=
  let c0_i32_23 : BitVec 32 := 0#32
  let c1_i32_25 : BitVec 32 := 1#32
  let arg17 : BitVec 32 := Scf.iv c0_i32_23 c1_i32_25 k0_t2
  let v149 : Index := Scalar.indexCast arg17
  let c368 : Index := 368#32
  ![v149.toNat, 368]
def k0_cond3 (k0_t1 : Fin k0_t1_loop.trips) : BitVec 1 :=
  let c0_i32_8 : BitVec 32 := 0#32
  let c1_i32 : BitVec 32 := 1#32
  let arg16 : BitVec 32 := Scf.iv c0_i32_8 c1_i32 k0_t1
  let c4_i32_30 : BitVec 32 := 4#32
  let v50 : BitVec 32 := Scalar.muli arg16 c4_i32_30
  let c1_i32_31 : BitVec 32 := 1#32
  let v51 : BitVec 32 := Scalar.addi v50 c1_i32_31
  let c2_i32_32 : BitVec 32 := 2#32
  let v52 : BitVec 1 := Scalar.cmpi .sge v51 c2_i32_32
  let v53 : BitVec 32 := Scalar.extui v52
  let c0_i32_33 : BitVec 32 := 0#32
  let v54 : BitVec 1 := Scalar.cmpi .ne v53 c0_i32_33
  v54

def k0_off11 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_8 : BitVec 32 := 0#32
  let c1_i32 : BitVec 32 := 1#32
  let arg16 : BitVec 32 := Scf.iv c0_i32_8 c1_i32 k0_t1
  let c4_i32_30 : BitVec 32 := 4#32
  let v50 : BitVec 32 := Scalar.muli arg16 c4_i32_30
  let c1_i32_31 : BitVec 32 := 1#32
  let v51 : BitVec 32 := Scalar.addi v50 c1_i32_31
  let c2_i32_83 : BitVec 32 := 2#32
  let v104 : BitVec 32 := Scalar.subi v51 c2_i32_83
  let c32_i32_84 : BitVec 32 := 32#32
  let v105 : BitVec 32 := Scalar.muli v104 c32_i32_84
  let v106 : BitVec 32 := Scalar.addi v2 v105
  let c0_i32_85 : BitVec 32 := 0#32
  ![v106.toNat, 0]
def k0_cond4 (k0_t1 : Fin k0_t1_loop.trips) : BitVec 1 :=
  let c0_i32_8 : BitVec 32 := 0#32
  let c1_i32 : BitVec 32 := 1#32
  let arg16 : BitVec 32 := Scf.iv c0_i32_8 c1_i32 k0_t1
  let c4_i32_30 : BitVec 32 := 4#32
  let v50 : BitVec 32 := Scalar.muli arg16 c4_i32_30
  let c1_i32_31 : BitVec 32 := 1#32
  let v51 : BitVec 32 := Scalar.addi v50 c1_i32_31
  let c2_i32_34 : BitVec 32 := 2#32
  let v55 : BitVec 32 := Scalar.addi v51 c2_i32_34
  let c64_i32_35 : BitVec 32 := 64#32
  let v56 : BitVec 1 := Scalar.cmpi .slt v55 c64_i32_35
  let v57 : BitVec 32 := Scalar.extui v56
  let c0_i32_36 : BitVec 32 := 0#32
  let v58 : BitVec 1 := Scalar.cmpi .ne v57 c0_i32_36
  v58

def k0_off12 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_8 : BitVec 32 := 0#32
  let c1_i32 : BitVec 32 := 1#32
  let arg16 : BitVec 32 := Scf.iv c0_i32_8 c1_i32 k0_t1
  let c4_i32_30 : BitVec 32 := 4#32
  let v50 : BitVec 32 := Scalar.muli arg16 c4_i32_30
  let c1_i32_31 : BitVec 32 := 1#32
  let v51 : BitVec 32 := Scalar.addi v50 c1_i32_31
  let c2_i32_83 : BitVec 32 := 2#32
  let v104 : BitVec 32 := Scalar.addi v51 c2_i32_83
  let c32_i32_84 : BitVec 32 := 32#32
  let v105 : BitVec 32 := Scalar.muli v104 c32_i32_84
  let v106 : BitVec 32 := Scalar.addi v2 v105
  let c0_i32_85 : BitVec 32 := 0#32
  ![v106.toNat, 0]
@[reducible] def k0_t3_loop : Scf.Loop 32 :=
  let c0_i32_41 : BitVec 32 := 0#32
  let c32_i32_42 : BitVec 32 := 32#32
  let v63 : BitVec 32 := Scalar.addi c0_i32_41 c32_i32_42
  let c1_i32_43 : BitVec 32 := 1#32
  ⟨c0_i32_41, v63, c1_i32_43⟩
def k0_off13 (k0_t3 : Fin k0_t3_loop.trips) : Fin 2 → Nat :=
  let c0_i32_41 : BitVec 32 := 0#32
  let c1_i32_43 : BitVec 32 := 1#32
  let arg17 : BitVec 32 := Scf.iv c0_i32_41 c1_i32_43 k0_t3
  let v104 : Index := Scalar.indexCast arg17
  let c0 : Index := 0#32
  ![v104.toNat, 0]
def k0_off14 (k0_t3 : Fin k0_t3_loop.trips) : Fin 2 → Nat :=
  let c0_i32_41 : BitVec 32 := 0#32
  let c1_i32_43 : BitVec 32 := 1#32
  let arg17 : BitVec 32 := Scf.iv c0_i32_41 c1_i32_43 k0_t3
  let v113 : Index := Scalar.indexCast arg17
  let c112 : Index := 112#32
  ![v113.toNat, 112]
def k0_off15 (k0_t3 : Fin k0_t3_loop.trips) : Fin 2 → Nat :=
  let c0_i32_41 : BitVec 32 := 0#32
  let c1_i32_43 : BitVec 32 := 1#32
  let arg17 : BitVec 32 := Scf.iv c0_i32_41 c1_i32_43 k0_t3
  let v122 : Index := Scalar.indexCast arg17
  let c256 : Index := 256#32
  ![v122.toNat, 256]
def k0_off16 (k0_t3 : Fin k0_t3_loop.trips) : Fin 2 → Nat :=
  let c0_i32_41 : BitVec 32 := 0#32
  let c1_i32_43 : BitVec 32 := 1#32
  let arg17 : BitVec 32 := Scf.iv c0_i32_41 c1_i32_43 k0_t3
  let v131 : Index := Scalar.indexCast arg17
  let c320 : Index := 320#32
  ![v131.toNat, 320]
def k0_off17 (k0_t3 : Fin k0_t3_loop.trips) : Fin 2 → Nat :=
  let c0_i32_41 : BitVec 32 := 0#32
  let c1_i32_43 : BitVec 32 := 1#32
  let arg17 : BitVec 32 := Scf.iv c0_i32_41 c1_i32_43 k0_t3
  let v140 : Index := Scalar.indexCast arg17
  let c336 : Index := 336#32
  ![v140.toNat, 336]
def k0_off18 (k0_t3 : Fin k0_t3_loop.trips) : Fin 2 → Nat :=
  let c0_i32_41 : BitVec 32 := 0#32
  let c1_i32_43 : BitVec 32 := 1#32
  let arg17 : BitVec 32 := Scf.iv c0_i32_41 c1_i32_43 k0_t3
  let v149 : Index := Scalar.indexCast arg17
  let c368 : Index := 368#32
  ![v149.toNat, 368]
def k0_cond5 (k0_t1 : Fin k0_t1_loop.trips) : BitVec 1 :=
  let c0_i32_8 : BitVec 32 := 0#32
  let c1_i32 : BitVec 32 := 1#32
  let arg16 : BitVec 32 := Scf.iv c0_i32_8 c1_i32 k0_t1
  let c4_i32_48 : BitVec 32 := 4#32
  let v68 : BitVec 32 := Scalar.muli arg16 c4_i32_48
  let c2_i32_49 : BitVec 32 := 2#32
  let v69 : BitVec 32 := Scalar.addi v68 c2_i32_49
  let c2_i32_50 : BitVec 32 := 2#32
  let v70 : BitVec 1 := Scalar.cmpi .sge v69 c2_i32_50
  let v71 : BitVec 32 := Scalar.extui v70
  let c0_i32_51 : BitVec 32 := 0#32
  let v72 : BitVec 1 := Scalar.cmpi .ne v71 c0_i32_51
  v72

def k0_off19 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_8 : BitVec 32 := 0#32
  let c1_i32 : BitVec 32 := 1#32
  let arg16 : BitVec 32 := Scf.iv c0_i32_8 c1_i32 k0_t1
  let c4_i32_48 : BitVec 32 := 4#32
  let v68 : BitVec 32 := Scalar.muli arg16 c4_i32_48
  let c2_i32_49 : BitVec 32 := 2#32
  let v69 : BitVec 32 := Scalar.addi v68 c2_i32_49
  let c2_i32_83 : BitVec 32 := 2#32
  let v104 : BitVec 32 := Scalar.subi v69 c2_i32_83
  let c32_i32_84 : BitVec 32 := 32#32
  let v105 : BitVec 32 := Scalar.muli v104 c32_i32_84
  let v106 : BitVec 32 := Scalar.addi v2 v105
  let c0_i32_85 : BitVec 32 := 0#32
  ![v106.toNat, 0]
def k0_cond6 (k0_t1 : Fin k0_t1_loop.trips) : BitVec 1 :=
  let c0_i32_8 : BitVec 32 := 0#32
  let c1_i32 : BitVec 32 := 1#32
  let arg16 : BitVec 32 := Scf.iv c0_i32_8 c1_i32 k0_t1
  let c4_i32_48 : BitVec 32 := 4#32
  let v68 : BitVec 32 := Scalar.muli arg16 c4_i32_48
  let c2_i32_49 : BitVec 32 := 2#32
  let v69 : BitVec 32 := Scalar.addi v68 c2_i32_49
  let c2_i32_52 : BitVec 32 := 2#32
  let v73 : BitVec 32 := Scalar.addi v69 c2_i32_52
  let c64_i32_53 : BitVec 32 := 64#32
  let v74 : BitVec 1 := Scalar.cmpi .slt v73 c64_i32_53
  let v75 : BitVec 32 := Scalar.extui v74
  let c0_i32_54 : BitVec 32 := 0#32
  let v76 : BitVec 1 := Scalar.cmpi .ne v75 c0_i32_54
  v76

def k0_off20 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_8 : BitVec 32 := 0#32
  let c1_i32 : BitVec 32 := 1#32
  let arg16 : BitVec 32 := Scf.iv c0_i32_8 c1_i32 k0_t1
  let c4_i32_48 : BitVec 32 := 4#32
  let v68 : BitVec 32 := Scalar.muli arg16 c4_i32_48
  let c2_i32_49 : BitVec 32 := 2#32
  let v69 : BitVec 32 := Scalar.addi v68 c2_i32_49
  let c2_i32_83 : BitVec 32 := 2#32
  let v104 : BitVec 32 := Scalar.addi v69 c2_i32_83
  let c32_i32_84 : BitVec 32 := 32#32
  let v105 : BitVec 32 := Scalar.muli v104 c32_i32_84
  let v106 : BitVec 32 := Scalar.addi v2 v105
  let c0_i32_85 : BitVec 32 := 0#32
  ![v106.toNat, 0]
@[reducible] def k0_t4_loop : Scf.Loop 32 :=
  let c0_i32_59 : BitVec 32 := 0#32
  let c32_i32_60 : BitVec 32 := 32#32
  let v81 : BitVec 32 := Scalar.addi c0_i32_59 c32_i32_60
  let c1_i32_61 : BitVec 32 := 1#32
  ⟨c0_i32_59, v81, c1_i32_61⟩
def k0_off21 (k0_t4 : Fin k0_t4_loop.trips) : Fin 2 → Nat :=
  let c0_i32_59 : BitVec 32 := 0#32
  let c1_i32_61 : BitVec 32 := 1#32
  let arg17 : BitVec 32 := Scf.iv c0_i32_59 c1_i32_61 k0_t4
  let v104 : Index := Scalar.indexCast arg17
  let c0 : Index := 0#32
  ![v104.toNat, 0]
def k0_off22 (k0_t4 : Fin k0_t4_loop.trips) : Fin 2 → Nat :=
  let c0_i32_59 : BitVec 32 := 0#32
  let c1_i32_61 : BitVec 32 := 1#32
  let arg17 : BitVec 32 := Scf.iv c0_i32_59 c1_i32_61 k0_t4
  let v113 : Index := Scalar.indexCast arg17
  let c112 : Index := 112#32
  ![v113.toNat, 112]
def k0_off23 (k0_t4 : Fin k0_t4_loop.trips) : Fin 2 → Nat :=
  let c0_i32_59 : BitVec 32 := 0#32
  let c1_i32_61 : BitVec 32 := 1#32
  let arg17 : BitVec 32 := Scf.iv c0_i32_59 c1_i32_61 k0_t4
  let v122 : Index := Scalar.indexCast arg17
  let c256 : Index := 256#32
  ![v122.toNat, 256]
def k0_off24 (k0_t4 : Fin k0_t4_loop.trips) : Fin 2 → Nat :=
  let c0_i32_59 : BitVec 32 := 0#32
  let c1_i32_61 : BitVec 32 := 1#32
  let arg17 : BitVec 32 := Scf.iv c0_i32_59 c1_i32_61 k0_t4
  let v131 : Index := Scalar.indexCast arg17
  let c320 : Index := 320#32
  ![v131.toNat, 320]
def k0_off25 (k0_t4 : Fin k0_t4_loop.trips) : Fin 2 → Nat :=
  let c0_i32_59 : BitVec 32 := 0#32
  let c1_i32_61 : BitVec 32 := 1#32
  let arg17 : BitVec 32 := Scf.iv c0_i32_59 c1_i32_61 k0_t4
  let v140 : Index := Scalar.indexCast arg17
  let c336 : Index := 336#32
  ![v140.toNat, 336]
def k0_off26 (k0_t4 : Fin k0_t4_loop.trips) : Fin 2 → Nat :=
  let c0_i32_59 : BitVec 32 := 0#32
  let c1_i32_61 : BitVec 32 := 1#32
  let arg17 : BitVec 32 := Scf.iv c0_i32_59 c1_i32_61 k0_t4
  let v149 : Index := Scalar.indexCast arg17
  let c368 : Index := 368#32
  ![v149.toNat, 368]
def k0_cond7 (k0_t1 : Fin k0_t1_loop.trips) : BitVec 1 :=
  let c0_i32_8 : BitVec 32 := 0#32
  let c1_i32 : BitVec 32 := 1#32
  let arg16 : BitVec 32 := Scf.iv c0_i32_8 c1_i32 k0_t1
  let c4_i32_66 : BitVec 32 := 4#32
  let v86 : BitVec 32 := Scalar.muli arg16 c4_i32_66
  let c3_i32 : BitVec 32 := 3#32
  let v87 : BitVec 32 := Scalar.addi v86 c3_i32
  let c2_i32_67 : BitVec 32 := 2#32
  let v88 : BitVec 1 := Scalar.cmpi .sge v87 c2_i32_67
  let v89 : BitVec 32 := Scalar.extui v88
  let c0_i32_68 : BitVec 32 := 0#32
  let v90 : BitVec 1 := Scalar.cmpi .ne v89 c0_i32_68
  v90

def k0_off27 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_8 : BitVec 32 := 0#32
  let c1_i32 : BitVec 32 := 1#32
  let arg16 : BitVec 32 := Scf.iv c0_i32_8 c1_i32 k0_t1
  let c4_i32_66 : BitVec 32 := 4#32
  let v86 : BitVec 32 := Scalar.muli arg16 c4_i32_66
  let c3_i32 : BitVec 32 := 3#32
  let v87 : BitVec 32 := Scalar.addi v86 c3_i32
  let c2_i32_83 : BitVec 32 := 2#32
  let v104 : BitVec 32 := Scalar.subi v87 c2_i32_83
  let c32_i32_84 : BitVec 32 := 32#32
  let v105 : BitVec 32 := Scalar.muli v104 c32_i32_84
  let v106 : BitVec 32 := Scalar.addi v2 v105
  let c0_i32_85 : BitVec 32 := 0#32
  ![v106.toNat, 0]
def k0_cond8 (k0_t1 : Fin k0_t1_loop.trips) : BitVec 1 :=
  let c0_i32_8 : BitVec 32 := 0#32
  let c1_i32 : BitVec 32 := 1#32
  let arg16 : BitVec 32 := Scf.iv c0_i32_8 c1_i32 k0_t1
  let c4_i32_66 : BitVec 32 := 4#32
  let v86 : BitVec 32 := Scalar.muli arg16 c4_i32_66
  let c3_i32 : BitVec 32 := 3#32
  let v87 : BitVec 32 := Scalar.addi v86 c3_i32
  let c2_i32_69 : BitVec 32 := 2#32
  let v91 : BitVec 32 := Scalar.addi v87 c2_i32_69
  let c64_i32_70 : BitVec 32 := 64#32
  let v92 : BitVec 1 := Scalar.cmpi .slt v91 c64_i32_70
  let v93 : BitVec 32 := Scalar.extui v92
  let c0_i32_71 : BitVec 32 := 0#32
  let v94 : BitVec 1 := Scalar.cmpi .ne v93 c0_i32_71
  v94

def k0_off28 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_8 : BitVec 32 := 0#32
  let c1_i32 : BitVec 32 := 1#32
  let arg16 : BitVec 32 := Scf.iv c0_i32_8 c1_i32 k0_t1
  let c4_i32_66 : BitVec 32 := 4#32
  let v86 : BitVec 32 := Scalar.muli arg16 c4_i32_66
  let c3_i32 : BitVec 32 := 3#32
  let v87 : BitVec 32 := Scalar.addi v86 c3_i32
  let c2_i32_83 : BitVec 32 := 2#32
  let v104 : BitVec 32 := Scalar.addi v87 c2_i32_83
  let c32_i32_84 : BitVec 32 := 32#32
  let v105 : BitVec 32 := Scalar.muli v104 c32_i32_84
  let v106 : BitVec 32 := Scalar.addi v2 v105
  let c0_i32_85 : BitVec 32 := 0#32
  ![v106.toNat, 0]
@[reducible] def k0_t5_loop : Scf.Loop 32 :=
  let c0_i32_76 : BitVec 32 := 0#32
  let c32_i32_77 : BitVec 32 := 32#32
  let v99 : BitVec 32 := Scalar.addi c0_i32_76 c32_i32_77
  let c1_i32_78 : BitVec 32 := 1#32
  ⟨c0_i32_76, v99, c1_i32_78⟩
def k0_off29 (k0_t5 : Fin k0_t5_loop.trips) : Fin 2 → Nat :=
  let c0_i32_76 : BitVec 32 := 0#32
  let c1_i32_78 : BitVec 32 := 1#32
  let arg17 : BitVec 32 := Scf.iv c0_i32_76 c1_i32_78 k0_t5
  let v104 : Index := Scalar.indexCast arg17
  let c0 : Index := 0#32
  ![v104.toNat, 0]
def k0_off30 (k0_t5 : Fin k0_t5_loop.trips) : Fin 2 → Nat :=
  let c0_i32_76 : BitVec 32 := 0#32
  let c1_i32_78 : BitVec 32 := 1#32
  let arg17 : BitVec 32 := Scf.iv c0_i32_76 c1_i32_78 k0_t5
  let v113 : Index := Scalar.indexCast arg17
  let c112 : Index := 112#32
  ![v113.toNat, 112]
def k0_off31 (k0_t5 : Fin k0_t5_loop.trips) : Fin 2 → Nat :=
  let c0_i32_76 : BitVec 32 := 0#32
  let c1_i32_78 : BitVec 32 := 1#32
  let arg17 : BitVec 32 := Scf.iv c0_i32_76 c1_i32_78 k0_t5
  let v122 : Index := Scalar.indexCast arg17
  let c256 : Index := 256#32
  ![v122.toNat, 256]
def k0_off32 (k0_t5 : Fin k0_t5_loop.trips) : Fin 2 → Nat :=
  let c0_i32_76 : BitVec 32 := 0#32
  let c1_i32_78 : BitVec 32 := 1#32
  let arg17 : BitVec 32 := Scf.iv c0_i32_76 c1_i32_78 k0_t5
  let v131 : Index := Scalar.indexCast arg17
  let c320 : Index := 320#32
  ![v131.toNat, 320]
def k0_off33 (k0_t5 : Fin k0_t5_loop.trips) : Fin 2 → Nat :=
  let c0_i32_76 : BitVec 32 := 0#32
  let c1_i32_78 : BitVec 32 := 1#32
  let arg17 : BitVec 32 := Scf.iv c0_i32_76 c1_i32_78 k0_t5
  let v140 : Index := Scalar.indexCast arg17
  let c336 : Index := 336#32
  ![v140.toNat, 336]
def k0_off34 (k0_t5 : Fin k0_t5_loop.trips) : Fin 2 → Nat :=
  let c0_i32_76 : BitVec 32 := 0#32
  let c1_i32_78 : BitVec 32 := 1#32
  let arg17 : BitVec 32 := Scf.iv c0_i32_76 c1_i32_78 k0_t5
  let v149 : Index := Scalar.indexCast arg17
  let c368 : Index := 368#32
  ![v149.toNat, 368]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  iota_S16_d0_w32_scVector : S16.Iotas .scVector 32 [0]
  h_S1x16 : 0 < S1x16.numel
  shapeCasts_S1x16_S16 : S1x16.ShapeCasts S16
  shapeCasts_S16_S1x16 : S16.ShapeCasts S1x16
  hcc0_scratch4 : 0 + S_.numel ≤ 8
  hcc0_scratch5 : 1 + S_.numel ≤ 8
  hcc0_scratch6 : 2 + S_.numel ≤ 8
  hcc0_scratch7 : 3 + S_.numel ≤ 8
  hcc0_scratch8 : 4 + S_.numel ≤ 8
  hcc0_scratch9 : 5 + S_.numel ≤ 8
  hcc0_scratch10 : 6 + S_.numel ≤ 8
  hcc0_scratch11 : 7 + S_.numel ≤ 8
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 4), ∀ a, (k0_off1 i (k0_off1_at r)) a + S32x512.size a ≤ S65536x512.size a
  k0_t1_ok : k0_t1_loop.OK
  k0_off2_inb : ∀ (i : grid0.Coords) (k0_t1 : Fin k0_t1_loop.trips), ∀ (k0_h1 : k0_cond1 k0_t1 = 1#1), ∀ a, (k0_off2 i k0_t1) a + S32x512.size a ≤ S65536x512.size a
  k0_off3_inb : ∀ (i : grid0.Coords) (k0_t1 : Fin k0_t1_loop.trips), ∀ (k0_h2 : k0_cond2 k0_t1 = 1#1), ∀ a, (k0_off3 i k0_t1) a + S32x512.size a ≤ S65536x512.size a
  k0_off4_inb : ∀ (i : grid0.Coords) (k0_t1 : Fin k0_t1_loop.trips), ∀ (r : Fin 4), ∀ a, (k0_off4 i k0_t1 (BitVec.ofNat 32 r.val)) a + S32x512.size a ≤ S65536x512.size a
  k0_t2_ok : k0_t2_loop.OK
  k0_off5_inb : ∀ k0_t2 : Fin k0_t2_loop.trips, ∀ a, (k0_off5 k0_t2) a + S1x16.size a ≤ S32x512.size a
  k0_off6_inb : ∀ k0_t2 : Fin k0_t2_loop.trips, ∀ a, (k0_off6 k0_t2) a + S1x16.size a ≤ S32x512.size a
  k0_off7_inb : ∀ k0_t2 : Fin k0_t2_loop.trips, ∀ a, (k0_off7 k0_t2) a + S1x16.size a ≤ S32x512.size a
  k0_off8_inb : ∀ k0_t2 : Fin k0_t2_loop.trips, ∀ a, (k0_off8 k0_t2) a + S1x16.size a ≤ S32x512.size a
  k0_off9_inb : ∀ k0_t2 : Fin k0_t2_loop.trips, ∀ a, (k0_off9 k0_t2) a + S1x16.size a ≤ S32x512.size a
  k0_off10_inb : ∀ k0_t2 : Fin k0_t2_loop.trips, ∀ a, (k0_off10 k0_t2) a + S1x16.size a ≤ S32x512.size a
  k0_off11_inb : ∀ (i : grid0.Coords) (k0_t1 : Fin k0_t1_loop.trips), ∀ (k0_h3 : k0_cond3 k0_t1 = 1#1), ∀ a, (k0_off11 i k0_t1) a + S32x512.size a ≤ S65536x512.size a
  k0_off12_inb : ∀ (i : grid0.Coords) (k0_t1 : Fin k0_t1_loop.trips), ∀ (k0_h4 : k0_cond4 k0_t1 = 1#1), ∀ a, (k0_off12 i k0_t1) a + S32x512.size a ≤ S65536x512.size a
  k0_t3_ok : k0_t3_loop.OK
  k0_off13_inb : ∀ k0_t3 : Fin k0_t3_loop.trips, ∀ a, (k0_off13 k0_t3) a + S1x16.size a ≤ S32x512.size a
  k0_off14_inb : ∀ k0_t3 : Fin k0_t3_loop.trips, ∀ a, (k0_off14 k0_t3) a + S1x16.size a ≤ S32x512.size a
  k0_off15_inb : ∀ k0_t3 : Fin k0_t3_loop.trips, ∀ a, (k0_off15 k0_t3) a + S1x16.size a ≤ S32x512.size a
  k0_off16_inb : ∀ k0_t3 : Fin k0_t3_loop.trips, ∀ a, (k0_off16 k0_t3) a + S1x16.size a ≤ S32x512.size a
  k0_off17_inb : ∀ k0_t3 : Fin k0_t3_loop.trips, ∀ a, (k0_off17 k0_t3) a + S1x16.size a ≤ S32x512.size a
  k0_off18_inb : ∀ k0_t3 : Fin k0_t3_loop.trips, ∀ a, (k0_off18 k0_t3) a + S1x16.size a ≤ S32x512.size a
  k0_off19_inb : ∀ (i : grid0.Coords) (k0_t1 : Fin k0_t1_loop.trips), ∀ (k0_h5 : k0_cond5 k0_t1 = 1#1), ∀ a, (k0_off19 i k0_t1) a + S32x512.size a ≤ S65536x512.size a
  k0_off20_inb : ∀ (i : grid0.Coords) (k0_t1 : Fin k0_t1_loop.trips), ∀ (k0_h6 : k0_cond6 k0_t1 = 1#1), ∀ a, (k0_off20 i k0_t1) a + S32x512.size a ≤ S65536x512.size a
  k0_t4_ok : k0_t4_loop.OK
  k0_off21_inb : ∀ k0_t4 : Fin k0_t4_loop.trips, ∀ a, (k0_off21 k0_t4) a + S1x16.size a ≤ S32x512.size a
  k0_off22_inb : ∀ k0_t4 : Fin k0_t4_loop.trips, ∀ a, (k0_off22 k0_t4) a + S1x16.size a ≤ S32x512.size a
  k0_off23_inb : ∀ k0_t4 : Fin k0_t4_loop.trips, ∀ a, (k0_off23 k0_t4) a + S1x16.size a ≤ S32x512.size a
  k0_off24_inb : ∀ k0_t4 : Fin k0_t4_loop.trips, ∀ a, (k0_off24 k0_t4) a + S1x16.size a ≤ S32x512.size a
  k0_off25_inb : ∀ k0_t4 : Fin k0_t4_loop.trips, ∀ a, (k0_off25 k0_t4) a + S1x16.size a ≤ S32x512.size a
  k0_off26_inb : ∀ k0_t4 : Fin k0_t4_loop.trips, ∀ a, (k0_off26 k0_t4) a + S1x16.size a ≤ S32x512.size a
  k0_off27_inb : ∀ (i : grid0.Coords) (k0_t1 : Fin k0_t1_loop.trips), ∀ (k0_h7 : k0_cond7 k0_t1 = 1#1), ∀ a, (k0_off27 i k0_t1) a + S32x512.size a ≤ S65536x512.size a
  k0_off28_inb : ∀ (i : grid0.Coords) (k0_t1 : Fin k0_t1_loop.trips), ∀ (k0_h8 : k0_cond8 k0_t1 = 1#1), ∀ a, (k0_off28 i k0_t1) a + S32x512.size a ≤ S65536x512.size a
  k0_t5_ok : k0_t5_loop.OK
  k0_off29_inb : ∀ k0_t5 : Fin k0_t5_loop.trips, ∀ a, (k0_off29 k0_t5) a + S1x16.size a ≤ S32x512.size a
  k0_off30_inb : ∀ k0_t5 : Fin k0_t5_loop.trips, ∀ a, (k0_off30 k0_t5) a + S1x16.size a ≤ S32x512.size a
  k0_off31_inb : ∀ k0_t5 : Fin k0_t5_loop.trips, ∀ a, (k0_off31 k0_t5) a + S1x16.size a ≤ S32x512.size a
  k0_off32_inb : ∀ k0_t5 : Fin k0_t5_loop.trips, ∀ a, (k0_off32 k0_t5) a + S1x16.size a ≤ S32x512.size a
  k0_off33_inb : ∀ k0_t5 : Fin k0_t5_loop.trips, ∀ a, (k0_off33 k0_t5) a + S1x16.size a ≤ S32x512.size a
  k0_off34_inb : ∀ k0_t5 : Fin k0_t5_loop.trips, ∀ a, (k0_off34 k0_t5) a + S1x16.size a ≤ S32x512.size a

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7
abbrev cc0_scratch8 : DmaSems sig S_ := SemArray.consecutive 4 S_ hcc0_scratch8
abbrev cc0_scratch9 : DmaSems sig S_ := SemArray.consecutive 5 S_ hcc0_scratch9
abbrev cc0_scratch10 : DmaSems sig S_ := SemArray.consecutive 6 S_ hcc0_scratch10
abbrev cc0_scratch11 : DmaSems sig S_ := SemArray.consecutive 7 S_ hcc0_scratch11

class Facts : Prop extends Facts₀ where

variable [Facts]
-- ==== ReferenceIdeal.lean ====
abbrev S65536x512 : Shape := ⟨2, ![65536, 512]⟩
abbrev S7 : Shape := ⟨1, ![7]⟩
abbrev S_ : Shape := ⟨0, ![]⟩
abbrev S7x1 : Shape := ⟨2, ![7, 1]⟩
abbrev S65536x7 : Shape := ⟨2, ![65536, 7]⟩

abbrev nBuf : Space → Nat
  | .hbm => 13
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S7, .i32⟩
  | .hbm, ⟨2, _⟩ => ⟨S_, .i32⟩
  | .hbm, ⟨3, _⟩ => ⟨S7, .i32⟩
  | .hbm, ⟨4, _⟩ => ⟨S7, .i1⟩
  | .hbm, ⟨5, _⟩ => ⟨S_, .i32⟩
  | .hbm, ⟨6, _⟩ => ⟨S7, .i32⟩
  | .hbm, ⟨7, _⟩ => ⟨S7, .i32⟩
  | .hbm, ⟨8, _⟩ => ⟨S7, .i32⟩
  | .hbm, ⟨9, _⟩ => ⟨S7x1, .i32⟩
  | .hbm, ⟨10, _⟩ => ⟨S_, .f32⟩
  | .hbm, ⟨11, _⟩ => ⟨S65536x7, .f32⟩
  | .hbm, ⟨12, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_c_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S7 : S_.BroadcastsInDim S7 (![] : Fin 0 → Fin S7.rank)
  bcast_S7_S7x1_0 : S7.BroadcastsInDim S7x1 (![0] : Fin 1 → Fin S7x1.rank)
  bcast_S_S65536x7 : S_.BroadcastsInDim S65536x7 (![] : Fin 0 → Fin S65536x7.rank)
  scatter_S65536x512_S7x1_S65536x7_0_1_1_1_wf : ScatterDims.WF S65536x512 S7x1 S65536x7 [0] [1] [1] 1

variable [Facts₀]

def scatter_S65536x512_S7x1_S65536x7_0_1_1_1 : ScatterDims S65536x512 S7x1 S65536x7 where
  updateWindowDims := [0]
  insertedWindowDims := [1]
  scatterDimsToOperandDims := [1]
  indexVectorDim := 1
  wf := scatter_S65536x512_S7x1_S65536x7_0_1_1_1_wf

class Facts : Prop extends Facts₀ where

variable [Facts]
-- ==== Proof.Spec.lean ====
/-
  The specification both programs meet: a 65536 × 512 array with the seven disabled columns
  {8, 123, 264, 265, 326, 338, 379} overwritten by zero and every other element kept.
-/
import Idealize.ShloMosaic.PureOps

noncomputable section

namespace Cert.Proof.Spec

open Idealize.ShloMosaic

/-- The array's shape, 65536 rows of 512 columns. -/
abbrev SA : Shape := ⟨2, ![65536, 512]⟩
/-- A staging buffer's shape, 32 rows of 512 columns. -/
abbrev SB : Shape := ⟨2, ![32, 512]⟩

/-- The disabled columns. -/
def dis (c : ℕ) : Bool := c = 8 || c = 123 || c = 264 || c = 265 || c = 326 || c = 338 || c = 379

/-- The result as one function of the argument array: zero in the disabled columns, the argument elsewhere. -/
def spec {F : FTy → Type} [FloatOps F] (x : FVec F SA .f32) : FVec F SA .f32 :=
  fun i => if dis (i 1).val then Scalar.ofBits .f32 0x00000000#32 else x i

/-- A 32 × 512 chunk with the disabled columns zeroed in the rows below `k`. -/
def maskRows {F : FTy → Type} [FloatOps F] (k : ℕ) (f : FVec F SB .f32) : FVec F SB .f32 :=
  fun i => if (i 0).val < k ∧ dis (i 1).val then Scalar.ofBits .f32 0x00000000#32 else f i

theorem maskRows_zero {F : FTy → Type} [FloatOps F] (f : FVec F SB .f32) : maskRows 0 f = f := by
  funext i; simp [maskRows]

end Cert.Proof.Spec

end
-- ==== Proof.Eqns.lean ====
/-
  One home for the equation lemmas of definitions that both the idealized and the word-level proof unfold: the
  specification's own definitions (the disabled columns `dis`, the result `spec`, the two shapes; the partly zeroed
  chunk `maskRows` already has its in the specification's module), a part's extents along the split axis
  (`Shape.partSize`), and a body table's entry at a grid point's subcore (`SparseCore.onTile`). Each lemma says that the
  definition equals its right-hand side; stating them once, upstream of both proofs, gives each a single declaration.
-/
import proofs.«205590_g25494925869706_cont_9to1_307_11_alg».proof.Proof.Spec
import Idealize.ShloMosaic.Lib.SparseCore
import Idealize.ShloMosaic.Lib.StableHlo.Run

namespace Cert.Proof.Eqns

open Idealize.ShloMosaic

realize_equations_of proofs.«205590_g25494925869706_cont_9to1_307_11_alg».proof.Proof.Spec

theorem library_equations : True := by
  have := @Idealize.ShloMosaic.Shape.partSize.eq_1
  have := @Idealize.ShloMosaic.SparseCore.onTile.eq_1
  trivial

end Cert.Proof.Eqns
-- ==== Proof.KI.Common.lean ====
/-
  Shared vocabulary for the frame and value proof of the SparseCore kernel (idealized program): the launch theorem's
  view of the program, the resource algebra, the buffers as the body names them, the specification and the
  row-chunk geometry.

  The kernel: 32 vector subcores (2 SparseCores × 16), subcore (c, s) owning the 2048 rows starting at
  (2 s + c) · 2048 of a 65536 × 512 array, in 64 chunks of 32 rows.  Each chunk is copied into one of four
  VMEM buffers, the seven disabled columns {8, 123, 264, 265, 326, 338, 379} are overwritten by zero in every row
  of the buffer, and the buffer is copied out to the same rows of the result.
-/
import proofs.«205590_g25494925869706_cont_9to1_307_11_alg».proof.Defs
import Idealize.ShloMosaic.Lib.SparseCore.Launch
import Idealize.ShloMosaic.Lib.StableHlo.Run
import Idealize.ShloMosaic.Lib.Pipeline.Kit
import Idealize.ShloMosaic.Lib.Tactic
import proofs.«205590_g25494925869706_cont_9to1_307_11_alg».proof.Proof.Spec
import proofs.«205590_g25494925869706_cont_9to1_307_11_alg».proof.Proof.Eqns
import proofs.«205590_g25494925869706_cont_9to1_307_11_alg».proof.Proof.Gen.KernelIdeal
import proofs.«205590_g25494925869706_cont_9to1_307_11_alg».proof.Proof.Gen.KernelIdeal.Skeleton

noncomputable section

namespace Cert.Proof.KI

open Cert.KernelIdeal Cert.KernelIdeal.Gen
open Cert.Proof.Spec (dis spec maskRows)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds beside the transfers' counters -/

abbrev UH : Type := URounds (GSem nD τ sig) ℕ
abbrev UU : Type := UH × Counters

/-- The machine's algebra at this certificate's user algebra. -/
abbrev MM (F : FTy → Type) : Type := MT nD τ sig (HIx 1) (Elt F) ℕ UU ℕ

abbrev EH : Emb UH (MM F) := embL

/-! ## The arrays and the scratch, as the body table passes them -/

abbrev imgV : Memref sig .scVector .hbm S65536x512 .f32 := Memref.whole main_arg0_scv
abbrev outV : Memref sig .scVector .hbm S65536x512 .f32 := Memref.whole main_v0_scv
abbrev b0 : Memref sig .scVector .vmem S32x512 .f32 := Memref.whole cc0_scratch0
abbrev b1 : Memref sig .scVector .vmem S32x512 .f32 := Memref.whole cc0_scratch1
abbrev b2 : Memref sig .scVector .vmem S32x512 .f32 := Memref.whole cc0_scratch2
abbrev b3 : Memref sig .scVector .vmem S32x512 .f32 := Memref.whole cc0_scratch3

abbrev iLoc (d : Dev nD) : Loc nD τ sig := (SparseCore.T d).loc main_arg0
abbrev oLoc (d : Dev nD) : Loc nD τ sig := (SparseCore.T d).loc main_v0

/-- A grid point's SparseCore and vector subcore. -/
abbrev cV (L : grid0.Coords) : Fin τ.nSC := (L 0).castLE hcore0
abbrev jV (L : grid0.Coords) : Fin τ.nSub := (L 1).castLE hsub0
/-- The thread of grid point `L` on device `d`. -/
abbrev thrV (d : Dev nD) (L : grid0.Coords) : Thread nD τ := V d (cV L) (jV L)

def coordsV (c : Fin (grid0.bound 0)) (s : Fin (grid0.bound 1)) : grid0.Coords :=
  fun | 0 => c | 1 => s | ⟨_ + 2, h⟩ => absurd h (Nat.not_lt.2 (Nat.le_add_left _ _))

/-! ## The geometry: 2048 chunks of 32 rows -/

theorem hdiv : 2048 ∣ S65536x512.size 0 := ⟨32, rfl⟩
/-- Chunk `n`: rows `[32 n, 32 n + 32)`, every column. -/
abbrev chunk (n : Fin 2048) : Rect S65536x512 := Rect.part (s := S65536x512) (a₀ := 0) hdiv n
abbrev chunkSet (n : Fin 2048) : Finset S65536x512.Idx := ((imgV : Memref sig .scVector .hbm S65536x512 .f32).view.slice (chunk n)).set

/-- The number of chunk `ci` (read modulo 64) of grid point `L`: `(2 · L 1 + L 0) · 64 + ci`. -/
def chunkNo (L : grid0.Coords) (ci : ℕ) : Fin 2048 :=
  ⟨(2 * (L 1).val + (L 0).val) * 64 + ci % 64, by
    have h0 : (L 0).val < 2 := (L 0).isLt
    have h1 : (L 1).val < 16 := (L 1).isLt
    have h2 : ci % 64 < 64 := Nat.mod_lt _ (by decide)
    omega⟩

/-! ## What a task is handed and what it hands back -/

section Res
variable [FloatOps F] (m : (ℓ : Loc nD τ sig) → Buf (Elt F) ℓ) (d : Dev nD) (L : grid0.Coords)

/-- Chunk `ci` of grid point `L`'s rows of the argument array, at its launch contents. -/
abbrev imgChunk (ci : ℕ) : sProp (MM F) := iLoc d ↦[chunkSet (chunkNo L ci)]{fullShare} m (iLoc d)
/-- Chunk `ci` of grid point `L`'s rows of the result array, at contents `f`. -/
abbrev outChunk (f : Buf (Elt F) (oLoc d)) (ci : ℕ) : sProp (MM F) := oLoc d ↦[chunkSet (chunkNo L ci)]{fullShare} f

/-- The result array's final contents: the specification of the argument's launch contents. -/
abbrev outFinal : Buf (Elt F) (oLoc d) := (spec (F := F) (m (iLoc d)) : FVec F S65536x512 .f32)

/-- What grid point `L`'s task is handed: its 64 chunks of the argument and of the result, the result's at their
    launch contents. -/
def goRes : sProp (MM F) :=
  iprop((bigSep (Finset.range 64) fun ci => imgChunk m d L ci) ∗ (bigSep (Finset.range 64) fun ci => outChunk d L (m (oLoc d)) ci))
/-- What it hands back: the same chunks, the result's at the specification. -/
def tdRes : sProp (MM F) :=
  iprop((bigSep (Finset.range 64) fun ci => imgChunk m d L ci) ∗ (bigSep (Finset.range 64) fun ci => outChunk d L (outFinal m d) ci))

end Res

end Cert.Proof.KI

end
-- ==== Proof.KI.Own.lean ====
/-
  A vector subcore's own scoped storage, opened: its eight DMA semaphore cells at zero and its four staging buffers at
  some contents, beside the rest.
-/
import proofs.«205590_g25494925869706_cont_9to1_307_11_alg».proof.Proof.KI.Common

noncomputable section

namespace Cert.Proof.KI

open Cert.KernelIdeal Cert.KernelIdeal.Gen
open Cert.Proof.Spec (dis spec maskRows)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (d : Dev nD) (L : grid0.Coords)

/-- The subcore's cell of DMA semaphore `s`. -/
abbrev cellOf (s : DmaSems sig S_) : GSem nD τ sig := (thrV d L, .dma s.sem)

/-- The subcore's own cells but the eight the body uses. -/
def semRest : Finset (GSem nD τ sig) :=
  (((((((((ownCells (thrV d L)).erase (cellOf d L cc0_scratch4)).erase (cellOf d L cc0_scratch5)).erase (cellOf d L cc0_scratch6)).erase (cellOf d L cc0_scratch7)).erase (cellOf d L cc0_scratch8)).erase (cellOf d L cc0_scratch9)).erase (cellOf d L cc0_scratch10)).erase (cellOf d L cc0_scratch11))

theorem sem_scoped (s : DmaSems sig S_) (h : (SemLoc.dma s.sem : SemLoc sig).isScoped .scVector = true) :
    cellOf d L s ∈ ownCells (thrV d L) := (mem_ownCells (g := cellOf d L s)).mpr ⟨rfl, h⟩

theorem cell_ne {s s' : DmaSems sig S_} (h : s.sem ≠ s'.sem) : cellOf d L s ≠ cellOf d L s' :=
  fun e => h (by have := (Prod.mk.inj e).2; exact SemLoc.dma.inj this)

omit [FloatOps F] in
theorem ownSems0_V :
    (ownSems0 (thrV d L) : sProp (MM F))
      = iprop(semVal (cellOf d L cc0_scratch4) 0 ∗ semVal (cellOf d L cc0_scratch5) 0 ∗ semVal (cellOf d L cc0_scratch6) 0 ∗ semVal (cellOf d L cc0_scratch7) 0 ∗ semVal (cellOf d L cc0_scratch8) 0 ∗ semVal (cellOf d L cc0_scratch9) 0 ∗ semVal (cellOf d L cc0_scratch10) 0 ∗ semVal (cellOf d L cc0_scratch11) 0
          ∗ bigSep (semRest d L) fun g => semVal g 0) := by
  unfold SparseCore.Cfg.ownSems0 semRest
  rw [SparseCore.bigSep_erase' (sem_scoped d L cc0_scratch4 (by decide)),
    SparseCore.bigSep_erase' (Finset.mem_erase.mpr ⟨cell_ne d L (by decide), sem_scoped d L cc0_scratch5 (by decide)⟩),
    SparseCore.bigSep_erase' (Finset.mem_erase.mpr ⟨cell_ne d L (by decide), Finset.mem_erase.mpr ⟨cell_ne d L (by decide), sem_scoped d L cc0_scratch6 (by decide)⟩⟩),
    SparseCore.bigSep_erase' (Finset.mem_erase.mpr ⟨cell_ne d L (by decide), Finset.mem_erase.mpr ⟨cell_ne d L (by decide), Finset.mem_erase.mpr ⟨cell_ne d L (by decide), sem_scoped d L cc0_scratch7 (by decide)⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), sem_scoped d L cc0_scratch8 (by decide)⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), sem_scoped d L cc0_scratch9 (by decide)⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), sem_scoped d L cc0_scratch10 (by decide)⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), sem_scoped d L cc0_scratch11 (by decide)⟩⟩⟩⟩⟩⟩⟩)]

/-- The subcore's own buffers but the four staging buffers. -/
def bufRest : Finset (DevRef τ sig) :=
  (((((ownRefs (τ := τ) (sig := sig) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3))

omit [FloatOps F] in
theorem ownBufs_V :
    (ownBufs (thrV d L) : sProp (MM F))
      = iprop((∃ f, (thrV d L).loc cc0_scratch0 ↦{fullShare} f) ∗ (∃ f, (thrV d L).loc cc0_scratch1 ↦{fullShare} f) ∗ (∃ f, (thrV d L).loc cc0_scratch2 ↦{fullShare} f) ∗ (∃ f, (thrV d L).loc cc0_scratch3 ↦{fullShare} f)
          ∗ bigSep (bufRest L) fun b => iprop(∃ f, ((d, b) : Loc nD τ sig) ↦{fullShare} f)) := by
  unfold SparseCore.Cfg.ownBufs bufRest
  rw [SparseCore.bigSep_erase' (SparseCore.Cfg.mem_ownRefs_of_owner (p := Proc.scVector (cV L) (jV L)) (b := (Proc.scVector (cV L) (jV L)).devRef cc0_scratch0) rfl),
    SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩)]

end Cert.Proof.KI

end
-- ==== Proof.KI.Geom.lean ====
/-
  The geometry of the body's transfers: every row-chunk slice the body names is one of the 2048 chunks, and the
  conditions around the transfers of a group as statements about the group's number.
-/
import proofs.«205590_g25494925869706_cont_9to1_307_11_alg».proof.Proof.KI.Common

noncomputable section

namespace Cert.Proof.KI

open Cert.KernelIdeal Cert.KernelIdeal.Gen
open Cert.Proof.Spec (dis spec maskRows)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## Slices of the two arrays are chunks -/

theorem chunkSet_eq (n : Fin 2048) : chunkSet n = (chunk n).set := by
  show ((View.whole (main_arg0_scv : Ref sig .scVector)).slice (chunk n)).set = _
  rw [View.set_slice]; exact Finset.map_refl

/-- A unit rectangle of 32 rows from row `32 n`, all columns, is chunk `n`. -/
theorem unit_eq_chunk (off : Fin 2 → ℕ) (inb : ∀ a, off a + S32x512.size a ≤ S65536x512.size a) (n : Fin 2048)
    (h : off = ![32 * n.val, 0]) :
    Rect.unit (s := S65536x512) off S32x512.size inb = chunk n := by
  subst h
  unfold chunk Rect.part Rect.block
  congr 1 <;> funext a
  · match a with
    | 0 => simp [Shape.partIx, Shape.partSize]; omega
    | 1 => simp [Shape.partIx, Shape.partSize]
  · match a with
    | 0 => simp [Shape.partSize]
    | 1 => simp [Shape.partSize]

theorem set_img_slice (off : Fin 2 → ℕ) (inb : ∀ a, off a + S32x512.size a ≤ S65536x512.size a) (n : Fin 2048)
    (h : off = ![32 * n.val, 0]) :
    ((imgV : Memref sig .scVector .hbm S65536x512 .f32).slice (Rect.unit (s := S65536x512) off S32x512.size inb) (fun _ => rfl)).view.set = chunkSet n := by
  refine (View.set_slice_whole (main_arg0_scv : Ref sig .scVector) _).trans ?_
  exact (congrArg (fun r : Rect S65536x512 => r.set) (unit_eq_chunk off inb n h)).trans (chunkSet_eq n).symm

theorem set_out_slice (off : Fin 2 → ℕ) (inb : ∀ a, off a + S32x512.size a ≤ S65536x512.size a) (n : Fin 2048)
    (h : off = ![32 * n.val, 0]) :
    ((outV : Memref sig .scVector .hbm S65536x512 .f32).slice (Rect.unit (s := S65536x512) off S32x512.size inb) (fun _ => rfl)).view.set = chunkSet n := by
  refine (View.set_slice_whole (main_v0_scv : Ref sig .scVector) _).trans ?_
  exact (congrArg (fun r : Rect S65536x512 => r.set) (unit_eq_chunk off inb n h)).trans (chunkSet_eq n).symm

/-! ## The offsets the generated closed forms do not cover -/

theorem k0_off1_eq0 : ∀ i : grid0.Coords, k0_off1 i 0#32 = ![4096 * (i 1).val + 2048 * (i 0).val, 0] := by decide +kernel
theorem k0_off1_eq32 : ∀ i : grid0.Coords, k0_off1 i 32#32 = ![4096 * (i 1).val + 2048 * (i 0).val + 32, 0] := by decide +kernel

/-- Row `32 · chunkNo L ci` in the generated closed forms' spelling. -/
theorem chunkNo_row (L : grid0.Coords) (ci : ℕ) (h : ci < 64) :
    32 * (chunkNo L ci).val = 4096 * (L 1).val + 2048 * (L 0).val + 32 * ci := by
  show 32 * ((2 * (L 1).val + (L 0).val) * 64 + ci % 64) = _
  rw [Nat.mod_eq_of_lt h]; ring

/-- A 32-row unit rectangle at the row of chunk `ci` of grid point `L` covers that chunk. -/
theorem chunkSet_of_off (L : grid0.Coords) (ci : ℕ) (h : ci < 64) (off : Fin 2 → ℕ) (inb : ∀ a, off a + S32x512.size a ≤ S65536x512.size a)
    (hoff : off = ![4096 * (L 1).val + 2048 * (L 0).val + 32 * ci, 0]) :
    chunkSet (chunkNo L ci) = (Rect.unit (s := S65536x512) off S32x512.size inb).set :=
  (chunkSet_eq _).trans (congrArg (fun r : Rect S65536x512 => r.set) (unit_eq_chunk off inb (chunkNo L ci) (by rw [hoff, chunkNo_row L ci h])).symm)

/-- Two offset vectors with equal first components. -/
theorem off_congr {x y : ℕ} (h : x = y) : (![x, 0] : Fin 2 → ℕ) = ![y, 0] := by rw [h]

/-! ## The conditions, by the group's number -/

theorem cond1_iff : ∀ g : Fin k0_t1_loop.trips, k0_cond1 g = 1#1 ↔ 1 ≤ g.val := by decide +kernel
theorem cond2_all : ∀ g : Fin k0_t1_loop.trips, k0_cond2 g = 1#1 := by decide +kernel
theorem cond3_iff : ∀ g : Fin k0_t1_loop.trips, k0_cond3 g = 1#1 ↔ 1 ≤ g.val := by decide +kernel
theorem cond4_all : ∀ g : Fin k0_t1_loop.trips, k0_cond4 g = 1#1 := by decide +kernel
theorem cond5_all : ∀ g : Fin k0_t1_loop.trips, k0_cond5 g = 1#1 := by decide +kernel
theorem cond6_iff : ∀ g : Fin k0_t1_loop.trips, k0_cond6 g = 1#1 ↔ g.val < 15 := by decide +kernel
theorem cond7_all : ∀ g : Fin k0_t1_loop.trips, k0_cond7 g = 1#1 := by decide +kernel
theorem cond8_iff : ∀ g : Fin k0_t1_loop.trips, k0_cond8 g = 1#1 ↔ g.val < 15 := by decide +kernel
theorem trips_eq : k0_t1_loop.trips = 16 := by decide

end Cert.Proof.KI

end
-- ==== Proof.KI.Inv.lean ====
/-
  The group loop's invariant.  Before group `g` (chunks 4g … 4g+3 of the task): chunks 4g and 4g+1 are on their way
  into buffers 0 and 1, chunks 4g-2 and 4g-1 on their way out of buffers 2 and 3 (nothing yet before the first group),
  the chunks below 4g-2 of the result are final and those from 4g on untouched.
-/
import proofs.«205590_g25494925869706_cont_9to1_307_11_alg».proof.Proof.KI.Common
import proofs.«205590_g25494925869706_cont_9to1_307_11_alg».proof.Proof.KI.Own
import proofs.«205590_g25494925869706_cont_9to1_307_11_alg».proof.Proof.KI.Geom

noncomputable section

namespace Cert.Proof.KI

open Cert.KernelIdeal Cert.KernelIdeal.Gen
open Cert.Proof.Spec (dis spec maskRows)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

omit [FloatOps F] in
theorem bigSep_Ico_head {a b : ℕ} (h : a < b) (Φ : ℕ → sProp (MM F)) :
    bigSep (Finset.Ico a b) Φ = iprop(Φ a ∗ bigSep (Finset.Ico (a + 1) b) Φ) := by
  rw [show Finset.Ico a b = insert a (Finset.Ico (a + 1) b) from by ext x; simp only [Finset.mem_Ico, Finset.mem_insert]; omega,
    SparseCore.bigSep_insert' (by simp)]

omit [FloatOps F] in
theorem bigSep_Ico_last {a b : ℕ} (h : a ≤ b) (Φ : ℕ → sProp (MM F)) :
    bigSep (Finset.Ico a (b + 1)) Φ = iprop(Φ b ∗ bigSep (Finset.Ico a b) Φ) := by
  rw [show Finset.Ico a (b + 1) = insert b (Finset.Ico a b) from by ext x; simp only [Finset.mem_Ico, Finset.mem_insert]; omega,
    SparseCore.bigSep_insert' (by simp)]

omit [FloatOps F] in
theorem bigSep_Ico_empty {a b : ℕ} (h : b ≤ a) (Φ : ℕ → sProp (MM F)) : bigSep (Finset.Ico a b) Φ = iprop(emp) := by
  rw [Finset.Ico_eq_empty (by omega)]; exact bigSep_empty

/-! ## Slices of the arrays held by their own elements -/

omit [FloatOps F] in
theorem pts_img (d : Dev nD) (L : grid0.Coords) (r : Rect S65536x512) (hr : ∀ a, r.stride a = 1) (f : Buf (Elt F) (iLoc d)) :
    ((((imgV : Memref sig .scVector .hbm S65536x512 .f32).slice r hr).view.loc (thrV d L)) ↦[((imgV : Memref sig .scVector .hbm S65536x512 .f32).slice r hr).view.set]{fullShare} f : sProp (MM F))
      = (iLoc d ↦[r.set]{fullShare} f) := by
  have e : ((imgV : Memref sig .scVector .hbm S65536x512 .f32).slice r hr).view.set = r.set := by
    show ((View.whole (main_arg0_scv : Ref sig .scVector)).slice r).set = _
    exact View.set_slice_whole (main_arg0_scv : Ref sig .scVector) _
  rw [e]

omit [FloatOps F] in
theorem pts_out (d : Dev nD) (L : grid0.Coords) (r : Rect S65536x512) (hr : ∀ a, r.stride a = 1) (f : Buf (Elt F) (oLoc d)) :
    ((((outV : Memref sig .scVector .hbm S65536x512 .f32).slice r hr).view.loc (thrV d L)) ↦[((outV : Memref sig .scVector .hbm S65536x512 .f32).slice r hr).view.set]{fullShare} f : sProp (MM F))
      = (oLoc d ↦[r.set]{fullShare} f) := by
  have e : ((outV : Memref sig .scVector .hbm S65536x512 .f32).slice r hr).view.set = r.set := by
    show ((View.whole (main_v0_scv : Ref sig .scVector)).slice r).set = _
    exact View.set_slice_whole (main_v0_scv : Ref sig .scVector) _
  rw [e]

/-! ## A chunk's contents -/

theorem chunk_inb (n : Fin 2048) : ∀ a, (![32 * n.val, 0] : Fin 2 → ℕ) a + S32x512.size a ≤ S65536x512.size a := by
  have := n.isLt
  intro a; fin_cases a <;> simp <;> omega

/-- Chunk `n` of the argument array as a memref. -/
abbrev imgC (n : Fin 2048) : Memref sig .scVector .hbm S32x512 .f32 :=
  (imgV : Memref sig .scVector .hbm S65536x512 .f32).slice (Rect.unit (s := S65536x512) ![32 * n.val, 0] S32x512.size (chunk_inb n)) (fun _ => rfl)

section Inv
variable (m : (ℓ : Loc nD τ sig) → Buf (Elt F) ℓ) (d : Dev nD) (L : grid0.Coords)

/-- What chunk `ci` of the task holds in the argument array: the contents a staging buffer lands at. -/
def landC (ci : ℕ) : FVec F S32x512 .f32 := (imgC (chunkNo L ci)).view.read (Elt F) (m (iLoc d))

omit [FloatOps F] in
/-- A 32-row slice of the argument array at the chunk's row reads the chunk's contents. -/
theorem land_eq (ci : ℕ) (h : ci < 64) (off : Fin 2 → ℕ) (inb : ∀ a, off a + S32x512.size a ≤ S65536x512.size a)
    (hoff : off = ![4096 * (L 1).val + 2048 * (L 0).val + 32 * ci, 0]) :
    ((imgV : Memref sig .scVector .hbm S65536x512 .f32).slice (Rect.unit (s := S65536x512) off S32x512.size inb) (fun _ => rfl)).view.read (Elt F) (m (iLoc d))
      = landC m d L ci := by
  have h' : off = ![32 * (chunkNo L ci).val, 0] := by rw [hoff, chunkNo_row L ci h]
  subst h'; rfl

/-- Chunk `ci` on its way into staging buffer 0: at the wait the buffer holds the chunk and the chunk's share of the
    argument array comes back. -/
def FlIn0 (ci : ℕ) : sProp (MM F) :=
  Transfers.Flight countersEmb (thrV d L) (SemLoc.dma cc0_scratch4.sem) (default : HIx 1) 524288
    iprop(((b0 : Memref sig .scVector .vmem S32x512 .f32).view.loc (thrV d L) ↦{fullShare} (landC m d L ci : FVec F S32x512 .f32)) ∗ imgChunk m d L ci)

/-- Chunk `ci` on its way out of staging buffer 0: at the wait the chunk of the result is final and the buffer comes back. -/
def FlOut0 (ci : ℕ) : sProp (MM F) :=
  Transfers.Flight countersEmb (thrV d L) (SemLoc.dma cc0_scratch8.sem) (default : HIx 1) 524288
    iprop(outChunk d L (outFinal m d) ci ∗ ((b0 : Memref sig .scVector .vmem S32x512 .f32).view.loc (thrV d L) ↦{fullShare} (maskRows 32 (landC m d L ci) : FVec F S32x512 .f32)))

/-- Chunk `ci` on its way into staging buffer 1: at the wait the buffer holds the chunk and the chunk's share of the
    argument array comes back. -/
def FlIn1 (ci : ℕ) : sProp (MM F) :=
  Transfers.Flight countersEmb (thrV d L) (SemLoc.dma cc0_scratch5.sem) (default : HIx 1) 524288
    iprop(((b1 : Memref sig .scVector .vmem S32x512 .f32).view.loc (thrV d L) ↦{fullShare} (landC m d L ci : FVec F S32x512 .f32)) ∗ imgChunk m d L ci)

/-- Chunk `ci` on its way out of staging buffer 1: at the wait the chunk of the result is final and the buffer comes back. -/
def FlOut1 (ci : ℕ) : sProp (MM F) :=
  Transfers.Flight countersEmb (thrV d L) (SemLoc.dma cc0_scratch9.sem) (default : HIx 1) 524288
    iprop(outChunk d L (outFinal m d) ci ∗ ((b1 : Memref sig .scVector .vmem S32x512 .f32).view.loc (thrV d L) ↦{fullShare} (maskRows 32 (landC m d L ci) : FVec F S32x512 .f32)))

/-- Chunk `ci` on its way into staging buffer 2: at the wait the buffer holds the chunk and the chunk's share of the
    argument array comes back. -/
def FlIn2 (ci : ℕ) : sProp (MM F) :=
  Transfers.Flight countersEmb (thrV d L) (SemLoc.dma cc0_scratch6.sem) (default : HIx 1) 524288
    iprop(((b2 : Memref sig .scVector .vmem S32x512 .f32).view.loc (thrV d L) ↦{fullShare} (landC m d L ci : FVec F S32x512 .f32)) ∗ imgChunk m d L ci)

/-- Chunk `ci` on its way out of staging buffer 2: at the wait the chunk of the result is final and the buffer comes back. -/
def FlOut2 (ci : ℕ) : sProp (MM F) :=
  Transfers.Flight countersEmb (thrV d L) (SemLoc.dma cc0_scratch10.sem) (default : HIx 1) 524288
    iprop(outChunk d L (outFinal m d) ci ∗ ((b2 : Memref sig .scVector .vmem S32x512 .f32).view.loc (thrV d L) ↦{fullShare} (maskRows 32 (landC m d L ci) : FVec F S32x512 .f32)))

/-- Chunk `ci` on its way into staging buffer 3: at the wait the buffer holds the chunk and the chunk's share of the
    argument array comes back. -/
def FlIn3 (ci : ℕ) : sProp (MM F) :=
  Transfers.Flight countersEmb (thrV d L) (SemLoc.dma cc0_scratch7.sem) (default : HIx 1) 524288
    iprop(((b3 : Memref sig .scVector .vmem S32x512 .f32).view.loc (thrV d L) ↦{fullShare} (landC m d L ci : FVec F S32x512 .f32)) ∗ imgChunk m d L ci)

/-- Chunk `ci` on its way out of staging buffer 3: at the wait the chunk of the result is final and the buffer comes back. -/
def FlOut3 (ci : ℕ) : sProp (MM F) :=
  Transfers.Flight countersEmb (thrV d L) (SemLoc.dma cc0_scratch11.sem) (default : HIx 1) 524288
    iprop(outChunk d L (outFinal m d) ci ∗ ((b3 : Memref sig .scVector .vmem S32x512 .f32).view.loc (thrV d L) ↦{fullShare} (maskRows 32 (landC m d L ci) : FVec F S32x512 .f32)))

/-- A staging buffer at some contents. -/
abbrev anyB0 : sProp (MM F) := iprop(∃ f, (b0 : Memref sig .scVector .vmem S32x512 .f32).view.loc (thrV d L) ↦{fullShare} f)
abbrev anyB1 : sProp (MM F) := iprop(∃ f, (b1 : Memref sig .scVector .vmem S32x512 .f32).view.loc (thrV d L) ↦{fullShare} f)
abbrev anyB2 : sProp (MM F) := iprop(∃ f, (b2 : Memref sig .scVector .vmem S32x512 .f32).view.loc (thrV d L) ↦{fullShare} f)
abbrev anyB3 : sProp (MM F) := iprop(∃ f, (b3 : Memref sig .scVector .vmem S32x512 .f32).view.loc (thrV d L) ↦{fullShare} f)

/-- The incoming side before group `g`: chunks 4g and 4g+1 in flight — or, after the last group, buffers 0 and 1 and
    their cells back. -/
def inSide (g : ℕ) : sProp (MM F) :=
  if g < 16 then iprop(FlIn0 m d L (4 * g) ∗ FlIn1 m d L (4 * g + 1))
  else iprop(anyB0 d L ∗ anyB1 d L ∗ semVal (cellOf d L cc0_scratch4) 0 ∗ semVal (cellOf d L cc0_scratch5) 0)

/-- The outgoing side before group `g`: chunks 4g-2 and 4g-1 in flight — or, before the first group, buffers 2 and 3 and
    their cells untouched. -/
def outSide (g : ℕ) : sProp (MM F) :=
  if g = 0 then iprop(anyB2 d L ∗ anyB3 d L ∗ semVal (cellOf d L cc0_scratch10) 0 ∗ semVal (cellOf d L cc0_scratch11) 0)
  else iprop(FlOut2 m d L (4 * g - 2) ∗ FlOut3 m d L (4 * g - 1))

variable (O : CellTallies nD τ sig (HIx 1)) (W : Waits sig (HIx 1))

/-- The invariant before group `g`. -/
def ginv (g : ℕ) (_ : Unit) : sProp (MM F) :=
  iprop(Transfers.MayWaits (thrV d L) (none : HIx 1) O
    ∗ (bigSep (Finset.Ico 0 (4 * g)) fun ci => imgChunk m d L ci)
    ∗ (bigSep (Finset.Ico (4 * g + 2) 64) fun ci => imgChunk m d L ci)
    ∗ (bigSep (Finset.Ico 0 (4 * g - 2)) fun ci => outChunk d L (outFinal m d) ci)
    ∗ (bigSep (Finset.Ico (4 * g) 64) fun ci => outChunk d L (m (oLoc d)) ci)
    ∗ inSide m d L g ∗ outSide m d L g
    ∗ semVal (cellOf d L cc0_scratch6) 0 ∗ semVal (cellOf d L cc0_scratch7) 0
    ∗ semVal (cellOf d L cc0_scratch8) 0 ∗ semVal (cellOf d L cc0_scratch9) 0
    ∗ ∃ W', ⌜∀ p ∈ W', p ∈ W ∨ p.2 = none⌝ ∗ owes (thrV d L) O W')

/-- A row loop's invariant: the staging buffer's rows below the trip have the disabled columns zeroed. -/
def rinv0 (f : FVec F S32x512 .f32) (k : ℕ) (_ : Unit) : sProp (MM F) :=
  (b0 : Memref sig .scVector .vmem S32x512 .f32).view.loc (thrV d L) ↦{fullShare} (maskRows k f : FVec F S32x512 .f32)
def rinv1 (f : FVec F S32x512 .f32) (k : ℕ) (_ : Unit) : sProp (MM F) :=
  (b1 : Memref sig .scVector .vmem S32x512 .f32).view.loc (thrV d L) ↦{fullShare} (maskRows k f : FVec F S32x512 .f32)
def rinv2 (f : FVec F S32x512 .f32) (k : ℕ) (_ : Unit) : sProp (MM F) :=
  (b2 : Memref sig .scVector .vmem S32x512 .f32).view.loc (thrV d L) ↦{fullShare} (maskRows k f : FVec F S32x512 .f32)
def rinv3 (f : FVec F S32x512 .f32) (k : ℕ) (_ : Unit) : sProp (MM F) :=
  (b3 : Memref sig .scVector .vmem S32x512 .f32).view.loc (thrV d L) ↦{fullShare} (maskRows k f : FVec F S32x512 .f32)

end Inv

end Cert.Proof.KI

end
-- ==== Proof.KI.RowsPure.lean ====
/-
  The pure core of a row trip: six 16-lane stores into one row of a 32 × 512 buffer, each writing zero on the lanes
  its mask selects and the lanes it read elsewhere, leave the row with its disabled columns zeroed and everything
  else as it was.
-/
import Idealize.ShloMosaic.Lib.Writes
import Idealize.ShloMosaic.Lib.ValueIdx
import Idealize.ShloMosaic.Lib.ValueLayout
import proofs.«205590_g25494925869706_cont_9to1_307_11_alg».proof.Proof.Spec
import proofs.«205590_g25494925869706_cont_9to1_307_11_alg».proof.Proof.Eqns

noncomputable section

namespace Cert.Proof.KI

open Idealize.ShloMosaic Idealize.ShloMosaic.ValueIdx
open Cert.Proof.Spec (dis maskRows SB)

variable {F : FTy → Type} [FloatOps F]

/-- Sixteen lanes. -/
abbrev R16 : Shape := ⟨1, ![16]⟩
/-- Sixteen lanes as one row. -/
abbrev R1x16 : Shape := ⟨2, ![1, 16]⟩

theorem cast_1x16_16 : R1x16.ShapeCasts R16 := by decide
theorem cast_16_1x16 : R16.ShapeCasts R1x16 := by decide

/-- What a trip stores at sixteen lanes: zero on the lanes the mask selects, the lanes read on the others. -/
def zpay (m : IVec R16 1) (x : Vec F R1x16 .f32) : FVec F R1x16 .f32 :=
  shapeCast R1x16 (select m (broadcast R16 (Scalar.ofBits .f32 0x00000000#32 : F .f32)) (shapeCast R16 x cast_1x16_16)) cast_16_1x16

theorem zpay_apply (m : IVec R16 1) (x : Vec F R1x16 .f32) (u : Fin 1) (l : Fin 16) :
    zpay m x (ix2 u l) = if m (ix1 l) = 1 then (Scalar.ofBits .f32 0x00000000#32 : F .f32) else x (ix2 (0 : Fin 1) l) := by
  unfold zpay
  rw [shapeCast_a_1a_apply, select_apply, broadcast_apply, shapeCast_1a_a_apply]
  rfl

/-- Row `row` with its disabled columns zeroed, every other element kept. -/
def rowZero (row : ℕ) (h : FVec F SB .f32) : FVec F SB .f32 :=
  fun i => if (i 0).val = row ∧ dis (i 1).val then Scalar.ofBits .f32 0x00000000#32 else h i

/-- Zeroing row `k` over rows below `k` zeroed is rows below `k + 1` zeroed. -/
theorem rowZero_maskRows (k : ℕ) (f : FVec F SB .f32) : rowZero k (maskRows k f) = maskRows (k + 1) f := by
  funext i
  unfold rowZero maskRows
  by_cases hd : dis (i 1).val = true
  · by_cases h0 : (i 0).val = k
    · rw [if_pos ⟨h0, hd⟩, if_pos ⟨by omega, hd⟩]
    · rw [if_neg (fun h => h0 h.1)]
      by_cases hlt : (i 0).val < k
      · rw [if_pos ⟨hlt, hd⟩, if_pos ⟨by omega, hd⟩]
      · rw [if_neg (fun h => hlt h.1), if_neg (fun h => by omega)]
  · rw [if_neg (fun h => hd h.2), if_neg (fun h => hd h.2), if_neg (fun h => hd h.2)]

section Pieces

variable {sig : RefSig} {κ : Kind} {sp : Space} (v : View sig κ sp SB .f32) (g : v.ty.Contents (Elt F))

/-- The piece at columns `[c, c + 16)` of row `row`: its payload is `rowZero` of the contents there, when its
    mask selects exactly the disabled columns among its lanes. -/
theorem piece_agree (row c : ℕ) (inb : ∀ a, (![row, c] : Fin 2 → ℕ) a + R1x16.size a ≤ SB.size a) (m : IVec R16 1)
    (hm : ∀ l : Fin 16, m (ix1 l) = 1 ↔ dis (c + l.val) = true) (x : R1x16.Idx) :
    zpay m (v.readAt (Elt F) (Rect.unit (s := SB) ![row, c] R1x16.size inb).toLoadRect g) x
      = rowZero row (v.read (Elt F) g) ((Rect.unit (s := SB) ![row, c] R1x16.size inb).emb x) := by
  obtain ⟨u, l, rfl⟩ : ∃ u l, x = ix2 u l := ⟨x 0, x 1, eq_ix2 x⟩
  obtain rfl : u = 0 := Subsingleton.elim _ _
  rw [zpay_apply]
  unfold rowZero
  have e0 : (((Rect.unit (s := SB) ![row, c] R1x16.size inb).emb (ix2 (0 : Fin 1) l)) 0).val = row := by
    show row + 1 * 0 = row
    omega
  have e1 : (((Rect.unit (s := SB) ![row, c] R1x16.size inb).emb (ix2 (0 : Fin 1) l)) 1).val = c + l.val := by
    show c + 1 * l.val = c + l.val
    omega
  by_cases hml : m (ix1 l) = 1
  · rw [if_pos hml, if_pos ⟨e0, by rw [e1]; exact (hm l).1 hml⟩]
  · rw [if_neg hml, if_neg (fun h => hml ((hm l).2 (by rw [← e1]; exact h.2)))]
    rfl

/-- A rectangle of sixteen lanes of one row holds an index exactly when the index is in that row and those columns. -/
theorem mem_piece (row c : ℕ) (inb : ∀ a, (![row, c] : Fin 2 → ℕ) a + R1x16.size a ≤ SB.size a) (y : SB.Idx) :
    y ∈ (Rect.unit (s := SB) ![row, c] R1x16.size inb).set ↔ (y 0).val = row ∧ c ≤ (y 1).val ∧ (y 1).val < c + 16 := by
  rw [Rect.mem_set_unit, Fin.forall_fin_two]
  show (row ≤ (y 0).val ∧ (y 0).val < row + 1) ∧ (c ≤ (y 1).val ∧ (y 1).val < c + 16) ↔ _
  omega

/-- The six stores of a row trip, each reading its lanes off the contents `g` and writing zero on the lanes its mask
    selects, leave what `g` reads with row `row`'s disabled columns zeroed. The offsets are taken up to their closed
    forms, the masks up to the lanes they select. -/
theorem read_writes_row (row : ℕ) (o1 o2 o3 o4 o5 o6 : Fin 2 → ℕ)
    (h1 : o1 = ![row, 0]) (h2 : o2 = ![row, 112]) (h3 : o3 = ![row, 256]) (h4 : o4 = ![row, 320])
    (h5 : o5 = ![row, 336]) (h6 : o6 = ![row, 368])
    (i1 : ∀ a, o1 a + R1x16.size a ≤ SB.size a) (i2 : ∀ a, o2 a + R1x16.size a ≤ SB.size a)
    (i3 : ∀ a, o3 a + R1x16.size a ≤ SB.size a) (i4 : ∀ a, o4 a + R1x16.size a ≤ SB.size a)
    (i5 : ∀ a, o5 a + R1x16.size a ≤ SB.size a) (i6 : ∀ a, o6 a + R1x16.size a ≤ SB.size a)
    (m1 m2 m3 m4 m5 m6 : IVec R16 1)
    (hm1 : ∀ l : Fin 16, m1 (ix1 l) = 1 ↔ dis (0 + l.val) = true)
    (hm2 : ∀ l : Fin 16, m2 (ix1 l) = 1 ↔ dis (112 + l.val) = true)
    (hm3 : ∀ l : Fin 16, m3 (ix1 l) = 1 ↔ dis (256 + l.val) = true)
    (hm4 : ∀ l : Fin 16, m4 (ix1 l) = 1 ↔ dis (320 + l.val) = true)
    (hm5 : ∀ l : Fin 16, m5 (ix1 l) = 1 ↔ dis (336 + l.val) = true)
    (hm6 : ∀ l : Fin 16, m6 (ix1 l) = 1 ↔ dis (368 + l.val) = true) :
    v.read (Elt F) (v.writes (Elt F) g
      [⟨Rect.unit (s := SB) o6 R1x16.size i6, zpay m6 (v.readAt (Elt F) (Rect.unit (s := SB) o6 R1x16.size i6).toLoadRect g)⟩,
       ⟨Rect.unit (s := SB) o5 R1x16.size i5, zpay m5 (v.readAt (Elt F) (Rect.unit (s := SB) o5 R1x16.size i5).toLoadRect g)⟩,
       ⟨Rect.unit (s := SB) o4 R1x16.size i4, zpay m4 (v.readAt (Elt F) (Rect.unit (s := SB) o4 R1x16.size i4).toLoadRect g)⟩,
       ⟨Rect.unit (s := SB) o3 R1x16.size i3, zpay m3 (v.readAt (Elt F) (Rect.unit (s := SB) o3 R1x16.size i3).toLoadRect g)⟩,
       ⟨Rect.unit (s := SB) o2 R1x16.size i2, zpay m2 (v.readAt (Elt F) (Rect.unit (s := SB) o2 R1x16.size i2).toLoadRect g)⟩,
       ⟨Rect.unit (s := SB) o1 R1x16.size i1, zpay m1 (v.readAt (Elt F) (Rect.unit (s := SB) o1 R1x16.size i1).toLoadRect g)⟩])
      = rowZero row (v.read (Elt F) g) := by
  subst h1 h2 h3 h4 h5 h6
  funext y
  by_cases hcov : ∃ p ∈ ([⟨Rect.unit (s := SB) ![row, 368] R1x16.size i6, zpay m6 (v.readAt (Elt F) (Rect.unit (s := SB) ![row, 368] R1x16.size i6).toLoadRect g)⟩,
       ⟨Rect.unit (s := SB) ![row, 336] R1x16.size i5, zpay m5 (v.readAt (Elt F) (Rect.unit (s := SB) ![row, 336] R1x16.size i5).toLoadRect g)⟩,
       ⟨Rect.unit (s := SB) ![row, 320] R1x16.size i4, zpay m4 (v.readAt (Elt F) (Rect.unit (s := SB) ![row, 320] R1x16.size i4).toLoadRect g)⟩,
       ⟨Rect.unit (s := SB) ![row, 256] R1x16.size i3, zpay m3 (v.readAt (Elt F) (Rect.unit (s := SB) ![row, 256] R1x16.size i3).toLoadRect g)⟩,
       ⟨Rect.unit (s := SB) ![row, 112] R1x16.size i2, zpay m2 (v.readAt (Elt F) (Rect.unit (s := SB) ![row, 112] R1x16.size i2).toLoadRect g)⟩,
       ⟨Rect.unit (s := SB) ![row, 0] R1x16.size i1, zpay m1 (v.readAt (Elt F) (Rect.unit (s := SB) ![row, 0] R1x16.size i1).toLoadRect g)⟩] : List (View.Piece (Elt F) SB .f32)), y ∈ p.1.set
  · refine View.read_writes_apply_of_pieces v g (rowZero row (v.read (Elt F) g)) _ ?_ y hcov
    intro p hp
    simp only [List.mem_cons, List.not_mem_nil, or_false] at hp
    rcases hp with rfl | rfl | rfl | rfl | rfl | rfl
    · exact piece_agree v g row 368 i6 m6 hm6
    · exact piece_agree v g row 336 i5 m5 hm5
    · exact piece_agree v g row 320 i4 m4 hm4
    · exact piece_agree v g row 256 i3 m3 hm3
    · exact piece_agree v g row 112 i2 m2 hm2
    · exact piece_agree v g row 0 i1 m1 hm1
  · rw [View.read_writes_apply_of_forall_not_mem v g y _ fun p hp hy => hcov ⟨p, hp, hy⟩]
    unfold rowZero
    rw [if_neg]
    rintro ⟨h0, hd⟩
    apply hcov
    simp only [dis, Bool.or_eq_true, decide_eq_true_eq] at hd
    rcases hd with (((((hd | hd) | hd) | hd) | hd) | hd) | hd
    · exact ⟨_, List.mem_cons_of_mem _ (List.mem_cons_of_mem _ (List.mem_cons_of_mem _ (List.mem_cons_of_mem _ (List.mem_cons_of_mem _ List.mem_cons_self)))), (mem_piece row 0 i1 y).2 ⟨h0, by omega, by omega⟩⟩
    · exact ⟨_, List.mem_cons_of_mem _ (List.mem_cons_of_mem _ (List.mem_cons_of_mem _ (List.mem_cons_of_mem _ List.mem_cons_self))), (mem_piece row 112 i2 y).2 ⟨h0, by omega, by omega⟩⟩
    · exact ⟨_, List.mem_cons_of_mem _ (List.mem_cons_of_mem _ (List.mem_cons_of_mem _ List.mem_cons_self)), (mem_piece row 256 i3 y).2 ⟨h0, by omega, by omega⟩⟩
    · exact ⟨_, List.mem_cons_of_mem _ (List.mem_cons_of_mem _ (List.mem_cons_of_mem _ List.mem_cons_self)), (mem_piece row 256 i3 y).2 ⟨h0, by omega, by omega⟩⟩
    · exact ⟨_, List.mem_cons_of_mem _ (List.mem_cons_of_mem _ List.mem_cons_self), (mem_piece row 320 i4 y).2 ⟨h0, by omega, by omega⟩⟩
    · exact ⟨_, List.mem_cons_of_mem _ List.mem_cons_self, (mem_piece row 336 i5 y).2 ⟨h0, by omega, by omega⟩⟩
    · exact ⟨_, List.mem_cons_self, (mem_piece row 368 i6 y).2 ⟨h0, by omega, by omega⟩⟩

end Pieces

end Cert.Proof.KI

end
-- ==== Proof.KI.Rows.lean ====
/-
  The row loops of the kernel body: each of the four staging buffers has the seven disabled columns of its 32 rows
  overwritten by zero, a row a trip. A trip loads and stores six 16-lane pieces of its row, at columns 0, 112, 256,
  320, 336 and 368, each store writing zero on the lanes its mask selects and the lanes just read on the others; the
  masks select exactly the disabled columns among each piece's lanes, so the trip leaves the row with those columns
  zeroed and nothing else changed. The loop's invariant: before trip `k` the buffer holds its contents at loop
  entry with the disabled columns zeroed in the rows below `k`.
-/
import proofs.«205590_g25494925869706_cont_9to1_307_11_alg».proof.Proof.KI.Common
import proofs.«205590_g25494925869706_cont_9to1_307_11_alg».proof.Proof.KI.RowsPure

noncomputable section

namespace Cert.Proof.KI

open Cert.KernelIdeal Cert.KernelIdeal.Gen
open Cert.Proof.Spec (dis spec maskRows)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1)

variable {F : FTy → Type}

/-! ## The lane masks: which of its sixteen lanes each piece zeroes -/

theorem lane27 : ∀ l : Fin 16, k0_pay27 (ix1 l) = 1 ↔ dis (0 + l.val) = true := by decide
theorem lane28 : ∀ l : Fin 16, k0_pay28 (ix1 l) = 1 ↔ dis (112 + l.val) = true := by decide
theorem lane29 : ∀ l : Fin 16, k0_pay29 (ix1 l) = 1 ↔ dis (256 + l.val) = true := by decide
theorem lane30 : ∀ l : Fin 16, k0_pay30 (ix1 l) = 1 ↔ dis (320 + l.val) = true := by decide
theorem lane31 : ∀ l : Fin 16, k0_pay31 (ix1 l) = 1 ↔ dis (336 + l.val) = true := by decide
theorem lane32 : ∀ l : Fin 16, k0_pay32 (ix1 l) = 1 ↔ dis (368 + l.val) = true := by decide

/-! ## The loops' trip counts -/

theorem k0_t2_trips : k0_t2_loop.trips = 32 := by decide
theorem k0_t3_trips : k0_t3_loop.trips = 32 := by decide
theorem k0_t4_trips : k0_t4_loop.trips = 32 := by decide
theorem k0_t5_trips : k0_t5_loop.trips = 32 := by decide

variable [FloatOps F]

/-- A buffer held at contents equal to others is held at those. -/
theorem pts_of_eq {ℓ : Loc nD τ sig} {A B : Buf (Elt F) ℓ} (h : A = B) :
    ((ℓ ↦{fullShare} A : sProp (MM F)) ⊢ ℓ ↦{fullShare} B) := Entails.of_eq (by rw [h])

/-- A whole staging buffer reads as its contents. -/
theorem b0_read (g : FVec F S32x512 .f32) : (b0 : Memref sig .scVector .vmem S32x512 .f32).view.read (Elt F) g = g := rfl
theorem b1_read (g : FVec F S32x512 .f32) : (b1 : Memref sig .scVector .vmem S32x512 .f32).view.read (Elt F) g = g := rfl
theorem b2_read (g : FVec F S32x512 .f32) : (b2 : Memref sig .scVector .vmem S32x512 .f32).view.read (Elt F) g = g := rfl
theorem b3_read (g : FVec F S32x512 .f32) : (b3 : Memref sig .scVector .vmem S32x512 .f32).view.read (Elt F) g = g := rfl

/-! ## Buffer 0 -/

/-- One trip of buffer 0's loop: row `k` has its disabled columns zeroed. -/
theorem rows0_step (d : Dev nD) (L : grid0.Coords) (f : FVec F S32x512 .f32) (v2 c0 c1 : BitVec 32) (k0_t1 : Fin k0_t1_loop.trips) (k : Fin k0_t2_loop.trips) :
    ((b0 : Memref sig .scVector .vmem S32x512 .f32).view.loc (thrV d L) ↦{fullShare} (maskRows k.val f : FVec F S32x512 .f32) : sProp (MM F))
      ⊢ wp frame (wpE (defs₀ (F := F)) 𝒱₀ (thrV d L) none) Set.univ
          (k0_t2_body L imgV (Memref.isWhole_whole _) outV (Memref.isWhole_whole _) b0 (Memref.isWhole_whole _) b1 (Memref.isWhole_whole _) b2 (Memref.isWhole_whole _) b3 (Memref.isWhole_whole _) cc0_scratch4 cc0_scratch5 cc0_scratch6 cc0_scratch7 cc0_scratch8 cc0_scratch9 cc0_scratch10 cc0_scratch11 v2 k0_pay27 k0_pay28 k0_pay29 k0_pay30 k0_pay31 k0_pay32 c0 c1 k0_t1 k ())
          fun _ => (b0 : Memref sig .scVector .vmem S32x512 .f32).view.loc (thrV d L) ↦{fullShare} (maskRows (k.val + 1) f : FVec F S32x512 .f32) := by
  iintro Hb
  sl_unfold [k0_t2_body]
  sl_exec
  sl_step
  iapply (pts_of_eq ?heq) $$ Hb
  case heq =>
    refine (b0_read _).symm.trans ((read_writes_row (F := F) (b0 : Memref sig .scVector .vmem S32x512 .f32).view (maskRows k.val f) k.val _ _ _ _ _ _
      (k0_off5_eq k) (k0_off6_eq k) (k0_off7_eq k) (k0_off8_eq k) (k0_off9_eq k) (k0_off10_eq k) _ _ _ _ _ _
      k0_pay27 k0_pay28 k0_pay29 k0_pay30 k0_pay31 k0_pay32 lane27 lane28 lane29 lane30 lane31 lane32).trans ?_)
    exact rowZero_maskRows k.val f

/-- Buffer 0's loop: every row has its disabled columns zeroed. -/
theorem rows0 (d : Dev nD) (L : grid0.Coords) (f : FVec F S32x512 .f32) (v2 c0 c1 : BitVec 32) (k0_t1 : Fin k0_t1_loop.trips) :
    ((b0 : Memref sig .scVector .vmem S32x512 .f32).view.loc (thrV d L) ↦{fullShare} f : sProp (MM F))
      ⊢ wp frame (wpE (defs₀ (F := F)) 𝒱₀ (thrV d L) none) Set.univ
          (Scf.Loop.for k0_t2_loop k0_t2_ok ⟨⟩ (k0_t2_body L imgV (Memref.isWhole_whole _) outV (Memref.isWhole_whole _) b0 (Memref.isWhole_whole _) b1 (Memref.isWhole_whole _) b2 (Memref.isWhole_whole _) b3 (Memref.isWhole_whole _) cc0_scratch4 cc0_scratch5 cc0_scratch6 cc0_scratch7 cc0_scratch8 cc0_scratch9 cc0_scratch10 cc0_scratch11 v2 k0_pay27 k0_pay28 k0_pay29 k0_pay30 k0_pay31 k0_pay32 c0 c1 k0_t1))
          fun _ => (b0 : Memref sig .scVector .vmem S32x512 .f32).view.loc (thrV d L) ↦{fullShare} (maskRows 32 f : FVec F S32x512 .f32) := by
  iintro Hb
  sl_for (fun (j : Nat) (_ : PUnit) => ((b0 : Memref sig .scVector .vmem S32x512 .f32).view.loc (thrV d L) ↦{fullShare} (maskRows j f : FVec F S32x512 .f32) : sProp (MM F))) $$ [Hb]
  · intro k _; exact rows0_step d L f v2 c0 c1 k0_t1 k
  isplitl [Hb]
  · rw [Cert.Proof.Spec.maskRows_zero]; iexact Hb
  iintro %_ HI
  rw [show Scf.trips k0_t2_loop.lb k0_t2_loop.ub k0_t2_loop.st = 32 from k0_t2_trips]
  iexact HI

/-! ## Buffer 1 -/

/-- One trip of buffer 1's loop: row `k` has its disabled columns zeroed. -/
theorem rows1_step (d : Dev nD) (L : grid0.Coords) (f : FVec F S32x512 .f32) (v2 : BitVec 32) (k0_t1 : Fin k0_t1_loop.trips) (arg16 v51 : BitVec 32) (k : Fin k0_t3_loop.trips) :
    ((b1 : Memref sig .scVector .vmem S32x512 .f32).view.loc (thrV d L) ↦{fullShare} (maskRows k.val f : FVec F S32x512 .f32) : sProp (MM F))
      ⊢ wp frame (wpE (defs₀ (F := F)) 𝒱₀ (thrV d L) none) Set.univ
          (k0_t3_body L imgV (Memref.isWhole_whole _) outV (Memref.isWhole_whole _) b0 (Memref.isWhole_whole _) b1 (Memref.isWhole_whole _) b2 (Memref.isWhole_whole _) b3 (Memref.isWhole_whole _) cc0_scratch4 cc0_scratch5 cc0_scratch6 cc0_scratch7 cc0_scratch8 cc0_scratch9 cc0_scratch10 cc0_scratch11 v2 k0_pay27 k0_pay28 k0_pay29 k0_pay30 k0_pay31 k0_pay32 k0_t1 arg16 v51 k ())
          fun _ => (b1 : Memref sig .scVector .vmem S32x512 .f32).view.loc (thrV d L) ↦{fullShare} (maskRows (k.val + 1) f : FVec F S32x512 .f32) := by
  iintro Hb
  sl_unfold [k0_t3_body]
  sl_exec
  sl_step
  iapply (pts_of_eq ?heq) $$ Hb
  case heq =>
    refine (b1_read _).symm.trans ((read_writes_row (F := F) (b1 : Memref sig .scVector .vmem S32x512 .f32).view (maskRows k.val f) k.val _ _ _ _ _ _
      (k0_off13_eq k) (k0_off14_eq k) (k0_off15_eq k) (k0_off16_eq k) (k0_off17_eq k) (k0_off18_eq k) _ _ _ _ _ _
      k0_pay27 k0_pay28 k0_pay29 k0_pay30 k0_pay31 k0_pay32 lane27 lane28 lane29 lane30 lane31 lane32).trans ?_)
    exact rowZero_maskRows k.val f

/-- Buffer 1's loop: every row has its disabled columns zeroed. -/
theorem rows1 (d : Dev nD) (L : grid0.Coords) (f : FVec F S32x512 .f32) (v2 : BitVec 32) (k0_t1 : Fin k0_t1_loop.trips) (arg16 v51 : BitVec 32) :
    ((b1 : Memref sig .scVector .vmem S32x512 .f32).view.loc (thrV d L) ↦{fullShare} f : sProp (MM F))
      ⊢ wp frame (wpE (defs₀ (F := F)) 𝒱₀ (thrV d L) none) Set.univ
          (Scf.Loop.for k0_t3_loop k0_t3_ok ⟨⟩ (k0_t3_body L imgV (Memref.isWhole_whole _) outV (Memref.isWhole_whole _) b0 (Memref.isWhole_whole _) b1 (Memref.isWhole_whole _) b2 (Memref.isWhole_whole _) b3 (Memref.isWhole_whole _) cc0_scratch4 cc0_scratch5 cc0_scratch6 cc0_scratch7 cc0_scratch8 cc0_scratch9 cc0_scratch10 cc0_scratch11 v2 k0_pay27 k0_pay28 k0_pay29 k0_pay30 k0_pay31 k0_pay32 k0_t1 arg16 v51))
          fun _ => (b1 : Memref sig .scVector .vmem S32x512 .f32).view.loc (thrV d L) ↦{fullShare} (maskRows 32 f : FVec F S32x512 .f32) := by
  iintro Hb
  sl_for (fun (j : Nat) (_ : PUnit) => ((b1 : Memref sig .scVector .vmem S32x512 .f32).view.loc (thrV d L) ↦{fullShare} (maskRows j f : FVec F S32x512 .f32) : sProp (MM F))) $$ [Hb]
  · intro k _; exact rows1_step d L f v2 k0_t1 arg16 v51 k
  isplitl [Hb]
  · rw [Cert.Proof.Spec.maskRows_zero]; iexact Hb
  iintro %_ HI
  rw [show Scf.trips k0_t3_loop.lb k0_t3_loop.ub k0_t3_loop.st = 32 from k0_t3_trips]
  iexact HI

/-! ## Buffer 2 -/

/-- One trip of buffer 2's loop: row `k` has its disabled columns zeroed. -/
theorem rows2_step (d : Dev nD) (L : grid0.Coords) (f : FVec F S32x512 .f32) (v2 : BitVec 32) (k0_t1 : Fin k0_t1_loop.trips) (arg16 v51 : BitVec 32) (k : Fin k0_t4_loop.trips) :
    ((b2 : Memref sig .scVector .vmem S32x512 .f32).view.loc (thrV d L) ↦{fullShare} (maskRows k.val f : FVec F S32x512 .f32) : sProp (MM F))
      ⊢ wp frame (wpE (defs₀ (F := F)) 𝒱₀ (thrV d L) none) Set.univ
          (k0_t4_body L imgV (Memref.isWhole_whole _) outV (Memref.isWhole_whole _) b0 (Memref.isWhole_whole _) b1 (Memref.isWhole_whole _) b2 (Memref.isWhole_whole _) b3 (Memref.isWhole_whole _) cc0_scratch4 cc0_scratch5 cc0_scratch6 cc0_scratch7 cc0_scratch8 cc0_scratch9 cc0_scratch10 cc0_scratch11 v2 k0_pay27 k0_pay28 k0_pay29 k0_pay30 k0_pay31 k0_pay32 k0_t1 arg16 v51 k ())
          fun _ => (b2 : Memref sig .scVector .vmem S32x512 .f32).view.loc (thrV d L) ↦{fullShare} (maskRows (k.val + 1) f : FVec F S32x512 .f32) := by
  iintro Hb
  sl_unfold [k0_t4_body]
  sl_exec
  sl_step
  iapply (pts_of_eq ?heq) $$ Hb
  case heq =>
    refine (b2_read _).symm.trans ((read_writes_row (F := F) (b2 : Memref sig .scVector .vmem S32x512 .f32).view (maskRows k.val f) k.val _ _ _ _ _ _
      (k0_off21_eq k) (k0_off22_eq k) (k0_off23_eq k) (k0_off24_eq k) (k0_off25_eq k) (k0_off26_eq k) _ _ _ _ _ _
      k0_pay27 k0_pay28 k0_pay29 k0_pay30 k0_pay31 k0_pay32 lane27 lane28 lane29 lane30 lane31 lane32).trans ?_)
    exact rowZero_maskRows k.val f

/-- Buffer 2's loop: every row has its disabled columns zeroed. -/
theorem rows2 (d : Dev nD) (L : grid0.Coords) (f : FVec F S32x512 .f32) (v2 : BitVec 32) (k0_t1 : Fin k0_t1_loop.trips) (arg16 v51 : BitVec 32) :
    ((b2 : Memref sig .scVector .vmem S32x512 .f32).view.loc (thrV d L) ↦{fullShare} f : sProp (MM F))
      ⊢ wp frame (wpE (defs₀ (F := F)) 𝒱₀ (thrV d L) none) Set.univ
          (Scf.Loop.for k0_t4_loop k0_t4_ok ⟨⟩ (k0_t4_body L imgV (Memref.isWhole_whole _) outV (Memref.isWhole_whole _) b0 (Memref.isWhole_whole _) b1 (Memref.isWhole_whole _) b2 (Memref.isWhole_whole _) b3 (Memref.isWhole_whole _) cc0_scratch4 cc0_scratch5 cc0_scratch6 cc0_scratch7 cc0_scratch8 cc0_scratch9 cc0_scratch10 cc0_scratch11 v2 k0_pay27 k0_pay28 k0_pay29 k0_pay30 k0_pay31 k0_pay32 k0_t1 arg16 v51))
          fun _ => (b2 : Memref sig .scVector .vmem S32x512 .f32).view.loc (thrV d L) ↦{fullShare} (maskRows 32 f : FVec F S32x512 .f32) := by
  iintro Hb
  sl_for (fun (j : Nat) (_ : PUnit) => ((b2 : Memref sig .scVector .vmem S32x512 .f32).view.loc (thrV d L) ↦{fullShare} (maskRows j f : FVec F S32x512 .f32) : sProp (MM F))) $$ [Hb]
  · intro k _; exact rows2_step d L f v2 k0_t1 arg16 v51 k
  isplitl [Hb]
  · rw [Cert.Proof.Spec.maskRows_zero]; iexact Hb
  iintro %_ HI
  rw [show Scf.trips k0_t4_loop.lb k0_t4_loop.ub k0_t4_loop.st = 32 from k0_t4_trips]
  iexact HI

/-! ## Buffer 3 -/

/-- One trip of buffer 3's loop: row `k` has its disabled columns zeroed. -/
theorem rows3_step (d : Dev nD) (L : grid0.Coords) (f : FVec F S32x512 .f32)  (k : Fin k0_t5_loop.trips) :
    ((b3 : Memref sig .scVector .vmem S32x512 .f32).view.loc (thrV d L) ↦{fullShare} (maskRows k.val f : FVec F S32x512 .f32) : sProp (MM F))
      ⊢ wp frame (wpE (defs₀ (F := F)) 𝒱₀ (thrV d L) none) Set.univ
          (k0_t5_body L imgV (Memref.isWhole_whole _) outV (Memref.isWhole_whole _) b0 (Memref.isWhole_whole _) b1 (Memref.isWhole_whole _) b2 (Memref.isWhole_whole _) b3 (Memref.isWhole_whole _) cc0_scratch4 cc0_scratch5 cc0_scratch6 cc0_scratch7 cc0_scratch8 cc0_scratch9 cc0_scratch10 cc0_scratch11 k ())
          fun _ => (b3 : Memref sig .scVector .vmem S32x512 .f32).view.loc (thrV d L) ↦{fullShare} (maskRows (k.val + 1) f : FVec F S32x512 .f32) := by
  iintro Hb
  sl_unfold [k0_t5_body]
  sl_exec
  sl_step
  iapply (pts_of_eq ?heq) $$ Hb
  case heq =>
    refine (b3_read _).symm.trans ((read_writes_row (F := F) (b3 : Memref sig .scVector .vmem S32x512 .f32).view (maskRows k.val f) k.val _ _ _ _ _ _
      (k0_off29_eq k) (k0_off30_eq k) (k0_off31_eq k) (k0_off32_eq k) (k0_off33_eq k) (k0_off34_eq k) _ _ _ _ _ _
      k0_pay27 k0_pay28 k0_pay29 k0_pay30 k0_pay31 k0_pay32 lane27 lane28 lane29 lane30 lane31 lane32).trans ?_)
    exact rowZero_maskRows k.val f

/-- Buffer 3's loop: every row has its disabled columns zeroed. -/
theorem rows3 (d : Dev nD) (L : grid0.Coords) (f : FVec F S32x512 .f32)  :
    ((b3 : Memref sig .scVector .vmem S32x512 .f32).view.loc (thrV d L) ↦{fullShare} f : sProp (MM F))
      ⊢ wp frame (wpE (defs₀ (F := F)) 𝒱₀ (thrV d L) none) Set.univ
          (Scf.Loop.for k0_t5_loop k0_t5_ok ⟨⟩ (k0_t5_body L imgV (Memref.isWhole_whole _) outV (Memref.isWhole_whole _) b0 (Memref.isWhole_whole _) b1 (Memref.isWhole_whole _) b2 (Memref.isWhole_whole _) b3 (Memref.isWhole_whole _) cc0_scratch4 cc0_scratch5 cc0_scratch6 cc0_scratch7 cc0_scratch8 cc0_scratch9 cc0_scratch10 cc0_scratch11))
          fun _ => (b3 : Memref sig .scVector .vmem S32x512 .f32).view.loc (thrV d L) ↦{fullShare} (maskRows 32 f : FVec F S32x512 .f32) := by
  iintro Hb
  sl_for (fun (j : Nat) (_ : PUnit) => ((b3 : Memref sig .scVector .vmem S32x512 .f32).view.loc (thrV d L) ↦{fullShare} (maskRows j f : FVec F S32x512 .f32) : sProp (MM F))) $$ [Hb]
  · intro k _; exact rows3_step d L f  k
  isplitl [Hb]
  · rw [Cert.Proof.Spec.maskRows_zero]; iexact Hb
  iintro %_ HI
  rw [show Scf.trips k0_t5_loop.lb k0_t5_loop.ub k0_t5_loop.st = 32 from k0_t5_trips]
  iexact HI

end Cert.Proof.KI

end
-- ==== Proof.KI.Value.lean ====
/-
  What the body's copies deliver, as values: a chunk copied into a staging buffer is the chunk's contents in the
  argument array, and a staging buffer holding a chunk with the disabled columns zeroed in all 32 rows, copied out over
  the same rows of the result, leaves there what the specification says.
-/
import proofs.«205590_g25494925869706_cont_9to1_307_11_alg».proof.Proof.KI.Inv

noncomputable section

namespace Cert.Proof.KI

open Cert.KernelIdeal Cert.KernelIdeal.Gen
open Cert.Proof.Spec (dis spec maskRows)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (m : (ℓ : Loc nD τ sig) → Buf (Elt F) ℓ) (d : Dev nD) (L : grid0.Coords)

/-! ## The outgoing copies -/

/-- On the rows of chunk `ci`, the result array written through the chunk's slice with the chunk's contents, disabled
    columns zeroed in all 32 rows, holds the specification. -/
theorem out_value (ci : ℕ) (h : ci < 64) (off : Fin 2 → ℕ) (inb : ∀ a, off a + S32x512.size a ≤ S65536x512.size a) (hoff : off = ![4096 * (L 1).val + 2048 * (L 0).val + 32 * ci, 0]) (fd : Buf (Elt F) (oLoc d)) :
    ∀ i ∈ (Rect.unit (s := S65536x512) off S32x512.size inb).set,
      ((outV : Memref sig .scVector .hbm S65536x512 .f32).slice (Rect.unit (s := S65536x512) off S32x512.size inb) (fun _ => rfl)).view.write (Elt F) fd (maskRows 32 (landC m d L ci)) Finset.univ i = outFinal m d i := by
  have h' : off = ![32 * (chunkNo L ci).val, 0] := by rw [hoff, chunkNo_row L ci h]
  subst h'
  intro i hi
  obtain ⟨x, rfl⟩ := (Rect.unit (s := S65536x512) ![32 * (chunkNo L ci).val, 0] S32x512.size inb).exists_idx_of_mem hi
  refine (View.write_emb_of_mem (v := ((outV : Memref sig .scVector .hbm S65536x512 .f32).slice (Rect.unit (s := S65536x512) ![32 * (chunkNo L ci).val, 0] S32x512.size inb) (fun _ => rfl)).view) fd _ (Finset.mem_univ x)).trans ?_
  have hx0 : (x 0).val < 32 := (x 0).isLt
  have e1 : (((Rect.unit (s := S65536x512) ![32 * (chunkNo L ci).val, 0] S32x512.size inb).idx x) 1).val = (x 1).val := by
    show 0 + 1 * (x 1).val = (x 1).val
    omega
  -- the element written is the chunk's element of the argument array, zeroed in a disabled column; the
  -- specification there is the same element, zeroed in a disabled column
  show (if (x 0).val < 32 ∧ dis (x 1).val = true then (Scalar.ofBits .f32 0x00000000#32 : F .f32) else m (iLoc d) ((Rect.unit (s := S65536x512) ![32 * (chunkNo L ci).val, 0] S32x512.size inb).idx x))
     = if dis (((Rect.unit (s := S65536x512) ![32 * (chunkNo L ci).val, 0] S32x512.size inb).idx x) 1).val = true then (Scalar.ofBits .f32 0x00000000#32 : F .f32) else m (iLoc d) ((Rect.unit (s := S65536x512) ![32 * (chunkNo L ci).val, 0] S32x512.size inb).idx x)
  rw [e1]
  by_cases hd : dis (x 1).val = true
  · rw [if_pos ⟨hx0, hd⟩, if_pos hd]
  · rw [if_neg (fun hh => hd hh.2), if_neg hd]

/-- The chunk's slice of the result array, held by its own elements at that write, is the chunk of the result at the
    specification. -/
theorem out_deliver (ci : ℕ) (h : ci < 64) (off : Fin 2 → ℕ) (inb : ∀ a, off a + S32x512.size a ≤ S65536x512.size a) (hoff : off = ![4096 * (L 1).val + 2048 * (L 0).val + 32 * ci, 0]) (fd : Buf (Elt F) (oLoc d)) :
    (((outV : Memref sig .scVector .hbm S65536x512 .f32).slice (Rect.unit (s := S65536x512) off S32x512.size inb) (fun _ => rfl)).view.loc (thrV d L)
        ↦[((outV : Memref sig .scVector .hbm S65536x512 .f32).slice (Rect.unit (s := S65536x512) off S32x512.size inb) (fun _ => rfl)).view.set]{fullShare}
          ((outV : Memref sig .scVector .hbm S65536x512 .f32).slice (Rect.unit (s := S65536x512) off S32x512.size inb) (fun _ => rfl)).view.write (Elt F) fd (maskRows 32 (landC m d L ci)) Finset.univ : sProp (MM F))
      ⊢ outChunk d L (outFinal m d) ci := by
  rw [pts_out]
  show _ ⊢ (oLoc d ↦[chunkSet (chunkNo L ci)]{fullShare} outFinal m d : sProp (MM F))
  rw [chunkSet_of_off L ci h off inb hoff]
  exact Entails.of_eq (pointsTo_congr (out_value m d L ci h off inb hoff fd))

/-- The same with the write spelt as a one-piece list of writes. -/
theorem out_deliver_list (ci : ℕ) (h : ci < 64) (off : Fin 2 → ℕ) (inb : ∀ a, off a + S32x512.size a ≤ S65536x512.size a) (hoff : off = ![4096 * (L 1).val + 2048 * (L 0).val + 32 * ci, 0]) (fd : Buf (Elt F) (oLoc d)) :
    (((outV : Memref sig .scVector .hbm S65536x512 .f32).slice (Rect.unit (s := S65536x512) off S32x512.size inb) (fun _ => rfl)).view.loc (thrV d L)
        ↦[((outV : Memref sig .scVector .hbm S65536x512 .f32).slice (Rect.unit (s := S65536x512) off S32x512.size inb) (fun _ => rfl)).view.set]{fullShare}
          ((outV : Memref sig .scVector .hbm S65536x512 .f32).slice (Rect.unit (s := S65536x512) off S32x512.size inb) (fun _ => rfl)).view.writes (Elt F) fd [⟨Rect.whole S32x512, maskRows 32 (landC m d L ci)⟩] : sProp (MM F))
      ⊢ outChunk d L (outFinal m d) ci := by
  have e := View.write_univ_eq_writes_whole (Val := Elt F) ((outV : Memref sig .scVector .hbm S65536x512 .f32).slice (Rect.unit (s := S65536x512) off S32x512.size inb) (fun _ => rfl)).view fd [] (maskRows 32 (landC m d L ci))
  exact (Entails.of_eq (congrArg (fun g => (((outV : Memref sig .scVector .hbm S65536x512 .f32).slice (Rect.unit (s := S65536x512) off S32x512.size inb) (fun _ => rfl)).view.loc (thrV d L)
      ↦[((outV : Memref sig .scVector .hbm S65536x512 .f32).slice (Rect.unit (s := S65536x512) off S32x512.size inb) (fun _ => rfl)).view.set]{fullShare} g : sProp (MM F))) e.symm)).trans (out_deliver m d L ci h off inb hoff fd)

/-! ## The incoming copies -/

/-- The chunk's slice of the argument array, held by its own elements, is the chunk of the argument. -/
theorem in_src (ci : ℕ) (h : ci < 64) (off : Fin 2 → ℕ) (inb : ∀ a, off a + S32x512.size a ≤ S65536x512.size a) (hoff : off = ![4096 * (L 1).val + 2048 * (L 0).val + 32 * ci, 0]) :
    (((imgV : Memref sig .scVector .hbm S65536x512 .f32).slice (Rect.unit (s := S65536x512) off S32x512.size inb) (fun _ => rfl)).view.loc (thrV d L) ↦[((imgV : Memref sig .scVector .hbm S65536x512 .f32).slice (Rect.unit (s := S65536x512) off S32x512.size inb) (fun _ => rfl)).view.set]{fullShare} m (iLoc d) : sProp (MM F))
      = imgChunk m d L ci := by
  rw [pts_img]
  show _ = (iLoc d ↦[chunkSet (chunkNo L ci)]{fullShare} m (iLoc d) : sProp (MM F))
  rw [chunkSet_of_off L ci h off inb hoff]

/-- Staging buffer 0 written whole with what the chunk's slice of the argument array reads holds the chunk. -/
theorem in_buf0 (ci : ℕ) (h : ci < 64) (off : Fin 2 → ℕ) (inb : ∀ a, off a + S32x512.size a ≤ S65536x512.size a) (hoff : off = ![4096 * (L 1).val + 2048 * (L 0).val + 32 * ci, 0]) (f0 : FVec F S32x512 .f32) :
    View.write (Elt F) (b0 : Memref sig .scVector .vmem S32x512 .f32).view f0 (ReadAs.apply (Val := Elt F) ReadAs.same (((imgV : Memref sig .scVector .hbm S65536x512 .f32).slice (Rect.unit (s := S65536x512) off S32x512.size inb) (fun _ => rfl)).view.read (Elt F) (m (iLoc d)))) Finset.univ
      = (landC m d L ci : FVec F S32x512 .f32) := by
  rw [← land_eq m d L ci h off inb hoff]
  exact View.write_whole_univ (Val := Elt F) (cc0_scratch0 : Ref sig .scVector) f0 _

/-- What an incoming copy into staging buffer 0 delivers: the buffer at the chunk, and the chunk of the argument back. -/
theorem in_deliver0 (ci : ℕ) (h : ci < 64) (off : Fin 2 → ℕ) (inb : ∀ a, off a + S32x512.size a ≤ S65536x512.size a) (hoff : off = ![4096 * (L 1).val + 2048 * (L 0).val + 32 * ci, 0]) (f0 : FVec F S32x512 .f32) :
    (iprop(((b0 : Memref sig .scVector .vmem S32x512 .f32).view.loc (thrV d L) ↦{fullShare} View.write (Elt F) (b0 : Memref sig .scVector .vmem S32x512 .f32).view f0 (ReadAs.apply (Val := Elt F) ReadAs.same (((imgV : Memref sig .scVector .hbm S65536x512 .f32).slice (Rect.unit (s := S65536x512) off S32x512.size inb) (fun _ => rfl)).view.read (Elt F) (m (iLoc d)))) Finset.univ)
        ∗ (((imgV : Memref sig .scVector .hbm S65536x512 .f32).slice (Rect.unit (s := S65536x512) off S32x512.size inb) (fun _ => rfl)).view.loc (thrV d L) ↦[((imgV : Memref sig .scVector .hbm S65536x512 .f32).slice (Rect.unit (s := S65536x512) off S32x512.size inb) (fun _ => rfl)).view.set]{fullShare} m (iLoc d))) : sProp (MM F))
      ⊢ iprop(((b0 : Memref sig .scVector .vmem S32x512 .f32).view.loc (thrV d L) ↦{fullShare} (landC m d L ci : FVec F S32x512 .f32)) ∗ imgChunk m d L ci) := by
  rw [in_buf0 m d L ci h off inb hoff f0, in_src m d L ci h off inb hoff]

/-- The incoming copy of chunk `ci` into staging buffer 0, in flight at that delivery, is the invariant's flight. -/
theorem flIn0_of (ci : ℕ) (h : ci < 64) (off : Fin 2 → ℕ) (inb : ∀ a, off a + S32x512.size a ≤ S65536x512.size a) (hoff : off = ![4096 * (L 1).val + 2048 * (L 0).val + 32 * ci, 0]) (f0 : FVec F S32x512 .f32) :
    Transfers.Flight countersEmb (thrV d L) (SemLoc.dma cc0_scratch4.sem) (default : HIx 1) 524288
      (iprop(((b0 : Memref sig .scVector .vmem S32x512 .f32).view.loc (thrV d L) ↦{fullShare} View.write (Elt F) (b0 : Memref sig .scVector .vmem S32x512 .f32).view f0 (ReadAs.apply (Val := Elt F) ReadAs.same (((imgV : Memref sig .scVector .hbm S65536x512 .f32).slice (Rect.unit (s := S65536x512) off S32x512.size inb) (fun _ => rfl)).view.read (Elt F) (m (iLoc d)))) Finset.univ)
        ∗ (((imgV : Memref sig .scVector .hbm S65536x512 .f32).slice (Rect.unit (s := S65536x512) off S32x512.size inb) (fun _ => rfl)).view.loc (thrV d L) ↦[((imgV : Memref sig .scVector .hbm S65536x512 .f32).slice (Rect.unit (s := S65536x512) off S32x512.size inb) (fun _ => rfl)).view.set]{fullShare} m (iLoc d))) : sProp (MM F))
      ⊢ FlIn0 m d L ci := by
  unfold FlIn0
  exact Transfers.Flight_mono _ _ (in_deliver0 m d L ci h off inb hoff f0)

/-- Staging buffer 1 written whole with what the chunk's slice of the argument array reads holds the chunk. -/
theorem in_buf1 (ci : ℕ) (h : ci < 64) (off : Fin 2 → ℕ) (inb : ∀ a, off a + S32x512.size a ≤ S65536x512.size a) (hoff : off = ![4096 * (L 1).val + 2048 * (L 0).val + 32 * ci, 0]) (f0 : FVec F S32x512 .f32) :
    View.write (Elt F) (b1 : Memref sig .scVector .vmem S32x512 .f32).view f0 (ReadAs.apply (Val := Elt F) ReadAs.same (((imgV : Memref sig .scVector .hbm S65536x512 .f32).slice (Rect.unit (s := S65536x512) off S32x512.size inb) (fun _ => rfl)).view.read (Elt F) (m (iLoc d)))) Finset.univ
      = (landC m d L ci : FVec F S32x512 .f32) := by
  rw [← land_eq m d L ci h off inb hoff]
  exact View.write_whole_univ (Val := Elt F) (cc0_scratch1 : Ref sig .scVector) f0 _

/-- What an incoming copy into staging buffer 1 delivers: the buffer at the chunk, and the chunk of the argument back. -/
theorem in_deliver1 (ci : ℕ) (h : ci < 64) (off : Fin 2 → ℕ) (inb : ∀ a, off a + S32x512.size a ≤ S65536x512.size a) (hoff : off = ![4096 * (L 1).val + 2048 * (L 0).val + 32 * ci, 0]) (f0 : FVec F S32x512 .f32) :
    (iprop(((b1 : Memref sig .scVector .vmem S32x512 .f32).view.loc (thrV d L) ↦{fullShare} View.write (Elt F) (b1 : Memref sig .scVector .vmem S32x512 .f32).view f0 (ReadAs.apply (Val := Elt F) ReadAs.same (((imgV : Memref sig .scVector .hbm S65536x512 .f32).slice (Rect.unit (s := S65536x512) off S32x512.size inb) (fun _ => rfl)).view.read (Elt F) (m (iLoc d)))) Finset.univ)
        ∗ (((imgV : Memref sig .scVector .hbm S65536x512 .f32).slice (Rect.unit (s := S65536x512) off S32x512.size inb) (fun _ => rfl)).view.loc (thrV d L) ↦[((imgV : Memref sig .scVector .hbm S65536x512 .f32).slice (Rect.unit (s := S65536x512) off S32x512.size inb) (fun _ => rfl)).view.set]{fullShare} m (iLoc d))) : sProp (MM F))
      ⊢ iprop(((b1 : Memref sig .scVector .vmem S32x512 .f32).view.loc (thrV d L) ↦{fullShare} (landC m d L ci : FVec F S32x512 .f32)) ∗ imgChunk m d L ci) := by
  rw [in_buf1 m d L ci h off inb hoff f0, in_src m d L ci h off inb hoff]

/-- The incoming copy of chunk `ci` into staging buffer 1, in flight at that delivery, is the invariant's flight. -/
theorem flIn1_of (ci : ℕ) (h : ci < 64) (off : Fin 2 → ℕ) (inb : ∀ a, off a + S32x512.size a ≤ S65536x512.size a) (hoff : off = ![4096 * (L 1).val + 2048 * (L 0).val + 32 * ci, 0]) (f0 : FVec F S32x512 .f32) :
    Transfers.Flight countersEmb (thrV d L) (SemLoc.dma cc0_scratch5.sem) (default : HIx 1) 524288
      (iprop(((b1 : Memref sig .scVector .vmem S32x512 .f32).view.loc (thrV d L) ↦{fullShare} View.write (Elt F) (b1 : Memref sig .scVector .vmem S32x512 .f32).view f0 (ReadAs.apply (Val := Elt F) ReadAs.same (((imgV : Memref sig .scVector .hbm S65536x512 .f32).slice (Rect.unit (s := S65536x512) off S32x512.size inb) (fun _ => rfl)).view.read (Elt F) (m (iLoc d)))) Finset.univ)
        ∗ (((imgV : Memref sig .scVector .hbm S65536x512 .f32).slice (Rect.unit (s := S65536x512) off S32x512.size inb) (fun _ => rfl)).view.loc (thrV d L) ↦[((imgV : Memref sig .scVector .hbm S65536x512 .f32).slice (Rect.unit (s := S65536x512) off S32x512.size inb) (fun _ => rfl)).view.set]{fullShare} m (iLoc d))) : sProp (MM F))
      ⊢ FlIn1 m d L ci := by
  unfold FlIn1
  exact Transfers.Flight_mono _ _ (in_deliver1 m d L ci h off inb hoff f0)

/-- Staging buffer 2 written whole with what the chunk's slice of the argument array reads holds the chunk. -/
theorem in_buf2 (ci : ℕ) (h : ci < 64) (off : Fin 2 → ℕ) (inb : ∀ a, off a + S32x512.size a ≤ S65536x512.size a) (hoff : off = ![4096 * (L 1).val + 2048 * (L 0).val + 32 * ci, 0]) (f0 : FVec F S32x512 .f32) :
    View.write (Elt F) (b2 : Memref sig .scVector .vmem S32x512 .f32).view f0 (ReadAs.apply (Val := Elt F) ReadAs.same (((imgV : Memref sig .scVector .hbm S65536x512 .f32).slice (Rect.unit (s := S65536x512) off S32x512.size inb) (fun _ => rfl)).view.read (Elt F) (m (iLoc d)))) Finset.univ
      = (landC m d L ci : FVec F S32x512 .f32) := by
  rw [← land_eq m d L ci h off inb hoff]
  exact View.write_whole_univ (Val := Elt F) (cc0_scratch2 : Ref sig .scVector) f0 _

/-- What an incoming copy into staging buffer 2 delivers: the buffer at the chunk, and the chunk of the argument back. -/
theorem in_deliver2 (ci : ℕ) (h : ci < 64) (off : Fin 2 → ℕ) (inb : ∀ a, off a + S32x512.size a ≤ S65536x512.size a) (hoff : off = ![4096 * (L 1).val + 2048 * (L 0).val + 32 * ci, 0]) (f0 : FVec F S32x512 .f32) :
    (iprop(((b2 : Memref sig .scVector .vmem S32x512 .f32).view.loc (thrV d L) ↦{fullShare} View.write (Elt F) (b2 : Memref sig .scVector .vmem S32x512 .f32).view f0 (ReadAs.apply (Val := Elt F) ReadAs.same (((imgV : Memref sig .scVector .hbm S65536x512 .f32).slice (Rect.unit (s := S65536x512) off S32x512.size inb) (fun _ => rfl)).view.read (Elt F) (m (iLoc d)))) Finset.univ)
        ∗ (((imgV : Memref sig .scVector .hbm S65536x512 .f32).slice (Rect.unit (s := S65536x512) off S32x512.size inb) (fun _ => rfl)).view.loc (thrV d L) ↦[((imgV : Memref sig .scVector .hbm S65536x512 .f32).slice (Rect.unit (s := S65536x512) off S32x512.size inb) (fun _ => rfl)).view.set]{fullShare} m (iLoc d))) : sProp (MM F))
      ⊢ iprop(((b2 : Memref sig .scVector .vmem S32x512 .f32).view.loc (thrV d L) ↦{fullShare} (landC m d L ci : FVec F S32x512 .f32)) ∗ imgChunk m d L ci) := by
  rw [in_buf2 m d L ci h off inb hoff f0, in_src m d L ci h off inb hoff]

/-- The incoming copy of chunk `ci` into staging buffer 2, in flight at that delivery, is the invariant's flight. -/
theorem flIn2_of (ci : ℕ) (h : ci < 64) (off : Fin 2 → ℕ) (inb : ∀ a, off a + S32x512.size a ≤ S65536x512.size a) (hoff : off = ![4096 * (L 1).val + 2048 * (L 0).val + 32 * ci, 0]) (f0 : FVec F S32x512 .f32) :
    Transfers.Flight countersEmb (thrV d L) (SemLoc.dma cc0_scratch6.sem) (default : HIx 1) 524288
      (iprop(((b2 : Memref sig .scVector .vmem S32x512 .f32).view.loc (thrV d L) ↦{fullShare} View.write (Elt F) (b2 : Memref sig .scVector .vmem S32x512 .f32).view f0 (ReadAs.apply (Val := Elt F) ReadAs.same (((imgV : Memref sig .scVector .hbm S65536x512 .f32).slice (Rect.unit (s := S65536x512) off S32x512.size inb) (fun _ => rfl)).view.read (Elt F) (m (iLoc d)))) Finset.univ)
        ∗ (((imgV : Memref sig .scVector .hbm S65536x512 .f32).slice (Rect.unit (s := S65536x512) off S32x512.size inb) (fun _ => rfl)).view.loc (thrV d L) ↦[((imgV : Memref sig .scVector .hbm S65536x512 .f32).slice (Rect.unit (s := S65536x512) off S32x512.size inb) (fun _ => rfl)).view.set]{fullShare} m (iLoc d))) : sProp (MM F))
      ⊢ FlIn2 m d L ci := by
  unfold FlIn2
  exact Transfers.Flight_mono _ _ (in_deliver2 m d L ci h off inb hoff f0)

/-- Staging buffer 3 written whole with what the chunk's slice of the argument array reads holds the chunk. -/
theorem in_buf3 (ci : ℕ) (h : ci < 64) (off : Fin 2 → ℕ) (inb : ∀ a, off a + S32x512.size a ≤ S65536x512.size a) (hoff : off = ![4096 * (L 1).val + 2048 * (L 0).val + 32 * ci, 0]) (f0 : FVec F S32x512 .f32) :
    View.write (Elt F) (b3 : Memref sig .scVector .vmem S32x512 .f32).view f0 (ReadAs.apply (Val := Elt F) ReadAs.same (((imgV : Memref sig .scVector .hbm S65536x512 .f32).slice (Rect.unit (s := S65536x512) off S32x512.size inb) (fun _ => rfl)).view.read (Elt F) (m (iLoc d)))) Finset.univ
      = (landC m d L ci : FVec F S32x512 .f32) := by
  rw [← land_eq m d L ci h off inb hoff]
  exact View.write_whole_univ (Val := Elt F) (cc0_scratch3 : Ref sig .scVector) f0 _

/-- What an incoming copy into staging buffer 3 delivers: the buffer at the chunk, and the chunk of the argument back. -/
theorem in_deliver3 (ci : ℕ) (h : ci < 64) (off : Fin 2 → ℕ) (inb : ∀ a, off a + S32x512.size a ≤ S65536x512.size a) (hoff : off = ![4096 * (L 1).val + 2048 * (L 0).val + 32 * ci, 0]) (f0 : FVec F S32x512 .f32) :
    (iprop(((b3 : Memref sig .scVector .vmem S32x512 .f32).view.loc (thrV d L) ↦{fullShare} View.write (Elt F) (b3 : Memref sig .scVector .vmem S32x512 .f32).view f0 (ReadAs.apply (Val := Elt F) ReadAs.same (((imgV : Memref sig .scVector .hbm S65536x512 .f32).slice (Rect.unit (s := S65536x512) off S32x512.size inb) (fun _ => rfl)).view.read (Elt F) (m (iLoc d)))) Finset.univ)
        ∗ (((imgV : Memref sig .scVector .hbm S65536x512 .f32).slice (Rect.unit (s := S65536x512) off S32x512.size inb) (fun _ => rfl)).view.loc (thrV d L) ↦[((imgV : Memref sig .scVector .hbm S65536x512 .f32).slice (Rect.unit (s := S65536x512) off S32x512.size inb) (fun _ => rfl)).view.set]{fullShare} m (iLoc d))) : sProp (MM F))
      ⊢ iprop(((b3 : Memref sig .scVector .vmem S32x512 .f32).view.loc (thrV d L) ↦{fullShare} (landC m d L ci : FVec F S32x512 .f32)) ∗ imgChunk m d L ci) := by
  rw [in_buf3 m d L ci h off inb hoff f0, in_src m d L ci h off inb hoff]

/-- The incoming copy of chunk `ci` into staging buffer 3, in flight at that delivery, is the invariant's flight. -/
theorem flIn3_of (ci : ℕ) (h : ci < 64) (off : Fin 2 → ℕ) (inb : ∀ a, off a + S32x512.size a ≤ S65536x512.size a) (hoff : off = ![4096 * (L 1).val + 2048 * (L 0).val + 32 * ci, 0]) (f0 : FVec F S32x512 .f32) :
    Transfers.Flight countersEmb (thrV d L) (SemLoc.dma cc0_scratch7.sem) (default : HIx 1) 524288
      (iprop(((b3 : Memref sig .scVector .vmem S32x512 .f32).view.loc (thrV d L) ↦{fullShare} View.write (Elt F) (b3 : Memref sig .scVector .vmem S32x512 .f32).view f0 (ReadAs.apply (Val := Elt F) ReadAs.same (((imgV : Memref sig .scVector .hbm S65536x512 .f32).slice (Rect.unit (s := S65536x512) off S32x512.size inb) (fun _ => rfl)).view.read (Elt F) (m (iLoc d)))) Finset.univ)
        ∗ (((imgV : Memref sig .scVector .hbm S65536x512 .f32).slice (Rect.unit (s := S65536x512) off S32x512.size inb) (fun _ => rfl)).view.loc (thrV d L) ↦[((imgV : Memref sig .scVector .hbm S65536x512 .f32).slice (Rect.unit (s := S65536x512) off S32x512.size inb) (fun _ => rfl)).view.set]{fullShare} m (iLoc d))) : sProp (MM F))
      ⊢ FlIn3 m d L ci := by
  unfold FlIn3
  exact Transfers.Flight_mono _ _ (in_deliver3 m d L ci h off inb hoff f0)

/-! ## The outgoing copies in flight -/

/-- The outgoing copy of chunk `ci` out of staging buffer 0, in flight at its delivery (the slice of the result at the
    write, the buffer back), is the invariant's flight. -/
theorem out_flight0 (ci : ℕ) (h : ci < 64) (off : Fin 2 → ℕ) (inb : ∀ a, off a + S32x512.size a ≤ S65536x512.size a) (hoff : off = ![4096 * (L 1).val + 2048 * (L 0).val + 32 * ci, 0]) (fd : Buf (Elt F) (oLoc d)) :
    Transfers.Flight countersEmb (thrV d L) (SemLoc.dma cc0_scratch8.sem) (default : HIx 1) 524288
      (iprop((((outV : Memref sig .scVector .hbm S65536x512 .f32).slice (Rect.unit (s := S65536x512) off S32x512.size inb) (fun _ => rfl)).view.loc (thrV d L)
          ↦[((outV : Memref sig .scVector .hbm S65536x512 .f32).slice (Rect.unit (s := S65536x512) off S32x512.size inb) (fun _ => rfl)).view.set]{fullShare}
            ((outV : Memref sig .scVector .hbm S65536x512 .f32).slice (Rect.unit (s := S65536x512) off S32x512.size inb) (fun _ => rfl)).view.write (Elt F) fd (maskRows 32 (landC m d L ci)) Finset.univ)
        ∗ ((b0 : Memref sig .scVector .vmem S32x512 .f32).view.loc (thrV d L) ↦{fullShare} (maskRows 32 (landC m d L ci) : FVec F S32x512 .f32))) : sProp (MM F))
      ⊢ FlOut0 m d L ci := by
  unfold FlOut0
  exact Transfers.Flight_mono _ _ (sep_mono (out_deliver m d L ci h off inb hoff fd) .rfl)

/-- The same with the write spelt as a one-piece list of writes. -/
theorem out_flight0_list (ci : ℕ) (h : ci < 64) (off : Fin 2 → ℕ) (inb : ∀ a, off a + S32x512.size a ≤ S65536x512.size a) (hoff : off = ![4096 * (L 1).val + 2048 * (L 0).val + 32 * ci, 0]) (fd : Buf (Elt F) (oLoc d)) :
    Transfers.Flight countersEmb (thrV d L) (SemLoc.dma cc0_scratch8.sem) (default : HIx 1) 524288
      (iprop((((outV : Memref sig .scVector .hbm S65536x512 .f32).slice (Rect.unit (s := S65536x512) off S32x512.size inb) (fun _ => rfl)).view.loc (thrV d L)
          ↦[((outV : Memref sig .scVector .hbm S65536x512 .f32).slice (Rect.unit (s := S65536x512) off S32x512.size inb) (fun _ => rfl)).view.set]{fullShare}
            ((outV : Memref sig .scVector .hbm S65536x512 .f32).slice (Rect.unit (s := S65536x512) off S32x512.size inb) (fun _ => rfl)).view.writes (Elt F) fd [⟨Rect.whole S32x512, maskRows 32 (landC m d L ci)⟩])
        ∗ ((b0 : Memref sig .scVector .vmem S32x512 .f32).view.loc (thrV d L) ↦{fullShare} (maskRows 32 (landC m d L ci) : FVec F S32x512 .f32))) : sProp (MM F))
      ⊢ FlOut0 m d L ci := by
  unfold FlOut0
  exact Transfers.Flight_mono _ _ (sep_mono (out_deliver_list m d L ci h off inb hoff fd) .rfl)

/-- The outgoing copy of chunk `ci` out of staging buffer 1, in flight at its delivery (the slice of the result at the
    write, the buffer back), is the invariant's flight. -/
theorem out_flight1 (ci : ℕ) (h : ci < 64) (off : Fin 2 → ℕ) (inb : ∀ a, off a + S32x512.size a ≤ S65536x512.size a) (hoff : off = ![4096 * (L 1).val + 2048 * (L 0).val + 32 * ci, 0]) (fd : Buf (Elt F) (oLoc d)) :
    Transfers.Flight countersEmb (thrV d L) (SemLoc.dma cc0_scratch9.sem) (default : HIx 1) 524288
      (iprop((((outV : Memref sig .scVector .hbm S65536x512 .f32).slice (Rect.unit (s := S65536x512) off S32x512.size inb) (fun _ => rfl)).view.loc (thrV d L)
          ↦[((outV : Memref sig .scVector .hbm S65536x512 .f32).slice (Rect.unit (s := S65536x512) off S32x512.size inb) (fun _ => rfl)).view.set]{fullShare}
            ((outV : Memref sig .scVector .hbm S65536x512 .f32).slice (Rect.unit (s := S65536x512) off S32x512.size inb) (fun _ => rfl)).view.write (Elt F) fd (maskRows 32 (landC m d L ci)) Finset.univ)
        ∗ ((b1 : Memref sig .scVector .vmem S32x512 .f32).view.loc (thrV d L) ↦{fullShare} (maskRows 32 (landC m d L ci) : FVec F S32x512 .f32))) : sProp (MM F))
      ⊢ FlOut1 m d L ci := by
  unfold FlOut1
  exact Transfers.Flight_mono _ _ (sep_mono (out_deliver m d L ci h off inb hoff fd) .rfl)

/-- The same with the write spelt as a one-piece list of writes. -/
theorem out_flight1_list (ci : ℕ) (h : ci < 64) (off : Fin 2 → ℕ) (inb : ∀ a, off a + S32x512.size a ≤ S65536x512.size a) (hoff : off = ![4096 * (L 1).val + 2048 * (L 0).val + 32 * ci, 0]) (fd : Buf (Elt F) (oLoc d)) :
    Transfers.Flight countersEmb (thrV d L) (SemLoc.dma cc0_scratch9.sem) (default : HIx 1) 524288
      (iprop((((outV : Memref sig .scVector .hbm S65536x512 .f32).slice (Rect.unit (s := S65536x512) off S32x512.size inb) (fun _ => rfl)).view.loc (thrV d L)
          ↦[((outV : Memref sig .scVector .hbm S65536x512 .f32).slice (Rect.unit (s := S65536x512) off S32x512.size inb) (fun _ => rfl)).view.set]{fullShare}
            ((outV : Memref sig .scVector .hbm S65536x512 .f32).slice (Rect.unit (s := S65536x512) off S32x512.size inb) (fun _ => rfl)).view.writes (Elt F) fd [⟨Rect.whole S32x512, maskRows 32 (landC m d L ci)⟩])
        ∗ ((b1 : Memref sig .scVector .vmem S32x512 .f32).view.loc (thrV d L) ↦{fullShare} (maskRows 32 (landC m d L ci) : FVec F S32x512 .f32))) : sProp (MM F))
      ⊢ FlOut1 m d L ci := by
  unfold FlOut1
  exact Transfers.Flight_mono _ _ (sep_mono (out_deliver_list m d L ci h off inb hoff fd) .rfl)

/-- The outgoing copy of chunk `ci` out of staging buffer 2, in flight at its delivery (the slice of the result at the
    write, the buffer back), is the invariant's flight. -/
theorem out_flight2 (ci : ℕ) (h : ci < 64) (off : Fin 2 → ℕ) (inb : ∀ a, off a + S32x512.size a ≤ S65536x512.size a) (hoff : off = ![4096 * (L 1).val + 2048 * (L 0).val + 32 * ci, 0]) (fd : Buf (Elt F) (oLoc d)) :
    Transfers.Flight countersEmb (thrV d L) (SemLoc.dma cc0_scratch10.sem) (default : HIx 1) 524288
      (iprop((((outV : Memref sig .scVector .hbm S65536x512 .f32).slice (Rect.unit (s := S65536x512) off S32x512.size inb) (fun _ => rfl)).view.loc (thrV d L)
          ↦[((outV : Memref sig .scVector .hbm S65536x512 .f32).slice (Rect.unit (s := S65536x512) off S32x512.size inb) (fun _ => rfl)).view.set]{fullShare}
            ((outV : Memref sig .scVector .hbm S65536x512 .f32).slice (Rect.unit (s := S65536x512) off S32x512.size inb) (fun _ => rfl)).view.write (Elt F) fd (maskRows 32 (landC m d L ci)) Finset.univ)
        ∗ ((b2 : Memref sig .scVector .vmem S32x512 .f32).view.loc (thrV d L) ↦{fullShare} (maskRows 32 (landC m d L ci) : FVec F S32x512 .f32))) : sProp (MM F))
      ⊢ FlOut2 m d L ci := by
  unfold FlOut2
  exact Transfers.Flight_mono _ _ (sep_mono (out_deliver m d L ci h off inb hoff fd) .rfl)

/-- The same with the write spelt as a one-piece list of writes. -/
theorem out_flight2_list (ci : ℕ) (h : ci < 64) (off : Fin 2 → ℕ) (inb : ∀ a, off a + S32x512.size a ≤ S65536x512.size a) (hoff : off = ![4096 * (L 1).val + 2048 * (L 0).val + 32 * ci, 0]) (fd : Buf (Elt F) (oLoc d)) :
    Transfers.Flight countersEmb (thrV d L) (SemLoc.dma cc0_scratch10.sem) (default : HIx 1) 524288
      (iprop((((outV : Memref sig .scVector .hbm S65536x512 .f32).slice (Rect.unit (s := S65536x512) off S32x512.size inb) (fun _ => rfl)).view.loc (thrV d L)
          ↦[((outV : Memref sig .scVector .hbm S65536x512 .f32).slice (Rect.unit (s := S65536x512) off S32x512.size inb) (fun _ => rfl)).view.set]{fullShare}
            ((outV : Memref sig .scVector .hbm S65536x512 .f32).slice (Rect.unit (s := S65536x512) off S32x512.size inb) (fun _ => rfl)).view.writes (Elt F) fd [⟨Rect.whole S32x512, maskRows 32 (landC m d L ci)⟩])
        ∗ ((b2 : Memref sig .scVector .vmem S32x512 .f32).view.loc (thrV d L) ↦{fullShare} (maskRows 32 (landC m d L ci) : FVec F S32x512 .f32))) : sProp (MM F))
      ⊢ FlOut2 m d L ci := by
  unfold FlOut2
  exact Transfers.Flight_mono _ _ (sep_mono (out_deliver_list m d L ci h off inb hoff fd) .rfl)

/-- The outgoing copy of chunk `ci` out of staging buffer 3, in flight at its delivery (the slice of the result at the
    write, the buffer back), is the invariant's flight. -/
theorem out_flight3 (ci : ℕ) (h : ci < 64) (off : Fin 2 → ℕ) (inb : ∀ a, off a + S32x512.size a ≤ S65536x512.size a) (hoff : off = ![4096 * (L 1).val + 2048 * (L 0).val + 32 * ci, 0]) (fd : Buf (Elt F) (oLoc d)) :
    Transfers.Flight countersEmb (thrV d L) (SemLoc.dma cc0_scratch11.sem) (default : HIx 1) 524288
      (iprop((((outV : Memref sig .scVector .hbm S65536x512 .f32).slice (Rect.unit (s := S65536x512) off S32x512.size inb) (fun _ => rfl)).view.loc (thrV d L)
          ↦[((outV : Memref sig .scVector .hbm S65536x512 .f32).slice (Rect.unit (s := S65536x512) off S32x512.size inb) (fun _ => rfl)).view.set]{fullShare}
            ((outV : Memref sig .scVector .hbm S65536x512 .f32).slice (Rect.unit (s := S65536x512) off S32x512.size inb) (fun _ => rfl)).view.write (Elt F) fd (maskRows 32 (landC m d L ci)) Finset.univ)
        ∗ ((b3 : Memref sig .scVector .vmem S32x512 .f32).view.loc (thrV d L) ↦{fullShare} (maskRows 32 (landC m d L ci) : FVec F S32x512 .f32))) : sProp (MM F))
      ⊢ FlOut3 m d L ci := by
  unfold FlOut3
  exact Transfers.Flight_mono _ _ (sep_mono (out_deliver m d L ci h off inb hoff fd) .rfl)

/-- The same with the write spelt as a one-piece list of writes. -/
theorem out_flight3_list (ci : ℕ) (h : ci < 64) (off : Fin 2 → ℕ) (inb : ∀ a, off a + S32x512.size a ≤ S65536x512.size a) (hoff : off = ![4096 * (L 1).val + 2048 * (L 0).val + 32 * ci, 0]) (fd : Buf (Elt F) (oLoc d)) :
    Transfers.Flight countersEmb (thrV d L) (SemLoc.dma cc0_scratch11.sem) (default : HIx 1) 524288
      (iprop((((outV : Memref sig .scVector .hbm S65536x512 .f32).slice (Rect.unit (s := S65536x512) off S32x512.size inb) (fun _ => rfl)).view.loc (thrV d L)
          ↦[((outV : Memref sig .scVector .hbm S65536x512 .f32).slice (Rect.unit (s := S65536x512) off S32x512.size inb) (fun _ => rfl)).view.set]{fullShare}
            ((outV : Memref sig .scVector .hbm S65536x512 .f32).slice (Rect.unit (s := S65536x512) off S32x512.size inb) (fun _ => rfl)).view.writes (Elt F) fd [⟨Rect.whole S32x512, maskRows 32 (landC m d L ci)⟩])
        ∗ ((b3 : Memref sig .scVector .vmem S32x512 .f32).view.loc (thrV d L) ↦{fullShare} (maskRows 32 (landC m d L ci) : FVec F S32x512 .f32))) : sProp (MM F))
      ⊢ FlOut3 m d L ci := by
  unfold FlOut3
  exact Transfers.Flight_mono _ _ (sep_mono (out_deliver_list m d L ci h off inb hoff fd) .rfl)

/-! ## The same deliveries in the spellings a run leaves -/

/-- The chunk's slice of the result after an outgoing copy's wait, its write listed over arbitrary prior contents. -/
theorem out_deliver_junk [∀ e, Nonempty (Elt F e)] (ci : ℕ) (h : ci < 64) (off : Fin 2 → ℕ) (inb : ∀ a, off a + S32x512.size a ≤ S65536x512.size a) (hoff : off = ![4096 * (L 1).val + 2048 * (L 0).val + 32 * ci, 0]) :
    (((outV : Memref sig .scVector .hbm S65536x512 .f32).slice (Rect.unit (s := S65536x512) off S32x512.size inb) (fun _ => rfl)).view.loc (thrV d L)
        ↦[((outV : Memref sig .scVector .hbm S65536x512 .f32).slice (Rect.unit (s := S65536x512) off S32x512.size inb) (fun _ => rfl)).view.set]{fullShare}
          ((outV : Memref sig .scVector .hbm S65536x512 .f32).slice (Rect.unit (s := S65536x512) off S32x512.size inb) (fun _ => rfl)).view.writes (Elt F) ((outV : Memref sig .scVector .hbm S65536x512 .f32).slice (Rect.unit (s := S65536x512) off S32x512.size inb) (fun _ => rfl)).view.junk [⟨Rect.whole S32x512, maskRows 32 (landC m d L ci)⟩] : sProp (MM F))
      ⊢ outChunk d L (outFinal m d) ci :=
  out_deliver_list m d L ci h off inb hoff _

/-- Staging buffer 0 held by its own elements is the buffer held whole. -/
theorem b0_own (g : FVec F S32x512 .f32) :
    ((b0 : Memref sig .scVector .vmem S32x512 .f32).view.loc (thrV d L) ↦[(b0 : Memref sig .scVector .vmem S32x512 .f32).view.set]{fullShare} g : sProp (MM F))
      = ((b0 : Memref sig .scVector .vmem S32x512 .f32).view.loc (thrV d L) ↦{fullShare} g) := by
  rw [show (b0 : Memref sig .scVector .vmem S32x512 .f32).view.set = Finset.univ from View.set_whole (cc0_scratch0 : Ref sig .scVector)]

/-- The outgoing copy of chunk `ci` out of staging buffer 0 in flight, the write listed and the buffer held by its own
    elements, is the invariant's flight. -/
theorem out_flight0_exec (ci : ℕ) (h : ci < 64) (off : Fin 2 → ℕ) (inb : ∀ a, off a + S32x512.size a ≤ S65536x512.size a) (hoff : off = ![4096 * (L 1).val + 2048 * (L 0).val + 32 * ci, 0]) (fd : Buf (Elt F) (oLoc d)) :
    Transfers.Flight countersEmb (thrV d L) (SemLoc.dma cc0_scratch8.sem) (default : HIx 1) 524288
      (iprop((((outV : Memref sig .scVector .hbm S65536x512 .f32).slice (Rect.unit (s := S65536x512) off S32x512.size inb) (fun _ => rfl)).view.loc (thrV d L)
          ↦[((outV : Memref sig .scVector .hbm S65536x512 .f32).slice (Rect.unit (s := S65536x512) off S32x512.size inb) (fun _ => rfl)).view.set]{fullShare}
            ((outV : Memref sig .scVector .hbm S65536x512 .f32).slice (Rect.unit (s := S65536x512) off S32x512.size inb) (fun _ => rfl)).view.writes (Elt F) fd [⟨Rect.whole S32x512, maskRows 32 (landC m d L ci)⟩])
        ∗ ((b0 : Memref sig .scVector .vmem S32x512 .f32).view.loc (thrV d L) ↦[(b0 : Memref sig .scVector .vmem S32x512 .f32).view.set]{fullShare} (maskRows 32 (landC m d L ci) : FVec F S32x512 .f32))) : sProp (MM F))
      ⊢ FlOut0 m d L ci := by
  rw [b0_own]
  exact out_flight0_list m d L ci h off inb hoff fd

/-- Staging buffer 1 held by its own elements is the buffer held whole. -/
theorem b1_own (g : FVec F S32x512 .f32) :
    ((b1 : Memref sig .scVector .vmem S32x512 .f32).view.loc (thrV d L) ↦[(b1 : Memref sig .scVector .vmem S32x512 .f32).view.set]{fullShare} g : sProp (MM F))
      = ((b1 : Memref sig .scVector .vmem S32x512 .f32).view.loc (thrV d L) ↦{fullShare} g) := by
  rw [show (b1 : Memref sig .scVector .vmem S32x512 .f32).view.set = Finset.univ from View.set_whole (cc0_scratch1 : Ref sig .scVector)]

/-- The outgoing copy of chunk `ci` out of staging buffer 1 in flight, the write listed and the buffer held by its own
    elements, is the invariant's flight. -/
theorem out_flight1_exec (ci : ℕ) (h : ci < 64) (off : Fin 2 → ℕ) (inb : ∀ a, off a + S32x512.size a ≤ S65536x512.size a) (hoff : off = ![4096 * (L 1).val + 2048 * (L 0).val + 32 * ci, 0]) (fd : Buf (Elt F) (oLoc d)) :
    Transfers.Flight countersEmb (thrV d L) (SemLoc.dma cc0_scratch9.sem) (default : HIx 1) 524288
      (iprop((((outV : Memref sig .scVector .hbm S65536x512 .f32).slice (Rect.unit (s := S65536x512) off S32x512.size inb) (fun _ => rfl)).view.loc (thrV d L)
          ↦[((outV : Memref sig .scVector .hbm S65536x512 .f32).slice (Rect.unit (s := S65536x512) off S32x512.size inb) (fun _ => rfl)).view.set]{fullShare}
            ((outV : Memref sig .scVector .hbm S65536x512 .f32).slice (Rect.unit (s := S65536x512) off S32x512.size inb) (fun _ => rfl)).view.writes (Elt F) fd [⟨Rect.whole S32x512, maskRows 32 (landC m d L ci)⟩])
        ∗ ((b1 : Memref sig .scVector .vmem S32x512 .f32).view.loc (thrV d L) ↦[(b1 : Memref sig .scVector .vmem S32x512 .f32).view.set]{fullShare} (maskRows 32 (landC m d L ci) : FVec F S32x512 .f32))) : sProp (MM F))
      ⊢ FlOut1 m d L ci := by
  rw [b1_own]
  exact out_flight1_list m d L ci h off inb hoff fd

/-- Staging buffer 2 held by its own elements is the buffer held whole. -/
theorem b2_own (g : FVec F S32x512 .f32) :
    ((b2 : Memref sig .scVector .vmem S32x512 .f32).view.loc (thrV d L) ↦[(b2 : Memref sig .scVector .vmem S32x512 .f32).view.set]{fullShare} g : sProp (MM F))
      = ((b2 : Memref sig .scVector .vmem S32x512 .f32).view.loc (thrV d L) ↦{fullShare} g) := by
  rw [show (b2 : Memref sig .scVector .vmem S32x512 .f32).view.set = Finset.univ from View.set_whole (cc0_scratch2 : Ref sig .scVector)]

/-- The outgoing copy of chunk `ci` out of staging buffer 2 in flight, the write listed and the buffer held by its own
    elements, is the invariant's flight. -/
theorem out_flight2_exec (ci : ℕ) (h : ci < 64) (off : Fin 2 → ℕ) (inb : ∀ a, off a + S32x512.size a ≤ S65536x512.size a) (hoff : off = ![4096 * (L 1).val + 2048 * (L 0).val + 32 * ci, 0]) (fd : Buf (Elt F) (oLoc d)) :
    Transfers.Flight countersEmb (thrV d L) (SemLoc.dma cc0_scratch10.sem) (default : HIx 1) 524288
      (iprop((((outV : Memref sig .scVector .hbm S65536x512 .f32).slice (Rect.unit (s := S65536x512) off S32x512.size inb) (fun _ => rfl)).view.loc (thrV d L)
          ↦[((outV : Memref sig .scVector .hbm S65536x512 .f32).slice (Rect.unit (s := S65536x512) off S32x512.size inb) (fun _ => rfl)).view.set]{fullShare}
            ((outV : Memref sig .scVector .hbm S65536x512 .f32).slice (Rect.unit (s := S65536x512) off S32x512.size inb) (fun _ => rfl)).view.writes (Elt F) fd [⟨Rect.whole S32x512, maskRows 32 (landC m d L ci)⟩])
        ∗ ((b2 : Memref sig .scVector .vmem S32x512 .f32).view.loc (thrV d L) ↦[(b2 : Memref sig .scVector .vmem S32x512 .f32).view.set]{fullShare} (maskRows 32 (landC m d L ci) : FVec F S32x512 .f32))) : sProp (MM F))
      ⊢ FlOut2 m d L ci := by
  rw [b2_own]
  exact out_flight2_list m d L ci h off inb hoff fd

/-- Staging buffer 3 held by its own elements is the buffer held whole. -/
theorem b3_own (g : FVec F S32x512 .f32) :
    ((b3 : Memref sig .scVector .vmem S32x512 .f32).view.loc (thrV d L) ↦[(b3 : Memref sig .scVector .vmem S32x512 .f32).view.set]{fullShare} g : sProp (MM F))
      = ((b3 : Memref sig .scVector .vmem S32x512 .f32).view.loc (thrV d L) ↦{fullShare} g) := by
  rw [show (b3 : Memref sig .scVector .vmem S32x512 .f32).view.set = Finset.univ from View.set_whole (cc0_scratch3 : Ref sig .scVector)]

/-- The outgoing copy of chunk `ci` out of staging buffer 3 in flight, the write listed and the buffer held by its own
    elements, is the invariant's flight. -/
theorem out_flight3_exec (ci : ℕ) (h : ci < 64) (off : Fin 2 → ℕ) (inb : ∀ a, off a + S32x512.size a ≤ S65536x512.size a) (hoff : off = ![4096 * (L 1).val + 2048 * (L 0).val + 32 * ci, 0]) (fd : Buf (Elt F) (oLoc d)) :
    Transfers.Flight countersEmb (thrV d L) (SemLoc.dma cc0_scratch11.sem) (default : HIx 1) 524288
      (iprop((((outV : Memref sig .scVector .hbm S65536x512 .f32).slice (Rect.unit (s := S65536x512) off S32x512.size inb) (fun _ => rfl)).view.loc (thrV d L)
          ↦[((outV : Memref sig .scVector .hbm S65536x512 .f32).slice (Rect.unit (s := S65536x512) off S32x512.size inb) (fun _ => rfl)).view.set]{fullShare}
            ((outV : Memref sig .scVector .hbm S65536x512 .f32).slice (Rect.unit (s := S65536x512) off S32x512.size inb) (fun _ => rfl)).view.writes (Elt F) fd [⟨Rect.whole S32x512, maskRows 32 (landC m d L ci)⟩])
        ∗ ((b3 : Memref sig .scVector .vmem S32x512 .f32).view.loc (thrV d L) ↦[(b3 : Memref sig .scVector .vmem S32x512 .f32).view.set]{fullShare} (maskRows 32 (landC m d L ci) : FVec F S32x512 .f32))) : sProp (MM F))
      ⊢ FlOut3 m d L ci := by
  rw [b3_own]
  exact out_flight3_list m d L ci h off inb hoff fd

end Cert.Proof.KI

end
-- ==== Proof.KI.Group.lean ====
/-
  One group of the body's main loop: chunks 4g … 4g+3 of the task, each waited for in its staging buffer, zeroed in the
  disabled columns and sent on its way to the result, while the chunks two ahead start on their way in and the chunks
  two behind finish their way out.  The first group finds nothing on its way out and the last sends nothing more in, so
  the step is proved three times: for the first group, a middle one and the last.
-/
import proofs.«205590_g25494925869706_cont_9to1_307_11_alg».proof.Proof.KI.Common
import proofs.«205590_g25494925869706_cont_9to1_307_11_alg».proof.Proof.KI.Inv
import proofs.«205590_g25494925869706_cont_9to1_307_11_alg».proof.Proof.KI.Rows
import proofs.«205590_g25494925869706_cont_9to1_307_11_alg».proof.Proof.KI.Value

noncomputable section

namespace Cert.Proof.KI

open Cert.KernelIdeal Cert.KernelIdeal.Gen
open Cert.Proof.Spec (dis spec maskRows)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (m : (ℓ : Loc nD τ sig) → Buf (Elt F) ℓ)

omit [FloatOps F] in
/-- A chunk of the argument array in the spelling of a 32-row slice at the chunk's row. -/
theorem imgChunk_site (d : Dev nD) (L : grid0.Coords) (ci : ℕ) (h : ci < 64) (off : Fin 2 → ℕ) (inb : ∀ a, off a + S32x512.size a ≤ S65536x512.size a)
    (hoff : off = ![4096 * (L 1).val + 2048 * (L 0).val + 32 * ci, 0]) :
    imgChunk m d L ci
      = ((((imgV : Memref sig .scVector .hbm S65536x512 .f32).slice (Rect.unit (s := S65536x512) off S32x512.size inb) (fun _ => rfl)).view.loc (thrV d L))
          ↦[((imgV : Memref sig .scVector .hbm S65536x512 .f32).slice (Rect.unit (s := S65536x512) off S32x512.size inb) (fun _ => rfl)).view.set]{fullShare} m (iLoc d)) := by
  rw [pts_img]; unfold imgChunk; rw [chunkSet_of_off L ci h off inb hoff]

omit [FloatOps F] in
/-- A chunk of the result array in the spelling of a 32-row slice at the chunk's row. -/
theorem outChunk_site (d : Dev nD) (L : grid0.Coords) (f : Buf (Elt F) (oLoc d)) (ci : ℕ) (h : ci < 64) (off : Fin 2 → ℕ) (inb : ∀ a, off a + S32x512.size a ≤ S65536x512.size a)
    (hoff : off = ![4096 * (L 1).val + 2048 * (L 0).val + 32 * ci, 0]) :
    outChunk d L f ci
      = ((((outV : Memref sig .scVector .hbm S65536x512 .f32).slice (Rect.unit (s := S65536x512) off S32x512.size inb) (fun _ => rfl)).view.loc (thrV d L))
          ↦[((outV : Memref sig .scVector .hbm S65536x512 .f32).slice (Rect.unit (s := S65536x512) off S32x512.size inb) (fun _ => rfl)).view.set]{fullShare} f) := by
  rw [pts_out]; unfold outChunk; rw [chunkSet_of_off L ci h off inb hoff]

omit [FloatOps F] in
/-- A wait recorded at the kernels' index keeps the waits below the launch's bound. -/
theorem waits_ins {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with rfl | hp
  · exact .inr rfl
  · exact h p hp

set_option maxHeartbeats 3200000 in
theorem group_first (d : Dev nD) (L : grid0.Coords) (O : CellTallies nD τ sig (HIx 1)) (W : Waits sig (HIx 1)) (v2 : BitVec 32)
    (g : Fin k0_t1_loop.trips) (acc : Unit) (hg0 : g.val = 0) :
    ginv m d L O W g.val acc
      ⊢ wp frame (wpE (defs₀ (F := F)) 𝒱₀ (thrV d L) none) Set.univ
          (k0_t1_body L imgV (Memref.isWhole_whole _) outV (Memref.isWhole_whole _) b0 (Memref.isWhole_whole _) b1 (Memref.isWhole_whole _) b2 (Memref.isWhole_whole _) b3 (Memref.isWhole_whole _) cc0_scratch4 cc0_scratch5 cc0_scratch6 cc0_scratch7 cc0_scratch8 cc0_scratch9 cc0_scratch10 cc0_scratch11 v2 g acc)
          (ginv m d L O W (g.val + 1)) := by
  have hc1 : ¬ k0_cond1 g = 1#1 := fun h => by have := (cond1_iff g).mp h; omega
  have hc2 : k0_cond2 g = 1#1 := cond2_all g
  have hc3 : ¬ k0_cond3 g = 1#1 := fun h => by have := (cond3_iff g).mp h; omega
  have hc4 : k0_cond4 g = 1#1 := cond4_all g
  have hc5 : k0_cond5 g = 1#1 := cond5_all g
  have hc6 : k0_cond6 g = 1#1 := (cond6_iff g).mpr (by omega)
  have hc7 : k0_cond7 g = 1#1 := cond7_all g
  have hc8 : k0_cond8 g = 1#1 := (cond8_iff g).mpr (by omega)
  unfold ginv
  rw [show inSide m d L g.val = iprop(FlIn0 m d L (4 * g.val) ∗ FlIn1 m d L (4 * g.val + 1)) from if_pos (by omega),
    show outSide m d L g.val = iprop(anyB2 d L ∗ anyB3 d L ∗ semVal (cellOf d L cc0_scratch10) 0 ∗ semVal (cellOf d L cc0_scratch11) 0) from if_pos hg0]
  rw [bigSep_Ico_head (show 4 * g.val + 2 < 64 by omega), bigSep_Ico_head (show 4 * g.val + 2 + 1 < 64 by omega),
    bigSep_Ico_head (show 4 * g.val + 2 + 1 + 1 < 64 by omega), bigSep_Ico_head (show 4 * g.val + 2 + 1 + 1 + 1 < 64 by omega),
    bigSep_Ico_head (show 4 * g.val < 64 by omega), bigSep_Ico_head (show 4 * g.val + 1 < 64 by omega),
    bigSep_Ico_head (show 4 * g.val + 1 + 1 < 64 by omega), bigSep_Ico_head (show 4 * g.val + 1 + 1 + 1 < 64 by omega)]
  unfold FlIn0 FlIn1
  iintro ⟨#Hmw, HIdone, ⟨HIa, HIb, HIc, HId, HItodo⟩, HOdone, ⟨HOa, HOb, HOc, HOd, HOtodo⟩, ⟨HF0, HF1⟩, ⟨⟨%fb2, HB2⟩, ⟨%fb3, HB3⟩, Hs10, Hs11⟩, Hs6, Hs7, Hs8, Hs9, %W', %hW', HO⟩
  -- the chunks the group sends, in the body's spelling
  ihave HIa := (Entails.of_eq (imgChunk_site m d L (4 * g.val + 2) (by omega) _ (k0_off3_inb L g hc2) ((k0_off3_eq L g).trans (off_congr (by omega))))) $$ HIa
  ihave HIb := (Entails.of_eq (imgChunk_site m d L (4 * g.val + 2 + 1) (by omega) _ (k0_off12_inb L g hc4) ((k0_off12_eq L g).trans (off_congr (by omega))))) $$ HIb
  ihave HIc := (Entails.of_eq (imgChunk_site m d L (4 * g.val + 2 + 1 + 1) (by omega) _ (k0_off20_inb L g hc6) ((k0_off20_eq L g).trans (off_congr (by omega))))) $$ HIc
  ihave HId := (Entails.of_eq (imgChunk_site m d L (4 * g.val + 2 + 1 + 1 + 1) (by omega) _ (k0_off28_inb L g hc8) ((k0_off28_eq L g).trans (off_congr (by omega))))) $$ HId
  ihave HOa := (Entails.of_eq (outChunk_site d L _ (4 * g.val) (by omega) _ (k0_off4_inb L g 0) ((k0_off4_eq L g 0).trans (off_congr (by simp <;> omega))))) $$ HOa
  ihave HOb := (Entails.of_eq (outChunk_site d L _ (4 * g.val + 1) (by omega) _ (k0_off4_inb L g 1) ((k0_off4_eq L g 1).trans (off_congr (by simp <;> omega))))) $$ HOb
  ihave HOc := (Entails.of_eq (outChunk_site d L _ (4 * g.val + 1 + 1) (by omega) _ (k0_off4_inb L g 2) ((k0_off4_eq L g 2).trans (off_congr (by simp <;> omega))))) $$ HOc
  ihave HOd := (Entails.of_eq (outChunk_site d L _ (4 * g.val + 1 + 1 + 1) (by omega) _ (k0_off4_inb L g 3) ((k0_off4_eq L g 3).trans (off_congr (by simp <;> omega))))) $$ HOd
  sl_unfold [k0_t1_body]
  sl_exec
  -- chunk 4g: its rows zeroed in buffer 0
  sl_for (rinv0 d L (landC m d L (4 * g.val))) $$ [HF0_dst]
  · intro k _; exact rows0_step d L _ v2 _ _ g k
  · unfold rinv0; rw [Cert.Proof.Spec.maskRows_zero]; iexact HF0_dst
  iintro %_ Hb0
  unfold rinv0
  rw [show Scf.trips k0_t2_loop.lb k0_t2_loop.ub k0_t2_loop.st = 32 from k0_t2_trips]
  sl_exec
  -- chunk 4g+1 in buffer 1
  sl_for (rinv1 d L (landC m d L (4 * g.val + 1))) $$ [HF1_dst]
  · intro k _; exact rows1_step d L _ v2 g _ _ k
  · unfold rinv1; rw [Cert.Proof.Spec.maskRows_zero]; iexact HF1_dst
  iintro %_ Hb1
  unfold rinv1
  rw [show Scf.trips k0_t3_loop.lb k0_t3_loop.ub k0_t3_loop.st = 32 from k0_t3_trips]
  sl_exec
  -- chunk 4g+2 in buffer 2
  ihave Hb2 := (pts_of_eq ((View.write_whole_univ _ _ _).trans (land_eq m d L (4 * g.val + 2) (by omega) _ (k0_off3_inb L g hc2) ((k0_off3_eq L g).trans (off_congr (by omega)))))) $$ HB2
  sl_for (rinv2 d L (landC m d L (4 * g.val + 2))) $$ [Hb2]
  · intro k _; exact rows2_step d L _ v2 g _ _ k
  · unfold rinv2; rw [Cert.Proof.Spec.maskRows_zero]; iexact Hb2
  iintro %_ Hb2
  unfold rinv2
  rw [show Scf.trips k0_t4_loop.lb k0_t4_loop.ub k0_t4_loop.st = 32 from k0_t4_trips]
  sl_exec
  -- chunk 4g+3 in buffer 3
  ihave Hb3 := (pts_of_eq ((View.write_whole_univ _ _ _).trans (land_eq m d L (4 * g.val + 3) (by omega) _ (k0_off12_inb L g hc4) ((k0_off12_eq L g).trans (off_congr (by omega)))))) $$ HB3
  sl_for (rinv3 d L (landC m d L (4 * g.val + 3))) $$ [Hb3]
  · intro k _; exact rows3_step d L _ k
  · unfold rinv3; rw [Cert.Proof.Spec.maskRows_zero]; iexact Hb3
  iintro %_ Hb3
  unfold rinv3
  rw [show Scf.trips k0_t5_loop.lb k0_t5_loop.ub k0_t5_loop.st = 32 from k0_t5_trips]
  sl_exec
  sl_step
  isplitr; · iexact Hmw
  -- the argument's chunks below 4(g+1) are back
  isplitl [HIdone HF0_src HF1_src HIa HIb]
  · rw [show 4 * (g.val + 1) = 4 * g.val + 1 + 1 + 1 + 1 from by omega, bigSep_Ico_last (Nat.zero_le _), bigSep_Ico_last (Nat.zero_le _),
      bigSep_Ico_last (Nat.zero_le _), bigSep_Ico_last (Nat.zero_le _)]
    isplitl [HIb]
    · iapply (Entails.of_eq (imgChunk_site m d L (4 * g.val + 1 + 1 + 1) (by omega) _ (k0_off12_inb L g hc4) ((k0_off12_eq L g).trans (off_congr (by omega)))).symm); iexact HIb
    isplitl [HIa]
    · iapply (Entails.of_eq (imgChunk_site m d L (4 * g.val + 1 + 1) (by omega) _ (k0_off3_inb L g hc2) ((k0_off3_eq L g).trans (off_congr (by omega)))).symm); iexact HIa
    isplitl [HF1_src]; · iexact HF1_src
    isplitl [HF0_src]; · iexact HF0_src
    iexact HIdone
  isplitl [HItodo]
  · rw [show 4 * (g.val + 1) + 2 = 4 * g.val + 2 + 1 + 1 + 1 + 1 from by omega]; iexact HItodo
  -- the result's chunks below 4(g+1)-2 are final
  isplitl [HOdone HOa HOb]
  · rw [show 4 * (g.val + 1) - 2 = 4 * g.val + 1 + 1 from by omega, bigSep_Ico_last (Nat.zero_le _), bigSep_Ico_last (Nat.zero_le _)]
    isplitl [HOb]
    · iapply (out_deliver_list m d L (4 * g.val + 1) (by omega) _ (k0_off4_inb L g 1) ((k0_off4_eq L g 1).trans (off_congr (by simp <;> omega))) _); iexact HOb
    isplitl [HOa]
    · iapply (out_deliver_list m d L (4 * g.val) (by omega) _ (k0_off4_inb L g 0) ((k0_off4_eq L g 0).trans (off_congr (by simp <;> omega))) _); iexact HOa
    rw [show Finset.Ico 0 (4 * g.val) = Finset.Ico 0 (4 * g.val - 2) from by rw [show 4 * g.val - 2 = 4 * g.val from by omega]]
    iexact HOdone
  isplitl [HOtodo]
  · rw [show 4 * (g.val + 1) = 4 * g.val + 1 + 1 + 1 + 1 from by omega]; iexact HOtodo
  -- chunks 4(g+1), 4(g+1)+1 on their way in
  isplitl [HF0 HF1]
  · rw [show inSide m d L (g.val + 1) = iprop(FlIn0 m d L (4 * (g.val + 1)) ∗ FlIn1 m d L (4 * (g.val + 1) + 1)) from if_pos (by omega)]
    isplitl [HF0]
    · iapply (flIn0_of m d L (4 * (g.val + 1)) (by omega) _ (k0_off20_inb L g hc6) ((k0_off20_eq L g).trans (off_congr (by omega))) _); iexact HF0
    · iapply (flIn1_of m d L (4 * (g.val + 1) + 1) (by omega) _ (k0_off28_inb L g hc8) ((k0_off28_eq L g).trans (off_congr (by omega))) _); iexact HF1
  -- chunks 4(g+1)-2, 4(g+1)-1 on their way out
  isplitl [Hs10 Hs11]
  · rw [show outSide m d L (g.val + 1) = iprop(FlOut2 m d L (4 * (g.val + 1) - 2) ∗ FlOut3 m d L (4 * (g.val + 1) - 1)) from if_neg (by omega)]
    isplitl [Hs10]
    · iapply (out_flight2_exec m d L (4 * (g.val + 1) - 2) (by omega) _ (k0_off4_inb L g 2) ((k0_off4_eq L g 2).trans (off_congr (by simp <;> omega))) _); iexact Hs10
    · iapply (out_flight3_exec m d L (4 * (g.val + 1) - 1) (by omega) _ (k0_off4_inb L g 3) ((k0_off4_eq L g 3).trans (off_congr (by simp <;> omega))) _); iexact Hs11
  isplitl [Hs6]; · iexact Hs6
  isplitl [Hs7]; · iexact Hs7
  isplitl [Hs8]; · iexact Hs8
  isplitl [Hs9]; · iexact Hs9
  iexists _; isplitr
  swap
  · iexact HO
  · ipureintro
    exact waits_ins (waits_ins (waits_ins (waits_ins (waits_ins (waits_ins hW' _) _) _) _) _) _

set_option maxHeartbeats 3200000 in
theorem group_mid (d : Dev nD) (L : grid0.Coords) (O : CellTallies nD τ sig (HIx 1)) (W : Waits sig (HIx 1)) (v2 : BitVec 32)
    (g : Fin k0_t1_loop.trips) (acc : Unit) (hg1 : 1 ≤ g.val) (hg2 : g.val < 15) :
    ginv m d L O W g.val acc
      ⊢ wp frame (wpE (defs₀ (F := F)) 𝒱₀ (thrV d L) none) Set.univ
          (k0_t1_body L imgV (Memref.isWhole_whole _) outV (Memref.isWhole_whole _) b0 (Memref.isWhole_whole _) b1 (Memref.isWhole_whole _) b2 (Memref.isWhole_whole _) b3 (Memref.isWhole_whole _) cc0_scratch4 cc0_scratch5 cc0_scratch6 cc0_scratch7 cc0_scratch8 cc0_scratch9 cc0_scratch10 cc0_scratch11 v2 g acc)
          (ginv m d L O W (g.val + 1)) := by
  have hc1 : k0_cond1 g = 1#1 := (cond1_iff g).mpr hg1
  have hc2 : k0_cond2 g = 1#1 := cond2_all g
  have hc3 : k0_cond3 g = 1#1 := (cond3_iff g).mpr hg1
  have hc4 : k0_cond4 g = 1#1 := cond4_all g
  have hc5 : k0_cond5 g = 1#1 := cond5_all g
  have hc6 : k0_cond6 g = 1#1 := (cond6_iff g).mpr hg2
  have hc7 : k0_cond7 g = 1#1 := cond7_all g
  have hc8 : k0_cond8 g = 1#1 := (cond8_iff g).mpr hg2
  unfold ginv
  rw [show inSide m d L g.val = iprop(FlIn0 m d L (4 * g.val) ∗ FlIn1 m d L (4 * g.val + 1)) from if_pos (by omega),
    show outSide m d L g.val = iprop(FlOut2 m d L (4 * g.val - 2) ∗ FlOut3 m d L (4 * g.val - 1)) from if_neg (by omega)]
  rw [bigSep_Ico_head (show 4 * g.val + 2 < 64 by omega), bigSep_Ico_head (show 4 * g.val + 2 + 1 < 64 by omega),
    bigSep_Ico_head (show 4 * g.val + 2 + 1 + 1 < 64 by omega), bigSep_Ico_head (show 4 * g.val + 2 + 1 + 1 + 1 < 64 by omega),
    bigSep_Ico_head (show 4 * g.val < 64 by omega), bigSep_Ico_head (show 4 * g.val + 1 < 64 by omega),
    bigSep_Ico_head (show 4 * g.val + 1 + 1 < 64 by omega), bigSep_Ico_head (show 4 * g.val + 1 + 1 + 1 < 64 by omega)]
  unfold FlIn0 FlIn1 FlOut2 FlOut3
  iintro ⟨#Hmw, HIdone, ⟨HIa, HIb, HIc, HId, HItodo⟩, HOdone, ⟨HOa, HOb, HOc, HOd, HOtodo⟩, ⟨HF0, HF1⟩, ⟨HG2, HG3⟩, Hs6, Hs7, Hs8, Hs9, %W', %hW', HO⟩
  -- the chunks the group sends, in the body's spelling
  ihave HIa := (Entails.of_eq (imgChunk_site m d L (4 * g.val + 2) (by omega) _ (k0_off3_inb L g hc2) ((k0_off3_eq L g).trans (off_congr (by omega))))) $$ HIa
  ihave HIb := (Entails.of_eq (imgChunk_site m d L (4 * g.val + 2 + 1) (by omega) _ (k0_off12_inb L g hc4) ((k0_off12_eq L g).trans (off_congr (by omega))))) $$ HIb
  ihave HIc := (Entails.of_eq (imgChunk_site m d L (4 * g.val + 2 + 1 + 1) (by omega) _ (k0_off20_inb L g hc6) ((k0_off20_eq L g).trans (off_congr (by omega))))) $$ HIc
  ihave HId := (Entails.of_eq (imgChunk_site m d L (4 * g.val + 2 + 1 + 1 + 1) (by omega) _ (k0_off28_inb L g hc8) ((k0_off28_eq L g).trans (off_congr (by omega))))) $$ HId
  ihave HOa := (Entails.of_eq (outChunk_site d L _ (4 * g.val) (by omega) _ (k0_off4_inb L g 0) ((k0_off4_eq L g 0).trans (off_congr (by simp <;> omega))))) $$ HOa
  ihave HOb := (Entails.of_eq (outChunk_site d L _ (4 * g.val + 1) (by omega) _ (k0_off4_inb L g 1) ((k0_off4_eq L g 1).trans (off_congr (by simp <;> omega))))) $$ HOb
  ihave HOc := (Entails.of_eq (outChunk_site d L _ (4 * g.val + 1 + 1) (by omega) _ (k0_off4_inb L g 2) ((k0_off4_eq L g 2).trans (off_congr (by simp <;> omega))))) $$ HOc
  ihave HOd := (Entails.of_eq (outChunk_site d L _ (4 * g.val + 1 + 1 + 1) (by omega) _ (k0_off4_inb L g 3) ((k0_off4_eq L g 3).trans (off_congr (by simp <;> omega))))) $$ HOd
  sl_unfold [k0_t1_body]
  sl_exec
  -- chunk 4g: its rows zeroed in buffer 0
  sl_for (rinv0 d L (landC m d L (4 * g.val))) $$ [HF0_dst]
  · intro k _; exact rows0_step d L _ v2 _ _ g k
  · unfold rinv0; rw [Cert.Proof.Spec.maskRows_zero]; iexact HF0_dst
  iintro %_ Hb0
  unfold rinv0
  rw [show Scf.trips k0_t2_loop.lb k0_t2_loop.ub k0_t2_loop.st = 32 from k0_t2_trips]
  sl_exec
  -- chunk 4g+1 in buffer 1
  sl_for (rinv1 d L (landC m d L (4 * g.val + 1))) $$ [HF1_dst]
  · intro k _; exact rows1_step d L _ v2 g _ _ k
  · unfold rinv1; rw [Cert.Proof.Spec.maskRows_zero]; iexact HF1_dst
  iintro %_ Hb1
  unfold rinv1
  rw [show Scf.trips k0_t3_loop.lb k0_t3_loop.ub k0_t3_loop.st = 32 from k0_t3_trips]
  sl_exec
  -- chunk 4g+2 in buffer 2
  ihave Hb2 := (pts_of_eq ((View.write_whole_univ _ _ _).trans (land_eq m d L (4 * g.val + 2) (by omega) _ (k0_off3_inb L g hc2) ((k0_off3_eq L g).trans (off_congr (by omega)))))) $$ HG2_src
  sl_for (rinv2 d L (landC m d L (4 * g.val + 2))) $$ [Hb2]
  · intro k _; exact rows2_step d L _ v2 g _ _ k
  · unfold rinv2; rw [Cert.Proof.Spec.maskRows_zero]; iexact Hb2
  iintro %_ Hb2
  unfold rinv2
  rw [show Scf.trips k0_t4_loop.lb k0_t4_loop.ub k0_t4_loop.st = 32 from k0_t4_trips]
  sl_exec
  -- chunk 4g+3 in buffer 3
  ihave Hb3 := (pts_of_eq ((View.write_whole_univ _ _ _).trans (land_eq m d L (4 * g.val + 3) (by omega) _ (k0_off12_inb L g hc4) ((k0_off12_eq L g).trans (off_congr (by omega)))))) $$ HG3_src
  sl_for (rinv3 d L (landC m d L (4 * g.val + 3))) $$ [Hb3]
  · intro k _; exact rows3_step d L _ k
  · unfold rinv3; rw [Cert.Proof.Spec.maskRows_zero]; iexact Hb3
  iintro %_ Hb3
  unfold rinv3
  rw [show Scf.trips k0_t5_loop.lb k0_t5_loop.ub k0_t5_loop.st = 32 from k0_t5_trips]
  sl_exec
  sl_step
  isplitr; · iexact Hmw
  -- the argument's chunks below 4(g+1) are back
  isplitl [HIdone HF0_src HF1_src HIa HIb]
  · rw [show 4 * (g.val + 1) = 4 * g.val + 1 + 1 + 1 + 1 from by omega, bigSep_Ico_last (Nat.zero_le _), bigSep_Ico_last (Nat.zero_le _),
      bigSep_Ico_last (Nat.zero_le _), bigSep_Ico_last (Nat.zero_le _)]
    isplitl [HIb]
    · iapply (Entails.of_eq (imgChunk_site m d L (4 * g.val + 1 + 1 + 1) (by omega) _ (k0_off12_inb L g hc4) ((k0_off12_eq L g).trans (off_congr (by omega)))).symm); iexact HIb
    isplitl [HIa]
    · iapply (Entails.of_eq (imgChunk_site m d L (4 * g.val + 1 + 1) (by omega) _ (k0_off3_inb L g hc2) ((k0_off3_eq L g).trans (off_congr (by omega)))).symm); iexact HIa
    isplitl [HF1_src]; · iexact HF1_src
    isplitl [HF0_src]; · iexact HF0_src
    iexact HIdone
  isplitl [HItodo]
  · rw [show 4 * (g.val + 1) + 2 = 4 * g.val + 2 + 1 + 1 + 1 + 1 from by omega]; iexact HItodo
  -- the result's chunks below 4(g+1)-2 are final
  isplitl [HOdone HG2_dst HG3_dst HOa HOb]
  · rw [show 4 * (g.val + 1) - 2 = 4 * g.val + 1 + 1 from by omega, bigSep_Ico_last (Nat.zero_le _), bigSep_Ico_last (Nat.zero_le _)]
    isplitl [HOb]
    · iapply (out_deliver_list m d L (4 * g.val + 1) (by omega) _ (k0_off4_inb L g 1) ((k0_off4_eq L g 1).trans (off_congr (by simp <;> omega))) _); iexact HOb
    isplitl [HOa]
    · iapply (out_deliver_list m d L (4 * g.val) (by omega) _ (k0_off4_inb L g 0) ((k0_off4_eq L g 0).trans (off_congr (by simp <;> omega))) _); iexact HOa
    rw [show Finset.Ico 0 (4 * g.val) = Finset.Ico 0 (4 * g.val - 2 + 1 + 1) from by rw [show 4 * g.val - 2 + 1 + 1 = 4 * g.val from by omega],
      bigSep_Ico_last (Nat.zero_le _), bigSep_Ico_last (Nat.zero_le _), show 4 * g.val - 2 + 1 = 4 * g.val - 1 from by omega]
    isplitl [HG3_dst]; · iexact HG3_dst
    isplitl [HG2_dst]; · iexact HG2_dst
    iexact HOdone
  isplitl [HOtodo]
  · rw [show 4 * (g.val + 1) = 4 * g.val + 1 + 1 + 1 + 1 from by omega]; iexact HOtodo
  -- chunks 4(g+1), 4(g+1)+1 on their way in
  isplitl [HF0 HF1]
  · rw [show inSide m d L (g.val + 1) = iprop(FlIn0 m d L (4 * (g.val + 1)) ∗ FlIn1 m d L (4 * (g.val + 1) + 1)) from if_pos (by omega)]
    isplitl [HF0]
    · iapply (flIn0_of m d L (4 * (g.val + 1)) (by omega) _ (k0_off20_inb L g hc6) ((k0_off20_eq L g).trans (off_congr (by omega))) _); iexact HF0
    · iapply (flIn1_of m d L (4 * (g.val + 1) + 1) (by omega) _ (k0_off28_inb L g hc8) ((k0_off28_eq L g).trans (off_congr (by omega))) _); iexact HF1
  -- chunks 4(g+1)-2, 4(g+1)-1 on their way out
  isplitl [HG2 HG3]
  · rw [show outSide m d L (g.val + 1) = iprop(FlOut2 m d L (4 * (g.val + 1) - 2) ∗ FlOut3 m d L (4 * (g.val + 1) - 1)) from if_neg (by omega)]
    isplitl [HG2]
    · iapply (out_flight2_exec m d L (4 * (g.val + 1) - 2) (by omega) _ (k0_off4_inb L g 2) ((k0_off4_eq L g 2).trans (off_congr (by simp <;> omega))) _); iexact HG2
    · iapply (out_flight3_exec m d L (4 * (g.val + 1) - 1) (by omega) _ (k0_off4_inb L g 3) ((k0_off4_eq L g 3).trans (off_congr (by simp <;> omega))) _); iexact HG3
  isplitl [Hs6]; · iexact Hs6
  isplitl [Hs7]; · iexact Hs7
  isplitl [Hs8]; · iexact Hs8
  isplitl [Hs9]; · iexact Hs9
  iexists _; isplitr
  swap
  · iexact HO
  · ipureintro
    exact waits_ins (waits_ins (waits_ins (waits_ins (waits_ins (waits_ins (waits_ins (waits_ins hW' _) _) _) _) _) _) _) _

set_option maxHeartbeats 3200000 in
theorem group_last (d : Dev nD) (L : grid0.Coords) (O : CellTallies nD τ sig (HIx 1)) (W : Waits sig (HIx 1)) (v2 : BitVec 32)
    (g : Fin k0_t1_loop.trips) (acc : Unit) (hg15 : g.val = 15) :
    ginv m d L O W g.val acc
      ⊢ wp frame (wpE (defs₀ (F := F)) 𝒱₀ (thrV d L) none) Set.univ
          (k0_t1_body L imgV (Memref.isWhole_whole _) outV (Memref.isWhole_whole _) b0 (Memref.isWhole_whole _) b1 (Memref.isWhole_whole _) b2 (Memref.isWhole_whole _) b3 (Memref.isWhole_whole _) cc0_scratch4 cc0_scratch5 cc0_scratch6 cc0_scratch7 cc0_scratch8 cc0_scratch9 cc0_scratch10 cc0_scratch11 v2 g acc)
          (ginv m d L O W (g.val + 1)) := by
  have hc1 : k0_cond1 g = 1#1 := (cond1_iff g).mpr (by omega)
  have hc2 : k0_cond2 g = 1#1 := cond2_all g
  have hc3 : k0_cond3 g = 1#1 := (cond3_iff g).mpr (by omega)
  have hc4 : k0_cond4 g = 1#1 := cond4_all g
  have hc5 : k0_cond5 g = 1#1 := cond5_all g
  have hc6 : ¬ k0_cond6 g = 1#1 := fun h => by have := (cond6_iff g).mp h; omega
  have hc7 : k0_cond7 g = 1#1 := cond7_all g
  have hc8 : ¬ k0_cond8 g = 1#1 := fun h => by have := (cond8_iff g).mp h; omega
  unfold ginv
  rw [show inSide m d L g.val = iprop(FlIn0 m d L (4 * g.val) ∗ FlIn1 m d L (4 * g.val + 1)) from if_pos (by omega),
    show outSide m d L g.val = iprop(FlOut2 m d L (4 * g.val - 2) ∗ FlOut3 m d L (4 * g.val - 1)) from if_neg (by omega)]
  rw [bigSep_Ico_head (show 4 * g.val + 2 < 64 by omega), bigSep_Ico_head (show 4 * g.val + 2 + 1 < 64 by omega),
    bigSep_Ico_head (show 4 * g.val < 64 by omega), bigSep_Ico_head (show 4 * g.val + 1 < 64 by omega),
    bigSep_Ico_head (show 4 * g.val + 1 + 1 < 64 by omega), bigSep_Ico_head (show 4 * g.val + 1 + 1 + 1 < 64 by omega)]
  unfold FlIn0 FlIn1 FlOut2 FlOut3
  iintro ⟨#Hmw, HIdone, ⟨HIa, HIb, HItodo⟩, HOdone, ⟨HOa, HOb, HOc, HOd, HOtodo⟩, ⟨HF0, HF1⟩, ⟨HG2, HG3⟩, Hs6, Hs7, Hs8, Hs9, %W', %hW', HO⟩
  -- the chunks the group sends, in the body's spelling
  ihave HIa := (Entails.of_eq (imgChunk_site m d L (4 * g.val + 2) (by omega) _ (k0_off3_inb L g hc2) ((k0_off3_eq L g).trans (off_congr (by omega))))) $$ HIa
  ihave HIb := (Entails.of_eq (imgChunk_site m d L (4 * g.val + 2 + 1) (by omega) _ (k0_off12_inb L g hc4) ((k0_off12_eq L g).trans (off_congr (by omega))))) $$ HIb
  ihave HOa := (Entails.of_eq (outChunk_site d L _ (4 * g.val) (by omega) _ (k0_off4_inb L g 0) ((k0_off4_eq L g 0).trans (off_congr (by simp <;> omega))))) $$ HOa
  ihave HOb := (Entails.of_eq (outChunk_site d L _ (4 * g.val + 1) (by omega) _ (k0_off4_inb L g 1) ((k0_off4_eq L g 1).trans (off_congr (by simp <;> omega))))) $$ HOb
  ihave HOc := (Entails.of_eq (outChunk_site d L _ (4 * g.val + 1 + 1) (by omega) _ (k0_off4_inb L g 2) ((k0_off4_eq L g 2).trans (off_congr (by simp <;> omega))))) $$ HOc
  ihave HOd := (Entails.of_eq (outChunk_site d L _ (4 * g.val + 1 + 1 + 1) (by omega) _ (k0_off4_inb L g 3) ((k0_off4_eq L g 3).trans (off_congr (by simp <;> omega))))) $$ HOd
  sl_unfold [k0_t1_body]
  sl_exec
  -- chunk 4g: its rows zeroed in buffer 0
  sl_for (rinv0 d L (landC m d L (4 * g.val))) $$ [HF0_dst]
  · intro k _; exact rows0_step d L _ v2 _ _ g k
  · unfold rinv0; rw [Cert.Proof.Spec.maskRows_zero]; iexact HF0_dst
  iintro %_ Hb0
  unfold rinv0
  rw [show Scf.trips k0_t2_loop.lb k0_t2_loop.ub k0_t2_loop.st = 32 from k0_t2_trips]
  sl_exec
  -- chunk 4g+1 in buffer 1
  sl_for (rinv1 d L (landC m d L (4 * g.val + 1))) $$ [HF1_dst]
  · intro k _; exact rows1_step d L _ v2 g _ _ k
  · unfold rinv1; rw [Cert.Proof.Spec.maskRows_zero]; iexact HF1_dst
  iintro %_ Hb1
  unfold rinv1
  rw [show Scf.trips k0_t3_loop.lb k0_t3_loop.ub k0_t3_loop.st = 32 from k0_t3_trips]
  sl_exec
  -- chunk 4g+2 in buffer 2
  ihave Hb2 := (pts_of_eq ((View.write_whole_univ _ _ _).trans (land_eq m d L (4 * g.val + 2) (by omega) _ (k0_off3_inb L g hc2) ((k0_off3_eq L g).trans (off_congr (by omega)))))) $$ HG2_src
  sl_for (rinv2 d L (landC m d L (4 * g.val + 2))) $$ [Hb2]
  · intro k _; exact rows2_step d L _ v2 g _ _ k
  · unfold rinv2; rw [Cert.Proof.Spec.maskRows_zero]; iexact Hb2
  iintro %_ Hb2
  unfold rinv2
  rw [show Scf.trips k0_t4_loop.lb k0_t4_loop.ub k0_t4_loop.st = 32 from k0_t4_trips]
  sl_exec
  -- chunk 4g+3 in buffer 3
  ihave Hb3 := (pts_of_eq ((View.write_whole_univ _ _ _).trans (land_eq m d L (4 * g.val + 3) (by omega) _ (k0_off12_inb L g hc4) ((k0_off12_eq L g).trans (off_congr (by omega)))))) $$ HG3_src
  sl_for (rinv3 d L (landC m d L (4 * g.val + 3))) $$ [Hb3]
  · intro k _; exact rows3_step d L _ k
  · unfold rinv3; rw [Cert.Proof.Spec.maskRows_zero]; iexact Hb3
  iintro %_ Hb3
  unfold rinv3
  rw [show Scf.trips k0_t5_loop.lb k0_t5_loop.ub k0_t5_loop.st = 32 from k0_t5_trips]
  sl_exec
  sl_step
  isplitr; · iexact Hmw
  -- the argument's chunks below 4(g+1) are back
  isplitl [HIdone HF0_src HF1_src HIa HIb]
  · rw [show 4 * (g.val + 1) = 4 * g.val + 1 + 1 + 1 + 1 from by omega, bigSep_Ico_last (Nat.zero_le _), bigSep_Ico_last (Nat.zero_le _),
      bigSep_Ico_last (Nat.zero_le _), bigSep_Ico_last (Nat.zero_le _)]
    isplitl [HIb]
    · iapply (Entails.of_eq (imgChunk_site m d L (4 * g.val + 1 + 1 + 1) (by omega) _ (k0_off12_inb L g hc4) ((k0_off12_eq L g).trans (off_congr (by omega)))).symm); iexact HIb
    isplitl [HIa]
    · iapply (Entails.of_eq (imgChunk_site m d L (4 * g.val + 1 + 1) (by omega) _ (k0_off3_inb L g hc2) ((k0_off3_eq L g).trans (off_congr (by omega)))).symm); iexact HIa
    isplitl [HF1_src]; · iexact HF1_src
    isplitl [HF0_src]; · iexact HF0_src
    iexact HIdone
  isplitr
  · rw [bigSep_Ico_empty (show 64 ≤ 4 * (g.val + 1) + 2 by omega)]; iempintro
  -- the result's chunks below 4(g+1)-2 are final
  isplitl [HOdone HG2_dst HG3_dst HOa HOb]
  · rw [show 4 * (g.val + 1) - 2 = 4 * g.val + 1 + 1 from by omega, bigSep_Ico_last (Nat.zero_le _), bigSep_Ico_last (Nat.zero_le _)]
    isplitl [HOb]
    · iapply (out_deliver_list m d L (4 * g.val + 1) (by omega) _ (k0_off4_inb L g 1) ((k0_off4_eq L g 1).trans (off_congr (by simp <;> omega))) _); iexact HOb
    isplitl [HOa]
    · iapply (out_deliver_list m d L (4 * g.val) (by omega) _ (k0_off4_inb L g 0) ((k0_off4_eq L g 0).trans (off_congr (by simp <;> omega))) _); iexact HOa
    rw [show Finset.Ico 0 (4 * g.val) = Finset.Ico 0 (4 * g.val - 2 + 1 + 1) from by rw [show 4 * g.val - 2 + 1 + 1 = 4 * g.val from by omega],
      bigSep_Ico_last (Nat.zero_le _), bigSep_Ico_last (Nat.zero_le _), show 4 * g.val - 2 + 1 = 4 * g.val - 1 from by omega]
    isplitl [HG3_dst]; · iexact HG3_dst
    isplitl [HG2_dst]; · iexact HG2_dst
    iexact HOdone
  isplitl [HOtodo]
  · rw [show 4 * (g.val + 1) = 4 * g.val + 1 + 1 + 1 + 1 from by omega]; iexact HOtodo
  -- chunks 4(g+1), 4(g+1)+1 on their way in
  isplitl [HF0 HF1 Hb0 Hb1]
  · rw [show inSide m d L (g.val + 1) = iprop(anyB0 d L ∗ anyB1 d L ∗ semVal (cellOf d L cc0_scratch4) 0 ∗ semVal (cellOf d L cc0_scratch5) 0) from if_neg (by omega)]
    isplitl [Hb0]; · iexists _; iexact Hb0
    isplitl [Hb1]; · iexists _; iexact Hb1
    isplitl [HF0]; · iexact HF0
    iexact HF1
  -- chunks 4(g+1)-2, 4(g+1)-1 on their way out
  isplitl [HG2 HG3]
  · rw [show outSide m d L (g.val + 1) = iprop(FlOut2 m d L (4 * (g.val + 1) - 2) ∗ FlOut3 m d L (4 * (g.val + 1) - 1)) from if_neg (by omega)]
    isplitl [HG2]
    · iapply (out_flight2_exec m d L (4 * (g.val + 1) - 2) (by omega) _ (k0_off4_inb L g 2) ((k0_off4_eq L g 2).trans (off_congr (by simp <;> omega))) _); iexact HG2
    · iapply (out_flight3_exec m d L (4 * (g.val + 1) - 1) (by omega) _ (k0_off4_inb L g 3) ((k0_off4_eq L g 3).trans (off_congr (by simp <;> omega))) _); iexact HG3
  isplitl [Hs6]; · iexact Hs6
  isplitl [Hs7]; · iexact Hs7
  isplitl [Hs8]; · iexact Hs8
  isplitl [Hs9]; · iexact Hs9
  iexists _; isplitr
  swap
  · iexact HO
  · ipureintro
    exact waits_ins (waits_ins (waits_ins (waits_ins (waits_ins (waits_ins (waits_ins (waits_ins hW' _) _) _) _) _) _) _) _

/-- The step of the main loop's invariant at every group. -/
theorem group_step (d : Dev nD) (L : grid0.Coords) (O : CellTallies nD τ sig (HIx 1)) (W : Waits sig (HIx 1)) (v2 : BitVec 32)
    (g : Fin k0_t1_loop.trips) (acc : Unit) :
    ginv m d L O W g.val acc
      ⊢ wp frame (wpE (defs₀ (F := F)) 𝒱₀ (thrV d L) none) Set.univ
          (k0_t1_body L imgV (Memref.isWhole_whole _) outV (Memref.isWhole_whole _) b0 (Memref.isWhole_whole _) b1 (Memref.isWhole_whole _) b2 (Memref.isWhole_whole _) b3 (Memref.isWhole_whole _) cc0_scratch4 cc0_scratch5 cc0_scratch6 cc0_scratch7 cc0_scratch8 cc0_scratch9 cc0_scratch10 cc0_scratch11 v2 g acc)
          (ginv m d L O W (g.val + 1)) := by
  rcases Nat.eq_zero_or_pos g.val with h0 | h1
  · exact group_first m d L O W v2 g acc h0
  · by_cases h15 : g.val < 15
    · exact group_mid m d L O W v2 g acc h1 h15
    · exact group_last m d L O W v2 g acc (by have := g.isLt; have := trips_eq; omega)

end Cert.Proof.KI

end
-- ==== Proof.KI.Tile.lean ====
/-
  One task of the kernel: the body of grid point `L` on its vector subcore, from the task's 64 chunks of the argument
  and of the result to the result's chunks at the specification.
-/
import proofs.«205590_g25494925869706_cont_9to1_307_11_alg».proof.Proof.KI.Group

noncomputable section

namespace Cert.Proof.KI

open Cert.KernelIdeal Cert.KernelIdeal.Gen
open Cert.Proof.Spec (dis spec maskRows)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F] (m : (ℓ : Loc nD τ sig) → Buf (Elt F) ℓ)

/-! ## A chunk on its way into a staging buffer, as the issue leaves it -/

theorem flIn0_intro (d : Dev nD) (L : grid0.Coords) (ci : ℕ) (h : ci < 64) (off : Fin 2 → ℕ) (inb : ∀ a, off a + S32x512.size a ≤ S65536x512.size a)
    (hoff : off = ![4096 * (L 1).val + 2048 * (L 0).val + 32 * ci, 0]) (f0 : Buf (Elt F) ((thrV d L).loc cc0_scratch0)) (w : FVec F S32x512 .f32)
    (hw : w = ((imgV : Memref sig .scVector .hbm S65536x512 .f32).slice (Rect.unit (s := S65536x512) off S32x512.size inb) (fun _ => rfl)).view.read (Elt F) (m (iLoc d)))
    (sm : DmaSem sig) (hsm : sm = cc0_scratch4.sem) :
    (Transfers.Flight countersEmb (thrV d L) (SemLoc.dma sm) (default : HIx 1) 524288
      iprop(((b0 : Memref sig .scVector .vmem S32x512 .f32).view.loc (thrV d L) ↦{fullShare} View.write (Elt F) (b0 : Memref sig .scVector .vmem S32x512 .f32).view f0 w Finset.univ)
        ∗ ((((imgV : Memref sig .scVector .hbm S65536x512 .f32).slice (Rect.unit (s := S65536x512) off S32x512.size inb) (fun _ => rfl)).view.loc (thrV d L))
            ↦[((imgV : Memref sig .scVector .hbm S65536x512 .f32).slice (Rect.unit (s := S65536x512) off S32x512.size inb) (fun _ => rfl)).view.set]{fullShare} m (iLoc d))) : sProp (MM F))
      ⊢ FlIn0 m d L ci := by
  subst hsm
  unfold FlIn0
  refine Transfers.Flight_mono _ _ ?_
  rw [hw, land_eq m d L ci h off inb hoff, pts_img, ← chunkSet_of_off L ci h off inb hoff,
    show View.write (Elt F) (b0 : Memref sig .scVector .vmem S32x512 .f32).view f0 (landC m d L ci) Finset.univ = landC m d L ci from View.write_whole_univ _ _ _]

theorem flIn1_intro (d : Dev nD) (L : grid0.Coords) (ci : ℕ) (h : ci < 64) (off : Fin 2 → ℕ) (inb : ∀ a, off a + S32x512.size a ≤ S65536x512.size a)
    (hoff : off = ![4096 * (L 1).val + 2048 * (L 0).val + 32 * ci, 0]) (f1 : Buf (Elt F) ((thrV d L).loc cc0_scratch1)) (w : FVec F S32x512 .f32)
    (hw : w = ((imgV : Memref sig .scVector .hbm S65536x512 .f32).slice (Rect.unit (s := S65536x512) off S32x512.size inb) (fun _ => rfl)).view.read (Elt F) (m (iLoc d)))
    (sm : DmaSem sig) (hsm : sm = cc0_scratch5.sem) :
    (Transfers.Flight countersEmb (thrV d L) (SemLoc.dma sm) (default : HIx 1) 524288
      iprop(((b1 : Memref sig .scVector .vmem S32x512 .f32).view.loc (thrV d L) ↦{fullShare} View.write (Elt F) (b1 : Memref sig .scVector .vmem S32x512 .f32).view f1 w Finset.univ)
        ∗ ((((imgV : Memref sig .scVector .hbm S65536x512 .f32).slice (Rect.unit (s := S65536x512) off S32x512.size inb) (fun _ => rfl)).view.loc (thrV d L))
            ↦[((imgV : Memref sig .scVector .hbm S65536x512 .f32).slice (Rect.unit (s := S65536x512) off S32x512.size inb) (fun _ => rfl)).view.set]{fullShare} m (iLoc d))) : sProp (MM F))
      ⊢ FlIn1 m d L ci := by
  subst hsm
  unfold FlIn1
  refine Transfers.Flight_mono _ _ ?_
  rw [hw, land_eq m d L ci h off inb hoff, pts_img, ← chunkSet_of_off L ci h off inb hoff,
    show View.write (Elt F) (b1 : Memref sig .scVector .vmem S32x512 .f32).view f1 (landC m d L ci) Finset.univ = landC m d L ci from View.write_whole_univ _ _ _]

/-- What the task hands back, split as the loop's invariant leaves it after the last group: the argument's 64 chunks,
    the result's first 62 and its last two. -/
theorem tdRes_eq (d : Dev nD) (L : grid0.Coords) :
    tdRes m d L = iprop((bigSep (Finset.Ico 0 (4 * 16)) fun ci => imgChunk m d L ci)
      ∗ (outChunk d L (outFinal m d) (4 * 16 - 1) ∗ outChunk d L (outFinal m d) (4 * 16 - 2)
        ∗ bigSep (Finset.Ico 0 (4 * 16 - 2)) fun ci => outChunk d L (outFinal m d) ci)) := by
  unfold tdRes
  rw [Finset.range_eq_Ico, bigSep_Ico_last (by decide : 0 ≤ 63) (fun ci => outChunk d L (outFinal m d) ci),
    bigSep_Ico_last (by decide : 0 ≤ 62) (fun ci => outChunk d L (outFinal m d) ci)]
  try rfl

set_option maxHeartbeats 1600000 in
theorem tile_body (hF : (K (F := F)).Facts) (d : Dev nD) (L : grid0.Coords) (O : CellTallies nD τ sig (HIx 1)) (W : Waits sig (HIx 1)) (hO : ∀ g, O g none = 0) :
    iprop(levAts (K (F := F)).L (K (F := F)).lev ∗ emp ∗ goRes m d L
        ∗ scopedBufs (thrV d L) ∗ scopedSems0 (thrV d L) ∗ owes (thrV d L) O W)
      ⊢ wp frame (wpE (defs₀ (F := F)) 𝒱₀ (thrV d L) none) Set.univ
          (cc0__sc_body L imgV (Memref.isWhole_whole _) outV (Memref.isWhole_whole _) b0 (Memref.isWhole_whole _) b1 (Memref.isWhole_whole _) b2 (Memref.isWhole_whole _) b3 (Memref.isWhole_whole _) cc0_scratch4 cc0_scratch5 cc0_scratch6 cc0_scratch7 cc0_scratch8 cc0_scratch9 cc0_scratch10 cc0_scratch11)
          fun _ => iprop(tdRes m d L ∗ scopedBufs (thrV d L) ∗ scopedSems0 (thrV d L)
            ∗ ∃ W', ⌜∀ p ∈ W', p ∈ W ∨ p.2 = none⌝ ∗ owes (thrV d L) O W') := by
  -- the subcore's own storage opened; chunks 0 and 1 of the argument split off, each spelt as the slice the body copies
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  unfold goRes
  rw [Finset.range_eq_Ico, bigSep_Ico_head (by decide : 0 < 64), bigSep_Ico_head (by decide : 0 + 1 < 64)]
  iintro ⟨#Hlv, -, ⟨⟨HI0, HI1, HI⟩, HOu⟩, ⟨⟨%f0, Hb0⟩, ⟨%f1, Hb1⟩, ⟨%f2, Hb2⟩, ⟨%f3, Hb3⟩, Hbufs⟩, ⟨Hs4, Hs5, Hs6, Hs7, Hs8, Hs9, Hs10, Hs11, Hsems⟩, HO⟩
  ihave Hmw := ((K (F := F)).mayWaits_none (thr := thrV d L) hO) $$ Hlv
  have e0 : chunkSet (chunkNo L 0) = (Rect.unit (s := S65536x512) (k0_off1 L 0#32) S32x512.size (k0_off1_inb L 0)).set :=
    chunkSet_of_off L 0 (by decide) _ _ ((k0_off1_eq0 L).trans (off_congr (by omega)))
  have e1 : chunkSet (chunkNo L (0 + 1)) = (Rect.unit (s := S65536x512) (k0_off1 L 32#32) S32x512.size (k0_off1_inb L 1)).set :=
    chunkSet_of_off L (0 + 1) (by decide) _ _ ((k0_off1_eq32 L).trans (off_congr (by omega)))
  unfold imgChunk
  rw [e0, e1]
  ihave HI0' := (Entails.of_eq (pts_img (F := F) d L _ (fun _ => rfl) _).symm) $$ HI0
  ihave HI1' := (Entails.of_eq (pts_img (F := F) d L _ (fun _ => rfl) _).symm) $$ HI1
  ihave Hb0' := (Entails.of_eq (rfl : ((b0 : Memref sig .scVector .vmem S32x512 .f32).view.loc (thrV d L) ↦{fullShare} f0 : sProp (MM F)) = _).symm) $$ Hb0
  ihave Hb1' := (Entails.of_eq (rfl : ((b1 : Memref sig .scVector .vmem S32x512 .f32).view.loc (thrV d L) ↦{fullShare} f1 : sProp (MM F)) = _).symm) $$ Hb1
  ihave Hb2' := (Entails.of_eq (rfl : ((b2 : Memref sig .scVector .vmem S32x512 .f32).view.loc (thrV d L) ↦{fullShare} f2 : sProp (MM F)) = _).symm) $$ Hb2
  ihave Hb3' := (Entails.of_eq (rfl : ((b3 : Memref sig .scVector .vmem S32x512 .f32).view.loc (thrV d L) ↦{fullShare} f3 : sProp (MM F)) = _).symm) $$ Hb3
  -- the first two copies start: chunks 0 and 1 on their way into buffers 0 and 1
  sl_exec
  have hF0 := flIn0_intro m d L (4 * 0) (by decide) (k0_off1 L 0#32) (k0_off1_inb L 0) ((k0_off1_eq0 L).trans (off_congr (by omega))) f0 (Cert.Proof.KI.tile_body.sl.dma0 m d L) rfl ⟨0, by decide⟩ rfl
  have hF1 := flIn1_intro m d L (4 * 0 + 1) (by decide) (k0_off1 L 32#32) (k0_off1_inb L 1) ((k0_off1_eq32 L).trans (off_congr (by omega))) f1 (Cert.Proof.KI.tile_body.sl.dma0_1 m d L) rfl ⟨1, by decide⟩ rfl
  ihave HF0 := hF0 $$ Hs4
  ihave HF1 := hF1 $$ Hs5
  -- the sixteen groups, by the invariant
  sl_for (ginv m d L O W) $$ [HI HOu HF0 HF1 Hb2' Hb3' Hs10 Hs11 Hs6 Hs7 Hs8 Hs9 HO]
  · intro g acc
    exact group_step m d L O W _ g acc
  · unfold ginv inSide outSide
    rw [if_pos (by decide : (0 : ℕ) < 16), if_pos (rfl : (0 : ℕ) = 0), bigSep_Ico_empty (by decide : 4 * 0 ≤ 0), bigSep_Ico_empty (by decide : 4 * 0 - 2 ≤ 0)]
    isplitr; · iexact Hmw
    isplitr; · iempintro
    isplitl [HI]; · iexact HI
    isplitr; · iempintro
    isplitl [HOu]; · iexact HOu
    isplitl [HF0 HF1]
    · isplitl [HF0]; · iexact HF0
      iexact HF1
    isplitl [Hb2' Hb3' Hs10 Hs11]
    · isplitl [Hb2']; · iexists _; iexact Hb2'
      isplitl [Hb3']; · iexists _; iexact Hb3'
      isplitl [Hs10]; · iexact Hs10
      iexact Hs11
    isplitl [Hs6]; · iexact Hs6
    isplitl [Hs7]; · iexact Hs7
    isplitl [Hs8]; · iexact Hs8
    isplitl [Hs9]; · iexact Hs9
    iexists W; isplitr
    · ipureintro; exact fun p hp => Or.inl hp
    iexact HO
  -- after the last group: buffers 0 and 1 are back, chunks 62 and 63 are on their way out; the two last waits
  iintro %acc HG
  rw [show Scf.trips k0_t1_loop.lb k0_t1_loop.ub k0_t1_loop.st = 16 from trips_eq]
  unfold ginv inSide outSide FlOut2 FlOut3
  rw [if_neg (by decide : ¬ ((16 : ℕ) < 16)), if_neg (by decide : ¬ ((16 : ℕ) = 0))]
  icases HG with ⟨-, HIa, -, HOa, -, ⟨⟨%g0, Hb0⟩, ⟨%g1, Hb1⟩, Hs4, Hs5⟩, ⟨HF2, HF3⟩, Hs6, Hs7, Hs8, Hs9, %W', %hW', HO⟩
  sl_exec
  -- the task's chunks, the buffers and the cells handed back
  sl_step
  rw [tdRes_eq]
  ihave Hb0c := (Entails.of_eq (rfl : ((b0 : Memref sig .scVector .vmem S32x512 .f32).view.loc (thrV d L) ↦{fullShare} g0 : sProp (MM F)) = ((thrV d L).loc cc0_scratch0 ↦{fullShare} g0))) $$ Hb0
  ihave Hb1c := (Entails.of_eq (rfl : ((b1 : Memref sig .scVector .vmem S32x512 .f32).view.loc (thrV d L) ↦{fullShare} g1 : sProp (MM F)) = ((thrV d L).loc cc0_scratch1 ↦{fullShare} g1))) $$ Hb1
  ihave Hb2c := (Entails.of_eq (rfl : ((b2 : Memref sig .scVector .vmem S32x512 .f32).view.loc (thrV d L) ↦{fullShare} (maskRows 32 (landC m d L (4 * 16 - 2)) : FVec F S32x512 .f32) : sProp (MM F)) = ((thrV d L).loc cc0_scratch2 ↦{fullShare} (maskRows 32 (landC m d L (4 * 16 - 2)) : FVec F S32x512 .f32)))) $$ HF2_src
  ihave Hb3c := (Entails.of_eq (rfl : ((b3 : Memref sig .scVector .vmem S32x512 .f32).view.loc (thrV d L) ↦{fullShare} (maskRows 32 (landC m d L (4 * 16 - 1)) : FVec F S32x512 .f32) : sProp (MM F)) = ((thrV d L).loc cc0_scratch3 ↦{fullShare} (maskRows 32 (landC m d L (4 * 16 - 1)) : FVec F S32x512 .f32)))) $$ HF3_src
  ihave Hs10 := (Entails.of_eq (rfl : (semVal ((thrV d L, SemLoc.dma ⟨6, _⟩) : GSem nD τ sig) 0 : sProp (MM F)) = semVal (cellOf d L cc0_scratch10) 0)) $$ HF2
  ihave Hs11 := (Entails.of_eq (rfl : (semVal ((thrV d L, SemLoc.dma ⟨7, _⟩) : GSem nD τ sig) 0 : sProp (MM F)) = semVal (cellOf d L cc0_scratch11) 0)) $$ HF3
  isplitl [HIa HOa HF2_dst HF3_dst]
  · isplitl [HIa]; · iexact HIa
    isplitl [HF3_dst]; · iexact HF3_dst
    isplitl [HF2_dst]; · iexact HF2_dst
    iexact HOa
  isplitl [Hb0c Hb1c Hb2c Hb3c Hbufs]
  · isplitl [Hb0c]; · iexists _; iexact Hb0c
    isplitl [Hb1c]; · iexists _; iexact Hb1c
    isplitl [Hb2c]; · iexists _; iexact Hb2c
    isplitl [Hb3c]; · iexists _; iexact Hb3c
    iexact Hbufs
  isplitl [Hs4 Hs5 Hs6 Hs7 Hs8 Hs9 Hs10 Hs11 Hsems]
  · isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    iexact Hsems
  iexists _; isplitr
  swap
  · iexact HO
  · ipureintro; intro p hp
    rcases Finset.mem_insert.mp hp with rfl | hp
    · exact .inr rfl
    rcases Finset.mem_insert.mp hp with rfl | hp
    · exact .inr rfl
    · exact hW' p hp

end Cert.Proof.KI

end
-- ==== Proof.KI.Launch.lean ====
/-
  The launch of the kernel (idealized program): from the proof of one task's body to the run of the whole program.

  The one SparseCore call runs the body on the 2 × 16 vector subcores.  The TensorCore holds the argument and the
  result array whole; each is the disjoint union of its 2048 chunks of 32 rows, and chunk (2 s + c) · 64 + ci is
  chunk ci of the task of subcore (c, s).  The call hands every task its 64 chunks of both arrays and takes them
  back, the result's at the specification; the chunks join into the result array whole at the specification, and the
  argument array whole at its launch contents.
-/
import proofs.«205590_g25494925869706_cont_9to1_307_11_alg».proof.Proof.KI.Tile

noncomputable section

namespace Cert.Proof.KI

open Cert.KernelIdeal Cert.KernelIdeal.Gen
open Cert.Proof.Spec (dis spec maskRows)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The grid points and the chunks -/

/-- The grid point of SparseCore \`c\`, vector subcore \`s\`. -/
abbrev gp (c : Fin 2) (s : Fin 16) : grid0.Coords := coordsV ⟨c.val, c.isLt⟩ ⟨s.val, s.isLt⟩

theorem chunkNo_gp (c : Fin 2) (s : Fin 16) (ci : ℕ) : (chunkNo (gp c s) ci).val = (2 * s.val + c.val) * 64 + ci % 64 := rfl

/-- Every chunk is chunk \`ci\` of exactly one task: \`n = (2 s + c) · 64 + ci\`. -/
theorem chunks_regroup {M : Type} [URA M] (Φ : Fin 2048 → sProp M) :
    bigSep Finset.univ Φ
      = bigSep (Finset.univ : Finset (Fin 2)) fun c => bigSep (Finset.univ : Finset (Fin 16)) fun s =>
          bigSep (Finset.range 64) fun ci => Φ (chunkNo (gp c s) ci) := by
  have hinj : Set.InjOn (fun q : Fin 2 × Fin 16 × ℕ => chunkNo (gp q.1 q.2.1) q.2.2)
      (((Finset.univ : Finset (Fin 2)) ×ˢ ((Finset.univ : Finset (Fin 16)) ×ˢ Finset.range 64) : Finset (Fin 2 × Fin 16 × ℕ)) : Set (Fin 2 × Fin 16 × ℕ)) := by
    rintro ⟨c, s, ci⟩ h ⟨c', s', ci'⟩ h' e
    have hci : ci < 64 := by
      have h0 := Finset.mem_coe.mp h
      simp only [Finset.mem_product, Finset.mem_univ, Finset.mem_range, true_and] at h0
      exact h0
    have hci' : ci' < 64 := by
      have h0 := Finset.mem_coe.mp h'
      simp only [Finset.mem_product, Finset.mem_univ, Finset.mem_range, true_and] at h0
      exact h0
    have e' : (2 * s.val + c.val) * 64 + ci % 64 = (2 * s'.val + c'.val) * 64 + ci' % 64 := congrArg Fin.val e
    have hc := c.isLt; have hc' := c'.isLt; have hs := s.isLt; have hs' := s'.isLt
    have h1 : c.val = c'.val := by omega
    have h2 : s.val = s'.val := by omega
    have h3 : ci = ci' := by omega
    exact Prod.ext (Fin.ext h1) (Prod.ext (Fin.ext h2) h3)
  have himg : (Finset.univ : Finset (Fin 2048))
      = ((Finset.univ : Finset (Fin 2)) ×ˢ ((Finset.univ : Finset (Fin 16)) ×ˢ Finset.range 64)).image (fun q : Fin 2 × Fin 16 × ℕ => chunkNo (gp q.1 q.2.1) q.2.2) := by
    ext n
    simp only [Finset.mem_univ, true_iff, Finset.mem_image, Finset.mem_product, Finset.mem_range, true_and]
    have hn := n.isLt
    refine ⟨(⟨n.val / 64 % 2, by omega⟩, ⟨n.val / 128, by omega⟩, n.val % 64), ?_, Fin.ext ?_⟩
    · show n.val % 64 < 64
      omega
    · show (2 * (n.val / 128) + n.val / 64 % 2) * 64 + n.val % 64 % 64 = n.val
      omega
  conv_lhs => rw [himg]
  rw [SparseCore.bigSep_image_of_injOn hinj, SparseCore.bigSep_product]
  refine bigSep_congr fun c _ => ?_
  rw [SparseCore.bigSep_product]

theorem bigSep2_sep {M : Type} [URA M] (A B : Fin 2 → Fin 16 → sProp M) :
    (bigSep Finset.univ fun c => bigSep Finset.univ fun s => iprop(A c s ∗ B c s))
      = iprop((bigSep Finset.univ fun c => bigSep Finset.univ fun s => A c s) ∗ bigSep Finset.univ fun c => bigSep Finset.univ fun s => B c s) := by
  rw [← bigSep_sep']; exact bigSep_congr fun c _ => bigSep_sep' _ _ _

theorem chunks_disjoint : ∀ i ∈ (Finset.univ : Finset (Fin 2048)), ∀ j ∈ (Finset.univ : Finset (Fin 2048)), i ≠ j → Disjoint (chunkSet i) (chunkSet j) :=
  fun i _ j _ h => by rw [chunkSet_eq, chunkSet_eq]; exact Rect.part_disjoint hdiv h
theorem chunks_cover : (Finset.univ : Finset (Fin 2048)).biUnion chunkSet = Finset.univ :=
  (Finset.biUnion_congr rfl fun i _ => chunkSet_eq i).trans (Rect.biUnion_part hdiv)

variable [FloatOps F] (m : (ℓ : Loc nD τ sig) → Buf (Elt F) ℓ) (ρ : Dev nD → PrngReg)

omit [FloatOps F] in
theorem iPts_chunks (d : Dev nD) (f : Buf (Elt F) (iLoc d)) :
    (iLoc d ↦{fullShare} f : sProp (MM F)) = bigSep Finset.univ fun n : Fin 2048 => iLoc d ↦[chunkSet n]{fullShare} f := by
  rw [← pointsTo_biUnion Finset.univ (ℓ := iLoc d) chunkSet chunks_disjoint, chunks_cover]; try rfl
omit [FloatOps F] in
theorem oPts_chunks (d : Dev nD) (f : Buf (Elt F) (oLoc d)) :
    (oLoc d ↦{fullShare} f : sProp (MM F)) = bigSep Finset.univ fun n : Fin 2048 => oLoc d ↦[chunkSet n]{fullShare} f := by
  rw [← pointsTo_biUnion Finset.univ (ℓ := oLoc d) chunkSet chunks_disjoint, chunks_cover]; try rfl

/-- Both arrays whole are every task's \`goRes\` (the result array at its launch contents), -/
theorem whole_go (d : Dev nD) :
    (iprop((iLoc d ↦{fullShare} m (iLoc d)) ∗ oLoc d ↦{fullShare} m (oLoc d)) : sProp (MM F))
      = bigSep (Finset.univ : Finset (Fin 2)) fun c => bigSep (Finset.univ : Finset (Fin 16)) fun s => goRes m d (gp c s) := by
  unfold goRes
  rw [bigSep2_sep, iPts_chunks, oPts_chunks, chunks_regroup, chunks_regroup]
/-- and every task's \`tdRes\` is both arrays whole, the result array at the specification. -/
theorem whole_td (d : Dev nD) :
    (iprop((iLoc d ↦{fullShare} m (iLoc d)) ∗ oLoc d ↦{fullShare} outFinal m d) : sProp (MM F))
      = bigSep (Finset.univ : Finset (Fin 2)) fun c => bigSep (Finset.univ : Finset (Fin 16)) fun s => tdRes m d (gp c s) := by
  unfold tdRes
  rw [bigSep2_sep, iPts_chunks, oPts_chunks, chunks_regroup, chunks_regroup]

/-! ## What the handshakes carry -/

/-- The one call takes, per SparseCore, its sixteen tasks' chunks of both arrays, hands each task its own, and brings
    them back, the result's at the specification. -/
def P : (K (F := F)).Pay (nD := nD) (Val := Elt F) (Name := ℕ) (U := UU) where
  st := fun q d c => match q with
    | 0 => bigSep Finset.univ fun i : Fin ((K (F := F)).nSub 0) => goRes m d (gp (Fin.cast nCore_zero c) (Fin.cast nSub_zero i))
  dn := fun q d c => match q with
    | 0 => bigSep Finset.univ fun i : Fin ((K (F := F)).nSub 0) => tdRes m d (gp (Fin.cast nCore_zero c) (Fin.cast nSub_zero i))
  go := fun q d c i => match q with | 0 => goRes m d (gp (Fin.cast nCore_zero c) (Fin.cast nSub_zero i))
  td := fun q d c i => match q with | 0 => tdRes m d (gp (Fin.cast nCore_zero c) (Fin.cast nSub_zero i))
  x := fun _ _ => iprop(emp)

theorem P_st (d : Dev nD) (c : Fin ((K (F := F)).nCore 0)) :
    (P m).st 0 d c = bigSep Finset.univ fun i : Fin ((K (F := F)).nSub 0) => goRes m d (gp (Fin.cast nCore_zero c) (Fin.cast nSub_zero i)) := by
  unfold P; rfl
theorem P_dn (d : Dev nD) (c : Fin ((K (F := F)).nCore 0)) :
    (P m).dn 0 d c = bigSep Finset.univ fun i : Fin ((K (F := F)).nSub 0) => tdRes m d (gp (Fin.cast nCore_zero c) (Fin.cast nSub_zero i)) := by
  unfold P; rfl
theorem P_go (d : Dev nD) (c : Fin ((K (F := F)).nCore 0)) (i : Fin ((K (F := F)).nSub 0)) :
    (P m).go 0 d c i = goRes m d (gp (Fin.cast nCore_zero c) (Fin.cast nSub_zero i)) := rfl
theorem P_td (d : Dev nD) (c : Fin ((K (F := F)).nCore 0)) (i : Fin ((K (F := F)).nSub 0)) :
    (P m).td 0 d c i = tdRes m d (gp (Fin.cast nCore_zero c) (Fin.cast nSub_zero i)) := rfl

instance goRes_storable (d : Dev nD) (L : grid0.Coords) : BI.Storable (upEmb : UEmb _ (MM F)) (goRes m d L) := by
  unfold goRes; infer_instance
instance tdRes_storable (d : Dev nD) (L : grid0.Coords) : BI.Storable (upEmb : UEmb _ (MM F)) (tdRes m d L) := by
  unfold tdRes; infer_instance

instance P_storable : (P (F := F) m).IsStorable where
  st q d c := match q with | 0 => by rw [P_st]; infer_instance
  dn q d c := match q with | 0 => by rw [P_dn]; infer_instance
  go q d c i := match q with | 0 => by rw [P_go]; infer_instance
  td q d c i := match q with | 0 => by rw [P_td]; infer_instance

/-! ## The launch theorem's obligations -/

theorem defs₀_vector (c : Fin τ.nSC) (s : Fin τ.nSub) :
    defs₀ (F := F) (.scVector c s) 0 ()
      = SparseCore.onTile hcore0 hsub0 (fun c s => cc0__sc_body (coordsV c s)
          imgV (Memref.isWhole_whole _) outV (Memref.isWhole_whole _) b0 (Memref.isWhole_whole _) b1 (Memref.isWhole_whole _)
          b2 (Memref.isWhole_whole _) b3 (Memref.isWhole_whole _)
          cc0_scratch4 cc0_scratch5 cc0_scratch6 cc0_scratch7 cc0_scratch8 cc0_scratch9 cc0_scratch10 cc0_scratch11) ⟨⟩ c s := rfl

omit [FloatOps F] in
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m hF d (coordsV ⟨_, hc.1⟩ ⟨_, hc.2⟩) O W hO).trans (wp_mono frame _ _ fun _ => obl_post)

theorem vecSplit : (K (F := F)).VecSplit' (P m) 0 := by
  intro d c
  rw [P_st, P_dn]; simp only [P_go, P_td]
  iintro H; imodintro
  isplitl [H]; · iexact H
  iintro H; iexact H

/-! ## The launch element: the handshakes' rounds; the counters are dropped -/

def u₀ : UU := (initOf (K (F := F)).hsCells (K (F := F)).hsToks, 1)

omit [FloatOps F] in
theorem bigSep_emp' {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp (MM F))) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp (MM F)) = iprop((iLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

theorem st0_eq (d : Dev nD) :
    (bigSep Finset.univ fun c : Fin ((K (F := F)).nCore 0) => (P m).st 0 d c)
      = iprop((iLoc d ↦{fullShare} m (iLoc d)) ∗ oLoc d ↦{fullShare} m (oLoc d)) := by
  rw [whole_go]
  exact bigSep_congr fun c _ => (P_st m d c).trans (bigSep_congr fun i _ => rfl)
theorem dn0_eq (d : Dev nD) :
    (bigSep Finset.univ fun c : Fin ((K (F := F)).nCore 0) => (P m).dn 0 d c)
      = iprop((iLoc d ↦{fullShare} m (iLoc d)) ∗ oLoc d ↦{fullShare} outFinal m d) := by
  rw [whole_td]
  exact bigSep_congr fun c _ => (P_dn m d c).trans (bigSep_congr fun i _ => rfl)

/-- What @main leaves the claim: the argument array at its launch contents, the result array at the specification. -/
abbrev FIN (d : Dev nD) : sProp (MM F) := iprop((iLoc d ↦{fullShare} m (iLoc d)) ∗ oLoc d ↦{fullShare} outFinal m d)

/-- @main on device \`d\`'s TensorCore: the one call, from both arrays whole to both arrays whole. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Ho⟩, -, -⟩, -⟩
  iapply ((K (F := F)).wp_run (D (F := F)) 𝒱 (EH := EH) (P := P m) κ d 0) $$ [Hst Hi Ho]
  isplitr; · iexact Hctx
  isplitl [Hst]; · iexact Hst
  isplitl [Hi Ho]
  · rw [st0_eq]
    isplitl [Hi]; · iexact Hi
    iexact Ho
  iintro ⟨Hst, Hdn⟩
  ihave Hdn' := (Entails.of_eq (dn0_eq m d)) $$ Hdn
  icases Hdn' with ⟨Hi, Ho⟩
  imodintro
  isplitl [Hst]; · iexact Hst
  isplitl [Hi]; · iexact Hi
  iexact Ho

def fq (d : Dev nD) (s' : Phys nD τ sig (Elt F)) : Prop := s'.mem.mem (oLoc d) = outFinal m d ∧ s'.mem.mem (iLoc d) = m (iLoc d)

theorem hfin (d : Dev nD) (s' : Phys nD τ sig (Elt F)) : iprop(FIN m d ∗ SI s') ⊢ (⌜fq m d s'⌝ : sProp (MM F)) := by
  iintro ⟨⟨Hi, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (SI_pointsTo_agree (st := s') (ℓ := oLoc d) (I := Finset.univ) (q := fullShare) (f := outFinal m d)) $$ [HSI Ho]
  · isplitl [HSI] <;> iassumption
  icases H with %h2
  ipureintro; exact ⟨funext fun i => h2 i (Finset.mem_univ i), funext fun i => h1 i (Finset.mem_univ i)⟩

/-! ## The program's run -/

theorem run_main [∀ e, Nonempty (Elt F e)] :
    θ_run (Cert.KernelIdeal.defs (F := F)) (Cert.KernelIdeal.threads (F := F)) ⟨m, fun _ => 0, ρ⟩
      (fun r => ∀ c : Dev nD, r.2.mem (oLoc c) = outFinal m c ∧ r.2.mem (iLoc c) = m (iLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m)
    (fun r => ∀ c : Dev nD, r.2.mem (oLoc c) = outFinal m c ∧ r.2.mem (iLoc c) = m (iLoc c)) (fun _ h => h)

end Cert.Proof.KI

end
-- ==== Proof.KB.Common.lean ====
/-
  Shared vocabulary for the frame and value proof of the SparseCore kernel (word-level program): the launch theorem's
  view of the program, the resource algebra, the buffers as the body names them, the specification and the
  row-chunk geometry.

  The kernel: 32 vector subcores (2 SparseCores × 16), subcore (c, s) owning the 2048 rows starting at
  (2 s + c) · 2048 of a 65536 × 512 array, in 64 chunks of 32 rows.  Each chunk is copied into one of four
  VMEM buffers, the seven disabled columns {8, 123, 264, 265, 326, 338, 379} are overwritten by zero in every row
  of the buffer, and the buffer is copied out to the same rows of the result.
-/
import proofs.«205590_g25494925869706_cont_9to1_307_11_alg».proof.Defs
import Idealize.ShloMosaic.Lib.SparseCore.Launch
import Idealize.ShloMosaic.Lib.StableHlo.Run
import Idealize.ShloMosaic.Lib.Pipeline.Kit
import Idealize.ShloMosaic.Lib.Tactic
import proofs.«205590_g25494925869706_cont_9to1_307_11_alg».proof.Proof.Spec
import proofs.«205590_g25494925869706_cont_9to1_307_11_alg».proof.Proof.Eqns
import proofs.«205590_g25494925869706_cont_9to1_307_11_alg».proof.Proof.Gen.Kernel
import proofs.«205590_g25494925869706_cont_9to1_307_11_alg».proof.Proof.Gen.Kernel.Skeleton

noncomputable section

namespace Cert.Proof.KB

open Cert.Kernel Cert.Kernel.Gen
open Cert.Proof.Spec (dis spec maskRows)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds beside the transfers' counters -/

abbrev UH : Type := URounds (GSem nD τ sig) ℕ
abbrev UU : Type := UH × Counters

/-- The machine's algebra at this certificate's user algebra. -/
abbrev MM (F : FTy → Type) : Type := MT nD τ sig (HIx 1) (Elt F) ℕ UU ℕ

abbrev EH : Emb UH (MM F) := embL

/-! ## The arrays and the scratch, as the body table passes them -/

abbrev imgV : Memref sig .scVector .hbm S65536x512 .f32 := Memref.whole main_arg0_scv
abbrev outV : Memref sig .scVector .hbm S65536x512 .f32 := Memref.whole main_v0_scv
abbrev b0 : Memref sig .scVector .vmem S32x512 .f32 := Memref.whole cc0_scratch0
abbrev b1 : Memref sig .scVector .vmem S32x512 .f32 := Memref.whole cc0_scratch1
abbrev b2 : Memref sig .scVector .vmem S32x512 .f32 := Memref.whole cc0_scratch2
abbrev b3 : Memref sig .scVector .vmem S32x512 .f32 := Memref.whole cc0_scratch3

abbrev iLoc (d : Dev nD) : Loc nD τ sig := (SparseCore.T d).loc main_arg0
abbrev oLoc (d : Dev nD) : Loc nD τ sig := (SparseCore.T d).loc main_v0

/-- A grid point's SparseCore and vector subcore. -/
abbrev cV (L : grid0.Coords) : Fin τ.nSC := (L 0).castLE hcore0
abbrev jV (L : grid0.Coords) : Fin τ.nSub := (L 1).castLE hsub0
/-- The thread of grid point `L` on device `d`. -/
abbrev thrV (d : Dev nD) (L : grid0.Coords) : Thread nD τ := V d (cV L) (jV L)

def coordsV (c : Fin (grid0.bound 0)) (s : Fin (grid0.bound 1)) : grid0.Coords :=
  fun | 0 => c | 1 => s | ⟨_ + 2, h⟩ => absurd h (Nat.not_lt.2 (Nat.le_add_left _ _))

/-! ## The geometry: 2048 chunks of 32 rows -/

theorem hdiv : 2048 ∣ S65536x512.size 0 := ⟨32, rfl⟩
/-- Chunk `n`: rows `[32 n, 32 n + 32)`, every column. -/
abbrev chunk (n : Fin 2048) : Rect S65536x512 := Rect.part (s := S65536x512) (a₀ := 0) hdiv n
abbrev chunkSet (n : Fin 2048) : Finset S65536x512.Idx := ((imgV : Memref sig .scVector .hbm S65536x512 .f32).view.slice (chunk n)).set

/-- The number of chunk `ci` (read modulo 64) of grid point `L`: `(2 · L 1 + L 0) · 64 + ci`. -/
def chunkNo (L : grid0.Coords) (ci : ℕ) : Fin 2048 :=
  ⟨(2 * (L 1).val + (L 0).val) * 64 + ci % 64, by
    have h0 : (L 0).val < 2 := (L 0).isLt
    have h1 : (L 1).val < 16 := (L 1).isLt
    have h2 : ci % 64 < 64 := Nat.mod_lt _ (by decide)
    omega⟩

/-! ## What a task is handed and what it hands back -/

section Res
variable [FloatOps F] (m : (ℓ : Loc nD τ sig) → Buf (Elt F) ℓ) (d : Dev nD) (L : grid0.Coords)

/-- Chunk `ci` of grid point `L`'s rows of the argument array, at its launch contents. -/
abbrev imgChunk (ci : ℕ) : sProp (MM F) := iLoc d ↦[chunkSet (chunkNo L ci)]{fullShare} m (iLoc d)
/-- Chunk `ci` of grid point `L`'s rows of the result array, at contents `f`. -/
abbrev outChunk (f : Buf (Elt F) (oLoc d)) (ci : ℕ) : sProp (MM F) := oLoc d ↦[chunkSet (chunkNo L ci)]{fullShare} f

/-- The result array's final contents: the specification of the argument's launch contents. -/
abbrev outFinal : Buf (Elt F) (oLoc d) := (spec (F := F) (m (iLoc d)) : FVec F S65536x512 .f32)

/-- What grid point `L`'s task is handed: its 64 chunks of the argument and of the result, the result's at their
    launch contents. -/
def goRes : sProp (MM F) :=
  iprop((bigSep (Finset.range 64) fun ci => imgChunk m d L ci) ∗ (bigSep (Finset.range 64) fun ci => outChunk d L (m (oLoc d)) ci))
/-- What it hands back: the same chunks, the result's at the specification. -/
def tdRes : sProp (MM F) :=
  iprop((bigSep (Finset.range 64) fun ci => imgChunk m d L ci) ∗ (bigSep (Finset.range 64) fun ci => outChunk d L (outFinal m d) ci))

end Res

end Cert.Proof.KB

end
-- ==== Proof.KB.Own.lean ====
/-
  A vector subcore's own scoped storage, opened: its eight DMA semaphore cells at zero and its four staging buffers at
  some contents, beside the rest.
-/
import proofs.«205590_g25494925869706_cont_9to1_307_11_alg».proof.Proof.KB.Common

noncomputable section

namespace Cert.Proof.KB

open Cert.Kernel Cert.Kernel.Gen
open Cert.Proof.Spec (dis spec maskRows)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (d : Dev nD) (L : grid0.Coords)

/-- The subcore's cell of DMA semaphore `s`. -/
abbrev cellOf (s : DmaSems sig S_) : GSem nD τ sig := (thrV d L, .dma s.sem)

/-- The subcore's own cells but the eight the body uses. -/
def semRest : Finset (GSem nD τ sig) :=
  (((((((((ownCells (thrV d L)).erase (cellOf d L cc0_scratch4)).erase (cellOf d L cc0_scratch5)).erase (cellOf d L cc0_scratch6)).erase (cellOf d L cc0_scratch7)).erase (cellOf d L cc0_scratch8)).erase (cellOf d L cc0_scratch9)).erase (cellOf d L cc0_scratch10)).erase (cellOf d L cc0_scratch11))

theorem sem_scoped (s : DmaSems sig S_) (h : (SemLoc.dma s.sem : SemLoc sig).isScoped .scVector = true) :
    cellOf d L s ∈ ownCells (thrV d L) := (mem_ownCells (g := cellOf d L s)).mpr ⟨rfl, h⟩

theorem cell_ne {s s' : DmaSems sig S_} (h : s.sem ≠ s'.sem) : cellOf d L s ≠ cellOf d L s' :=
  fun e => h (by have := (Prod.mk.inj e).2; exact SemLoc.dma.inj this)

omit [FloatOps F] in
theorem ownSems0_V :
    (ownSems0 (thrV d L) : sProp (MM F))
      = iprop(semVal (cellOf d L cc0_scratch4) 0 ∗ semVal (cellOf d L cc0_scratch5) 0 ∗ semVal (cellOf d L cc0_scratch6) 0 ∗ semVal (cellOf d L cc0_scratch7) 0 ∗ semVal (cellOf d L cc0_scratch8) 0 ∗ semVal (cellOf d L cc0_scratch9) 0 ∗ semVal (cellOf d L cc0_scratch10) 0 ∗ semVal (cellOf d L cc0_scratch11) 0
          ∗ bigSep (semRest d L) fun g => semVal g 0) := by
  unfold SparseCore.Cfg.ownSems0 semRest
  rw [SparseCore.bigSep_erase' (sem_scoped d L cc0_scratch4 (by decide)),
    SparseCore.bigSep_erase' (Finset.mem_erase.mpr ⟨cell_ne d L (by decide), sem_scoped d L cc0_scratch5 (by decide)⟩),
    SparseCore.bigSep_erase' (Finset.mem_erase.mpr ⟨cell_ne d L (by decide), Finset.mem_erase.mpr ⟨cell_ne d L (by decide), sem_scoped d L cc0_scratch6 (by decide)⟩⟩),
    SparseCore.bigSep_erase' (Finset.mem_erase.mpr ⟨cell_ne d L (by decide), Finset.mem_erase.mpr ⟨cell_ne d L (by decide), Finset.mem_erase.mpr ⟨cell_ne d L (by decide), sem_scoped d L cc0_scratch7 (by decide)⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), sem_scoped d L cc0_scratch8 (by decide)⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), sem_scoped d L cc0_scratch9 (by decide)⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), sem_scoped d L cc0_scratch10 (by decide)⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), sem_scoped d L cc0_scratch11 (by decide)⟩⟩⟩⟩⟩⟩⟩)]

/-- The subcore's own buffers but the four staging buffers. -/
def bufRest : Finset (DevRef τ sig) :=
  (((((ownRefs (τ := τ) (sig := sig) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3))

omit [FloatOps F] in
theorem ownBufs_V :
    (ownBufs (thrV d L) : sProp (MM F))
      = iprop((∃ f, (thrV d L).loc cc0_scratch0 ↦{fullShare} f) ∗ (∃ f, (thrV d L).loc cc0_scratch1 ↦{fullShare} f) ∗ (∃ f, (thrV d L).loc cc0_scratch2 ↦{fullShare} f) ∗ (∃ f, (thrV d L).loc cc0_scratch3 ↦{fullShare} f)
          ∗ bigSep (bufRest L) fun b => iprop(∃ f, ((d, b) : Loc nD τ sig) ↦{fullShare} f)) := by
  unfold SparseCore.Cfg.ownBufs bufRest
  rw [SparseCore.bigSep_erase' (SparseCore.Cfg.mem_ownRefs_of_owner (p := Proc.scVector (cV L) (jV L)) (b := (Proc.scVector (cV L) (jV L)).devRef cc0_scratch0) rfl),
    SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩)]

end Cert.Proof.KB

end
-- ==== Proof.KB.Geom.lean ====
/-
  The geometry of the body's transfers: every row-chunk slice the body names is one of the 2048 chunks, and the
  conditions around the transfers of a group as statements about the group's number.
-/
import proofs.«205590_g25494925869706_cont_9to1_307_11_alg».proof.Proof.KB.Common

noncomputable section

namespace Cert.Proof.KB

open Cert.Kernel Cert.Kernel.Gen
open Cert.Proof.Spec (dis spec maskRows)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## Slices of the two arrays are chunks -/

theorem chunkSet_eq (n : Fin 2048) : chunkSet n = (chunk n).set := by
  show ((View.whole (main_arg0_scv : Ref sig .scVector)).slice (chunk n)).set = _
  rw [View.set_slice]; exact Finset.map_refl

/-- A unit rectangle of 32 rows from row `32 n`, all columns, is chunk `n`. -/
theorem unit_eq_chunk (off : Fin 2 → ℕ) (inb : ∀ a, off a + S32x512.size a ≤ S65536x512.size a) (n : Fin 2048)
    (h : off = ![32 * n.val, 0]) :
    Rect.unit (s := S65536x512) off S32x512.size inb = chunk n := by
  subst h
  unfold chunk Rect.part Rect.block
  congr 1 <;> funext a
  · match a with
    | 0 => simp [Shape.partIx, Shape.partSize]; omega
    | 1 => simp [Shape.partIx, Shape.partSize]
  · match a with
    | 0 => simp [Shape.partSize]
    | 1 => simp [Shape.partSize]

theorem set_img_slice (off : Fin 2 → ℕ) (inb : ∀ a, off a + S32x512.size a ≤ S65536x512.size a) (n : Fin 2048)
    (h : off = ![32 * n.val, 0]) :
    ((imgV : Memref sig .scVector .hbm S65536x512 .f32).slice (Rect.unit (s := S65536x512) off S32x512.size inb) (fun _ => rfl)).view.set = chunkSet n := by
  refine (View.set_slice_whole (main_arg0_scv : Ref sig .scVector) _).trans ?_
  exact (congrArg (fun r : Rect S65536x512 => r.set) (unit_eq_chunk off inb n h)).trans (chunkSet_eq n).symm

theorem set_out_slice (off : Fin 2 → ℕ) (inb : ∀ a, off a + S32x512.size a ≤ S65536x512.size a) (n : Fin 2048)
    (h : off = ![32 * n.val, 0]) :
    ((outV : Memref sig .scVector .hbm S65536x512 .f32).slice (Rect.unit (s := S65536x512) off S32x512.size inb) (fun _ => rfl)).view.set = chunkSet n := by
  refine (View.set_slice_whole (main_v0_scv : Ref sig .scVector) _).trans ?_
  exact (congrArg (fun r : Rect S65536x512 => r.set) (unit_eq_chunk off inb n h)).trans (chunkSet_eq n).symm

/-! ## The offsets the generated closed forms do not cover -/

theorem k0_off1_eq0 : ∀ i : grid0.Coords, k0_off1 i 0#32 = ![4096 * (i 1).val + 2048 * (i 0).val, 0] := by decide +kernel
theorem k0_off1_eq32 : ∀ i : grid0.Coords, k0_off1 i 32#32 = ![4096 * (i 1).val + 2048 * (i 0).val + 32, 0] := by decide +kernel

/-- Row `32 · chunkNo L ci` in the generated closed forms' spelling. -/
theorem chunkNo_row (L : grid0.Coords) (ci : ℕ) (h : ci < 64) :
    32 * (chunkNo L ci).val = 4096 * (L 1).val + 2048 * (L 0).val + 32 * ci := by
  show 32 * ((2 * (L 1).val + (L 0).val) * 64 + ci % 64) = _
  rw [Nat.mod_eq_of_lt h]; ring

/-- A 32-row unit rectangle at the row of chunk `ci` of grid point `L` covers that chunk. -/
theorem chunkSet_of_off (L : grid0.Coords) (ci : ℕ) (h : ci < 64) (off : Fin 2 → ℕ) (inb : ∀ a, off a + S32x512.size a ≤ S65536x512.size a)
    (hoff : off = ![4096 * (L 1).val + 2048 * (L 0).val + 32 * ci, 0]) :
    chunkSet (chunkNo L ci) = (Rect.unit (s := S65536x512) off S32x512.size inb).set :=
  (chunkSet_eq _).trans (congrArg (fun r : Rect S65536x512 => r.set) (unit_eq_chunk off inb (chunkNo L ci) (by rw [hoff, chunkNo_row L ci h])).symm)

/-- Two offset vectors with equal first components. -/
theorem off_congr {x y : ℕ} (h : x = y) : (![x, 0] : Fin 2 → ℕ) = ![y, 0] := by rw [h]

/-! ## The conditions, by the group's number -/

theorem cond1_iff : ∀ g : Fin k0_t1_loop.trips, k0_cond1 g = 1#1 ↔ 1 ≤ g.val := by decide +kernel
theorem cond2_all : ∀ g : Fin k0_t1_loop.trips, k0_cond2 g = 1#1 := by decide +kernel
theorem cond3_iff : ∀ g : Fin k0_t1_loop.trips, k0_cond3 g = 1#1 ↔ 1 ≤ g.val := by decide +kernel
theorem cond4_all : ∀ g : Fin k0_t1_loop.trips, k0_cond4 g = 1#1 := by decide +kernel
theorem cond5_all : ∀ g : Fin k0_t1_loop.trips, k0_cond5 g = 1#1 := by decide +kernel
theorem cond6_iff : ∀ g : Fin k0_t1_loop.trips, k0_cond6 g = 1#1 ↔ g.val < 15 := by decide +kernel
theorem cond7_all : ∀ g : Fin k0_t1_loop.trips, k0_cond7 g = 1#1 := by decide +kernel
theorem cond8_iff : ∀ g : Fin k0_t1_loop.trips, k0_cond8 g = 1#1 ↔ g.val < 15 := by decide +kernel
theorem trips_eq : k0_t1_loop.trips = 16 := by decide

end Cert.Proof.KB

end
-- ==== Proof.KB.Inv.lean ====
/-
  The group loop's invariant.  Before group `g` (chunks 4g … 4g+3 of the task): chunks 4g and 4g+1 are on their way
  into buffers 0 and 1, chunks 4g-2 and 4g-1 on their way out of buffers 2 and 3 (nothing yet before the first group),
  the chunks below 4g-2 of the result are final and those from 4g on untouched.
-/
import proofs.«205590_g25494925869706_cont_9to1_307_11_alg».proof.Proof.KB.Common
import proofs.«205590_g25494925869706_cont_9to1_307_11_alg».proof.Proof.KB.Own
import proofs.«205590_g25494925869706_cont_9to1_307_11_alg».proof.Proof.KB.Geom

noncomputable section

namespace Cert.Proof.KB

open Cert.Kernel Cert.Kernel.Gen
open Cert.Proof.Spec (dis spec maskRows)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

omit [FloatOps F] in
theorem bigSep_Ico_head {a b : ℕ} (h : a < b) (Φ : ℕ → sProp (MM F)) :
    bigSep (Finset.Ico a b) Φ = iprop(Φ a ∗ bigSep (Finset.Ico (a + 1) b) Φ) := by
  rw [show Finset.Ico a b = insert a (Finset.Ico (a + 1) b) from by ext x; simp only [Finset.mem_Ico, Finset.mem_insert]; omega,
    SparseCore.bigSep_insert' (by simp)]

omit [FloatOps F] in
theorem bigSep_Ico_last {a b : ℕ} (h : a ≤ b) (Φ : ℕ → sProp (MM F)) :
    bigSep (Finset.Ico a (b + 1)) Φ = iprop(Φ b ∗ bigSep (Finset.Ico a b) Φ) := by
  rw [show Finset.Ico a (b + 1) = insert b (Finset.Ico a b) from by ext x; simp only [Finset.mem_Ico, Finset.mem_insert]; omega,
    SparseCore.bigSep_insert' (by simp)]

omit [FloatOps F] in
theorem bigSep_Ico_empty {a b : ℕ} (h : b ≤ a) (Φ : ℕ → sProp (MM F)) : bigSep (Finset.Ico a b) Φ = iprop(emp) := by
  rw [Finset.Ico_eq_empty (by omega)]; exact bigSep_empty

/-! ## Slices of the arrays held by their own elements -/

omit [FloatOps F] in
theorem pts_img (d : Dev nD) (L : grid0.Coords) (r : Rect S65536x512) (hr : ∀ a, r.stride a = 1) (f : Buf (Elt F) (iLoc d)) :
    ((((imgV : Memref sig .scVector .hbm S65536x512 .f32).slice r hr).view.loc (thrV d L)) ↦[((imgV : Memref sig .scVector .hbm S65536x512 .f32).slice r hr).view.set]{fullShare} f : sProp (MM F))
      = (iLoc d ↦[r.set]{fullShare} f) := by
  have e : ((imgV : Memref sig .scVector .hbm S65536x512 .f32).slice r hr).view.set = r.set := by
    show ((View.whole (main_arg0_scv : Ref sig .scVector)).slice r).set = _
    exact View.set_slice_whole (main_arg0_scv : Ref sig .scVector) _
  rw [e]

omit [FloatOps F] in
theorem pts_out (d : Dev nD) (L : grid0.Coords) (r : Rect S65536x512) (hr : ∀ a, r.stride a = 1) (f : Buf (Elt F) (oLoc d)) :
    ((((outV : Memref sig .scVector .hbm S65536x512 .f32).slice r hr).view.loc (thrV d L)) ↦[((outV : Memref sig .scVector .hbm S65536x512 .f32).slice r hr).view.set]{fullShare} f : sProp (MM F))
      = (oLoc d ↦[r.set]{fullShare} f) := by
  have e : ((outV : Memref sig .scVector .hbm S65536x512 .f32).slice r hr).view.set = r.set := by
    show ((View.whole (main_v0_scv : Ref sig .scVector)).slice r).set = _
    exact View.set_slice_whole (main_v0_scv : Ref sig .scVector) _
  rw [e]

/-! ## A chunk's contents -/

theorem chunk_inb (n : Fin 2048) : ∀ a, (![32 * n.val, 0] : Fin 2 → ℕ) a + S32x512.size a ≤ S65536x512.size a := by
  have := n.isLt
  intro a; fin_cases a <;> simp <;> omega

/-- Chunk `n` of the argument array as a memref. -/
abbrev imgC (n : Fin 2048) : Memref sig .scVector .hbm S32x512 .f32 :=
  (imgV : Memref sig .scVector .hbm S65536x512 .f32).slice (Rect.unit (s := S65536x512) ![32 * n.val, 0] S32x512.size (chunk_inb n)) (fun _ => rfl)

section Inv
variable (m : (ℓ : Loc nD τ sig) → Buf (Elt F) ℓ) (d : Dev nD) (L : grid0.Coords)

/-- What chunk `ci` of the task holds in the argument array: the contents a staging buffer lands at. -/
def landC (ci : ℕ) : FVec F S32x512 .f32 := (imgC (chunkNo L ci)).view.read (Elt F) (m (iLoc d))

omit [FloatOps F] in
/-- A 32-row slice of the argument array at the chunk's row reads the chunk's contents. -/
theorem land_eq (ci : ℕ) (h : ci < 64) (off : Fin 2 → ℕ) (inb : ∀ a, off a + S32x512.size a ≤ S65536x512.size a)
    (hoff : off = ![4096 * (L 1).val + 2048 * (L 0).val + 32 * ci, 0]) :
    ((imgV : Memref sig .scVector .hbm S65536x512 .f32).slice (Rect.unit (s := S65536x512) off S32x512.size inb) (fun _ => rfl)).view.read (Elt F) (m (iLoc d))
      = landC m d L ci := by
  have h' : off = ![32 * (chunkNo L ci).val, 0] := by rw [hoff, chunkNo_row L ci h]
  subst h'; rfl

/-- Chunk `ci` on its way into staging buffer 0: at the wait the buffer holds the chunk and the chunk's share of the
    argument array comes back. -/
def FlIn0 (ci : ℕ) : sProp (MM F) :=
  Transfers.Flight countersEmb (thrV d L) (SemLoc.dma cc0_scratch4.sem) (default : HIx 1) 524288
    iprop(((b0 : Memref sig .scVector .vmem S32x512 .f32).view.loc (thrV d L) ↦{fullShare} (landC m d L ci : FVec F S32x512 .f32)) ∗ imgChunk m d L ci)

/-- Chunk `ci` on its way out of staging buffer 0: at the wait the chunk of the result is final and the buffer comes back. -/
def FlOut0 (ci : ℕ) : sProp (MM F) :=
  Transfers.Flight countersEmb (thrV d L) (SemLoc.dma cc0_scratch8.sem) (default : HIx 1) 524288
    iprop(outChunk d L (outFinal m d) ci ∗ ((b0 : Memref sig .scVector .vmem S32x512 .f32).view.loc (thrV d L) ↦{fullShare} (maskRows 32 (landC m d L ci) : FVec F S32x512 .f32)))

/-- Chunk `ci` on its way into staging buffer 1: at the wait the buffer holds the chunk and the chunk's share of the
    argument array comes back. -/
def FlIn1 (ci : ℕ) : sProp (MM F) :=
  Transfers.Flight countersEmb (thrV d L) (SemLoc.dma cc0_scratch5.sem) (default : HIx 1) 524288
    iprop(((b1 : Memref sig .scVector .vmem S32x512 .f32).view.loc (thrV d L) ↦{fullShare} (landC m d L ci : FVec F S32x512 .f32)) ∗ imgChunk m d L ci)

/-- Chunk `ci` on its way out of staging buffer 1: at the wait the chunk of the result is final and the buffer comes back. -/
def FlOut1 (ci : ℕ) : sProp (MM F) :=
  Transfers.Flight countersEmb (thrV d L) (SemLoc.dma cc0_scratch9.sem) (default : HIx 1) 524288
    iprop(outChunk d L (outFinal m d) ci ∗ ((b1 : Memref sig .scVector .vmem S32x512 .f32).view.loc (thrV d L) ↦{fullShare} (maskRows 32 (landC m d L ci) : FVec F S32x512 .f32)))

/-- Chunk `ci` on its way into staging buffer 2: at the wait the buffer holds the chunk and the chunk's share of the
    argument array comes back. -/
def FlIn2 (ci : ℕ) : sProp (MM F) :=
  Transfers.Flight countersEmb (thrV d L) (SemLoc.dma cc0_scratch6.sem) (default : HIx 1) 524288
    iprop(((b2 : Memref sig .scVector .vmem S32x512 .f32).view.loc (thrV d L) ↦{fullShare} (landC m d L ci : FVec F S32x512 .f32)) ∗ imgChunk m d L ci)

/-- Chunk `ci` on its way out of staging buffer 2: at the wait the chunk of the result is final and the buffer comes back. -/
def FlOut2 (ci : ℕ) : sProp (MM F) :=
  Transfers.Flight countersEmb (thrV d L) (SemLoc.dma cc0_scratch10.sem) (default : HIx 1) 524288
    iprop(outChunk d L (outFinal m d) ci ∗ ((b2 : Memref sig .scVector .vmem S32x512 .f32).view.loc (thrV d L) ↦{fullShare} (maskRows 32 (landC m d L ci) : FVec F S32x512 .f32)))

/-- Chunk `ci` on its way into staging buffer 3: at the wait the buffer holds the chunk and the chunk's share of the
    argument array comes back. -/
def FlIn3 (ci : ℕ) : sProp (MM F) :=
  Transfers.Flight countersEmb (thrV d L) (SemLoc.dma cc0_scratch7.sem) (default : HIx 1) 524288
    iprop(((b3 : Memref sig .scVector .vmem S32x512 .f32).view.loc (thrV d L) ↦{fullShare} (landC m d L ci : FVec F S32x512 .f32)) ∗ imgChunk m d L ci)

/-- Chunk `ci` on its way out of staging buffer 3: at the wait the chunk of the result is final and the buffer comes back. -/
def FlOut3 (ci : ℕ) : sProp (MM F) :=
  Transfers.Flight countersEmb (thrV d L) (SemLoc.dma cc0_scratch11.sem) (default : HIx 1) 524288
    iprop(outChunk d L (outFinal m d) ci ∗ ((b3 : Memref sig .scVector .vmem S32x512 .f32).view.loc (thrV d L) ↦{fullShare} (maskRows 32 (landC m d L ci) : FVec F S32x512 .f32)))

/-- A staging buffer at some contents. -/
abbrev anyB0 : sProp (MM F) := iprop(∃ f, (b0 : Memref sig .scVector .vmem S32x512 .f32).view.loc (thrV d L) ↦{fullShare} f)
abbrev anyB1 : sProp (MM F) := iprop(∃ f, (b1 : Memref sig .scVector .vmem S32x512 .f32).view.loc (thrV d L) ↦{fullShare} f)
abbrev anyB2 : sProp (MM F) := iprop(∃ f, (b2 : Memref sig .scVector .vmem S32x512 .f32).view.loc (thrV d L) ↦{fullShare} f)
abbrev anyB3 : sProp (MM F) := iprop(∃ f, (b3 : Memref sig .scVector .vmem S32x512 .f32).view.loc (thrV d L) ↦{fullShare} f)

/-- The incoming side before group `g`: chunks 4g and 4g+1 in flight — or, after the last group, buffers 0 and 1 and
    their cells back. -/
def inSide (g : ℕ) : sProp (MM F) :=
  if g < 16 then iprop(FlIn0 m d L (4 * g) ∗ FlIn1 m d L (4 * g + 1))
  else iprop(anyB0 d L ∗ anyB1 d L ∗ semVal (cellOf d L cc0_scratch4) 0 ∗ semVal (cellOf d L cc0_scratch5) 0)

/-- The outgoing side before group `g`: chunks 4g-2 and 4g-1 in flight — or, before the first group, buffers 2 and 3 and
    their cells untouched. -/
def outSide (g : ℕ) : sProp (MM F) :=
  if g = 0 then iprop(anyB2 d L ∗ anyB3 d L ∗ semVal (cellOf d L cc0_scratch10) 0 ∗ semVal (cellOf d L cc0_scratch11) 0)
  else iprop(FlOut2 m d L (4 * g - 2) ∗ FlOut3 m d L (4 * g - 1))

variable (O : CellTallies nD τ sig (HIx 1)) (W : Waits sig (HIx 1))

/-- The invariant before group `g`. -/
def ginv (g : ℕ) (_ : Unit) : sProp (MM F) :=
  iprop(Transfers.MayWaits (thrV d L) (none : HIx 1) O
    ∗ (bigSep (Finset.Ico 0 (4 * g)) fun ci => imgChunk m d L ci)
    ∗ (bigSep (Finset.Ico (4 * g + 2) 64) fun ci => imgChunk m d L ci)
    ∗ (bigSep (Finset.Ico 0 (4 * g - 2)) fun ci => outChunk d L (outFinal m d) ci)
    ∗ (bigSep (Finset.Ico (4 * g) 64) fun ci => outChunk d L (m (oLoc d)) ci)
    ∗ inSide m d L g ∗ outSide m d L g
    ∗ semVal (cellOf d L cc0_scratch6) 0 ∗ semVal (cellOf d L cc0_scratch7) 0
    ∗ semVal (cellOf d L cc0_scratch8) 0 ∗ semVal (cellOf d L cc0_scratch9) 0
    ∗ ∃ W', ⌜∀ p ∈ W', p ∈ W ∨ p.2 = none⌝ ∗ owes (thrV d L) O W')

/-- A row loop's invariant: the staging buffer's rows below the trip have the disabled columns zeroed. -/
def rinv0 (f : FVec F S32x512 .f32) (k : ℕ) (_ : Unit) : sProp (MM F) :=
  (b0 : Memref sig .scVector .vmem S32x512 .f32).view.loc (thrV d L) ↦{fullShare} (maskRows k f : FVec F S32x512 .f32)
def rinv1 (f : FVec F S32x512 .f32) (k : ℕ) (_ : Unit) : sProp (MM F) :=
  (b1 : Memref sig .scVector .vmem S32x512 .f32).view.loc (thrV d L) ↦{fullShare} (maskRows k f : FVec F S32x512 .f32)
def rinv2 (f : FVec F S32x512 .f32) (k : ℕ) (_ : Unit) : sProp (MM F) :=
  (b2 : Memref sig .scVector .vmem S32x512 .f32).view.loc (thrV d L) ↦{fullShare} (maskRows k f : FVec F S32x512 .f32)
def rinv3 (f : FVec F S32x512 .f32) (k : ℕ) (_ : Unit) : sProp (MM F) :=
  (b3 : Memref sig .scVector .vmem S32x512 .f32).view.loc (thrV d L) ↦{fullShare} (maskRows k f : FVec F S32x512 .f32)

end Inv

end Cert.Proof.KB

end
-- ==== Proof.KB.RowsPure.lean ====
/-
  The pure core of a row trip: six 16-lane stores into one row of a 32 × 512 buffer, each writing zero on the lanes
  its mask selects and the lanes it read elsewhere, leave the row with its disabled columns zeroed and everything
  else as it was.
-/
import Idealize.ShloMosaic.Lib.Writes
import Idealize.ShloMosaic.Lib.ValueIdx
import Idealize.ShloMosaic.Lib.ValueLayout
import proofs.«205590_g25494925869706_cont_9to1_307_11_alg».proof.Proof.Spec
import proofs.«205590_g25494925869706_cont_9to1_307_11_alg».proof.Proof.Eqns

noncomputable section

namespace Cert.Proof.KB

open Idealize.ShloMosaic Idealize.ShloMosaic.ValueIdx
open Cert.Proof.Spec (dis maskRows SB)

variable {F : FTy → Type} [FloatOps F]

/-- Sixteen lanes. -/
abbrev R16 : Shape := ⟨1, ![16]⟩
/-- Sixteen lanes as one row. -/
abbrev R1x16 : Shape := ⟨2, ![1, 16]⟩

theorem cast_1x16_16 : R1x16.ShapeCasts R16 := by decide
theorem cast_16_1x16 : R16.ShapeCasts R1x16 := by decide

/-- What a trip stores at sixteen lanes: zero on the lanes the mask selects, the lanes read on the others. -/
def zpay (m : IVec R16 1) (x : Vec F R1x16 .f32) : FVec F R1x16 .f32 :=
  shapeCast R1x16 (select m (broadcast R16 (Scalar.ofBits .f32 0x00000000#32 : F .f32)) (shapeCast R16 x cast_1x16_16)) cast_16_1x16

theorem zpay_apply (m : IVec R16 1) (x : Vec F R1x16 .f32) (u : Fin 1) (l : Fin 16) :
    zpay m x (ix2 u l) = if m (ix1 l) = 1 then (Scalar.ofBits .f32 0x00000000#32 : F .f32) else x (ix2 (0 : Fin 1) l) := by
  unfold zpay
  rw [shapeCast_a_1a_apply, select_apply, broadcast_apply, shapeCast_1a_a_apply]
  rfl

/-- Row `row` with its disabled columns zeroed, every other element kept. -/
def rowZero (row : ℕ) (h : FVec F SB .f32) : FVec F SB .f32 :=
  fun i => if (i 0).val = row ∧ dis (i 1).val then Scalar.ofBits .f32 0x00000000#32 else h i

/-- Zeroing row `k` over rows below `k` zeroed is rows below `k + 1` zeroed. -/
theorem rowZero_maskRows (k : ℕ) (f : FVec F SB .f32) : rowZero k (maskRows k f) = maskRows (k + 1) f := by
  funext i
  unfold rowZero maskRows
  by_cases hd : dis (i 1).val = true
  · by_cases h0 : (i 0).val = k
    · rw [if_pos ⟨h0, hd⟩, if_pos ⟨by omega, hd⟩]
    · rw [if_neg (fun h => h0 h.1)]
      by_cases hlt : (i 0).val < k
      · rw [if_pos ⟨hlt, hd⟩, if_pos ⟨by omega, hd⟩]
      · rw [if_neg (fun h => hlt h.1), if_neg (fun h => by omega)]
  · rw [if_neg (fun h => hd h.2), if_neg (fun h => hd h.2), if_neg (fun h => hd h.2)]

section Pieces

variable {sig : RefSig} {κ : Kind} {sp : Space} (v : View sig κ sp SB .f32) (g : v.ty.Contents (Elt F))

/-- The piece at columns `[c, c + 16)` of row `row`: its payload is `rowZero` of the contents there, when its
    mask selects exactly the disabled columns among its lanes. -/
theorem piece_agree (row c : ℕ) (inb : ∀ a, (![row, c] : Fin 2 → ℕ) a + R1x16.size a ≤ SB.size a) (m : IVec R16 1)
    (hm : ∀ l : Fin 16, m (ix1 l) = 1 ↔ dis (c + l.val) = true) (x : R1x16.Idx) :
    zpay m (v.readAt (Elt F) (Rect.unit (s := SB) ![row, c] R1x16.size inb).toLoadRect g) x
      = rowZero row (v.read (Elt F) g) ((Rect.unit (s := SB) ![row, c] R1x16.size inb).emb x) := by
  obtain ⟨u, l, rfl⟩ : ∃ u l, x = ix2 u l := ⟨x 0, x 1, eq_ix2 x⟩
  obtain rfl : u = 0 := Subsingleton.elim _ _
  rw [zpay_apply]
  unfold rowZero
  have e0 : (((Rect.unit (s := SB) ![row, c] R1x16.size inb).emb (ix2 (0 : Fin 1) l)) 0).val = row := by
    show row + 1 * 0 = row
    omega
  have e1 : (((Rect.unit (s := SB) ![row, c] R1x16.size inb).emb (ix2 (0 : Fin 1) l)) 1).val = c + l.val := by
    show c + 1 * l.val = c + l.val
    omega
  by_cases hml : m (ix1 l) = 1
  · rw [if_pos hml, if_pos ⟨e0, by rw [e1]; exact (hm l).1 hml⟩]
  · rw [if_neg hml, if_neg (fun h => hml ((hm l).2 (by rw [← e1]; exact h.2)))]
    rfl

/-- A rectangle of sixteen lanes of one row holds an index exactly when the index is in that row and those columns. -/
theorem mem_piece (row c : ℕ) (inb : ∀ a, (![row, c] : Fin 2 → ℕ) a + R1x16.size a ≤ SB.size a) (y : SB.Idx) :
    y ∈ (Rect.unit (s := SB) ![row, c] R1x16.size inb).set ↔ (y 0).val = row ∧ c ≤ (y 1).val ∧ (y 1).val < c + 16 := by
  rw [Rect.mem_set_unit, Fin.forall_fin_two]
  show (row ≤ (y 0).val ∧ (y 0).val < row + 1) ∧ (c ≤ (y 1).val ∧ (y 1).val < c + 16) ↔ _
  omega

/-- The six stores of a row trip, each reading its lanes off the contents `g` and writing zero on the lanes its mask
    selects, leave what `g` reads with row `row`'s disabled columns zeroed. The offsets are taken up to their closed
    forms, the masks up to the lanes they select. -/
theorem read_writes_row (row : ℕ) (o1 o2 o3 o4 o5 o6 : Fin 2 → ℕ)
    (h1 : o1 = ![row, 0]) (h2 : o2 = ![row, 112]) (h3 : o3 = ![row, 256]) (h4 : o4 = ![row, 320])
    (h5 : o5 = ![row, 336]) (h6 : o6 = ![row, 368])
    (i1 : ∀ a, o1 a + R1x16.size a ≤ SB.size a) (i2 : ∀ a, o2 a + R1x16.size a ≤ SB.size a)
    (i3 : ∀ a, o3 a + R1x16.size a ≤ SB.size a) (i4 : ∀ a, o4 a + R1x16.size a ≤ SB.size a)
    (i5 : ∀ a, o5 a + R1x16.size a ≤ SB.size a) (i6 : ∀ a, o6 a + R1x16.size a ≤ SB.size a)
    (m1 m2 m3 m4 m5 m6 : IVec R16 1)
    (hm1 : ∀ l : Fin 16, m1 (ix1 l) = 1 ↔ dis (0 + l.val) = true)
    (hm2 : ∀ l : Fin 16, m2 (ix1 l) = 1 ↔ dis (112 + l.val) = true)
    (hm3 : ∀ l : Fin 16, m3 (ix1 l) = 1 ↔ dis (256 + l.val) = true)
    (hm4 : ∀ l : Fin 16, m4 (ix1 l) = 1 ↔ dis (320 + l.val) = true)
    (hm5 : ∀ l : Fin 16, m5 (ix1 l) = 1 ↔ dis (336 + l.val) = true)
    (hm6 : ∀ l : Fin 16, m6 (ix1 l) = 1 ↔ dis (368 + l.val) = true) :
    v.read (Elt F) (v.writes (Elt F) g
      [⟨Rect.unit (s := SB) o6 R1x16.size i6, zpay m6 (v.readAt (Elt F) (Rect.unit (s := SB) o6 R1x16.size i6).toLoadRect g)⟩,
       ⟨Rect.unit (s := SB) o5 R1x16.size i5, zpay m5 (v.readAt (Elt F) (Rect.unit (s := SB) o5 R1x16.size i5).toLoadRect g)⟩,
       ⟨Rect.unit (s := SB) o4 R1x16.size i4, zpay m4 (v.readAt (Elt F) (Rect.unit (s := SB) o4 R1x16.size i4).toLoadRect g)⟩,
       ⟨Rect.unit (s := SB) o3 R1x16.size i3, zpay m3 (v.readAt (Elt F) (Rect.unit (s := SB) o3 R1x16.size i3).toLoadRect g)⟩,
       ⟨Rect.unit (s := SB) o2 R1x16.size i2, zpay m2 (v.readAt (Elt F) (Rect.unit (s := SB) o2 R1x16.size i2).toLoadRect g)⟩,
       ⟨Rect.unit (s := SB) o1 R1x16.size i1, zpay m1 (v.readAt (Elt F) (Rect.unit (s := SB) o1 R1x16.size i1).toLoadRect g)⟩])
      = rowZero row (v.read (Elt F) g) := by
  subst h1 h2 h3 h4 h5 h6
  funext y
  by_cases hcov : ∃ p ∈ ([⟨Rect.unit (s := SB) ![row, 368] R1x16.size i6, zpay m6 (v.readAt (Elt F) (Rect.unit (s := SB) ![row, 368] R1x16.size i6).toLoadRect g)⟩,
       ⟨Rect.unit (s := SB) ![row, 336] R1x16.size i5, zpay m5 (v.readAt (Elt F) (Rect.unit (s := SB) ![row, 336] R1x16.size i5).toLoadRect g)⟩,
       ⟨Rect.unit (s := SB) ![row, 320] R1x16.size i4, zpay m4 (v.readAt (Elt F) (Rect.unit (s := SB) ![row, 320] R1x16.size i4).toLoadRect g)⟩,
       ⟨Rect.unit (s := SB) ![row, 256] R1x16.size i3, zpay m3 (v.readAt (Elt F) (Rect.unit (s := SB) ![row, 256] R1x16.size i3).toLoadRect g)⟩,
       ⟨Rect.unit (s := SB) ![row, 112] R1x16.size i2, zpay m2 (v.readAt (Elt F) (Rect.unit (s := SB) ![row, 112] R1x16.size i2).toLoadRect g)⟩,
       ⟨Rect.unit (s := SB) ![row, 0] R1x16.size i1, zpay m1 (v.readAt (Elt F) (Rect.unit (s := SB) ![row, 0] R1x16.size i1).toLoadRect g)⟩] : List (View.Piece (Elt F) SB .f32)), y ∈ p.1.set
  · refine View.read_writes_apply_of_pieces v g (rowZero row (v.read (Elt F) g)) _ ?_ y hcov
    intro p hp
    simp only [List.mem_cons, List.not_mem_nil, or_false] at hp
    rcases hp with rfl | rfl | rfl | rfl | rfl | rfl
    · exact piece_agree v g row 368 i6 m6 hm6
    · exact piece_agree v g row 336 i5 m5 hm5
    · exact piece_agree v g row 320 i4 m4 hm4
    · exact piece_agree v g row 256 i3 m3 hm3
    · exact piece_agree v g row 112 i2 m2 hm2
    · exact piece_agree v g row 0 i1 m1 hm1
  · rw [View.read_writes_apply_of_forall_not_mem v g y _ fun p hp hy => hcov ⟨p, hp, hy⟩]
    unfold rowZero
    rw [if_neg]
    rintro ⟨h0, hd⟩
    apply hcov
    simp only [dis, Bool.or_eq_true, decide_eq_true_eq] at hd
    rcases hd with (((((hd | hd) | hd) | hd) | hd) | hd) | hd
    · exact ⟨_, List.mem_cons_of_mem _ (List.mem_cons_of_mem _ (List.mem_cons_of_mem _ (List.mem_cons_of_mem _ (List.mem_cons_of_mem _ List.mem_cons_self)))), (mem_piece row 0 i1 y).2 ⟨h0, by omega, by omega⟩⟩
    · exact ⟨_, List.mem_cons_of_mem _ (List.mem_cons_of_mem _ (List.mem_cons_of_mem _ (List.mem_cons_of_mem _ List.mem_cons_self))), (mem_piece row 112 i2 y).2 ⟨h0, by omega, by omega⟩⟩
    · exact ⟨_, List.mem_cons_of_mem _ (List.mem_cons_of_mem _ (List.mem_cons_of_mem _ List.mem_cons_self)), (mem_piece row 256 i3 y).2 ⟨h0, by omega, by omega⟩⟩
    · exact ⟨_, List.mem_cons_of_mem _ (List.mem_cons_of_mem _ (List.mem_cons_of_mem _ List.mem_cons_self)), (mem_piece row 256 i3 y).2 ⟨h0, by omega, by omega⟩⟩
    · exact ⟨_, List.mem_cons_of_mem _ (List.mem_cons_of_mem _ List.mem_cons_self), (mem_piece row 320 i4 y).2 ⟨h0, by omega, by omega⟩⟩
    · exact ⟨_, List.mem_cons_of_mem _ List.mem_cons_self, (mem_piece row 336 i5 y).2 ⟨h0, by omega, by omega⟩⟩
    · exact ⟨_, List.mem_cons_self, (mem_piece row 368 i6 y).2 ⟨h0, by omega, by omega⟩⟩

end Pieces

end Cert.Proof.KB

end
-- ==== Proof.KB.Rows.lean ====
/-
  The row loops of the kernel body: each of the four staging buffers has the seven disabled columns of its 32 rows
  overwritten by zero, a row a trip. A trip loads and stores six 16-lane pieces of its row, at columns 0, 112, 256,
  320, 336 and 368, each store writing zero on the lanes its mask selects and the lanes just read on the others; the
  masks select exactly the disabled columns among each piece's lanes, so the trip leaves the row with those columns
  zeroed and nothing else changed. The loop's invariant: before trip `k` the buffer holds its contents at loop
  entry with the disabled columns zeroed in the rows below `k`.
-/
import proofs.«205590_g25494925869706_cont_9to1_307_11_alg».proof.Proof.KB.Common
import proofs.«205590_g25494925869706_cont_9to1_307_11_alg».proof.Proof.KB.RowsPure

noncomputable section

namespace Cert.Proof.KB

open Cert.Kernel Cert.Kernel.Gen
open Cert.Proof.Spec (dis spec maskRows)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1)

variable {F : FTy → Type}

/-! ## The lane masks: which of its sixteen lanes each piece zeroes -/

theorem lane27 : ∀ l : Fin 16, k0_pay27 (ix1 l) = 1 ↔ dis (0 + l.val) = true := by decide
theorem lane28 : ∀ l : Fin 16, k0_pay28 (ix1 l) = 1 ↔ dis (112 + l.val) = true := by decide
theorem lane29 : ∀ l : Fin 16, k0_pay29 (ix1 l) = 1 ↔ dis (256 + l.val) = true := by decide
theorem lane30 : ∀ l : Fin 16, k0_pay30 (ix1 l) = 1 ↔ dis (320 + l.val) = true := by decide
theorem lane31 : ∀ l : Fin 16, k0_pay31 (ix1 l) = 1 ↔ dis (336 + l.val) = true := by decide
theorem lane32 : ∀ l : Fin 16, k0_pay32 (ix1 l) = 1 ↔ dis (368 + l.val) = true := by decide

/-! ## The loops' trip counts -/

theorem k0_t2_trips : k0_t2_loop.trips = 32 := by decide
theorem k0_t3_trips : k0_t3_loop.trips = 32 := by decide
theorem k0_t4_trips : k0_t4_loop.trips = 32 := by decide
theorem k0_t5_trips : k0_t5_loop.trips = 32 := by decide

variable [FloatOps F]

/-- A buffer held at contents equal to others is held at those. -/
theorem pts_of_eq {ℓ : Loc nD τ sig} {A B : Buf (Elt F) ℓ} (h : A = B) :
    ((ℓ ↦{fullShare} A : sProp (MM F)) ⊢ ℓ ↦{fullShare} B) := Entails.of_eq (by rw [h])

/-- A whole staging buffer reads as its contents. -/
theorem b0_read (g : FVec F S32x512 .f32) : (b0 : Memref sig .scVector .vmem S32x512 .f32).view.read (Elt F) g = g := rfl
theorem b1_read (g : FVec F S32x512 .f32) : (b1 : Memref sig .scVector .vmem S32x512 .f32).view.read (Elt F) g = g := rfl
theorem b2_read (g : FVec F S32x512 .f32) : (b2 : Memref sig .scVector .vmem S32x512 .f32).view.read (Elt F) g = g := rfl
theorem b3_read (g : FVec F S32x512 .f32) : (b3 : Memref sig .scVector .vmem S32x512 .f32).view.read (Elt F) g = g := rfl

/-! ## Buffer 0 -/

/-- One trip of buffer 0's loop: row `k` has its disabled columns zeroed. -/
theorem rows0_step (d : Dev nD) (L : grid0.Coords) (f : FVec F S32x512 .f32) (v2 c0 c1 : BitVec 32) (k0_t1 : Fin k0_t1_loop.trips) (k : Fin k0_t2_loop.trips) :
    ((b0 : Memref sig .scVector .vmem S32x512 .f32).view.loc (thrV d L) ↦{fullShare} (maskRows k.val f : FVec F S32x512 .f32) : sProp (MM F))
      ⊢ wp frame (wpE (defs₀ (F := F)) 𝒱₀ (thrV d L) none) Set.univ
          (k0_t2_body L imgV (Memref.isWhole_whole _) outV (Memref.isWhole_whole _) b0 (Memref.isWhole_whole _) b1 (Memref.isWhole_whole _) b2 (Memref.isWhole_whole _) b3 (Memref.isWhole_whole _) cc0_scratch4 cc0_scratch5 cc0_scratch6 cc0_scratch7 cc0_scratch8 cc0_scratch9 cc0_scratch10 cc0_scratch11 v2 k0_pay27 k0_pay28 k0_pay29 k0_pay30 k0_pay31 k0_pay32 c0 c1 k0_t1 k ())
          fun _ => (b0 : Memref sig .scVector .vmem S32x512 .f32).view.loc (thrV d L) ↦{fullShare} (maskRows (k.val + 1) f : FVec F S32x512 .f32) := by
  iintro Hb
  sl_unfold [k0_t2_body]
  sl_exec
  sl_step
  iapply (pts_of_eq ?heq) $$ Hb
  case heq =>
    refine (b0_read _).symm.trans ((read_writes_row (F := F) (b0 : Memref sig .scVector .vmem S32x512 .f32).view (maskRows k.val f) k.val _ _ _ _ _ _
      (k0_off5_eq k) (k0_off6_eq k) (k0_off7_eq k) (k0_off8_eq k) (k0_off9_eq k) (k0_off10_eq k) _ _ _ _ _ _
      k0_pay27 k0_pay28 k0_pay29 k0_pay30 k0_pay31 k0_pay32 lane27 lane28 lane29 lane30 lane31 lane32).trans ?_)
    exact rowZero_maskRows k.val f

/-- Buffer 0's loop: every row has its disabled columns zeroed. -/
theorem rows0 (d : Dev nD) (L : grid0.Coords) (f : FVec F S32x512 .f32) (v2 c0 c1 : BitVec 32) (k0_t1 : Fin k0_t1_loop.trips) :
    ((b0 : Memref sig .scVector .vmem S32x512 .f32).view.loc (thrV d L) ↦{fullShare} f : sProp (MM F))
      ⊢ wp frame (wpE (defs₀ (F := F)) 𝒱₀ (thrV d L) none) Set.univ
          (Scf.Loop.for k0_t2_loop k0_t2_ok ⟨⟩ (k0_t2_body L imgV (Memref.isWhole_whole _) outV (Memref.isWhole_whole _) b0 (Memref.isWhole_whole _) b1 (Memref.isWhole_whole _) b2 (Memref.isWhole_whole _) b3 (Memref.isWhole_whole _) cc0_scratch4 cc0_scratch5 cc0_scratch6 cc0_scratch7 cc0_scratch8 cc0_scratch9 cc0_scratch10 cc0_scratch11 v2 k0_pay27 k0_pay28 k0_pay29 k0_pay30 k0_pay31 k0_pay32 c0 c1 k0_t1))
          fun _ => (b0 : Memref sig .scVector .vmem S32x512 .f32).view.loc (thrV d L) ↦{fullShare} (maskRows 32 f : FVec F S32x512 .f32) := by
  iintro Hb
  sl_for (fun (j : Nat) (_ : PUnit) => ((b0 : Memref sig .scVector .vmem S32x512 .f32).view.loc (thrV d L) ↦{fullShare} (maskRows j f : FVec F S32x512 .f32) : sProp (MM F))) $$ [Hb]
  · intro k _; exact rows0_step d L f v2 c0 c1 k0_t1 k
  isplitl [Hb]
  · rw [Cert.Proof.Spec.maskRows_zero]; iexact Hb
  iintro %_ HI
  rw [show Scf.trips k0_t2_loop.lb k0_t2_loop.ub k0_t2_loop.st = 32 from k0_t2_trips]
  iexact HI

/-! ## Buffer 1 -/

/-- One trip of buffer 1's loop: row `k` has its disabled columns zeroed. -/
theorem rows1_step (d : Dev nD) (L : grid0.Coords) (f : FVec F S32x512 .f32) (v2 : BitVec 32) (k0_t1 : Fin k0_t1_loop.trips) (arg16 v51 : BitVec 32) (k : Fin k0_t3_loop.trips) :
    ((b1 : Memref sig .scVector .vmem S32x512 .f32).view.loc (thrV d L) ↦{fullShare} (maskRows k.val f : FVec F S32x512 .f32) : sProp (MM F))
      ⊢ wp frame (wpE (defs₀ (F := F)) 𝒱₀ (thrV d L) none) Set.univ
          (k0_t3_body L imgV (Memref.isWhole_whole _) outV (Memref.isWhole_whole _) b0 (Memref.isWhole_whole _) b1 (Memref.isWhole_whole _) b2 (Memref.isWhole_whole _) b3 (Memref.isWhole_whole _) cc0_scratch4 cc0_scratch5 cc0_scratch6 cc0_scratch7 cc0_scratch8 cc0_scratch9 cc0_scratch10 cc0_scratch11 v2 k0_pay27 k0_pay28 k0_pay29 k0_pay30 k0_pay31 k0_pay32 k0_t1 arg16 v51 k ())
          fun _ => (b1 : Memref sig .scVector .vmem S32x512 .f32).view.loc (thrV d L) ↦{fullShare} (maskRows (k.val + 1) f : FVec F S32x512 .f32) := by
  iintro Hb
  sl_unfold [k0_t3_body]
  sl_exec
  sl_step
  iapply (pts_of_eq ?heq) $$ Hb
  case heq =>
    refine (b1_read _).symm.trans ((read_writes_row (F := F) (b1 : Memref sig .scVector .vmem S32x512 .f32).view (maskRows k.val f) k.val _ _ _ _ _ _
      (k0_off13_eq k) (k0_off14_eq k) (k0_off15_eq k) (k0_off16_eq k) (k0_off17_eq k) (k0_off18_eq k) _ _ _ _ _ _
      k0_pay27 k0_pay28 k0_pay29 k0_pay30 k0_pay31 k0_pay32 lane27 lane28 lane29 lane30 lane31 lane32).trans ?_)
    exact rowZero_maskRows k.val f

/-- Buffer 1's loop: every row has its disabled columns zeroed. -/
theorem rows1 (d : Dev nD) (L : grid0.Coords) (f : FVec F S32x512 .f32) (v2 : BitVec 32) (k0_t1 : Fin k0_t1_loop.trips) (arg16 v51 : BitVec 32) :
    ((b1 : Memref sig .scVector .vmem S32x512 .f32).view.loc (thrV d L) ↦{fullShare} f : sProp (MM F))
      ⊢ wp frame (wpE (defs₀ (F := F)) 𝒱₀ (thrV d L) none) Set.univ
          (Scf.Loop.for k0_t3_loop k0_t3_ok ⟨⟩ (k0_t3_body L imgV (Memref.isWhole_whole _) outV (Memref.isWhole_whole _) b0 (Memref.isWhole_whole _) b1 (Memref.isWhole_whole _) b2 (Memref.isWhole_whole _) b3 (Memref.isWhole_whole _) cc0_scratch4 cc0_scratch5 cc0_scratch6 cc0_scratch7 cc0_scratch8 cc0_scratch9 cc0_scratch10 cc0_scratch11 v2 k0_pay27 k0_pay28 k0_pay29 k0_pay30 k0_pay31 k0_pay32 k0_t1 arg16 v51))
          fun _ => (b1 : Memref sig .scVector .vmem S32x512 .f32).view.loc (thrV d L) ↦{fullShare} (maskRows 32 f : FVec F S32x512 .f32) := by
  iintro Hb
  sl_for (fun (j : Nat) (_ : PUnit) => ((b1 : Memref sig .scVector .vmem S32x512 .f32).view.loc (thrV d L) ↦{fullShare} (maskRows j f : FVec F S32x512 .f32) : sProp (MM F))) $$ [Hb]
  · intro k _; exact rows1_step d L f v2 k0_t1 arg16 v51 k
  isplitl [Hb]
  · rw [Cert.Proof.Spec.maskRows_zero]; iexact Hb
  iintro %_ HI
  rw [show Scf.trips k0_t3_loop.lb k0_t3_loop.ub k0_t3_loop.st = 32 from k0_t3_trips]
  iexact HI

/-! ## Buffer 2 -/

/-- One trip of buffer 2's loop: row `k` has its disabled columns zeroed. -/
theorem rows2_step (d : Dev nD) (L : grid0.Coords) (f : FVec F S32x512 .f32) (v2 : BitVec 32) (k0_t1 : Fin k0_t1_loop.trips) (arg16 v51 : BitVec 32) (k : Fin k0_t4_loop.trips) :
    ((b2 : Memref sig .scVector .vmem S32x512 .f32).view.loc (thrV d L) ↦{fullShare} (maskRows k.val f : FVec F S32x512 .f32) : sProp (MM F))
      ⊢ wp frame (wpE (defs₀ (F := F)) 𝒱₀ (thrV d L) none) Set.univ
          (k0_t4_body L imgV (Memref.isWhole_whole _) outV (Memref.isWhole_whole _) b0 (Memref.isWhole_whole _) b1 (Memref.isWhole_whole _) b2 (Memref.isWhole_whole _) b3 (Memref.isWhole_whole _) cc0_scratch4 cc0_scratch5 cc0_scratch6 cc0_scratch7 cc0_scratch8 cc0_scratch9 cc0_scratch10 cc0_scratch11 v2 k0_pay27 k0_pay28 k0_pay29 k0_pay30 k0_pay31 k0_pay32 k0_t1 arg16 v51 k ())
          fun _ => (b2 : Memref sig .scVector .vmem S32x512 .f32).view.loc (thrV d L) ↦{fullShare} (maskRows (k.val + 1) f : FVec F S32x512 .f32) := by
  iintro Hb
  sl_unfold [k0_t4_body]
  sl_exec
  sl_step
  iapply (pts_of_eq ?heq) $$ Hb
  case heq =>
    refine (b2_read _).symm.trans ((read_writes_row (F := F) (b2 : Memref sig .scVector .vmem S32x512 .f32).view (maskRows k.val f) k.val _ _ _ _ _ _
      (k0_off21_eq k) (k0_off22_eq k) (k0_off23_eq k) (k0_off24_eq k) (k0_off25_eq k) (k0_off26_eq k) _ _ _ _ _ _
      k0_pay27 k0_pay28 k0_pay29 k0_pay30 k0_pay31 k0_pay32 lane27 lane28 lane29 lane30 lane31 lane32).trans ?_)
    exact rowZero_maskRows k.val f

/-- Buffer 2's loop: every row has its disabled columns zeroed. -/
theorem rows2 (d : Dev nD) (L : grid0.Coords) (f : FVec F S32x512 .f32) (v2 : BitVec 32) (k0_t1 : Fin k0_t1_loop.trips) (arg16 v51 : BitVec 32) :
    ((b2 : Memref sig .scVector .vmem S32x512 .f32).view.loc (thrV d L) ↦{fullShare} f : sProp (MM F))
      ⊢ wp frame (wpE (defs₀ (F := F)) 𝒱₀ (thrV d L) none) Set.univ
          (Scf.Loop.for k0_t4_loop k0_t4_ok ⟨⟩ (k0_t4_body L imgV (Memref.isWhole_whole _) outV (Memref.isWhole_whole _) b0 (Memref.isWhole_whole _) b1 (Memref.isWhole_whole _) b2 (Memref.isWhole_whole _) b3 (Memref.isWhole_whole _) cc0_scratch4 cc0_scratch5 cc0_scratch6 cc0_scratch7 cc0_scratch8 cc0_scratch9 cc0_scratch10 cc0_scratch11 v2 k0_pay27 k0_pay28 k0_pay29 k0_pay30 k0_pay31 k0_pay32 k0_t1 arg16 v51))
          fun _ => (b2 : Memref sig .scVector .vmem S32x512 .f32).view.loc (thrV d L) ↦{fullShare} (maskRows 32 f : FVec F S32x512 .f32) := by
  iintro Hb
  sl_for (fun (j : Nat) (_ : PUnit) => ((b2 : Memref sig .scVector .vmem S32x512 .f32).view.loc (thrV d L) ↦{fullShare} (maskRows j f : FVec F S32x512 .f32) : sProp (MM F))) $$ [Hb]
  · intro k _; exact rows2_step d L f v2 k0_t1 arg16 v51 k
  isplitl [Hb]
  · rw [Cert.Proof.Spec.maskRows_zero]; iexact Hb
  iintro %_ HI
  rw [show Scf.trips k0_t4_loop.lb k0_t4_loop.ub k0_t4_loop.st = 32 from k0_t4_trips]
  iexact HI

/-! ## Buffer 3 -/

/-- One trip of buffer 3's loop: row `k` has its disabled columns zeroed. -/
theorem rows3_step (d : Dev nD) (L : grid0.Coords) (f : FVec F S32x512 .f32)  (k : Fin k0_t5_loop.trips) :
    ((b3 : Memref sig .scVector .vmem S32x512 .f32).view.loc (thrV d L) ↦{fullShare} (maskRows k.val f : FVec F S32x512 .f32) : sProp (MM F))
      ⊢ wp frame (wpE (defs₀ (F := F)) 𝒱₀ (thrV d L) none) Set.univ
          (k0_t5_body L imgV (Memref.isWhole_whole _) outV (Memref.isWhole_whole _) b0 (Memref.isWhole_whole _) b1 (Memref.isWhole_whole _) b2 (Memref.isWhole_whole _) b3 (Memref.isWhole_whole _) cc0_scratch4 cc0_scratch5 cc0_scratch6 cc0_scratch7 cc0_scratch8 cc0_scratch9 cc0_scratch10 cc0_scratch11 k ())
          fun _ => (b3 : Memref sig .scVector .vmem S32x512 .f32).view.loc (thrV d L) ↦{fullShare} (maskRows (k.val + 1) f : FVec F S32x512 .f32) := by
  iintro Hb
  sl_unfold [k0_t5_body]
  sl_exec
  sl_step
  iapply (pts_of_eq ?heq) $$ Hb
  case heq =>
    refine (b3_read _).symm.trans ((read_writes_row (F := F) (b3 : Memref sig .scVector .vmem S32x512 .f32).view (maskRows k.val f) k.val _ _ _ _ _ _
      (k0_off29_eq k) (k0_off30_eq k) (k0_off31_eq k) (k0_off32_eq k) (k0_off33_eq k) (k0_off34_eq k) _ _ _ _ _ _
      k0_pay27 k0_pay28 k0_pay29 k0_pay30 k0_pay31 k0_pay32 lane27 lane28 lane29 lane30 lane31 lane32).trans ?_)
    exact rowZero_maskRows k.val f

/-- Buffer 3's loop: every row has its disabled columns zeroed. -/
theorem rows3 (d : Dev nD) (L : grid0.Coords) (f : FVec F S32x512 .f32)  :
    ((b3 : Memref sig .scVector .vmem S32x512 .f32).view.loc (thrV d L) ↦{fullShare} f : sProp (MM F))
      ⊢ wp frame (wpE (defs₀ (F := F)) 𝒱₀ (thrV d L) none) Set.univ
          (Scf.Loop.for k0_t5_loop k0_t5_ok ⟨⟩ (k0_t5_body L imgV (Memref.isWhole_whole _) outV (Memref.isWhole_whole _) b0 (Memref.isWhole_whole _) b1 (Memref.isWhole_whole _) b2 (Memref.isWhole_whole _) b3 (Memref.isWhole_whole _) cc0_scratch4 cc0_scratch5 cc0_scratch6 cc0_scratch7 cc0_scratch8 cc0_scratch9 cc0_scratch10 cc0_scratch11))
          fun _ => (b3 : Memref sig .scVector .vmem S32x512 .f32).view.loc (thrV d L) ↦{fullShare} (maskRows 32 f : FVec F S32x512 .f32) := by
  iintro Hb
  sl_for (fun (j : Nat) (_ : PUnit) => ((b3 : Memref sig .scVector .vmem S32x512 .f32).view.loc (thrV d L) ↦{fullShare} (maskRows j f : FVec F S32x512 .f32) : sProp (MM F))) $$ [Hb]
  · intro k _; exact rows3_step d L f  k
  isplitl [Hb]
  · rw [Cert.Proof.Spec.maskRows_zero]; iexact Hb
  iintro %_ HI
  rw [show Scf.trips k0_t5_loop.lb k0_t5_loop.ub k0_t5_loop.st = 32 from k0_t5_trips]
  iexact HI

end Cert.Proof.KB

end
-- ==== Proof.KB.Value.lean ====
/-
  What the body's copies deliver, as values: a chunk copied into a staging buffer is the chunk's contents in the
  argument array, and a staging buffer holding a chunk with the disabled columns zeroed in all 32 rows, copied out over
  the same rows of the result, leaves there what the specification says.
-/
import proofs.«205590_g25494925869706_cont_9to1_307_11_alg».proof.Proof.KB.Inv

noncomputable section

namespace Cert.Proof.KB

open Cert.Kernel Cert.Kernel.Gen
open Cert.Proof.Spec (dis spec maskRows)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (m : (ℓ : Loc nD τ sig) → Buf (Elt F) ℓ) (d : Dev nD) (L : grid0.Coords)

/-! ## The outgoing copies -/

/-- On the rows of chunk `ci`, the result array written through the chunk's slice with the chunk's contents, disabled
    columns zeroed in all 32 rows, holds the specification. -/
theorem out_value (ci : ℕ) (h : ci < 64) (off : Fin 2 → ℕ) (inb : ∀ a, off a + S32x512.size a ≤ S65536x512.size a) (hoff : off = ![4096 * (L 1).val + 2048 * (L 0).val + 32 * ci, 0]) (fd : Buf (Elt F) (oLoc d)) :
    ∀ i ∈ (Rect.unit (s := S65536x512) off S32x512.size inb).set,
      ((outV : Memref sig .scVector .hbm S65536x512 .f32).slice (Rect.unit (s := S65536x512) off S32x512.size inb) (fun _ => rfl)).view.write (Elt F) fd (maskRows 32 (landC m d L ci)) Finset.univ i = outFinal m d i := by
  have h' : off = ![32 * (chunkNo L ci).val, 0] := by rw [hoff, chunkNo_row L ci h]
  subst h'
  intro i hi
  obtain ⟨x, rfl⟩ := (Rect.unit (s := S65536x512) ![32 * (chunkNo L ci).val, 0] S32x512.size inb).exists_idx_of_mem hi
  refine (View.write_emb_of_mem (v := ((outV : Memref sig .scVector .hbm S65536x512 .f32).slice (Rect.unit (s := S65536x512) ![32 * (chunkNo L ci).val, 0] S32x512.size inb) (fun _ => rfl)).view) fd _ (Finset.mem_univ x)).trans ?_
  have hx0 : (x 0).val < 32 := (x 0).isLt
  have e1 : (((Rect.unit (s := S65536x512) ![32 * (chunkNo L ci).val, 0] S32x512.size inb).idx x) 1).val = (x 1).val := by
    show 0 + 1 * (x 1).val = (x 1).val
    omega
  -- the element written is the chunk's element of the argument array, zeroed in a disabled column; the
  -- specification there is the same element, zeroed in a disabled column
  show (if (x 0).val < 32 ∧ dis (x 1).val = true then (Scalar.ofBits .f32 0x00000000#32 : F .f32) else m (iLoc d) ((Rect.unit (s := S65536x512) ![32 * (chunkNo L ci).val, 0] S32x512.size inb).idx x))
     = if dis (((Rect.unit (s := S65536x512) ![32 * (chunkNo L ci).val, 0] S32x512.size inb).idx x) 1).val = true then (Scalar.ofBits .f32 0x00000000#32 : F .f32) else m (iLoc d) ((Rect.unit (s := S65536x512) ![32 * (chunkNo L ci).val, 0] S32x512.size inb).idx x)
  rw [e1]
  by_cases hd : dis (x 1).val = true
  · rw [if_pos ⟨hx0, hd⟩, if_pos hd]
  · rw [if_neg (fun hh => hd hh.2), if_neg hd]

/-- The chunk's slice of the result array, held by its own elements at that write, is the chunk of the result at the
    specification. -/
theorem out_deliver (ci : ℕ) (h : ci < 64) (off : Fin 2 → ℕ) (inb : ∀ a, off a + S32x512.size a ≤ S65536x512.size a) (hoff : off = ![4096 * (L 1).val + 2048 * (L 0).val + 32 * ci, 0]) (fd : Buf (Elt F) (oLoc d)) :
    (((outV : Memref sig .scVector .hbm S65536x512 .f32).slice (Rect.unit (s := S65536x512) off S32x512.size inb) (fun _ => rfl)).view.loc (thrV d L)
        ↦[((outV : Memref sig .scVector .hbm S65536x512 .f32).slice (Rect.unit (s := S65536x512) off S32x512.size inb) (fun _ => rfl)).view.set]{fullShare}
          ((outV : Memref sig .scVector .hbm S65536x512 .f32).slice (Rect.unit (s := S65536x512) off S32x512.size inb) (fun _ => rfl)).view.write (Elt F) fd (maskRows 32 (landC m d L ci)) Finset.univ : sProp (MM F))
      ⊢ outChunk d L (outFinal m d) ci := by
  rw [pts_out]
  show _ ⊢ (oLoc d ↦[chunkSet (chunkNo L ci)]{fullShare} outFinal m d : sProp (MM F))
  rw [chunkSet_of_off L ci h off inb hoff]
  exact Entails.of_eq (pointsTo_congr (out_value m d L ci h off inb hoff fd))

/-- The same with the write spelt as a one-piece list of writes. -/
theorem out_deliver_list (ci : ℕ) (h : ci < 64) (off : Fin 2 → ℕ) (inb : ∀ a, off a + S32x512.size a ≤ S65536x512.size a) (hoff : off = ![4096 * (L 1).val + 2048 * (L 0).val + 32 * ci, 0]) (fd : Buf (Elt F) (oLoc d)) :
    (((outV : Memref sig .scVector .hbm S65536x512 .f32).slice (Rect.unit (s := S65536x512) off S32x512.size inb) (fun _ => rfl)).view.loc (thrV d L)
        ↦[((outV : Memref sig .scVector .hbm S65536x512 .f32).slice (Rect.unit (s := S65536x512) off S32x512.size inb) (fun _ => rfl)).view.set]{fullShare}
          ((outV : Memref sig .scVector .hbm S65536x512 .f32).slice (Rect.unit (s := S65536x512) off S32x512.size inb) (fun _ => rfl)).view.writes (Elt F) fd [⟨Rect.whole S32x512, maskRows 32 (landC m d L ci)⟩] : sProp (MM F))
      ⊢ outChunk d L (outFinal m d) ci := by
  have e := View.write_univ_eq_writes_whole (Val := Elt F) ((outV : Memref sig .scVector .hbm S65536x512 .f32).slice (Rect.unit (s := S65536x512) off S32x512.size inb) (fun _ => rfl)).view fd [] (maskRows 32 (landC m d L ci))
  exact (Entails.of_eq (congrArg (fun g => (((outV : Memref sig .scVector .hbm S65536x512 .f32).slice (Rect.unit (s := S65536x512) off S32x512.size inb) (fun _ => rfl)).view.loc (thrV d L)
      ↦[((outV : Memref sig .scVector .hbm S65536x512 .f32).slice (Rect.unit (s := S65536x512) off S32x512.size inb) (fun _ => rfl)).view.set]{fullShare} g : sProp (MM F))) e.symm)).trans (out_deliver m d L ci h off inb hoff fd)

/-! ## The incoming copies -/

/-- The chunk's slice of the argument array, held by its own elements, is the chunk of the argument. -/
theorem in_src (ci : ℕ) (h : ci < 64) (off : Fin 2 → ℕ) (inb : ∀ a, off a + S32x512.size a ≤ S65536x512.size a) (hoff : off = ![4096 * (L 1).val + 2048 * (L 0).val + 32 * ci, 0]) :
    (((imgV : Memref sig .scVector .hbm S65536x512 .f32).slice (Rect.unit (s := S65536x512) off S32x512.size inb) (fun _ => rfl)).view.loc (thrV d L) ↦[((imgV : Memref sig .scVector .hbm S65536x512 .f32).slice (Rect.unit (s := S65536x512) off S32x512.size inb) (fun _ => rfl)).view.set]{fullShare} m (iLoc d) : sProp (MM F))
      = imgChunk m d L ci := by
  rw [pts_img]
  show _ = (iLoc d ↦[chunkSet (chunkNo L ci)]{fullShare} m (iLoc d) : sProp (MM F))
  rw [chunkSet_of_off L ci h off inb hoff]

/-- Staging buffer 0 written whole with what the chunk's slice of the argument array reads holds the chunk. -/
theorem in_buf0 (ci : ℕ) (h : ci < 64) (off : Fin 2 → ℕ) (inb : ∀ a, off a + S32x512.size a ≤ S65536x512.size a) (hoff : off = ![4096 * (L 1).val + 2048 * (L 0).val + 32 * ci, 0]) (f0 : FVec F S32x512 .f32) :
    View.write (Elt F) (b0 : Memref sig .scVector .vmem S32x512 .f32).view f0 (ReadAs.apply (Val := Elt F) ReadAs.same (((imgV : Memref sig .scVector .hbm S65536x512 .f32).slice (Rect.unit (s := S65536x512) off S32x512.size inb) (fun _ => rfl)).view.read (Elt F) (m (iLoc d)))) Finset.univ
      = (landC m d L ci : FVec F S32x512 .f32) := by
  rw [← land_eq m d L ci h off inb hoff]
  exact View.write_whole_univ (Val := Elt F) (cc0_scratch0 : Ref sig .scVector) f0 _

/-- What an incoming copy into staging buffer 0 delivers: the buffer at the chunk, and the chunk of the argument back. -/
theorem in_deliver0 (ci : ℕ) (h : ci < 64) (off : Fin 2 → ℕ) (inb : ∀ a, off a + S32x512.size a ≤ S65536x512.size a) (hoff : off = ![4096 * (L 1).val + 2048 * (L 0).val + 32 * ci, 0]) (f0 : FVec F S32x512 .f32) :
    (iprop(((b0 : Memref sig .scVector .vmem S32x512 .f32).view.loc (thrV d L) ↦{fullShare} View.write (Elt F) (b0 : Memref sig .scVector .vmem S32x512 .f32).view f0 (ReadAs.apply (Val := Elt F) ReadAs.same (((imgV : Memref sig .scVector .hbm S65536x512 .f32).slice (Rect.unit (s := S65536x512) off S32x512.size inb) (fun _ => rfl)).view.read (Elt F) (m (iLoc d)))) Finset.univ)
        ∗ (((imgV : Memref sig .scVector .hbm S65536x512 .f32).slice (Rect.unit (s := S65536x512) off S32x512.size inb) (fun _ => rfl)).view.loc (thrV d L) ↦[((imgV : Memref sig .scVector .hbm S65536x512 .f32).slice (Rect.unit (s := S65536x512) off S32x512.size inb) (fun _ => rfl)).view.set]{fullShare} m (iLoc d))) : sProp (MM F))
      ⊢ iprop(((b0 : Memref sig .scVector .vmem S32x512 .f32).view.loc (thrV d L) ↦{fullShare} (landC m d L ci : FVec F S32x512 .f32)) ∗ imgChunk m d L ci) := by
  rw [in_buf0 m d L ci h off inb hoff f0, in_src m d L ci h off inb hoff]

/-- The incoming copy of chunk `ci` into staging buffer 0, in flight at that delivery, is the invariant's flight. -/
theorem flIn0_of (ci : ℕ) (h : ci < 64) (off : Fin 2 → ℕ) (inb : ∀ a, off a + S32x512.size a ≤ S65536x512.size a) (hoff : off = ![4096 * (L 1).val + 2048 * (L 0).val + 32 * ci, 0]) (f0 : FVec F S32x512 .f32) :
    Transfers.Flight countersEmb (thrV d L) (SemLoc.dma cc0_scratch4.sem) (default : HIx 1) 524288
      (iprop(((b0 : Memref sig .scVector .vmem S32x512 .f32).view.loc (thrV d L) ↦{fullShare} View.write (Elt F) (b0 : Memref sig .scVector .vmem S32x512 .f32).view f0 (ReadAs.apply (Val := Elt F) ReadAs.same (((imgV : Memref sig .scVector .hbm S65536x512 .f32).slice (Rect.unit (s := S65536x512) off S32x512.size inb) (fun _ => rfl)).view.read (Elt F) (m (iLoc d)))) Finset.univ)
        ∗ (((imgV : Memref sig .scVector .hbm S65536x512 .f32).slice (Rect.unit (s := S65536x512) off S32x512.size inb) (fun _ => rfl)).view.loc (thrV d L) ↦[((imgV : Memref sig .scVector .hbm S65536x512 .f32).slice (Rect.unit (s := S65536x512) off S32x512.size inb) (fun _ => rfl)).view.set]{fullShare} m (iLoc d))) : sProp (MM F))
      ⊢ FlIn0 m d L ci := by
  unfold FlIn0
  exact Transfers.Flight_mono _ _ (in_deliver0 m d L ci h off inb hoff f0)

/-- Staging buffer 1 written whole with what the chunk's slice of the argument array reads holds the chunk. -/
theorem in_buf1 (ci : ℕ) (h : ci < 64) (off : Fin 2 → ℕ) (inb : ∀ a, off a + S32x512.size a ≤ S65536x512.size a) (hoff : off = ![4096 * (L 1).val + 2048 * (L 0).val + 32 * ci, 0]) (f0 : FVec F S32x512 .f32) :
    View.write (Elt F) (b1 : Memref sig .scVector .vmem S32x512 .f32).view f0 (ReadAs.apply (Val := Elt F) ReadAs.same (((imgV : Memref sig .scVector .hbm S65536x512 .f32).slice (Rect.unit (s := S65536x512) off S32x512.size inb) (fun _ => rfl)).view.read (Elt F) (m (iLoc d)))) Finset.univ
      = (landC m d L ci : FVec F S32x512 .f32) := by
  rw [← land_eq m d L ci h off inb hoff]
  exact View.write_whole_univ (Val := Elt F) (cc0_scratch1 : Ref sig .scVector) f0 _

/-- What an incoming copy into staging buffer 1 delivers: the buffer at the chunk, and the chunk of the argument back. -/
theorem in_deliver1 (ci : ℕ) (h : ci < 64) (off : Fin 2 → ℕ) (inb : ∀ a, off a + S32x512.size a ≤ S65536x512.size a) (hoff : off = ![4096 * (L 1).val + 2048 * (L 0).val + 32 * ci, 0]) (f0 : FVec F S32x512 .f32) :
    (iprop(((b1 : Memref sig .scVector .vmem S32x512 .f32).view.loc (thrV d L) ↦{fullShare} View.write (Elt F) (b1 : Memref sig .scVector .vmem S32x512 .f32).view f0 (ReadAs.apply (Val := Elt F) ReadAs.same (((imgV : Memref sig .scVector .hbm S65536x512 .f32).slice (Rect.unit (s := S65536x512) off S32x512.size inb) (fun _ => rfl)).view.read (Elt F) (m (iLoc d)))) Finset.univ)
        ∗ (((imgV : Memref sig .scVector .hbm S65536x512 .f32).slice (Rect.unit (s := S65536x512) off S32x512.size inb) (fun _ => rfl)).view.loc (thrV d L) ↦[((imgV : Memref sig .scVector .hbm S65536x512 .f32).slice (Rect.unit (s := S65536x512) off S32x512.size inb) (fun _ => rfl)).view.set]{fullShare} m (iLoc d))) : sProp (MM F))
      ⊢ iprop(((b1 : Memref sig .scVector .vmem S32x512 .f32).view.loc (thrV d L) ↦{fullShare} (landC m d L ci : FVec F S32x512 .f32)) ∗ imgChunk m d L ci) := by
  rw [in_buf1 m d L ci h off inb hoff f0, in_src m d L ci h off inb hoff]

/-- The incoming copy of chunk `ci` into staging buffer 1, in flight at that delivery, is the invariant's flight. -/
theorem flIn1_of (ci : ℕ) (h : ci < 64) (off : Fin 2 → ℕ) (inb : ∀ a, off a + S32x512.size a ≤ S65536x512.size a) (hoff : off = ![4096 * (L 1).val + 2048 * (L 0).val + 32 * ci, 0]) (f0 : FVec F S32x512 .f32) :
    Transfers.Flight countersEmb (thrV d L) (SemLoc.dma cc0_scratch5.sem) (default : HIx 1) 524288
      (iprop(((b1 : Memref sig .scVector .vmem S32x512 .f32).view.loc (thrV d L) ↦{fullShare} View.write (Elt F) (b1 : Memref sig .scVector .vmem S32x512 .f32).view f0 (ReadAs.apply (Val := Elt F) ReadAs.same (((imgV : Memref sig .scVector .hbm S65536x512 .f32).slice (Rect.unit (s := S65536x512) off S32x512.size inb) (fun _ => rfl)).view.read (Elt F) (m (iLoc d)))) Finset.univ)
        ∗ (((imgV : Memref sig .scVector .hbm S65536x512 .f32).slice (Rect.unit (s := S65536x512) off S32x512.size inb) (fun _ => rfl)).view.loc (thrV d L) ↦[((imgV : Memref sig .scVector .hbm S65536x512 .f32).slice (Rect.unit (s := S65536x512) off S32x512.size inb) (fun _ => rfl)).view.set]{fullShare} m (iLoc d))) : sProp (MM F))
      ⊢ FlIn1 m d L ci := by
  unfold FlIn1
  exact Transfers.Flight_mono _ _ (in_deliver1 m d L ci h off inb hoff f0)

/-- Staging buffer 2 written whole with what the chunk's slice of the argument array reads holds the chunk. -/
theorem in_buf2 (ci : ℕ) (h : ci < 64) (off : Fin 2 → ℕ) (inb : ∀ a, off a + S32x512.size a ≤ S65536x512.size a) (hoff : off = ![4096 * (L 1).val + 2048 * (L 0).val + 32 * ci, 0]) (f0 : FVec F S32x512 .f32) :
    View.write (Elt F) (b2 : Memref sig .scVector .vmem S32x512 .f32).view f0 (ReadAs.apply (Val := Elt F) ReadAs.same (((imgV : Memref sig .scVector .hbm S65536x512 .f32).slice (Rect.unit (s := S65536x512) off S32x512.size inb) (fun _ => rfl)).view.read (Elt F) (m (iLoc d)))) Finset.univ
      = (landC m d L ci : FVec F S32x512 .f32) := by
  rw [← land_eq m d L ci h off inb hoff]
  exact View.write_whole_univ (Val := Elt F) (cc0_scratch2 : Ref sig .scVector) f0 _

/-- What an incoming copy into staging buffer 2 delivers: the buffer at the chunk, and the chunk of the argument back. -/
theorem in_deliver2 (ci : ℕ) (h : ci < 64) (off : Fin 2 → ℕ) (inb : ∀ a, off a + S32x512.size a ≤ S65536x512.size a) (hoff : off = ![4096 * (L 1).val + 2048 * (L 0).val + 32 * ci, 0]) (f0 : FVec F S32x512 .f32) :
    (iprop(((b2 : Memref sig .scVector .vmem S32x512 .f32).view.loc (thrV d L) ↦{fullShare} View.write (Elt F) (b2 : Memref sig .scVector .vmem S32x512 .f32).view f0 (ReadAs.apply (Val := Elt F) ReadAs.same (((imgV : Memref sig .scVector .hbm S65536x512 .f32).slice (Rect.unit (s := S65536x512) off S32x512.size inb) (fun _ => rfl)).view.read (Elt F) (m (iLoc d)))) Finset.univ)
        ∗ (((imgV : Memref sig .scVector .hbm S65536x512 .f32).slice (Rect.unit (s := S65536x512) off S32x512.size inb) (fun _ => rfl)).view.loc (thrV d L) ↦[((imgV : Memref sig .scVector .hbm S65536x512 .f32).slice (Rect.unit (s := S65536x512) off S32x512.size inb) (fun _ => rfl)).view.set]{fullShare} m (iLoc d))) : sProp (MM F))
      ⊢ iprop(((b2 : Memref sig .scVector .vmem S32x512 .f32).view.loc (thrV d L) ↦{fullShare} (landC m d L ci : FVec F S32x512 .f32)) ∗ imgChunk m d L ci) := by
  rw [in_buf2 m d L ci h off inb hoff f0, in_src m d L ci h off inb hoff]

/-- The incoming copy of chunk `ci` into staging buffer 2, in flight at that delivery, is the invariant's flight. -/
theorem flIn2_of (ci : ℕ) (h : ci < 64) (off : Fin 2 → ℕ) (inb : ∀ a, off a + S32x512.size a ≤ S65536x512.size a) (hoff : off = ![4096 * (L 1).val + 2048 * (L 0).val + 32 * ci, 0]) (f0 : FVec F S32x512 .f32) :
    Transfers.Flight countersEmb (thrV d L) (SemLoc.dma cc0_scratch6.sem) (default : HIx 1) 524288
      (iprop(((b2 : Memref sig .scVector .vmem S32x512 .f32).view.loc (thrV d L) ↦{fullShare} View.write (Elt F) (b2 : Memref sig .scVector .vmem S32x512 .f32).view f0 (ReadAs.apply (Val := Elt F) ReadAs.same (((imgV : Memref sig .scVector .hbm S65536x512 .f32).slice (Rect.unit (s := S65536x512) off S32x512.size inb) (fun _ => rfl)).view.read (Elt F) (m (iLoc d)))) Finset.univ)
        ∗ (((imgV : Memref sig .scVector .hbm S65536x512 .f32).slice (Rect.unit (s := S65536x512) off S32x512.size inb) (fun _ => rfl)).view.loc (thrV d L) ↦[((imgV : Memref sig .scVector .hbm S65536x512 .f32).slice (Rect.unit (s := S65536x512) off S32x512.size inb) (fun _ => rfl)).view.set]{fullShare} m (iLoc d))) : sProp (MM F))
      ⊢ FlIn2 m d L ci := by
  unfold FlIn2
  exact Transfers.Flight_mono _ _ (in_deliver2 m d L ci h off inb hoff f0)

/-- Staging buffer 3 written whole with what the chunk's slice of the argument array reads holds the chunk. -/
theorem in_buf3 (ci : ℕ) (h : ci < 64) (off : Fin 2 → ℕ) (inb : ∀ a, off a + S32x512.size a ≤ S65536x512.size a) (hoff : off = ![4096 * (L 1).val + 2048 * (L 0).val + 32 * ci, 0]) (f0 : FVec F S32x512 .f32) :
    View.write (Elt F) (b3 : Memref sig .scVector .vmem S32x512 .f32).view f0 (ReadAs.apply (Val := Elt F) ReadAs.same (((imgV : Memref sig .scVector .hbm S65536x512 .f32).slice (Rect.unit (s := S65536x512) off S32x512.size inb) (fun _ => rfl)).view.read (Elt F) (m (iLoc d)))) Finset.univ
      = (landC m d L ci : FVec F S32x512 .f32) := by
  rw [← land_eq m d L ci h off inb hoff]
  exact View.write_whole_univ (Val := Elt F) (cc0_scratch3 : Ref sig .scVector) f0 _

/-- What an incoming copy into staging buffer 3 delivers: the buffer at the chunk, and the chunk of the argument back. -/
theorem in_deliver3 (ci : ℕ) (h : ci < 64) (off : Fin 2 → ℕ) (inb : ∀ a, off a + S32x512.size a ≤ S65536x512.size a) (hoff : off = ![4096 * (L 1).val + 2048 * (L 0).val + 32 * ci, 0]) (f0 : FVec F S32x512 .f32) :
    (iprop(((b3 : Memref sig .scVector .vmem S32x512 .f32).view.loc (thrV d L) ↦{fullShare} View.write (Elt F) (b3 : Memref sig .scVector .vmem S32x512 .f32).view f0 (ReadAs.apply (Val := Elt F) ReadAs.same (((imgV : Memref sig .scVector .hbm S65536x512 .f32).slice (Rect.unit (s := S65536x512) off S32x512.size inb) (fun _ => rfl)).view.read (Elt F) (m (iLoc d)))) Finset.univ)
        ∗ (((imgV : Memref sig .scVector .hbm S65536x512 .f32).slice (Rect.unit (s := S65536x512) off S32x512.size inb) (fun _ => rfl)).view.loc (thrV d L) ↦[((imgV : Memref sig .scVector .hbm S65536x512 .f32).slice (Rect.unit (s := S65536x512) off S32x512.size inb) (fun _ => rfl)).view.set]{fullShare} m (iLoc d))) : sProp (MM F))
      ⊢ iprop(((b3 : Memref sig .scVector .vmem S32x512 .f32).view.loc (thrV d L) ↦{fullShare} (landC m d L ci : FVec F S32x512 .f32)) ∗ imgChunk m d L ci) := by
  rw [in_buf3 m d L ci h off inb hoff f0, in_src m d L ci h off inb hoff]

/-- The incoming copy of chunk `ci` into staging buffer 3, in flight at that delivery, is the invariant's flight. -/
theorem flIn3_of (ci : ℕ) (h : ci < 64) (off : Fin 2 → ℕ) (inb : ∀ a, off a + S32x512.size a ≤ S65536x512.size a) (hoff : off = ![4096 * (L 1).val + 2048 * (L 0).val + 32 * ci, 0]) (f0 : FVec F S32x512 .f32) :
    Transfers.Flight countersEmb (thrV d L) (SemLoc.dma cc0_scratch7.sem) (default : HIx 1) 524288
      (iprop(((b3 : Memref sig .scVector .vmem S32x512 .f32).view.loc (thrV d L) ↦{fullShare} View.write (Elt F) (b3 : Memref sig .scVector .vmem S32x512 .f32).view f0 (ReadAs.apply (Val := Elt F) ReadAs.same (((imgV : Memref sig .scVector .hbm S65536x512 .f32).slice (Rect.unit (s := S65536x512) off S32x512.size inb) (fun _ => rfl)).view.read (Elt F) (m (iLoc d)))) Finset.univ)
        ∗ (((imgV : Memref sig .scVector .hbm S65536x512 .f32).slice (Rect.unit (s := S65536x512) off S32x512.size inb) (fun _ => rfl)).view.loc (thrV d L) ↦[((imgV : Memref sig .scVector .hbm S65536x512 .f32).slice (Rect.unit (s := S65536x512) off S32x512.size inb) (fun _ => rfl)).view.set]{fullShare} m (iLoc d))) : sProp (MM F))
      ⊢ FlIn3 m d L ci := by
  unfold FlIn3
  exact Transfers.Flight_mono _ _ (in_deliver3 m d L ci h off inb hoff f0)

/-! ## The outgoing copies in flight -/

/-- The outgoing copy of chunk `ci` out of staging buffer 0, in flight at its delivery (the slice of the result at the
    write, the buffer back), is the invariant's flight. -/
theorem out_flight0 (ci : ℕ) (h : ci < 64) (off : Fin 2 → ℕ) (inb : ∀ a, off a + S32x512.size a ≤ S65536x512.size a) (hoff : off = ![4096 * (L 1).val + 2048 * (L 0).val + 32 * ci, 0]) (fd : Buf (Elt F) (oLoc d)) :
    Transfers.Flight countersEmb (thrV d L) (SemLoc.dma cc0_scratch8.sem) (default : HIx 1) 524288
      (iprop((((outV : Memref sig .scVector .hbm S65536x512 .f32).slice (Rect.unit (s := S65536x512) off S32x512.size inb) (fun _ => rfl)).view.loc (thrV d L)
          ↦[((outV : Memref sig .scVector .hbm S65536x512 .f32).slice (Rect.unit (s := S65536x512) off S32x512.size inb) (fun _ => rfl)).view.set]{fullShare}
            ((outV : Memref sig .scVector .hbm S65536x512 .f32).slice (Rect.unit (s := S65536x512) off S32x512.size inb) (fun _ => rfl)).view.write (Elt F) fd (maskRows 32 (landC m d L ci)) Finset.univ)
        ∗ ((b0 : Memref sig .scVector .vmem S32x512 .f32).view.loc (thrV d L) ↦{fullShare} (maskRows 32 (landC m d L ci) : FVec F S32x512 .f32))) : sProp (MM F))
      ⊢ FlOut0 m d L ci := by
  unfold FlOut0
  exact Transfers.Flight_mono _ _ (sep_mono (out_deliver m d L ci h off inb hoff fd) .rfl)

/-- The same with the write spelt as a one-piece list of writes. -/
theorem out_flight0_list (ci : ℕ) (h : ci < 64) (off : Fin 2 → ℕ) (inb : ∀ a, off a + S32x512.size a ≤ S65536x512.size a) (hoff : off = ![4096 * (L 1).val + 2048 * (L 0).val + 32 * ci, 0]) (fd : Buf (Elt F) (oLoc d)) :
    Transfers.Flight countersEmb (thrV d L) (SemLoc.dma cc0_scratch8.sem) (default : HIx 1) 524288
      (iprop((((outV : Memref sig .scVector .hbm S65536x512 .f32).slice (Rect.unit (s := S65536x512) off S32x512.size inb) (fun _ => rfl)).view.loc (thrV d L)
          ↦[((outV : Memref sig .scVector .hbm S65536x512 .f32).slice (Rect.unit (s := S65536x512) off S32x512.size inb) (fun _ => rfl)).view.set]{fullShare}
            ((outV : Memref sig .scVector .hbm S65536x512 .f32).slice (Rect.unit (s := S65536x512) off S32x512.size inb) (fun _ => rfl)).view.writes (Elt F) fd [⟨Rect.whole S32x512, maskRows 32 (landC m d L ci)⟩])
        ∗ ((b0 : Memref sig .scVector .vmem S32x512 .f32).view.loc (thrV d L) ↦{fullShare} (maskRows 32 (landC m d L ci) : FVec F S32x512 .f32))) : sProp (MM F))
      ⊢ FlOut0 m d L ci := by
  unfold FlOut0
  exact Transfers.Flight_mono _ _ (sep_mono (out_deliver_list m d L ci h off inb hoff fd) .rfl)

/-- The outgoing copy of chunk `ci` out of staging buffer 1, in flight at its delivery (the slice of the result at the
    write, the buffer back), is the invariant's flight. -/
theorem out_flight1 (ci : ℕ) (h : ci < 64) (off : Fin 2 → ℕ) (inb : ∀ a, off a + S32x512.size a ≤ S65536x512.size a) (hoff : off = ![4096 * (L 1).val + 2048 * (L 0).val + 32 * ci, 0]) (fd : Buf (Elt F) (oLoc d)) :
    Transfers.Flight countersEmb (thrV d L) (SemLoc.dma cc0_scratch9.sem) (default : HIx 1) 524288
      (iprop((((outV : Memref sig .scVector .hbm S65536x512 .f32).slice (Rect.unit (s := S65536x512) off S32x512.size inb) (fun _ => rfl)).view.loc (thrV d L)
          ↦[((outV : Memref sig .scVector .hbm S65536x512 .f32).slice (Rect.unit (s := S65536x512) off S32x512.size inb) (fun _ => rfl)).view.set]{fullShare}
            ((outV : Memref sig .scVector .hbm S65536x512 .f32).slice (Rect.unit (s := S65536x512) off S32x512.size inb) (fun _ => rfl)).view.write (Elt F) fd (maskRows 32 (landC m d L ci)) Finset.univ)
        ∗ ((b1 : Memref sig .scVector .vmem S32x512 .f32).view.loc (thrV d L) ↦{fullShare} (maskRows 32 (landC m d L ci) : FVec F S32x512 .f32))) : sProp (MM F))
      ⊢ FlOut1 m d L ci := by
  unfold FlOut1
  exact Transfers.Flight_mono _ _ (sep_mono (out_deliver m d L ci h off inb hoff fd) .rfl)

/-- The same with the write spelt as a one-piece list of writes. -/
theorem out_flight1_list (ci : ℕ) (h : ci < 64) (off : Fin 2 → ℕ) (inb : ∀ a, off a + S32x512.size a ≤ S65536x512.size a) (hoff : off = ![4096 * (L 1).val + 2048 * (L 0).val + 32 * ci, 0]) (fd : Buf (Elt F) (oLoc d)) :
    Transfers.Flight countersEmb (thrV d L) (SemLoc.dma cc0_scratch9.sem) (default : HIx 1) 524288
      (iprop((((outV : Memref sig .scVector .hbm S65536x512 .f32).slice (Rect.unit (s := S65536x512) off S32x512.size inb) (fun _ => rfl)).view.loc (thrV d L)
          ↦[((outV : Memref sig .scVector .hbm S65536x512 .f32).slice (Rect.unit (s := S65536x512) off S32x512.size inb) (fun _ => rfl)).view.set]{fullShare}
            ((outV : Memref sig .scVector .hbm S65536x512 .f32).slice (Rect.unit (s := S65536x512) off S32x512.size inb) (fun _ => rfl)).view.writes (Elt F) fd [⟨Rect.whole S32x512, maskRows 32 (landC m d L ci)⟩])
        ∗ ((b1 : Memref sig .scVector .vmem S32x512 .f32).view.loc (thrV d L) ↦{fullShare} (maskRows 32 (landC m d L ci) : FVec F S32x512 .f32))) : sProp (MM F))
      ⊢ FlOut1 m d L ci := by
  unfold FlOut1
  exact Transfers.Flight_mono _ _ (sep_mono (out_deliver_list m d L ci h off inb hoff fd) .rfl)

/-- The outgoing copy of chunk `ci` out of staging buffer 2, in flight at its delivery (the slice of the result at the
    write, the buffer back), is the invariant's flight. -/
theorem out_flight2 (ci : ℕ) (h : ci < 64) (off : Fin 2 → ℕ) (inb : ∀ a, off a + S32x512.size a ≤ S65536x512.size a) (hoff : off = ![4096 * (L 1).val + 2048 * (L 0).val + 32 * ci, 0]) (fd : Buf (Elt F) (oLoc d)) :
    Transfers.Flight countersEmb (thrV d L) (SemLoc.dma cc0_scratch10.sem) (default : HIx 1) 524288
      (iprop((((outV : Memref sig .scVector .hbm S65536x512 .f32).slice (Rect.unit (s := S65536x512) off S32x512.size inb) (fun _ => rfl)).view.loc (thrV d L)
          ↦[((outV : Memref sig .scVector .hbm S65536x512 .f32).slice (Rect.unit (s := S65536x512) off S32x512.size inb) (fun _ => rfl)).view.set]{fullShare}
            ((outV : Memref sig .scVector .hbm S65536x512 .f32).slice (Rect.unit (s := S65536x512) off S32x512.size inb) (fun _ => rfl)).view.write (Elt F) fd (maskRows 32 (landC m d L ci)) Finset.univ)
        ∗ ((b2 : Memref sig .scVector .vmem S32x512 .f32).view.loc (thrV d L) ↦{fullShare} (maskRows 32 (landC m d L ci) : FVec F S32x512 .f32))) : sProp (MM F))
      ⊢ FlOut2 m d L ci := by
  unfold FlOut2
  exact Transfers.Flight_mono _ _ (sep_mono (out_deliver m d L ci h off inb hoff fd) .rfl)

/-- The same with the write spelt as a one-piece list of writes. -/
theorem out_flight2_list (ci : ℕ) (h : ci < 64) (off : Fin 2 → ℕ) (inb : ∀ a, off a + S32x512.size a ≤ S65536x512.size a) (hoff : off = ![4096 * (L 1).val + 2048 * (L 0).val + 32 * ci, 0]) (fd : Buf (Elt F) (oLoc d)) :
    Transfers.Flight countersEmb (thrV d L) (SemLoc.dma cc0_scratch10.sem) (default : HIx 1) 524288
      (iprop((((outV : Memref sig .scVector .hbm S65536x512 .f32).slice (Rect.unit (s := S65536x512) off S32x512.size inb) (fun _ => rfl)).view.loc (thrV d L)
          ↦[((outV : Memref sig .scVector .hbm S65536x512 .f32).slice (Rect.unit (s := S65536x512) off S32x512.size inb) (fun _ => rfl)).view.set]{fullShare}
            ((outV : Memref sig .scVector .hbm S65536x512 .f32).slice (Rect.unit (s := S65536x512) off S32x512.size inb) (fun _ => rfl)).view.writes (Elt F) fd [⟨Rect.whole S32x512, maskRows 32 (landC m d L ci)⟩])
        ∗ ((b2 : Memref sig .scVector .vmem S32x512 .f32).view.loc (thrV d L) ↦{fullShare} (maskRows 32 (landC m d L ci) : FVec F S32x512 .f32))) : sProp (MM F))
      ⊢ FlOut2 m d L ci := by
  unfold FlOut2
  exact Transfers.Flight_mono _ _ (sep_mono (out_deliver_list m d L ci h off inb hoff fd) .rfl)

/-- The outgoing copy of chunk `ci` out of staging buffer 3, in flight at its delivery (the slice of the result at the
    write, the buffer back), is the invariant's flight. -/
theorem out_flight3 (ci : ℕ) (h : ci < 64) (off : Fin 2 → ℕ) (inb : ∀ a, off a + S32x512.size a ≤ S65536x512.size a) (hoff : off = ![4096 * (L 1).val + 2048 * (L 0).val + 32 * ci, 0]) (fd : Buf (Elt F) (oLoc d)) :
    Transfers.Flight countersEmb (thrV d L) (SemLoc.dma cc0_scratch11.sem) (default : HIx 1) 524288
      (iprop((((outV : Memref sig .scVector .hbm S65536x512 .f32).slice (Rect.unit (s := S65536x512) off S32x512.size inb) (fun _ => rfl)).view.loc (thrV d L)
          ↦[((outV : Memref sig .scVector .hbm S65536x512 .f32).slice (Rect.unit (s := S65536x512) off S32x512.size inb) (fun _ => rfl)).view.set]{fullShare}
            ((outV : Memref sig .scVector .hbm S65536x512 .f32).slice (Rect.unit (s := S65536x512) off S32x512.size inb) (fun _ => rfl)).view.write (Elt F) fd (maskRows 32 (landC m d L ci)) Finset.univ)
        ∗ ((b3 : Memref sig .scVector .vmem S32x512 .f32).view.loc (thrV d L) ↦{fullShare} (maskRows 32 (landC m d L ci) : FVec F S32x512 .f32))) : sProp (MM F))
      ⊢ FlOut3 m d L ci := by
  unfold FlOut3
  exact Transfers.Flight_mono _ _ (sep_mono (out_deliver m d L ci h off inb hoff fd) .rfl)

/-- The same with the write spelt as a one-piece list of writes. -/
theorem out_flight3_list (ci : ℕ) (h : ci < 64) (off : Fin 2 → ℕ) (inb : ∀ a, off a + S32x512.size a ≤ S65536x512.size a) (hoff : off = ![4096 * (L 1).val + 2048 * (L 0).val + 32 * ci, 0]) (fd : Buf (Elt F) (oLoc d)) :
    Transfers.Flight countersEmb (thrV d L) (SemLoc.dma cc0_scratch11.sem) (default : HIx 1) 524288
      (iprop((((outV : Memref sig .scVector .hbm S65536x512 .f32).slice (Rect.unit (s := S65536x512) off S32x512.size inb) (fun _ => rfl)).view.loc (thrV d L)
          ↦[((outV : Memref sig .scVector .hbm S65536x512 .f32).slice (Rect.unit (s := S65536x512) off S32x512.size inb) (fun _ => rfl)).view.set]{fullShare}
            ((outV : Memref sig .scVector .hbm S65536x512 .f32).slice (Rect.unit (s := S65536x512) off S32x512.size inb) (fun _ => rfl)).view.writes (Elt F) fd [⟨Rect.whole S32x512, maskRows 32 (landC m d L ci)⟩])
        ∗ ((b3 : Memref sig .scVector .vmem S32x512 .f32).view.loc (thrV d L) ↦{fullShare} (maskRows 32 (landC m d L ci) : FVec F S32x512 .f32))) : sProp (MM F))
      ⊢ FlOut3 m d L ci := by
  unfold FlOut3
  exact Transfers.Flight_mono _ _ (sep_mono (out_deliver_list m d L ci h off inb hoff fd) .rfl)

/-! ## The same deliveries in the spellings a run leaves -/

/-- The chunk's slice of the result after an outgoing copy's wait, its write listed over arbitrary prior contents. -/
theorem out_deliver_junk [∀ e, Nonempty (Elt F e)] (ci : ℕ) (h : ci < 64) (off : Fin 2 → ℕ) (inb : ∀ a, off a + S32x512.size a ≤ S65536x512.size a) (hoff : off = ![4096 * (L 1).val + 2048 * (L 0).val + 32 * ci, 0]) :
    (((outV : Memref sig .scVector .hbm S65536x512 .f32).slice (Rect.unit (s := S65536x512) off S32x512.size inb) (fun _ => rfl)).view.loc (thrV d L)
        ↦[((outV : Memref sig .scVector .hbm S65536x512 .f32).slice (Rect.unit (s := S65536x512) off S32x512.size inb) (fun _ => rfl)).view.set]{fullShare}
          ((outV : Memref sig .scVector .hbm S65536x512 .f32).slice (Rect.unit (s := S65536x512) off S32x512.size inb) (fun _ => rfl)).view.writes (Elt F) ((outV : Memref sig .scVector .hbm S65536x512 .f32).slice (Rect.unit (s := S65536x512) off S32x512.size inb) (fun _ => rfl)).view.junk [⟨Rect.whole S32x512, maskRows 32 (landC m d L ci)⟩] : sProp (MM F))
      ⊢ outChunk d L (outFinal m d) ci :=
  out_deliver_list m d L ci h off inb hoff _

/-- Staging buffer 0 held by its own elements is the buffer held whole. -/
theorem b0_own (g : FVec F S32x512 .f32) :
    ((b0 : Memref sig .scVector .vmem S32x512 .f32).view.loc (thrV d L) ↦[(b0 : Memref sig .scVector .vmem S32x512 .f32).view.set]{fullShare} g : sProp (MM F))
      = ((b0 : Memref sig .scVector .vmem S32x512 .f32).view.loc (thrV d L) ↦{fullShare} g) := by
  rw [show (b0 : Memref sig .scVector .vmem S32x512 .f32).view.set = Finset.univ from View.set_whole (cc0_scratch0 : Ref sig .scVector)]

/-- The outgoing copy of chunk `ci` out of staging buffer 0 in flight, the write listed and the buffer held by its own
    elements, is the invariant's flight. -/
theorem out_flight0_exec (ci : ℕ) (h : ci < 64) (off : Fin 2 → ℕ) (inb : ∀ a, off a + S32x512.size a ≤ S65536x512.size a) (hoff : off = ![4096 * (L 1).val + 2048 * (L 0).val + 32 * ci, 0]) (fd : Buf (Elt F) (oLoc d)) :
    Transfers.Flight countersEmb (thrV d L) (SemLoc.dma cc0_scratch8.sem) (default : HIx 1) 524288
      (iprop((((outV : Memref sig .scVector .hbm S65536x512 .f32).slice (Rect.unit (s := S65536x512) off S32x512.size inb) (fun _ => rfl)).view.loc (thrV d L)
          ↦[((outV : Memref sig .scVector .hbm S65536x512 .f32).slice (Rect.unit (s := S65536x512) off S32x512.size inb) (fun _ => rfl)).view.set]{fullShare}
            ((outV : Memref sig .scVector .hbm S65536x512 .f32).slice (Rect.unit (s := S65536x512) off S32x512.size inb) (fun _ => rfl)).view.writes (Elt F) fd [⟨Rect.whole S32x512, maskRows 32 (landC m d L ci)⟩])
        ∗ ((b0 : Memref sig .scVector .vmem S32x512 .f32).view.loc (thrV d L) ↦[(b0 : Memref sig .scVector .vmem S32x512 .f32).view.set]{fullShare} (maskRows 32 (landC m d L ci) : FVec F S32x512 .f32))) : sProp (MM F))
      ⊢ FlOut0 m d L ci := by
  rw [b0_own]
  exact out_flight0_list m d L ci h off inb hoff fd

/-- Staging buffer 1 held by its own elements is the buffer held whole. -/
theorem b1_own (g : FVec F S32x512 .f32) :
    ((b1 : Memref sig .scVector .vmem S32x512 .f32).view.loc (thrV d L) ↦[(b1 : Memref sig .scVector .vmem S32x512 .f32).view.set]{fullShare} g : sProp (MM F))
      = ((b1 : Memref sig .scVector .vmem S32x512 .f32).view.loc (thrV d L) ↦{fullShare} g) := by
  rw [show (b1 : Memref sig .scVector .vmem S32x512 .f32).view.set = Finset.univ from View.set_whole (cc0_scratch1 : Ref sig .scVector)]

/-- The outgoing copy of chunk `ci` out of staging buffer 1 in flight, the write listed and the buffer held by its own
    elements, is the invariant's flight. -/
theorem out_flight1_exec (ci : ℕ) (h : ci < 64) (off : Fin 2 → ℕ) (inb : ∀ a, off a + S32x512.size a ≤ S65536x512.size a) (hoff : off = ![4096 * (L 1).val + 2048 * (L 0).val + 32 * ci, 0]) (fd : Buf (Elt F) (oLoc d)) :
    Transfers.Flight countersEmb (thrV d L) (SemLoc.dma cc0_scratch9.sem) (default : HIx 1) 524288
      (iprop((((outV : Memref sig .scVector .hbm S65536x512 .f32).slice (Rect.unit (s := S65536x512) off S32x512.size inb) (fun _ => rfl)).view.loc (thrV d L)
          ↦[((outV : Memref sig .scVector .hbm S65536x512 .f32).slice (Rect.unit (s := S65536x512) off S32x512.size inb) (fun _ => rfl)).view.set]{fullShare}
            ((outV : Memref sig .scVector .hbm S65536x512 .f32).slice (Rect.unit (s := S65536x512) off S32x512.size inb) (fun _ => rfl)).view.writes (Elt F) fd [⟨Rect.whole S32x512, maskRows 32 (landC m d L ci)⟩])
        ∗ ((b1 : Memref sig .scVector .vmem S32x512 .f32).view.loc (thrV d L) ↦[(b1 : Memref sig .scVector .vmem S32x512 .f32).view.set]{fullShare} (maskRows 32 (landC m d L ci) : FVec F S32x512 .f32))) : sProp (MM F))
      ⊢ FlOut1 m d L ci := by
  rw [b1_own]
  exact out_flight1_list m d L ci h off inb hoff fd

/-- Staging buffer 2 held by its own elements is the buffer held whole. -/
theorem b2_own (g : FVec F S32x512 .f32) :
    ((b2 : Memref sig .scVector .vmem S32x512 .f32).view.loc (thrV d L) ↦[(b2 : Memref sig .scVector .vmem S32x512 .f32).view.set]{fullShare} g : sProp (MM F))
      = ((b2 : Memref sig .scVector .vmem S32x512 .f32).view.loc (thrV d L) ↦{fullShare} g) := by
  rw [show (b2 : Memref sig .scVector .vmem S32x512 .f32).view.set = Finset.univ from View.set_whole (cc0_scratch2 : Ref sig .scVector)]

/-- The outgoing copy of chunk `ci` out of staging buffer 2 in flight, the write listed and the buffer held by its own
    elements, is the invariant's flight. -/
theorem out_flight2_exec (ci : ℕ) (h : ci < 64) (off : Fin 2 → ℕ) (inb : ∀ a, off a + S32x512.size a ≤ S65536x512.size a) (hoff : off = ![4096 * (L 1).val + 2048 * (L 0).val + 32 * ci, 0]) (fd : Buf (Elt F) (oLoc d)) :
    Transfers.Flight countersEmb (thrV d L) (SemLoc.dma cc0_scratch10.sem) (default : HIx 1) 524288
      (iprop((((outV : Memref sig .scVector .hbm S65536x512 .f32).slice (Rect.unit (s := S65536x512) off S32x512.size inb) (fun _ => rfl)).view.loc (thrV d L)
          ↦[((outV : Memref sig .scVector .hbm S65536x512 .f32).slice (Rect.unit (s := S65536x512) off S32x512.size inb) (fun _ => rfl)).view.set]{fullShare}
            ((outV : Memref sig .scVector .hbm S65536x512 .f32).slice (Rect.unit (s := S65536x512) off S32x512.size inb) (fun _ => rfl)).view.writes (Elt F) fd [⟨Rect.whole S32x512, maskRows 32 (landC m d L ci)⟩])
        ∗ ((b2 : Memref sig .scVector .vmem S32x512 .f32).view.loc (thrV d L) ↦[(b2 : Memref sig .scVector .vmem S32x512 .f32).view.set]{fullShare} (maskRows 32 (landC m d L ci) : FVec F S32x512 .f32))) : sProp (MM F))
      ⊢ FlOut2 m d L ci := by
  rw [b2_own]
  exact out_flight2_list m d L ci h off inb hoff fd

/-- Staging buffer 3 held by its own elements is the buffer held whole. -/
theorem b3_own (g : FVec F S32x512 .f32) :
    ((b3 : Memref sig .scVector .vmem S32x512 .f32).view.loc (thrV d L) ↦[(b3 : Memref sig .scVector .vmem S32x512 .f32).view.set]{fullShare} g : sProp (MM F))
      = ((b3 : Memref sig .scVector .vmem S32x512 .f32).view.loc (thrV d L) ↦{fullShare} g) := by
  rw [show (b3 : Memref sig .scVector .vmem S32x512 .f32).view.set = Finset.univ from View.set_whole (cc0_scratch3 : Ref sig .scVector)]

/-- The outgoing copy of chunk `ci` out of staging buffer 3 in flight, the write listed and the buffer held by its own
    elements, is the invariant's flight. -/
theorem out_flight3_exec (ci : ℕ) (h : ci < 64) (off : Fin 2 → ℕ) (inb : ∀ a, off a + S32x512.size a ≤ S65536x512.size a) (hoff : off = ![4096 * (L 1).val + 2048 * (L 0).val + 32 * ci, 0]) (fd : Buf (Elt F) (oLoc d)) :
    Transfers.Flight countersEmb (thrV d L) (SemLoc.dma cc0_scratch11.sem) (default : HIx 1) 524288
      (iprop((((outV : Memref sig .scVector .hbm S65536x512 .f32).slice (Rect.unit (s := S65536x512) off S32x512.size inb) (fun _ => rfl)).view.loc (thrV d L)
          ↦[((outV : Memref sig .scVector .hbm S65536x512 .f32).slice (Rect.unit (s := S65536x512) off S32x512.size inb) (fun _ => rfl)).view.set]{fullShare}
            ((outV : Memref sig .scVector .hbm S65536x512 .f32).slice (Rect.unit (s := S65536x512) off S32x512.size inb) (fun _ => rfl)).view.writes (Elt F) fd [⟨Rect.whole S32x512, maskRows 32 (landC m d L ci)⟩])
        ∗ ((b3 : Memref sig .scVector .vmem S32x512 .f32).view.loc (thrV d L) ↦[(b3 : Memref sig .scVector .vmem S32x512 .f32).view.set]{fullShare} (maskRows 32 (landC m d L ci) : FVec F S32x512 .f32))) : sProp (MM F))
      ⊢ FlOut3 m d L ci := by
  rw [b3_own]
  exact out_flight3_list m d L ci h off inb hoff fd

end Cert.Proof.KB

end
-- ==== Proof.KB.Group.lean ====
/-
  One group of the body's main loop: chunks 4g … 4g+3 of the task, each waited for in its staging buffer, zeroed in the
  disabled columns and sent on its way to the result, while the chunks two ahead start on their way in and the chunks
  two behind finish their way out.  The first group finds nothing on its way out and the last sends nothing more in, so
  the step is proved three times: for the first group, a middle one and the last.
-/
import proofs.«205590_g25494925869706_cont_9to1_307_11_alg».proof.Proof.KB.Common
import proofs.«205590_g25494925869706_cont_9to1_307_11_alg».proof.Proof.KB.Inv
import proofs.«205590_g25494925869706_cont_9to1_307_11_alg».proof.Proof.KB.Rows
import proofs.«205590_g25494925869706_cont_9to1_307_11_alg».proof.Proof.KB.Value

noncomputable section

namespace Cert.Proof.KB

open Cert.Kernel Cert.Kernel.Gen
open Cert.Proof.Spec (dis spec maskRows)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (m : (ℓ : Loc nD τ sig) → Buf (Elt F) ℓ)

omit [FloatOps F] in
/-- A chunk of the argument array in the spelling of a 32-row slice at the chunk's row. -/
theorem imgChunk_site (d : Dev nD) (L : grid0.Coords) (ci : ℕ) (h : ci < 64) (off : Fin 2 → ℕ) (inb : ∀ a, off a + S32x512.size a ≤ S65536x512.size a)
    (hoff : off = ![4096 * (L 1).val + 2048 * (L 0).val + 32 * ci, 0]) :
    imgChunk m d L ci
      = ((((imgV : Memref sig .scVector .hbm S65536x512 .f32).slice (Rect.unit (s := S65536x512) off S32x512.size inb) (fun _ => rfl)).view.loc (thrV d L))
          ↦[((imgV : Memref sig .scVector .hbm S65536x512 .f32).slice (Rect.unit (s := S65536x512) off S32x512.size inb) (fun _ => rfl)).view.set]{fullShare} m (iLoc d)) := by
  rw [pts_img]; unfold imgChunk; rw [chunkSet_of_off L ci h off inb hoff]

omit [FloatOps F] in
/-- A chunk of the result array in the spelling of a 32-row slice at the chunk's row. -/
theorem outChunk_site (d : Dev nD) (L : grid0.Coords) (f : Buf (Elt F) (oLoc d)) (ci : ℕ) (h : ci < 64) (off : Fin 2 → ℕ) (inb : ∀ a, off a + S32x512.size a ≤ S65536x512.size a)
    (hoff : off = ![4096 * (L 1).val + 2048 * (L 0).val + 32 * ci, 0]) :
    outChunk d L f ci
      = ((((outV : Memref sig .scVector .hbm S65536x512 .f32).slice (Rect.unit (s := S65536x512) off S32x512.size inb) (fun _ => rfl)).view.loc (thrV d L))
          ↦[((outV : Memref sig .scVector .hbm S65536x512 .f32).slice (Rect.unit (s := S65536x512) off S32x512.size inb) (fun _ => rfl)).view.set]{fullShare} f) := by
  rw [pts_out]; unfold outChunk; rw [chunkSet_of_off L ci h off inb hoff]

omit [FloatOps F] in
/-- A wait recorded at the kernels' index keeps the waits below the launch's bound. -/
theorem waits_ins {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with rfl | hp
  · exact .inr rfl
  · exact h p hp

set_option maxHeartbeats 3200000 in
theorem group_first (d : Dev nD) (L : grid0.Coords) (O : CellTallies nD τ sig (HIx 1)) (W : Waits sig (HIx 1)) (v2 : BitVec 32)
    (g : Fin k0_t1_loop.trips) (acc : Unit) (hg0 : g.val = 0) :
    ginv m d L O W g.val acc
      ⊢ wp frame (wpE (defs₀ (F := F)) 𝒱₀ (thrV d L) none) Set.univ
          (k0_t1_body L imgV (Memref.isWhole_whole _) outV (Memref.isWhole_whole _) b0 (Memref.isWhole_whole _) b1 (Memref.isWhole_whole _) b2 (Memref.isWhole_whole _) b3 (Memref.isWhole_whole _) cc0_scratch4 cc0_scratch5 cc0_scratch6 cc0_scratch7 cc0_scratch8 cc0_scratch9 cc0_scratch10 cc0_scratch11 v2 g acc)
          (ginv m d L O W (g.val + 1)) := by
  have hc1 : ¬ k0_cond1 g = 1#1 := fun h => by have := (cond1_iff g).mp h; omega
  have hc2 : k0_cond2 g = 1#1 := cond2_all g
  have hc3 : ¬ k0_cond3 g = 1#1 := fun h => by have := (cond3_iff g).mp h; omega
  have hc4 : k0_cond4 g = 1#1 := cond4_all g
  have hc5 : k0_cond5 g = 1#1 := cond5_all g
  have hc6 : k0_cond6 g = 1#1 := (cond6_iff g).mpr (by omega)
  have hc7 : k0_cond7 g = 1#1 := cond7_all g
  have hc8 : k0_cond8 g = 1#1 := (cond8_iff g).mpr (by omega)
  unfold ginv
  rw [show inSide m d L g.val = iprop(FlIn0 m d L (4 * g.val) ∗ FlIn1 m d L (4 * g.val + 1)) from if_pos (by omega),
    show outSide m d L g.val = iprop(anyB2 d L ∗ anyB3 d L ∗ semVal (cellOf d L cc0_scratch10) 0 ∗ semVal (cellOf d L cc0_scratch11) 0) from if_pos hg0]
  rw [bigSep_Ico_head (show 4 * g.val + 2 < 64 by omega), bigSep_Ico_head (show 4 * g.val + 2 + 1 < 64 by omega),
    bigSep_Ico_head (show 4 * g.val + 2 + 1 + 1 < 64 by omega), bigSep_Ico_head (show 4 * g.val + 2 + 1 + 1 + 1 < 64 by omega),
    bigSep_Ico_head (show 4 * g.val < 64 by omega), bigSep_Ico_head (show 4 * g.val + 1 < 64 by omega),
    bigSep_Ico_head (show 4 * g.val + 1 + 1 < 64 by omega), bigSep_Ico_head (show 4 * g.val + 1 + 1 + 1 < 64 by omega)]
  unfold FlIn0 FlIn1
  iintro ⟨#Hmw, HIdone, ⟨HIa, HIb, HIc, HId, HItodo⟩, HOdone, ⟨HOa, HOb, HOc, HOd, HOtodo⟩, ⟨HF0, HF1⟩, ⟨⟨%fb2, HB2⟩, ⟨%fb3, HB3⟩, Hs10, Hs11⟩, Hs6, Hs7, Hs8, Hs9, %W', %hW', HO⟩
  -- the chunks the group sends, in the body's spelling
  ihave HIa := (Entails.of_eq (imgChunk_site m d L (4 * g.val + 2) (by omega) _ (k0_off3_inb L g hc2) ((k0_off3_eq L g).trans (off_congr (by omega))))) $$ HIa
  ihave HIb := (Entails.of_eq (imgChunk_site m d L (4 * g.val + 2 + 1) (by omega) _ (k0_off12_inb L g hc4) ((k0_off12_eq L g).trans (off_congr (by omega))))) $$ HIb
  ihave HIc := (Entails.of_eq (imgChunk_site m d L (4 * g.val + 2 + 1 + 1) (by omega) _ (k0_off20_inb L g hc6) ((k0_off20_eq L g).trans (off_congr (by omega))))) $$ HIc
  ihave HId := (Entails.of_eq (imgChunk_site m d L (4 * g.val + 2 + 1 + 1 + 1) (by omega) _ (k0_off28_inb L g hc8) ((k0_off28_eq L g).trans (off_congr (by omega))))) $$ HId
  ihave HOa := (Entails.of_eq (outChunk_site d L _ (4 * g.val) (by omega) _ (k0_off4_inb L g 0) ((k0_off4_eq L g 0).trans (off_congr (by simp <;> omega))))) $$ HOa
  ihave HOb := (Entails.of_eq (outChunk_site d L _ (4 * g.val + 1) (by omega) _ (k0_off4_inb L g 1) ((k0_off4_eq L g 1).trans (off_congr (by simp <;> omega))))) $$ HOb
  ihave HOc := (Entails.of_eq (outChunk_site d L _ (4 * g.val + 1 + 1) (by omega) _ (k0_off4_inb L g 2) ((k0_off4_eq L g 2).trans (off_congr (by simp <;> omega))))) $$ HOc
  ihave HOd := (Entails.of_eq (outChunk_site d L _ (4 * g.val + 1 + 1 + 1) (by omega) _ (k0_off4_inb L g 3) ((k0_off4_eq L g 3).trans (off_congr (by simp <;> omega))))) $$ HOd
  sl_unfold [k0_t1_body]
  sl_exec
  -- chunk 4g: its rows zeroed in buffer 0
  sl_for (rinv0 d L (landC m d L (4 * g.val))) $$ [HF0_dst]
  · intro k _; exact rows0_step d L _ v2 _ _ g k
  · unfold rinv0; rw [Cert.Proof.Spec.maskRows_zero]; iexact HF0_dst
  iintro %_ Hb0
  unfold rinv0
  rw [show Scf.trips k0_t2_loop.lb k0_t2_loop.ub k0_t2_loop.st = 32 from k0_t2_trips]
  sl_exec
  -- chunk 4g+1 in buffer 1
  sl_for (rinv1 d L (landC m d L (4 * g.val + 1))) $$ [HF1_dst]
  · intro k _; exact rows1_step d L _ v2 g _ _ k
  · unfold rinv1; rw [Cert.Proof.Spec.maskRows_zero]; iexact HF1_dst
  iintro %_ Hb1
  unfold rinv1
  rw [show Scf.trips k0_t3_loop.lb k0_t3_loop.ub k0_t3_loop.st = 32 from k0_t3_trips]
  sl_exec
  -- chunk 4g+2 in buffer 2
  ihave Hb2 := (pts_of_eq ((View.write_whole_univ _ _ _).trans (land_eq m d L (4 * g.val + 2) (by omega) _ (k0_off3_inb L g hc2) ((k0_off3_eq L g).trans (off_congr (by omega)))))) $$ HB2
  sl_for (rinv2 d L (landC m d L (4 * g.val + 2))) $$ [Hb2]
  · intro k _; exact rows2_step d L _ v2 g _ _ k
  · unfold rinv2; rw [Cert.Proof.Spec.maskRows_zero]; iexact Hb2
  iintro %_ Hb2
  unfold rinv2
  rw [show Scf.trips k0_t4_loop.lb k0_t4_loop.ub k0_t4_loop.st = 32 from k0_t4_trips]
  sl_exec
  -- chunk 4g+3 in buffer 3
  ihave Hb3 := (pts_of_eq ((View.write_whole_univ _ _ _).trans (land_eq m d L (4 * g.val + 3) (by omega) _ (k0_off12_inb L g hc4) ((k0_off12_eq L g).trans (off_congr (by omega)))))) $$ HB3
  sl_for (rinv3 d L (landC m d L (4 * g.val + 3))) $$ [Hb3]
  · intro k _; exact rows3_step d L _ k
  · unfold rinv3; rw [Cert.Proof.Spec.maskRows_zero]; iexact Hb3
  iintro %_ Hb3
  unfold rinv3
  rw [show Scf.trips k0_t5_loop.lb k0_t5_loop.ub k0_t5_loop.st = 32 from k0_t5_trips]
  sl_exec
  sl_step
  isplitr; · iexact Hmw
  -- the argument's chunks below 4(g+1) are back
  isplitl [HIdone HF0_src HF1_src HIa HIb]
  · rw [show 4 * (g.val + 1) = 4 * g.val + 1 + 1 + 1 + 1 from by omega, bigSep_Ico_last (Nat.zero_le _), bigSep_Ico_last (Nat.zero_le _),
      bigSep_Ico_last (Nat.zero_le _), bigSep_Ico_last (Nat.zero_le _)]
    isplitl [HIb]
    · iapply (Entails.of_eq (imgChunk_site m d L (4 * g.val + 1 + 1 + 1) (by omega) _ (k0_off12_inb L g hc4) ((k0_off12_eq L g).trans (off_congr (by omega)))).symm); iexact HIb
    isplitl [HIa]
    · iapply (Entails.of_eq (imgChunk_site m d L (4 * g.val + 1 + 1) (by omega) _ (k0_off3_inb L g hc2) ((k0_off3_eq L g).trans (off_congr (by omega)))).symm); iexact HIa
    isplitl [HF1_src]; · iexact HF1_src
    isplitl [HF0_src]; · iexact HF0_src
    iexact HIdone
  isplitl [HItodo]
  · rw [show 4 * (g.val + 1) + 2 = 4 * g.val + 2 + 1 + 1 + 1 + 1 from by omega]; iexact HItodo
  -- the result's chunks below 4(g+1)-2 are final
  isplitl [HOdone HOa HOb]
  · rw [show 4 * (g.val + 1) - 2 = 4 * g.val + 1 + 1 from by omega, bigSep_Ico_last (Nat.zero_le _), bigSep_Ico_last (Nat.zero_le _)]
    isplitl [HOb]
    · iapply (out_deliver_list m d L (4 * g.val + 1) (by omega) _ (k0_off4_inb L g 1) ((k0_off4_eq L g 1).trans (off_congr (by simp <;> omega))) _); iexact HOb
    isplitl [HOa]
    · iapply (out_deliver_list m d L (4 * g.val) (by omega) _ (k0_off4_inb L g 0) ((k0_off4_eq L g 0).trans (off_congr (by simp <;> omega))) _); iexact HOa
    rw [show Finset.Ico 0 (4 * g.val) = Finset.Ico 0 (4 * g.val - 2) from by rw [show 4 * g.val - 2 = 4 * g.val from by omega]]
    iexact HOdone
  isplitl [HOtodo]
  · rw [show 4 * (g.val + 1) = 4 * g.val + 1 + 1 + 1 + 1 from by omega]; iexact HOtodo
  -- chunks 4(g+1), 4(g+1)+1 on their way in
  isplitl [HF0 HF1]
  · rw [show inSide m d L (g.val + 1) = iprop(FlIn0 m d L (4 * (g.val + 1)) ∗ FlIn1 m d L (4 * (g.val + 1) + 1)) from if_pos (by omega)]
    isplitl [HF0]
    · iapply (flIn0_of m d L (4 * (g.val + 1)) (by omega) _ (k0_off20_inb L g hc6) ((k0_off20_eq L g).trans (off_congr (by omega))) _); iexact HF0
    · iapply (flIn1_of m d L (4 * (g.val + 1) + 1) (by omega) _ (k0_off28_inb L g hc8) ((k0_off28_eq L g).trans (off_congr (by omega))) _); iexact HF1
  -- chunks 4(g+1)-2, 4(g+1)-1 on their way out
  isplitl [Hs10 Hs11]
  · rw [show outSide m d L (g.val + 1) = iprop(FlOut2 m d L (4 * (g.val + 1) - 2) ∗ FlOut3 m d L (4 * (g.val + 1) - 1)) from if_neg (by omega)]
    isplitl [Hs10]
    · iapply (out_flight2_exec m d L (4 * (g.val + 1) - 2) (by omega) _ (k0_off4_inb L g 2) ((k0_off4_eq L g 2).trans (off_congr (by simp <;> omega))) _); iexact Hs10
    · iapply (out_flight3_exec m d L (4 * (g.val + 1) - 1) (by omega) _ (k0_off4_inb L g 3) ((k0_off4_eq L g 3).trans (off_congr (by simp <;> omega))) _); iexact Hs11
  isplitl [Hs6]; · iexact Hs6
  isplitl [Hs7]; · iexact Hs7
  isplitl [Hs8]; · iexact Hs8
  isplitl [Hs9]; · iexact Hs9
  iexists _; isplitr
  swap
  · iexact HO
  · ipureintro
    exact waits_ins (waits_ins (waits_ins (waits_ins (waits_ins (waits_ins hW' _) _) _) _) _) _

set_option maxHeartbeats 3200000 in
theorem group_mid (d : Dev nD) (L : grid0.Coords) (O : CellTallies nD τ sig (HIx 1)) (W : Waits sig (HIx 1)) (v2 : BitVec 32)
    (g : Fin k0_t1_loop.trips) (acc : Unit) (hg1 : 1 ≤ g.val) (hg2 : g.val < 15) :
    ginv m d L O W g.val acc
      ⊢ wp frame (wpE (defs₀ (F := F)) 𝒱₀ (thrV d L) none) Set.univ
          (k0_t1_body L imgV (Memref.isWhole_whole _) outV (Memref.isWhole_whole _) b0 (Memref.isWhole_whole _) b1 (Memref.isWhole_whole _) b2 (Memref.isWhole_whole _) b3 (Memref.isWhole_whole _) cc0_scratch4 cc0_scratch5 cc0_scratch6 cc0_scratch7 cc0_scratch8 cc0_scratch9 cc0_scratch10 cc0_scratch11 v2 g acc)
          (ginv m d L O W (g.val + 1)) := by
  have hc1 : k0_cond1 g = 1#1 := (cond1_iff g).mpr hg1
  have hc2 : k0_cond2 g = 1#1 := cond2_all g
  have hc3 : k0_cond3 g = 1#1 := (cond3_iff g).mpr hg1
  have hc4 : k0_cond4 g = 1#1 := cond4_all g
  have hc5 : k0_cond5 g = 1#1 := cond5_all g
  have hc6 : k0_cond6 g = 1#1 := (cond6_iff g).mpr hg2
  have hc7 : k0_cond7 g = 1#1 := cond7_all g
  have hc8 : k0_cond8 g = 1#1 := (cond8_iff g).mpr hg2
  unfold ginv
  rw [show inSide m d L g.val = iprop(FlIn0 m d L (4 * g.val) ∗ FlIn1 m d L (4 * g.val + 1)) from if_pos (by omega),
    show outSide m d L g.val = iprop(FlOut2 m d L (4 * g.val - 2) ∗ FlOut3 m d L (4 * g.val - 1)) from if_neg (by omega)]
  rw [bigSep_Ico_head (show 4 * g.val + 2 < 64 by omega), bigSep_Ico_head (show 4 * g.val + 2 + 1 < 64 by omega),
    bigSep_Ico_head (show 4 * g.val + 2 + 1 + 1 < 64 by omega), bigSep_Ico_head (show 4 * g.val + 2 + 1 + 1 + 1 < 64 by omega),
    bigSep_Ico_head (show 4 * g.val < 64 by omega), bigSep_Ico_head (show 4 * g.val + 1 < 64 by omega),
    bigSep_Ico_head (show 4 * g.val + 1 + 1 < 64 by omega), bigSep_Ico_head (show 4 * g.val + 1 + 1 + 1 < 64 by omega)]
  unfold FlIn0 FlIn1 FlOut2 FlOut3
  iintro ⟨#Hmw, HIdone, ⟨HIa, HIb, HIc, HId, HItodo⟩, HOdone, ⟨HOa, HOb, HOc, HOd, HOtodo⟩, ⟨HF0, HF1⟩, ⟨HG2, HG3⟩, Hs6, Hs7, Hs8, Hs9, %W', %hW', HO⟩
  -- the chunks the group sends, in the body's spelling
  ihave HIa := (Entails.of_eq (imgChunk_site m d L (4 * g.val + 2) (by omega) _ (k0_off3_inb L g hc2) ((k0_off3_eq L g).trans (off_congr (by omega))))) $$ HIa
  ihave HIb := (Entails.of_eq (imgChunk_site m d L (4 * g.val + 2 + 1) (by omega) _ (k0_off12_inb L g hc4) ((k0_off12_eq L g).trans (off_congr (by omega))))) $$ HIb
  ihave HIc := (Entails.of_eq (imgChunk_site m d L (4 * g.val + 2 + 1 + 1) (by omega) _ (k0_off20_inb L g hc6) ((k0_off20_eq L g).trans (off_congr (by omega))))) $$ HIc
  ihave HId := (Entails.of_eq (imgChunk_site m d L (4 * g.val + 2 + 1 + 1 + 1) (by omega) _ (k0_off28_inb L g hc8) ((k0_off28_eq L g).trans (off_congr (by omega))))) $$ HId
  ihave HOa := (Entails.of_eq (outChunk_site d L _ (4 * g.val) (by omega) _ (k0_off4_inb L g 0) ((k0_off4_eq L g 0).trans (off_congr (by simp <;> omega))))) $$ HOa
  ihave HOb := (Entails.of_eq (outChunk_site d L _ (4 * g.val + 1) (by omega) _ (k0_off4_inb L g 1) ((k0_off4_eq L g 1).trans (off_congr (by simp <;> omega))))) $$ HOb
  ihave HOc := (Entails.of_eq (outChunk_site d L _ (4 * g.val + 1 + 1) (by omega) _ (k0_off4_inb L g 2) ((k0_off4_eq L g 2).trans (off_congr (by simp <;> omega))))) $$ HOc
  ihave HOd := (Entails.of_eq (outChunk_site d L _ (4 * g.val + 1 + 1 + 1) (by omega) _ (k0_off4_inb L g 3) ((k0_off4_eq L g 3).trans (off_congr (by simp <;> omega))))) $$ HOd
  sl_unfold [k0_t1_body]
  sl_exec
  -- chunk 4g: its rows zeroed in buffer 0
  sl_for (rinv0 d L (landC m d L (4 * g.val))) $$ [HF0_dst]
  · intro k _; exact rows0_step d L _ v2 _ _ g k
  · unfold rinv0; rw [Cert.Proof.Spec.maskRows_zero]; iexact HF0_dst
  iintro %_ Hb0
  unfold rinv0
  rw [show Scf.trips k0_t2_loop.lb k0_t2_loop.ub k0_t2_loop.st = 32 from k0_t2_trips]
  sl_exec
  -- chunk 4g+1 in buffer 1
  sl_for (rinv1 d L (landC m d L (4 * g.val + 1))) $$ [HF1_dst]
  · intro k _; exact rows1_step d L _ v2 g _ _ k
  · unfold rinv1; rw [Cert.Proof.Spec.maskRows_zero]; iexact HF1_dst
  iintro %_ Hb1
  unfold rinv1
  rw [show Scf.trips k0_t3_loop.lb k0_t3_loop.ub k0_t3_loop.st = 32 from k0_t3_trips]
  sl_exec
  -- chunk 4g+2 in buffer 2
  ihave Hb2 := (pts_of_eq ((View.write_whole_univ _ _ _).trans (land_eq m d L (4 * g.val + 2) (by omega) _ (k0_off3_inb L g hc2) ((k0_off3_eq L g).trans (off_congr (by omega)))))) $$ HG2_src
  sl_for (rinv2 d L (landC m d L (4 * g.val + 2))) $$ [Hb2]
  · intro k _; exact rows2_step d L _ v2 g _ _ k
  · unfold rinv2; rw [Cert.Proof.Spec.maskRows_zero]; iexact Hb2
  iintro %_ Hb2
  unfold rinv2
  rw [show Scf.trips k0_t4_loop.lb k0_t4_loop.ub k0_t4_loop.st = 32 from k0_t4_trips]
  sl_exec
  -- chunk 4g+3 in buffer 3
  ihave Hb3 := (pts_of_eq ((View.write_whole_univ _ _ _).trans (land_eq m d L (4 * g.val + 3) (by omega) _ (k0_off12_inb L g hc4) ((k0_off12_eq L g).trans (off_congr (by omega)))))) $$ HG3_src
  sl_for (rinv3 d L (landC m d L (4 * g.val + 3))) $$ [Hb3]
  · intro k _; exact rows3_step d L _ k
  · unfold rinv3; rw [Cert.Proof.Spec.maskRows_zero]; iexact Hb3
  iintro %_ Hb3
  unfold rinv3
  rw [show Scf.trips k0_t5_loop.lb k0_t5_loop.ub k0_t5_loop.st = 32 from k0_t5_trips]
  sl_exec
  sl_step
  isplitr; · iexact Hmw
  -- the argument's chunks below 4(g+1) are back
  isplitl [HIdone HF0_src HF1_src HIa HIb]
  · rw [show 4 * (g.val + 1) = 4 * g.val + 1 + 1 + 1 + 1 from by omega, bigSep_Ico_last (Nat.zero_le _), bigSep_Ico_last (Nat.zero_le _),
      bigSep_Ico_last (Nat.zero_le _), bigSep_Ico_last (Nat.zero_le _)]
    isplitl [HIb]
    · iapply (Entails.of_eq (imgChunk_site m d L (4 * g.val + 1 + 1 + 1) (by omega) _ (k0_off12_inb L g hc4) ((k0_off12_eq L g).trans (off_congr (by omega)))).symm); iexact HIb
    isplitl [HIa]
    · iapply (Entails.of_eq (imgChunk_site m d L (4 * g.val + 1 + 1) (by omega) _ (k0_off3_inb L g hc2) ((k0_off3_eq L g).trans (off_congr (by omega)))).symm); iexact HIa
    isplitl [HF1_src]; · iexact HF1_src
    isplitl [HF0_src]; · iexact HF0_src
    iexact HIdone
  isplitl [HItodo]
  · rw [show 4 * (g.val + 1) + 2 = 4 * g.val + 2 + 1 + 1 + 1 + 1 from by omega]; iexact HItodo
  -- the result's chunks below 4(g+1)-2 are final
  isplitl [HOdone HG2_dst HG3_dst HOa HOb]
  · rw [show 4 * (g.val + 1) - 2 = 4 * g.val + 1 + 1 from by omega, bigSep_Ico_last (Nat.zero_le _), bigSep_Ico_last (Nat.zero_le _)]
    isplitl [HOb]
    · iapply (out_deliver_list m d L (4 * g.val + 1) (by omega) _ (k0_off4_inb L g 1) ((k0_off4_eq L g 1).trans (off_congr (by simp <;> omega))) _); iexact HOb
    isplitl [HOa]
    · iapply (out_deliver_list m d L (4 * g.val) (by omega) _ (k0_off4_inb L g 0) ((k0_off4_eq L g 0).trans (off_congr (by simp <;> omega))) _); iexact HOa
    rw [show Finset.Ico 0 (4 * g.val) = Finset.Ico 0 (4 * g.val - 2 + 1 + 1) from by rw [show 4 * g.val - 2 + 1 + 1 = 4 * g.val from by omega],
      bigSep_Ico_last (Nat.zero_le _), bigSep_Ico_last (Nat.zero_le _), show 4 * g.val - 2 + 1 = 4 * g.val - 1 from by omega]
    isplitl [HG3_dst]; · iexact HG3_dst
    isplitl [HG2_dst]; · iexact HG2_dst
    iexact HOdone
  isplitl [HOtodo]
  · rw [show 4 * (g.val + 1) = 4 * g.val + 1 + 1 + 1 + 1 from by omega]; iexact HOtodo
  -- chunks 4(g+1), 4(g+1)+1 on their way in
  isplitl [HF0 HF1]
  · rw [show inSide m d L (g.val + 1) = iprop(FlIn0 m d L (4 * (g.val + 1)) ∗ FlIn1 m d L (4 * (g.val + 1) + 1)) from if_pos (by omega)]
    isplitl [HF0]
    · iapply (flIn0_of m d L (4 * (g.val + 1)) (by omega) _ (k0_off20_inb L g hc6) ((k0_off20_eq L g).trans (off_congr (by omega))) _); iexact HF0
    · iapply (flIn1_of m d L (4 * (g.val + 1) + 1) (by omega) _ (k0_off28_inb L g hc8) ((k0_off28_eq L g).trans (off_congr (by omega))) _); iexact HF1
  -- chunks 4(g+1)-2, 4(g+1)-1 on their way out
  isplitl [HG2 HG3]
  · rw [show outSide m d L (g.val + 1) = iprop(FlOut2 m d L (4 * (g.val + 1) - 2) ∗ FlOut3 m d L (4 * (g.val + 1) - 1)) from if_neg (by omega)]
    isplitl [HG2]
    · iapply (out_flight2_exec m d L (4 * (g.val + 1) - 2) (by omega) _ (k0_off4_inb L g 2) ((k0_off4_eq L g 2).trans (off_congr (by simp <;> omega))) _); iexact HG2
    · iapply (out_flight3_exec m d L (4 * (g.val + 1) - 1) (by omega) _ (k0_off4_inb L g 3) ((k0_off4_eq L g 3).trans (off_congr (by simp <;> omega))) _); iexact HG3
  isplitl [Hs6]; · iexact Hs6
  isplitl [Hs7]; · iexact Hs7
  isplitl [Hs8]; · iexact Hs8
  isplitl [Hs9]; · iexact Hs9
  iexists _; isplitr
  swap
  · iexact HO
  · ipureintro
    exact waits_ins (waits_ins (waits_ins (waits_ins (waits_ins (waits_ins (waits_ins (waits_ins hW' _) _) _) _) _) _) _) _

set_option maxHeartbeats 3200000 in
theorem group_last (d : Dev nD) (L : grid0.Coords) (O : CellTallies nD τ sig (HIx 1)) (W : Waits sig (HIx 1)) (v2 : BitVec 32)
    (g : Fin k0_t1_loop.trips) (acc : Unit) (hg15 : g.val = 15) :
    ginv m d L O W g.val acc
      ⊢ wp frame (wpE (defs₀ (F := F)) 𝒱₀ (thrV d L) none) Set.univ
          (k0_t1_body L imgV (Memref.isWhole_whole _) outV (Memref.isWhole_whole _) b0 (Memref.isWhole_whole _) b1 (Memref.isWhole_whole _) b2 (Memref.isWhole_whole _) b3 (Memref.isWhole_whole _) cc0_scratch4 cc0_scratch5 cc0_scratch6 cc0_scratch7 cc0_scratch8 cc0_scratch9 cc0_scratch10 cc0_scratch11 v2 g acc)
          (ginv m d L O W (g.val + 1)) := by
  have hc1 : k0_cond1 g = 1#1 := (cond1_iff g).mpr (by omega)
  have hc2 : k0_cond2 g = 1#1 := cond2_all g
  have hc3 : k0_cond3 g = 1#1 := (cond3_iff g).mpr (by omega)
  have hc4 : k0_cond4 g = 1#1 := cond4_all g
  have hc5 : k0_cond5 g = 1#1 := cond5_all g
  have hc6 : ¬ k0_cond6 g = 1#1 := fun h => by have := (cond6_iff g).mp h; omega
  have hc7 : k0_cond7 g = 1#1 := cond7_all g
  have hc8 : ¬ k0_cond8 g = 1#1 := fun h => by have := (cond8_iff g).mp h; omega
  unfold ginv
  rw [show inSide m d L g.val = iprop(FlIn0 m d L (4 * g.val) ∗ FlIn1 m d L (4 * g.val + 1)) from if_pos (by omega),
    show outSide m d L g.val = iprop(FlOut2 m d L (4 * g.val - 2) ∗ FlOut3 m d L (4 * g.val - 1)) from if_neg (by omega)]
  rw [bigSep_Ico_head (show 4 * g.val + 2 < 64 by omega), bigSep_Ico_head (show 4 * g.val + 2 + 1 < 64 by omega),
    bigSep_Ico_head (show 4 * g.val < 64 by omega), bigSep_Ico_head (show 4 * g.val + 1 < 64 by omega),
    bigSep_Ico_head (show 4 * g.val + 1 + 1 < 64 by omega), bigSep_Ico_head (show 4 * g.val + 1 + 1 + 1 < 64 by omega)]
  unfold FlIn0 FlIn1 FlOut2 FlOut3
  iintro ⟨#Hmw, HIdone, ⟨HIa, HIb, HItodo⟩, HOdone, ⟨HOa, HOb, HOc, HOd, HOtodo⟩, ⟨HF0, HF1⟩, ⟨HG2, HG3⟩, Hs6, Hs7, Hs8, Hs9, %W', %hW', HO⟩
  -- the chunks the group sends, in the body's spelling
  ihave HIa := (Entails.of_eq (imgChunk_site m d L (4 * g.val + 2) (by omega) _ (k0_off3_inb L g hc2) ((k0_off3_eq L g).trans (off_congr (by omega))))) $$ HIa
  ihave HIb := (Entails.of_eq (imgChunk_site m d L (4 * g.val + 2 + 1) (by omega) _ (k0_off12_inb L g hc4) ((k0_off12_eq L g).trans (off_congr (by omega))))) $$ HIb
  ihave HOa := (Entails.of_eq (outChunk_site d L _ (4 * g.val) (by omega) _ (k0_off4_inb L g 0) ((k0_off4_eq L g 0).trans (off_congr (by simp <;> omega))))) $$ HOa
  ihave HOb := (Entails.of_eq (outChunk_site d L _ (4 * g.val + 1) (by omega) _ (k0_off4_inb L g 1) ((k0_off4_eq L g 1).trans (off_congr (by simp <;> omega))))) $$ HOb
  ihave HOc := (Entails.of_eq (outChunk_site d L _ (4 * g.val + 1 + 1) (by omega) _ (k0_off4_inb L g 2) ((k0_off4_eq L g 2).trans (off_congr (by simp <;> omega))))) $$ HOc
  ihave HOd := (Entails.of_eq (outChunk_site d L _ (4 * g.val + 1 + 1 + 1) (by omega) _ (k0_off4_inb L g 3) ((k0_off4_eq L g 3).trans (off_congr (by simp <;> omega))))) $$ HOd
  sl_unfold [k0_t1_body]
  sl_exec
  -- chunk 4g: its rows zeroed in buffer 0
  sl_for (rinv0 d L (landC m d L (4 * g.val))) $$ [HF0_dst]
  · intro k _; exact rows0_step d L _ v2 _ _ g k
  · unfold rinv0; rw [Cert.Proof.Spec.maskRows_zero]; iexact HF0_dst
  iintro %_ Hb0
  unfold rinv0
  rw [show Scf.trips k0_t2_loop.lb k0_t2_loop.ub k0_t2_loop.st = 32 from k0_t2_trips]
  sl_exec
  -- chunk 4g+1 in buffer 1
  sl_for (rinv1 d L (landC m d L (4 * g.val + 1))) $$ [HF1_dst]
  · intro k _; exact rows1_step d L _ v2 g _ _ k
  · unfold rinv1; rw [Cert.Proof.Spec.maskRows_zero]; iexact HF1_dst
  iintro %_ Hb1
  unfold rinv1
  rw [show Scf.trips k0_t3_loop.lb k0_t3_loop.ub k0_t3_loop.st = 32 from k0_t3_trips]
  sl_exec
  -- chunk 4g+2 in buffer 2
  ihave Hb2 := (pts_of_eq ((View.write_whole_univ _ _ _).trans (land_eq m d L (4 * g.val + 2) (by omega) _ (k0_off3_inb L g hc2) ((k0_off3_eq L g).trans (off_congr (by omega)))))) $$ HG2_src
  sl_for (rinv2 d L (landC m d L (4 * g.val + 2))) $$ [Hb2]
  · intro k _; exact rows2_step d L _ v2 g _ _ k
  · unfold rinv2; rw [Cert.Proof.Spec.maskRows_zero]; iexact Hb2
  iintro %_ Hb2
  unfold rinv2
  rw [show Scf.trips k0_t4_loop.lb k0_t4_loop.ub k0_t4_loop.st = 32 from k0_t4_trips]
  sl_exec
  -- chunk 4g+3 in buffer 3
  ihave Hb3 := (pts_of_eq ((View.write_whole_univ _ _ _).trans (land_eq m d L (4 * g.val + 3) (by omega) _ (k0_off12_inb L g hc4) ((k0_off12_eq L g).trans (off_congr (by omega)))))) $$ HG3_src
  sl_for (rinv3 d L (landC m d L (4 * g.val + 3))) $$ [Hb3]
  · intro k _; exact rows3_step d L _ k
  · unfold rinv3; rw [Cert.Proof.Spec.maskRows_zero]; iexact Hb3
  iintro %_ Hb3
  unfold rinv3
  rw [show Scf.trips k0_t5_loop.lb k0_t5_loop.ub k0_t5_loop.st = 32 from k0_t5_trips]
  sl_exec
  sl_step
  isplitr; · iexact Hmw
  -- the argument's chunks below 4(g+1) are back
  isplitl [HIdone HF0_src HF1_src HIa HIb]
  · rw [show 4 * (g.val + 1) = 4 * g.val + 1 + 1 + 1 + 1 from by omega, bigSep_Ico_last (Nat.zero_le _), bigSep_Ico_last (Nat.zero_le _),
      bigSep_Ico_last (Nat.zero_le _), bigSep_Ico_last (Nat.zero_le _)]
    isplitl [HIb]
    · iapply (Entails.of_eq (imgChunk_site m d L (4 * g.val + 1 + 1 + 1) (by omega) _ (k0_off12_inb L g hc4) ((k0_off12_eq L g).trans (off_congr (by omega)))).symm); iexact HIb
    isplitl [HIa]
    · iapply (Entails.of_eq (imgChunk_site m d L (4 * g.val + 1 + 1) (by omega) _ (k0_off3_inb L g hc2) ((k0_off3_eq L g).trans (off_congr (by omega)))).symm); iexact HIa
    isplitl [HF1_src]; · iexact HF1_src
    isplitl [HF0_src]; · iexact HF0_src
    iexact HIdone
  isplitr
  · rw [bigSep_Ico_empty (show 64 ≤ 4 * (g.val + 1) + 2 by omega)]; iempintro
  -- the result's chunks below 4(g+1)-2 are final
  isplitl [HOdone HG2_dst HG3_dst HOa HOb]
  · rw [show 4 * (g.val + 1) - 2 = 4 * g.val + 1 + 1 from by omega, bigSep_Ico_last (Nat.zero_le _), bigSep_Ico_last (Nat.zero_le _)]
    isplitl [HOb]
    · iapply (out_deliver_list m d L (4 * g.val + 1) (by omega) _ (k0_off4_inb L g 1) ((k0_off4_eq L g 1).trans (off_congr (by simp <;> omega))) _); iexact HOb
    isplitl [HOa]
    · iapply (out_deliver_list m d L (4 * g.val) (by omega) _ (k0_off4_inb L g 0) ((k0_off4_eq L g 0).trans (off_congr (by simp <;> omega))) _); iexact HOa
    rw [show Finset.Ico 0 (4 * g.val) = Finset.Ico 0 (4 * g.val - 2 + 1 + 1) from by rw [show 4 * g.val - 2 + 1 + 1 = 4 * g.val from by omega],
      bigSep_Ico_last (Nat.zero_le _), bigSep_Ico_last (Nat.zero_le _), show 4 * g.val - 2 + 1 = 4 * g.val - 1 from by omega]
    isplitl [HG3_dst]; · iexact HG3_dst
    isplitl [HG2_dst]; · iexact HG2_dst
    iexact HOdone
  isplitl [HOtodo]
  · rw [show 4 * (g.val + 1) = 4 * g.val + 1 + 1 + 1 + 1 from by omega]; iexact HOtodo
  -- chunks 4(g+1), 4(g+1)+1 on their way in
  isplitl [HF0 HF1 Hb0 Hb1]
  · rw [show inSide m d L (g.val + 1) = iprop(anyB0 d L ∗ anyB1 d L ∗ semVal (cellOf d L cc0_scratch4) 0 ∗ semVal (cellOf d L cc0_scratch5) 0) from if_neg (by omega)]
    isplitl [Hb0]; · iexists _; iexact Hb0
    isplitl [Hb1]; · iexists _; iexact Hb1
    isplitl [HF0]; · iexact HF0
    iexact HF1
  -- chunks 4(g+1)-2, 4(g+1)-1 on their way out
  isplitl [HG2 HG3]
  · rw [show outSide m d L (g.val + 1) = iprop(FlOut2 m d L (4 * (g.val + 1) - 2) ∗ FlOut3 m d L (4 * (g.val + 1) - 1)) from if_neg (by omega)]
    isplitl [HG2]
    · iapply (out_flight2_exec m d L (4 * (g.val + 1) - 2) (by omega) _ (k0_off4_inb L g 2) ((k0_off4_eq L g 2).trans (off_congr (by simp <;> omega))) _); iexact HG2
    · iapply (out_flight3_exec m d L (4 * (g.val + 1) - 1) (by omega) _ (k0_off4_inb L g 3) ((k0_off4_eq L g 3).trans (off_congr (by simp <;> omega))) _); iexact HG3
  isplitl [Hs6]; · iexact Hs6
  isplitl [Hs7]; · iexact Hs7
  isplitl [Hs8]; · iexact Hs8
  isplitl [Hs9]; · iexact Hs9
  iexists _; isplitr
  swap
  · iexact HO
  · ipureintro
    exact waits_ins (waits_ins (waits_ins (waits_ins (waits_ins (waits_ins (waits_ins (waits_ins hW' _) _) _) _) _) _) _) _

/-- The step of the main loop's invariant at every group. -/
theorem group_step (d : Dev nD) (L : grid0.Coords) (O : CellTallies nD τ sig (HIx 1)) (W : Waits sig (HIx 1)) (v2 : BitVec 32)
    (g : Fin k0_t1_loop.trips) (acc : Unit) :
    ginv m d L O W g.val acc
      ⊢ wp frame (wpE (defs₀ (F := F)) 𝒱₀ (thrV d L) none) Set.univ
          (k0_t1_body L imgV (Memref.isWhole_whole _) outV (Memref.isWhole_whole _) b0 (Memref.isWhole_whole _) b1 (Memref.isWhole_whole _) b2 (Memref.isWhole_whole _) b3 (Memref.isWhole_whole _) cc0_scratch4 cc0_scratch5 cc0_scratch6 cc0_scratch7 cc0_scratch8 cc0_scratch9 cc0_scratch10 cc0_scratch11 v2 g acc)
          (ginv m d L O W (g.val + 1)) := by
  rcases Nat.eq_zero_or_pos g.val with h0 | h1
  · exact group_first m d L O W v2 g acc h0
  · by_cases h15 : g.val < 15
    · exact group_mid m d L O W v2 g acc h1 h15
    · exact group_last m d L O W v2 g acc (by have := g.isLt; have := trips_eq; omega)

end Cert.Proof.KB

end
-- ==== Proof.KB.Tile.lean ====
/-
  One task of the kernel: the body of grid point `L` on its vector subcore, from the task's 64 chunks of the argument
  and of the result to the result's chunks at the specification.
-/
import proofs.«205590_g25494925869706_cont_9to1_307_11_alg».proof.Proof.KB.Group

noncomputable section

namespace Cert.Proof.KB

open Cert.Kernel Cert.Kernel.Gen
open Cert.Proof.Spec (dis spec maskRows)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F] (m : (ℓ : Loc nD τ sig) → Buf (Elt F) ℓ)

/-! ## A chunk on its way into a staging buffer, as the issue leaves it -/

theorem flIn0_intro (d : Dev nD) (L : grid0.Coords) (ci : ℕ) (h : ci < 64) (off : Fin 2 → ℕ) (inb : ∀ a, off a + S32x512.size a ≤ S65536x512.size a)
    (hoff : off = ![4096 * (L 1).val + 2048 * (L 0).val + 32 * ci, 0]) (f0 : Buf (Elt F) ((thrV d L).loc cc0_scratch0)) (w : FVec F S32x512 .f32)
    (hw : w = ((imgV : Memref sig .scVector .hbm S65536x512 .f32).slice (Rect.unit (s := S65536x512) off S32x512.size inb) (fun _ => rfl)).view.read (Elt F) (m (iLoc d)))
    (sm : DmaSem sig) (hsm : sm = cc0_scratch4.sem) :
    (Transfers.Flight countersEmb (thrV d L) (SemLoc.dma sm) (default : HIx 1) 524288
      iprop(((b0 : Memref sig .scVector .vmem S32x512 .f32).view.loc (thrV d L) ↦{fullShare} View.write (Elt F) (b0 : Memref sig .scVector .vmem S32x512 .f32).view f0 w Finset.univ)
        ∗ ((((imgV : Memref sig .scVector .hbm S65536x512 .f32).slice (Rect.unit (s := S65536x512) off S32x512.size inb) (fun _ => rfl)).view.loc (thrV d L))
            ↦[((imgV : Memref sig .scVector .hbm S65536x512 .f32).slice (Rect.unit (s := S65536x512) off S32x512.size inb) (fun _ => rfl)).view.set]{fullShare} m (iLoc d))) : sProp (MM F))
      ⊢ FlIn0 m d L ci := by
  subst hsm
  unfold FlIn0
  refine Transfers.Flight_mono _ _ ?_
  rw [hw, land_eq m d L ci h off inb hoff, pts_img, ← chunkSet_of_off L ci h off inb hoff,
    show View.write (Elt F) (b0 : Memref sig .scVector .vmem S32x512 .f32).view f0 (landC m d L ci) Finset.univ = landC m d L ci from View.write_whole_univ _ _ _]

theorem flIn1_intro (d : Dev nD) (L : grid0.Coords) (ci : ℕ) (h : ci < 64) (off : Fin 2 → ℕ) (inb : ∀ a, off a + S32x512.size a ≤ S65536x512.size a)
    (hoff : off = ![4096 * (L 1).val + 2048 * (L 0).val + 32 * ci, 0]) (f1 : Buf (Elt F) ((thrV d L).loc cc0_scratch1)) (w : FVec F S32x512 .f32)
    (hw : w = ((imgV : Memref sig .scVector .hbm S65536x512 .f32).slice (Rect.unit (s := S65536x512) off S32x512.size inb) (fun _ => rfl)).view.read (Elt F) (m (iLoc d)))
    (sm : DmaSem sig) (hsm : sm = cc0_scratch5.sem) :
    (Transfers.Flight countersEmb (thrV d L) (SemLoc.dma sm) (default : HIx 1) 524288
      iprop(((b1 : Memref sig .scVector .vmem S32x512 .f32).view.loc (thrV d L) ↦{fullShare} View.write (Elt F) (b1 : Memref sig .scVector .vmem S32x512 .f32).view f1 w Finset.univ)
        ∗ ((((imgV : Memref sig .scVector .hbm S65536x512 .f32).slice (Rect.unit (s := S65536x512) off S32x512.size inb) (fun _ => rfl)).view.loc (thrV d L))
            ↦[((imgV : Memref sig .scVector .hbm S65536x512 .f32).slice (Rect.unit (s := S65536x512) off S32x512.size inb) (fun _ => rfl)).view.set]{fullShare} m (iLoc d))) : sProp (MM F))
      ⊢ FlIn1 m d L ci := by
  subst hsm
  unfold FlIn1
  refine Transfers.Flight_mono _ _ ?_
  rw [hw, land_eq m d L ci h off inb hoff, pts_img, ← chunkSet_of_off L ci h off inb hoff,
    show View.write (Elt F) (b1 : Memref sig .scVector .vmem S32x512 .f32).view f1 (landC m d L ci) Finset.univ = landC m d L ci from View.write_whole_univ _ _ _]

/-- What the task hands back, split as the loop's invariant leaves it after the last group: the argument's 64 chunks,
    the result's first 62 and its last two. -/
theorem tdRes_eq (d : Dev nD) (L : grid0.Coords) :
    tdRes m d L = iprop((bigSep (Finset.Ico 0 (4 * 16)) fun ci => imgChunk m d L ci)
      ∗ (outChunk d L (outFinal m d) (4 * 16 - 1) ∗ outChunk d L (outFinal m d) (4 * 16 - 2)
        ∗ bigSep (Finset.Ico 0 (4 * 16 - 2)) fun ci => outChunk d L (outFinal m d) ci)) := by
  unfold tdRes
  rw [Finset.range_eq_Ico, bigSep_Ico_last (by decide : 0 ≤ 63) (fun ci => outChunk d L (outFinal m d) ci),
    bigSep_Ico_last (by decide : 0 ≤ 62) (fun ci => outChunk d L (outFinal m d) ci)]
  try rfl

set_option maxHeartbeats 1600000 in
theorem tile_body (hF : (K (F := F)).Facts) (d : Dev nD) (L : grid0.Coords) (O : CellTallies nD τ sig (HIx 1)) (W : Waits sig (HIx 1)) (hO : ∀ g, O g none = 0) :
    iprop(levAts (K (F := F)).L (K (F := F)).lev ∗ emp ∗ goRes m d L
        ∗ scopedBufs (thrV d L) ∗ scopedSems0 (thrV d L) ∗ owes (thrV d L) O W)
      ⊢ wp frame (wpE (defs₀ (F := F)) 𝒱₀ (thrV d L) none) Set.univ
          (cc0__sc_body L imgV (Memref.isWhole_whole _) outV (Memref.isWhole_whole _) b0 (Memref.isWhole_whole _) b1 (Memref.isWhole_whole _) b2 (Memref.isWhole_whole _) b3 (Memref.isWhole_whole _) cc0_scratch4 cc0_scratch5 cc0_scratch6 cc0_scratch7 cc0_scratch8 cc0_scratch9 cc0_scratch10 cc0_scratch11)
          fun _ => iprop(tdRes m d L ∗ scopedBufs (thrV d L) ∗ scopedSems0 (thrV d L)
            ∗ ∃ W', ⌜∀ p ∈ W', p ∈ W ∨ p.2 = none⌝ ∗ owes (thrV d L) O W') := by
  -- the subcore's own storage opened; chunks 0 and 1 of the argument split off, each spelt as the slice the body copies
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  unfold goRes
  rw [Finset.range_eq_Ico, bigSep_Ico_head (by decide : 0 < 64), bigSep_Ico_head (by decide : 0 + 1 < 64)]
  iintro ⟨#Hlv, -, ⟨⟨HI0, HI1, HI⟩, HOu⟩, ⟨⟨%f0, Hb0⟩, ⟨%f1, Hb1⟩, ⟨%f2, Hb2⟩, ⟨%f3, Hb3⟩, Hbufs⟩, ⟨Hs4, Hs5, Hs6, Hs7, Hs8, Hs9, Hs10, Hs11, Hsems⟩, HO⟩
  ihave Hmw := ((K (F := F)).mayWaits_none (thr := thrV d L) hO) $$ Hlv
  have e0 : chunkSet (chunkNo L 0) = (Rect.unit (s := S65536x512) (k0_off1 L 0#32) S32x512.size (k0_off1_inb L 0)).set :=
    chunkSet_of_off L 0 (by decide) _ _ ((k0_off1_eq0 L).trans (off_congr (by omega)))
  have e1 : chunkSet (chunkNo L (0 + 1)) = (Rect.unit (s := S65536x512) (k0_off1 L 32#32) S32x512.size (k0_off1_inb L 1)).set :=
    chunkSet_of_off L (0 + 1) (by decide) _ _ ((k0_off1_eq32 L).trans (off_congr (by omega)))
  unfold imgChunk
  rw [e0, e1]
  ihave HI0' := (Entails.of_eq (pts_img (F := F) d L _ (fun _ => rfl) _).symm) $$ HI0
  ihave HI1' := (Entails.of_eq (pts_img (F := F) d L _ (fun _ => rfl) _).symm) $$ HI1
  ihave Hb0' := (Entails.of_eq (rfl : ((b0 : Memref sig .scVector .vmem S32x512 .f32).view.loc (thrV d L) ↦{fullShare} f0 : sProp (MM F)) = _).symm) $$ Hb0
  ihave Hb1' := (Entails.of_eq (rfl : ((b1 : Memref sig .scVector .vmem S32x512 .f32).view.loc (thrV d L) ↦{fullShare} f1 : sProp (MM F)) = _).symm) $$ Hb1
  ihave Hb2' := (Entails.of_eq (rfl : ((b2 : Memref sig .scVector .vmem S32x512 .f32).view.loc (thrV d L) ↦{fullShare} f2 : sProp (MM F)) = _).symm) $$ Hb2
  ihave Hb3' := (Entails.of_eq (rfl : ((b3 : Memref sig .scVector .vmem S32x512 .f32).view.loc (thrV d L) ↦{fullShare} f3 : sProp (MM F)) = _).symm) $$ Hb3
  -- the first two copies start: chunks 0 and 1 on their way into buffers 0 and 1
  sl_exec
  have hF0 := flIn0_intro m d L (4 * 0) (by decide) (k0_off1 L 0#32) (k0_off1_inb L 0) ((k0_off1_eq0 L).trans (off_congr (by omega))) f0 (Cert.Proof.KB.tile_body.sl.dma0 m d L) rfl ⟨0, by decide⟩ rfl
  have hF1 := flIn1_intro m d L (4 * 0 + 1) (by decide) (k0_off1 L 32#32) (k0_off1_inb L 1) ((k0_off1_eq32 L).trans (off_congr (by omega))) f1 (Cert.Proof.KB.tile_body.sl.dma0_1 m d L) rfl ⟨1, by decide⟩ rfl
  ihave HF0 := hF0 $$ Hs4
  ihave HF1 := hF1 $$ Hs5
  -- the sixteen groups, by the invariant
  sl_for (ginv m d L O W) $$ [HI HOu HF0 HF1 Hb2' Hb3' Hs10 Hs11 Hs6 Hs7 Hs8 Hs9 HO]
  · intro g acc
    exact group_step m d L O W _ g acc
  · unfold ginv inSide outSide
    rw [if_pos (by decide : (0 : ℕ) < 16), if_pos (rfl : (0 : ℕ) = 0), bigSep_Ico_empty (by decide : 4 * 0 ≤ 0), bigSep_Ico_empty (by decide : 4 * 0 - 2 ≤ 0)]
    isplitr; · iexact Hmw
    isplitr; · iempintro
    isplitl [HI]; · iexact HI
    isplitr; · iempintro
    isplitl [HOu]; · iexact HOu
    isplitl [HF0 HF1]
    · isplitl [HF0]; · iexact HF0
      iexact HF1
    isplitl [Hb2' Hb3' Hs10 Hs11]
    · isplitl [Hb2']; · iexists _; iexact Hb2'
      isplitl [Hb3']; · iexists _; iexact Hb3'
      isplitl [Hs10]; · iexact Hs10
      iexact Hs11
    isplitl [Hs6]; · iexact Hs6
    isplitl [Hs7]; · iexact Hs7
    isplitl [Hs8]; · iexact Hs8
    isplitl [Hs9]; · iexact Hs9
    iexists W; isplitr
    · ipureintro; exact fun p hp => Or.inl hp
    iexact HO
  -- after the last group: buffers 0 and 1 are back, chunks 62 and 63 are on their way out; the two last waits
  iintro %acc HG
  rw [show Scf.trips k0_t1_loop.lb k0_t1_loop.ub k0_t1_loop.st = 16 from trips_eq]
  unfold ginv inSide outSide FlOut2 FlOut3
  rw [if_neg (by decide : ¬ ((16 : ℕ) < 16)), if_neg (by decide : ¬ ((16 : ℕ) = 0))]
  icases HG with ⟨-, HIa, -, HOa, -, ⟨⟨%g0, Hb0⟩, ⟨%g1, Hb1⟩, Hs4, Hs5⟩, ⟨HF2, HF3⟩, Hs6, Hs7, Hs8, Hs9, %W', %hW', HO⟩
  sl_exec
  -- the task's chunks, the buffers and the cells handed back
  sl_step
  rw [tdRes_eq]
  ihave Hb0c := (Entails.of_eq (rfl : ((b0 : Memref sig .scVector .vmem S32x512 .f32).view.loc (thrV d L) ↦{fullShare} g0 : sProp (MM F)) = ((thrV d L).loc cc0_scratch0 ↦{fullShare} g0))) $$ Hb0
  ihave Hb1c := (Entails.of_eq (rfl : ((b1 : Memref sig .scVector .vmem S32x512 .f32).view.loc (thrV d L) ↦{fullShare} g1 : sProp (MM F)) = ((thrV d L).loc cc0_scratch1 ↦{fullShare} g1))) $$ Hb1
  ihave Hb2c := (Entails.of_eq (rfl : ((b2 : Memref sig .scVector .vmem S32x512 .f32).view.loc (thrV d L) ↦{fullShare} (maskRows 32 (landC m d L (4 * 16 - 2)) : FVec F S32x512 .f32) : sProp (MM F)) = ((thrV d L).loc cc0_scratch2 ↦{fullShare} (maskRows 32 (landC m d L (4 * 16 - 2)) : FVec F S32x512 .f32)))) $$ HF2_src
  ihave Hb3c := (Entails.of_eq (rfl : ((b3 : Memref sig .scVector .vmem S32x512 .f32).view.loc (thrV d L) ↦{fullShare} (maskRows 32 (landC m d L (4 * 16 - 1)) : FVec F S32x512 .f32) : sProp (MM F)) = ((thrV d L).loc cc0_scratch3 ↦{fullShare} (maskRows 32 (landC m d L (4 * 16 - 1)) : FVec F S32x512 .f32)))) $$ HF3_src
  ihave Hs10 := (Entails.of_eq (rfl : (semVal ((thrV d L, SemLoc.dma ⟨6, _⟩) : GSem nD τ sig) 0 : sProp (MM F)) = semVal (cellOf d L cc0_scratch10) 0)) $$ HF2
  ihave Hs11 := (Entails.of_eq (rfl : (semVal ((thrV d L, SemLoc.dma ⟨7, _⟩) : GSem nD τ sig) 0 : sProp (MM F)) = semVal (cellOf d L cc0_scratch11) 0)) $$ HF3
  isplitl [HIa HOa HF2_dst HF3_dst]
  · isplitl [HIa]; · iexact HIa
    isplitl [HF3_dst]; · iexact HF3_dst
    isplitl [HF2_dst]; · iexact HF2_dst
    iexact HOa
  isplitl [Hb0c Hb1c Hb2c Hb3c Hbufs]
  · isplitl [Hb0c]; · iexists _; iexact Hb0c
    isplitl [Hb1c]; · iexists _; iexact Hb1c
    isplitl [Hb2c]; · iexists _; iexact Hb2c
    isplitl [Hb3c]; · iexists _; iexact Hb3c
    iexact Hbufs
  isplitl [Hs4 Hs5 Hs6 Hs7 Hs8 Hs9 Hs10 Hs11 Hsems]
  · isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    iexact Hsems
  iexists _; isplitr
  swap
  · iexact HO
  · ipureintro; intro p hp
    rcases Finset.mem_insert.mp hp with rfl | hp
    · exact .inr rfl
    rcases Finset.mem_insert.mp hp with rfl | hp
    · exact .inr rfl
    · exact hW' p hp

end Cert.Proof.KB

end
-- ==== Proof.KB.Launch.lean ====
/-
  The launch of the kernel (word-level program): from the proof of one task's body to the run of the whole program.

  The one SparseCore call runs the body on the 2 × 16 vector subcores.  The TensorCore holds the argument and the
  result array whole; each is the disjoint union of its 2048 chunks of 32 rows, and chunk (2 s + c) · 64 + ci is
  chunk ci of the task of subcore (c, s).  The call hands every task its 64 chunks of both arrays and takes them
  back, the result's at the specification; the chunks join into the result array whole at the specification, and the
  argument array whole at its launch contents.
-/
import proofs.«205590_g25494925869706_cont_9to1_307_11_alg».proof.Proof.KB.Tile

noncomputable section

namespace Cert.Proof.KB

open Cert.Kernel Cert.Kernel.Gen
open Cert.Proof.Spec (dis spec maskRows)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The grid points and the chunks -/

/-- The grid point of SparseCore \`c\`, vector subcore \`s\`. -/
abbrev gp (c : Fin 2) (s : Fin 16) : grid0.Coords := coordsV ⟨c.val, c.isLt⟩ ⟨s.val, s.isLt⟩

theorem chunkNo_gp (c : Fin 2) (s : Fin 16) (ci : ℕ) : (chunkNo (gp c s) ci).val = (2 * s.val + c.val) * 64 + ci % 64 := rfl

/-- Every chunk is chunk \`ci\` of exactly one task: \`n = (2 s + c) · 64 + ci\`. -/
theorem chunks_regroup {M : Type} [URA M] (Φ : Fin 2048 → sProp M) :
    bigSep Finset.univ Φ
      = bigSep (Finset.univ : Finset (Fin 2)) fun c => bigSep (Finset.univ : Finset (Fin 16)) fun s =>
          bigSep (Finset.range 64) fun ci => Φ (chunkNo (gp c s) ci) := by
  have hinj : Set.InjOn (fun q : Fin 2 × Fin 16 × ℕ => chunkNo (gp q.1 q.2.1) q.2.2)
      (((Finset.univ : Finset (Fin 2)) ×ˢ ((Finset.univ : Finset (Fin 16)) ×ˢ Finset.range 64) : Finset (Fin 2 × Fin 16 × ℕ)) : Set (Fin 2 × Fin 16 × ℕ)) := by
    rintro ⟨c, s, ci⟩ h ⟨c', s', ci'⟩ h' e
    have hci : ci < 64 := by
      have h0 := Finset.mem_coe.mp h
      simp only [Finset.mem_product, Finset.mem_univ, Finset.mem_range, true_and] at h0
      exact h0
    have hci' : ci' < 64 := by
      have h0 := Finset.mem_coe.mp h'
      simp only [Finset.mem_product, Finset.mem_univ, Finset.mem_range, true_and] at h0
      exact h0
    have e' : (2 * s.val + c.val) * 64 + ci % 64 = (2 * s'.val + c'.val) * 64 + ci' % 64 := congrArg Fin.val e
    have hc := c.isLt; have hc' := c'.isLt; have hs := s.isLt; have hs' := s'.isLt
    have h1 : c.val = c'.val := by omega
    have h2 : s.val = s'.val := by omega
    have h3 : ci = ci' := by omega
    exact Prod.ext (Fin.ext h1) (Prod.ext (Fin.ext h2) h3)
  have himg : (Finset.univ : Finset (Fin 2048))
      = ((Finset.univ : Finset (Fin 2)) ×ˢ ((Finset.univ : Finset (Fin 16)) ×ˢ Finset.range 64)).image (fun q : Fin 2 × Fin 16 × ℕ => chunkNo (gp q.1 q.2.1) q.2.2) := by
    ext n
    simp only [Finset.mem_univ, true_iff, Finset.mem_image, Finset.mem_product, Finset.mem_range, true_and]
    have hn := n.isLt
    refine ⟨(⟨n.val / 64 % 2, by omega⟩, ⟨n.val / 128, by omega⟩, n.val % 64), ?_, Fin.ext ?_⟩
    · show n.val % 64 < 64
      omega
    · show (2 * (n.val / 128) + n.val / 64 % 2) * 64 + n.val % 64 % 64 = n.val
      omega
  conv_lhs => rw [himg]
  rw [SparseCore.bigSep_image_of_injOn hinj, SparseCore.bigSep_product]
  refine bigSep_congr fun c _ => ?_
  rw [SparseCore.bigSep_product]

theorem bigSep2_sep {M : Type} [URA M] (A B : Fin 2 → Fin 16 → sProp M) :
    (bigSep Finset.univ fun c => bigSep Finset.univ fun s => iprop(A c s ∗ B c s))
      = iprop((bigSep Finset.univ fun c => bigSep Finset.univ fun s => A c s) ∗ bigSep Finset.univ fun c => bigSep Finset.univ fun s => B c s) := by
  rw [← bigSep_sep']; exact bigSep_congr fun c _ => bigSep_sep' _ _ _

theorem chunks_disjoint : ∀ i ∈ (Finset.univ : Finset (Fin 2048)), ∀ j ∈ (Finset.univ : Finset (Fin 2048)), i ≠ j → Disjoint (chunkSet i) (chunkSet j) :=
  fun i _ j _ h => by rw [chunkSet_eq, chunkSet_eq]; exact Rect.part_disjoint hdiv h
theorem chunks_cover : (Finset.univ : Finset (Fin 2048)).biUnion chunkSet = Finset.univ :=
  (Finset.biUnion_congr rfl fun i _ => chunkSet_eq i).trans (Rect.biUnion_part hdiv)

variable [FloatOps F] (m : (ℓ : Loc nD τ sig) → Buf (Elt F) ℓ) (ρ : Dev nD → PrngReg)

omit [FloatOps F] in
theorem iPts_chunks (d : Dev nD) (f : Buf (Elt F) (iLoc d)) :
    (iLoc d ↦{fullShare} f : sProp (MM F)) = bigSep Finset.univ fun n : Fin 2048 => iLoc d ↦[chunkSet n]{fullShare} f := by
  rw [← pointsTo_biUnion Finset.univ (ℓ := iLoc d) chunkSet chunks_disjoint, chunks_cover]; try rfl
omit [FloatOps F] in
theorem oPts_chunks (d : Dev nD) (f : Buf (Elt F) (oLoc d)) :
    (oLoc d ↦{fullShare} f : sProp (MM F)) = bigSep Finset.univ fun n : Fin 2048 => oLoc d ↦[chunkSet n]{fullShare} f := by
  rw [← pointsTo_biUnion Finset.univ (ℓ := oLoc d) chunkSet chunks_disjoint, chunks_cover]; try rfl

/-- Both arrays whole are every task's \`goRes\` (the result array at its launch contents), -/
theorem whole_go (d : Dev nD) :
    (iprop((iLoc d ↦{fullShare} m (iLoc d)) ∗ oLoc d ↦{fullShare} m (oLoc d)) : sProp (MM F))
      = bigSep (Finset.univ : Finset (Fin 2)) fun c => bigSep (Finset.univ : Finset (Fin 16)) fun s => goRes m d (gp c s) := by
  unfold goRes
  rw [bigSep2_sep, iPts_chunks, oPts_chunks, chunks_regroup, chunks_regroup]
/-- and every task's \`tdRes\` is both arrays whole, the result array at the specification. -/
theorem whole_td (d : Dev nD) :
    (iprop((iLoc d ↦{fullShare} m (iLoc d)) ∗ oLoc d ↦{fullShare} outFinal m d) : sProp (MM F))
      = bigSep (Finset.univ : Finset (Fin 2)) fun c => bigSep (Finset.univ : Finset (Fin 16)) fun s => tdRes m d (gp c s) := by
  unfold tdRes
  rw [bigSep2_sep, iPts_chunks, oPts_chunks, chunks_regroup, chunks_regroup]

/-! ## What the handshakes carry -/

/-- The one call takes, per SparseCore, its sixteen tasks' chunks of both arrays, hands each task its own, and brings
    them back, the result's at the specification. -/
def P : (K (F := F)).Pay (nD := nD) (Val := Elt F) (Name := ℕ) (U := UU) where
  st := fun q d c => match q with
    | 0 => bigSep Finset.univ fun i : Fin ((K (F := F)).nSub 0) => goRes m d (gp (Fin.cast nCore_zero c) (Fin.cast nSub_zero i))
  dn := fun q d c => match q with
    | 0 => bigSep Finset.univ fun i : Fin ((K (F := F)).nSub 0) => tdRes m d (gp (Fin.cast nCore_zero c) (Fin.cast nSub_zero i))
  go := fun q d c i => match q with | 0 => goRes m d (gp (Fin.cast nCore_zero c) (Fin.cast nSub_zero i))
  td := fun q d c i => match q with | 0 => tdRes m d (gp (Fin.cast nCore_zero c) (Fin.cast nSub_zero i))
  x := fun _ _ => iprop(emp)

theorem P_st (d : Dev nD) (c : Fin ((K (F := F)).nCore 0)) :
    (P m).st 0 d c = bigSep Finset.univ fun i : Fin ((K (F := F)).nSub 0) => goRes m d (gp (Fin.cast nCore_zero c) (Fin.cast nSub_zero i)) := by
  unfold P; rfl
theorem P_dn (d : Dev nD) (c : Fin ((K (F := F)).nCore 0)) :
    (P m).dn 0 d c = bigSep Finset.univ fun i : Fin ((K (F := F)).nSub 0) => tdRes m d (gp (Fin.cast nCore_zero c) (Fin.cast nSub_zero i)) := by
  unfold P; rfl
theorem P_go (d : Dev nD) (c : Fin ((K (F := F)).nCore 0)) (i : Fin ((K (F := F)).nSub 0)) :
    (P m).go 0 d c i = goRes m d (gp (Fin.cast nCore_zero c) (Fin.cast nSub_zero i)) := rfl
theorem P_td (d : Dev nD) (c : Fin ((K (F := F)).nCore 0)) (i : Fin ((K (F := F)).nSub 0)) :
    (P m).td 0 d c i = tdRes m d (gp (Fin.cast nCore_zero c) (Fin.cast nSub_zero i)) := rfl

instance goRes_storable (d : Dev nD) (L : grid0.Coords) : BI.Storable (upEmb : UEmb _ (MM F)) (goRes m d L) := by
  unfold goRes; infer_instance
instance tdRes_storable (d : Dev nD) (L : grid0.Coords) : BI.Storable (upEmb : UEmb _ (MM F)) (tdRes m d L) := by
  unfold tdRes; infer_instance

instance P_storable : (P (F := F) m).IsStorable where
  st q d c := match q with | 0 => by rw [P_st]; infer_instance
  dn q d c := match q with | 0 => by rw [P_dn]; infer_instance
  go q d c i := match q with | 0 => by rw [P_go]; infer_instance
  td q d c i := match q with | 0 => by rw [P_td]; infer_instance

/-! ## The launch theorem's obligations -/

theorem defs₀_vector (c : Fin τ.nSC) (s : Fin τ.nSub) :
    defs₀ (F := F) (.scVector c s) 0 ()
      = SparseCore.onTile hcore0 hsub0 (fun c s => cc0__sc_body (coordsV c s)
          imgV (Memref.isWhole_whole _) outV (Memref.isWhole_whole _) b0 (Memref.isWhole_whole _) b1 (Memref.isWhole_whole _)
          b2 (Memref.isWhole_whole _) b3 (Memref.isWhole_whole _)
          cc0_scratch4 cc0_scratch5 cc0_scratch6 cc0_scratch7 cc0_scratch8 cc0_scratch9 cc0_scratch10 cc0_scratch11) ⟨⟩ c s := rfl

omit [FloatOps F] in
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m hF d (coordsV ⟨_, hc.1⟩ ⟨_, hc.2⟩) O W hO).trans (wp_mono frame _ _ fun _ => obl_post)

theorem vecSplit : (K (F := F)).VecSplit' (P m) 0 := by
  intro d c
  rw [P_st, P_dn]; simp only [P_go, P_td]
  iintro H; imodintro
  isplitl [H]; · iexact H
  iintro H; iexact H

/-! ## The launch element: the handshakes' rounds; the counters are dropped -/

def u₀ : UU := (initOf (K (F := F)).hsCells (K (F := F)).hsToks, 1)

omit [FloatOps F] in
theorem bigSep_emp' {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp (MM F))) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp (MM F)) = iprop((iLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

theorem st0_eq (d : Dev nD) :
    (bigSep Finset.univ fun c : Fin ((K (F := F)).nCore 0) => (P m).st 0 d c)
      = iprop((iLoc d ↦{fullShare} m (iLoc d)) ∗ oLoc d ↦{fullShare} m (oLoc d)) := by
  rw [whole_go]
  exact bigSep_congr fun c _ => (P_st m d c).trans (bigSep_congr fun i _ => rfl)
theorem dn0_eq (d : Dev nD) :
    (bigSep Finset.univ fun c : Fin ((K (F := F)).nCore 0) => (P m).dn 0 d c)
      = iprop((iLoc d ↦{fullShare} m (iLoc d)) ∗ oLoc d ↦{fullShare} outFinal m d) := by
  rw [whole_td]
  exact bigSep_congr fun c _ => (P_dn m d c).trans (bigSep_congr fun i _ => rfl)

/-- What @main leaves the claim: the argument array at its launch contents, the result array at the specification. -/
abbrev FIN (d : Dev nD) : sProp (MM F) := iprop((iLoc d ↦{fullShare} m (iLoc d)) ∗ oLoc d ↦{fullShare} outFinal m d)

/-- @main on device \`d\`'s TensorCore: the one call, from both arrays whole to both arrays whole. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Ho⟩, -, -⟩, -⟩
  iapply ((K (F := F)).wp_run (D (F := F)) 𝒱 (EH := EH) (P := P m) κ d 0) $$ [Hst Hi Ho]
  isplitr; · iexact Hctx
  isplitl [Hst]; · iexact Hst
  isplitl [Hi Ho]
  · rw [st0_eq]
    isplitl [Hi]; · iexact Hi
    iexact Ho
  iintro ⟨Hst, Hdn⟩
  ihave Hdn' := (Entails.of_eq (dn0_eq m d)) $$ Hdn
  icases Hdn' with ⟨Hi, Ho⟩
  imodintro
  isplitl [Hst]; · iexact Hst
  isplitl [Hi]; · iexact Hi
  iexact Ho

def fq (d : Dev nD) (s' : Phys nD τ sig (Elt F)) : Prop := s'.mem.mem (oLoc d) = outFinal m d ∧ s'.mem.mem (iLoc d) = m (iLoc d)

theorem hfin (d : Dev nD) (s' : Phys nD τ sig (Elt F)) : iprop(FIN m d ∗ SI s') ⊢ (⌜fq m d s'⌝ : sProp (MM F)) := by
  iintro ⟨⟨Hi, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (SI_pointsTo_agree (st := s') (ℓ := oLoc d) (I := Finset.univ) (q := fullShare) (f := outFinal m d)) $$ [HSI Ho]
  · isplitl [HSI] <;> iassumption
  icases H with %h2
  ipureintro; exact ⟨funext fun i => h2 i (Finset.mem_univ i), funext fun i => h1 i (Finset.mem_univ i)⟩

/-! ## The program's run -/

theorem run_main [∀ e, Nonempty (Elt F e)] :
    θ_run (Cert.Kernel.defs (F := F)) (Cert.Kernel.threads (F := F)) ⟨m, fun _ => 0, ρ⟩
      (fun r => ∀ c : Dev nD, r.2.mem (oLoc c) = outFinal m c ∧ r.2.mem (iLoc c) = m (iLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m)
    (fun r => ∀ c : Dev nD, r.2.mem (oLoc c) = outFinal m c ∧ r.2.mem (iLoc c) = m (iLoc c)) (fun _ h => h)

end Cert.Proof.KB

end
-- ==== Proof.RefRun.lean ====
/-
  The reference program's run and value. Its @main is a straight line of twelve host operations: the seven
  disabled column numbers as a constant, their wrap into range (a compare, an add and a select: the identity,
  none being negative), their broadcast to a 7 × 1 array of scatter indices, a 65536 × 7 array of zeros, and
  one scatter of those zeros into the argument at the columns. Every weakly fair execution terminates with
  the result buffer at the specification of the argument's launch contents, the argument unchanged.

  The scatter is a left fold over its 458752 update positions. Every update writes the same value, zero, so the
  fold read at one position is zero where some update lands and the operand elsewhere, whatever the order; an
  update `(a, b)` lands at row `a` of the column the `b`-th index names; and the seven indices name exactly
  the disabled columns.
-/
import proofs.«205590_g25494925869706_cont_9to1_307_11_alg».proof.ReferenceIdeal
import proofs.«205590_g25494925869706_cont_9to1_307_11_alg».proof.Proof.Gen.ReferenceIdeal
import proofs.«205590_g25494925869706_cont_9to1_307_11_alg».proof.Proof.Spec
import Idealize.ShloMosaic.Lib.StableHlo.Run
import Idealize.ShloMosaic.Lib.ValueIdx

noncomputable section

namespace Cert.Proof.Ref

open Cert.ReferenceIdeal Cert.ReferenceIdeal.Gen Idealize.ShloMosaic Idealize.ShloMosaic.TcCoe Idealize.SL.Sem
  Idealize.ShloMosaic.StableHlo Idealize.ShloMosaic.ValueIdx

/-! ## A scatter of one value -/

/-- A left fold of steps each of which either does nothing (`g n = none`) or overwrites the one position `g n` names
    by `z`, read at a position: `z` if some step of the list names the position, the starting value there if none does. -/
theorem foldl_overwrite {ι κ α : Type} [DecidableEq κ] (g : ι → Option κ) (z : α) (step : (κ → α) → ι → κ → α)
    (hnone : ∀ r n, g n = none → step r n = r)
    (hsome : ∀ r n i, g n = some i → ∀ i'', (i'' = i → step r n i'' = z) ∧ (i'' ≠ i → step r n i'' = r i''))
    (i' : κ) :
    ∀ (l : List ι) (r : κ → α), (l.foldl step r) i' = if ∃ n ∈ l, g n = some i' then z else r i'
  | [], r => by simp
  | n :: l, r => by
    rw [List.foldl_cons, foldl_overwrite g z step hnone hsome i' l]
    cases hg : g n with
    | none =>
      have : (∃ n' ∈ n :: l, g n' = some i') ↔ ∃ n' ∈ l, g n' = some i' := by
        simp [hg]
      simp only [this, hnone r n hg]
    | some i =>
      by_cases hi : i' = i
      · have : ∃ n' ∈ n :: l, g n' = some i' := ⟨n, List.mem_cons_self, hi ▸ hg⟩
        simp only [this, if_true, ((hsome r n i hg i').1 hi), ite_self]
      · have : (∃ n' ∈ n :: l, g n' = some i') ↔ ∃ n' ∈ l, g n' = some i' := by
          constructor
          · rintro ⟨n', hn', h⟩
            rcases List.mem_cons.mp hn' with rfl | hn'
            · rw [hg] at h; exact absurd (Option.some.inj h).symm hi
            · exact ⟨n', hn', h⟩
          · rintro ⟨n', hn', h⟩; exact ⟨n', List.mem_cons_of_mem _ hn', h⟩
        simp only [this, ((hsome r n i hg i').2 hi)]

/-- A scatter whose body returns the update, of updates that are all one value `z`: at a position some update lands
    on, `z`; elsewhere the operand. (The order of the updates does not matter: they all write the same value.) -/
theorem scatter_const {s si u : Shape} {α : Type} {w : Nat} (d : ScatterDims s si u) (x : s.Idx → α) (idx : IVec si w)
    (z : α) (i' : s.Idx) :
    Host.scatter d (fun _ b => b) x idx (fun _ => z) i'
      = if ∃ j : u.Idx, d.resultIdx? j idx = some i' then z else x i' := by
  unfold Host.scatter
  refine (foldl_overwrite (fun n => d.resultIdx? (u.rowMajor.symm n) idx) z _ ?_ ?_ i' _ x).trans ?_
  · intro r n h; simp only [h]
  · intro r n i h i''; simp only [h]
    exact ⟨fun e => if_pos e, fun e => if_neg e⟩
  · have : (∃ n ∈ List.finRange u.numel, d.resultIdx? (u.rowMajor.symm n) idx = some i')
        ↔ ∃ j : u.Idx, d.resultIdx? j idx = some i' := by
      constructor
      · rintro ⟨n, -, h⟩; exact ⟨_, h⟩
      · rintro ⟨j, h⟩; exact ⟨u.rowMajor j, List.mem_finRange _, by rw [Equiv.symm_apply_apply]; exact h⟩
    simp only [this]

/-! ## This program's scatter -/

/-- Where update `(a, b)` lands: row `a`, the column the `b`-th scatter index names, when that is a column. -/
theorem resultIdx_eq {w : Nat} (idx : IVec S7x1 w) (a : Fin 65536) (b : Fin 7) :
    scatter_S65536x512_S7x1_S65536x7_0_1_1_1.resultIdx? (ix2 a b : S65536x7.Idx) idx
      = if h : 0 ≤ (idx (ix2 b 0)).toInt ∧ (idx (ix2 b 0)).toInt < 512 then
          some (ix2 a ⟨(idx (ix2 b 0)).toInt.toNat, by omega⟩ : S65536x512.Idx)
        else none := by
  have hs0 : scatter_S65536x512_S7x1_S65536x7_0_1_1_1.start (ix2 a b : S65536x7.Idx) idx 0 = 0 := by
    unfold ScatterDims.start
    rw [dif_neg (show (0 : Fin 2) ∉ scatter_S65536x512_S7x1_S65536x7_0_1_1_1.scatterDimsToOperandDims from
      (by decide : (0 : Fin 2) ∉ ([1] : List (Fin 2))))]
  have hsi : scatter_S65536x512_S7x1_S65536x7_0_1_1_1.siIdx (ix2 a b : S65536x7.Idx) ⟨List.idxOf (1 : Fin 2) scatter_S65536x512_S7x1_S65536x7_0_1_1_1.scatterDimsToOperandDims,
      List.idxOf_lt_length_iff.2 (List.mem_singleton.mpr rfl)⟩ = (ix2 b 0 : S7x1.Idx) := by
    funext c; refine Fin.ext ?_
    match c with
    | ⟨0, _⟩ => rfl
    | ⟨1, _⟩ => rfl
  have hs1 : scatter_S65536x512_S7x1_S65536x7_0_1_1_1.start (ix2 a b : S65536x7.Idx) idx 1 = (idx (ix2 b 0)).toInt := by
    unfold ScatterDims.start
    rw [dif_pos (show (1 : Fin 2) ∈ scatter_S65536x512_S7x1_S65536x7_0_1_1_1.scatterDimsToOperandDims from List.mem_singleton.mpr rfl), hsi]
  have hw0 : scatter_S65536x512_S7x1_S65536x7_0_1_1_1.window (ix2 a b : S65536x7.Idx) 0 = a.val := by
    unfold ScatterDims.window
    rw [dif_pos (show (0 : Fin 2) ∈ scatter_S65536x512_S7x1_S65536x7_0_1_1_1.sKept from
      (by decide : (0 : Fin 2) ∈ S65536x512.kept ([1] : List (Fin 2))))]
    rfl
  have hw1 : scatter_S65536x512_S7x1_S65536x7_0_1_1_1.window (ix2 a b : S65536x7.Idx) 1 = 0 := by
    unfold ScatterDims.window
    rw [dif_neg (show (1 : Fin 2) ∉ scatter_S65536x512_S7x1_S65536x7_0_1_1_1.sKept from
      (by decide : (1 : Fin 2) ∉ S65536x512.kept ([1] : List (Fin 2))))]
  unfold ScatterDims.resultIdx?
  by_cases h : 0 ≤ (idx (ix2 b 0)).toInt ∧ (idx (ix2 b 0)).toInt < 512
  · have hall : ∀ c : Fin 2, 0 ≤ scatter_S65536x512_S7x1_S65536x7_0_1_1_1.start (ix2 a b : S65536x7.Idx) idx c + scatter_S65536x512_S7x1_S65536x7_0_1_1_1.window (ix2 a b : S65536x7.Idx) c
        ∧ scatter_S65536x512_S7x1_S65536x7_0_1_1_1.start (ix2 a b : S65536x7.Idx) idx c + scatter_S65536x512_S7x1_S65536x7_0_1_1_1.window (ix2 a b : S65536x7.Idx) c < S65536x512.size c := by
      intro c
      match c with
      | ⟨0, _⟩ =>
        show 0 ≤ scatter_S65536x512_S7x1_S65536x7_0_1_1_1.start (ix2 a b : S65536x7.Idx) idx 0 + scatter_S65536x512_S7x1_S65536x7_0_1_1_1.window (ix2 a b : S65536x7.Idx) 0
          ∧ scatter_S65536x512_S7x1_S65536x7_0_1_1_1.start (ix2 a b : S65536x7.Idx) idx 0 + scatter_S65536x512_S7x1_S65536x7_0_1_1_1.window (ix2 a b : S65536x7.Idx) 0 < (65536 : ℕ)
        rw [hs0, hw0]; have := a.isLt; omega
      | ⟨1, _⟩ =>
        show 0 ≤ scatter_S65536x512_S7x1_S65536x7_0_1_1_1.start (ix2 a b : S65536x7.Idx) idx 1 + scatter_S65536x512_S7x1_S65536x7_0_1_1_1.window (ix2 a b : S65536x7.Idx) 1
          ∧ scatter_S65536x512_S7x1_S65536x7_0_1_1_1.start (ix2 a b : S65536x7.Idx) idx 1 + scatter_S65536x512_S7x1_S65536x7_0_1_1_1.window (ix2 a b : S65536x7.Idx) 1 < (512 : ℕ)
        rw [hs1, hw1]; omega
    rw [dif_pos hall, dif_pos h]
    congr 1
    funext c; refine Fin.ext ?_
    match c with
    | ⟨0, _⟩ =>
      show (scatter_S65536x512_S7x1_S65536x7_0_1_1_1.start (ix2 a b : S65536x7.Idx) idx 0 + scatter_S65536x512_S7x1_S65536x7_0_1_1_1.window (ix2 a b : S65536x7.Idx) 0).toNat = a.val
      rw [hs0, hw0]; omega
    | ⟨1, _⟩ =>
      show (scatter_S65536x512_S7x1_S65536x7_0_1_1_1.start (ix2 a b : S65536x7.Idx) idx 1 + scatter_S65536x512_S7x1_S65536x7_0_1_1_1.window (ix2 a b : S65536x7.Idx) 1).toNat = (idx (ix2 b 0)).toInt.toNat
      rw [hs1, hw1]; simp
  · rw [dif_neg h, dif_neg]
    intro hall
    have := hall 1
    rw [hs1, hw1] at this
    exact h ⟨by omega, by have h2 := this.2; change _ < ((512 : ℕ) : ℤ) at h2; omega⟩

/-- The disabled columns in the order the program lists them. -/
abbrev col : Fin 7 → ℕ := ![326, 379, 264, 265, 8, 123, 338]

/-- A column is one of the seven listed exactly when the specification disables it. -/
theorem exists_col_iff (n : ℕ) : (∃ b : Fin 7, n = col b) ↔ Spec.dis n = true := by
  constructor
  · rintro ⟨b, rfl⟩
    fin_cases b <;> decide
  · intro h
    have h : (decide (n = 8) || decide (n = 123) || decide (n = 264) || decide (n = 265) || decide (n = 326)
        || decide (n = 338) || decide (n = 379)) = true := h
    simp only [Bool.or_eq_true, decide_eq_true_eq] at h
    rcases h with ((((((h | h) | h) | h) | h) | h) | h) <;> subst h
    exacts [⟨4, rfl⟩, ⟨5, rfl⟩, ⟨2, rfl⟩, ⟨3, rfl⟩, ⟨0, rfl⟩, ⟨6, rfl⟩, ⟨1, rfl⟩]

/-- With scatter indices that read (signed) the seven listed columns, some update lands at a position exactly when
    the position's column is one of them: update `(a, b)` lands at row `a`, column `col b`. -/
theorem lands_iff (idx : IVec S7x1 32) (hidx : ∀ b : Fin 7, (idx (ix2 b 0)).toInt = (col b : ℤ)) (i' : S65536x512.Idx) :
    (∃ j : S65536x7.Idx, scatter_S65536x512_S7x1_S65536x7_0_1_1_1.resultIdx? j idx = some i') ↔ ∃ b : Fin 7, (i' 1).val = col b := by
  constructor
  · rintro ⟨j, h⟩
    obtain ⟨a, b, rfl⟩ : ∃ (a : Fin 65536) (b : Fin 7), j = ix2 a b := ⟨j 0, j 1, eq_ix2 j⟩
    rw [resultIdx_eq] at h
    split at h
    · obtain rfl := Option.some.inj h
      refine ⟨b, ?_⟩
      show (idx (ix2 b 0)).toInt.toNat = col b
      rw [hidx b]; exact Int.toNat_natCast _
    · cases h
  · rintro ⟨b, hb⟩
    have hlt : col b < 512 := by fin_cases b <;> decide
    refine ⟨ix2 (⟨(i' 0).val, idx2_lt0 i'⟩ : Fin 65536) b, ?_⟩
    rw [resultIdx_eq, dif_pos ⟨by rw [hidx b]; omega, by rw [hidx b]; omega⟩]
    refine congrArg some ?_
    funext c
    match c with
    | ⟨0, _⟩ => rfl
    | ⟨1, _⟩ =>
      refine Fin.ext ?_
      show (idx (ix2 b 0)).toInt.toNat = (i' 1).val
      rw [hidx b, hb]; exact Int.toNat_natCast _

/-- THE VALUE: zeros scattered into the listed columns of `x` is the specification of `x`. -/
theorem value {F : FTy → Type} [FloatOps F] (x : FVec F S65536x512 .f32) (idx : IVec S7x1 32) (upd : FVec F S65536x7 .f32)
    (hidx : ∀ b : Fin 7, (idx (ix2 b 0)).toInt = (col b : ℤ))
    (hupd : ∀ j, upd j = Scalar.ofBits .f32 0x00000000#32) :
    Host.scatter scatter_S65536x512_S7x1_S65536x7_0_1_1_1 (fun _ b => b) x idx upd = Spec.spec x := by
  obtain rfl : upd = fun _ => Scalar.ofBits .f32 0x00000000#32 := funext hupd
  funext i'
  rw [scatter_const]
  show _ = (if Spec.dis (i' 1).val = true then Scalar.ofBits .f32 0x00000000#32 else x i')
  by_cases hd : Spec.dis (i' 1).val = true
  · rw [if_pos ((lands_iff idx hidx i').mpr ((exists_col_iff _).mpr hd)), if_pos hd]
  · rw [if_neg (fun h => hd ((exists_col_iff _).mp ((lands_iff idx hidx i').mp h))), if_neg hd]

/-! ## The run -/

variable {F : FTy → Type} [FloatOps F]

/-- @main's 12 operations, in order. -/
abbrev ops : List (HloOp τ sig (Elt F)) :=
  [ nullary main_c (fun i => lit0 (S7.rowMajor i)),
    nullary main_c_0 (constantI S_ 32 0#32),
    unary main_c_0 main_v0 (broadcastInDim S7 ![] bcast_S_S7 : (⟨S_, .i32⟩ : BufTy).Contents (Elt F) → (⟨S7, .i32⟩ : BufTy).Contents (Elt F)),
    binary main_c main_v0 main_v1 (cmpi .slt : (⟨S7, .i32⟩ : BufTy).Contents (Elt F) → (⟨S7, .i32⟩ : BufTy).Contents (Elt F) → (⟨S7, .i1⟩ : BufTy).Contents (Elt F)),
    nullary main_c_1 (constantI S_ 32 512#32),
    unary main_c_1 main_v2 (broadcastInDim S7 ![] bcast_S_S7 : (⟨S_, .i32⟩ : BufTy).Contents (Elt F) → (⟨S7, .i32⟩ : BufTy).Contents (Elt F)),
    binary main_c main_v2 main_v3 (addi : (⟨S7, .i32⟩ : BufTy).Contents (Elt F) → (⟨S7, .i32⟩ : BufTy).Contents (Elt F) → (⟨S7, .i32⟩ : BufTy).Contents (Elt F)),
    ternary main_v1 main_v3 main_c main_v4 (select : (⟨S7, .i1⟩ : BufTy).Contents (Elt F) → (⟨S7, .i32⟩ : BufTy).Contents (Elt F) → (⟨S7, .i32⟩ : BufTy).Contents (Elt F) → (⟨S7, .i32⟩ : BufTy).Contents (Elt F)),
    unary main_v4 main_v5 (broadcastInDim S7x1 ![0] bcast_S7_S7x1_0 : (⟨S7, .i32⟩ : BufTy).Contents (Elt F) → (⟨S7x1, .i32⟩ : BufTy).Contents (Elt F)),
    nullary main_cst (constant S_ .f32 0x00000000#32),
    unary main_cst main_v6 (broadcastInDim S65536x7 ![] bcast_S_S65536x7 : (⟨S_, .f32⟩ : BufTy).Contents (Elt F) → (⟨S65536x7, .f32⟩ : BufTy).Contents (Elt F)),
    ternary main_arg0 main_v5 main_v6 main_v7 ((fun x i u => Host.scatter scatter_S65536x512_S7x1_S65536x7_0_1_1_1 (fun _ b => b) x i u) : (⟨S65536x512, .f32⟩ : BufTy).Contents (Elt F) → (⟨S7x1, .i32⟩ : BufTy).Contents (Elt F) → (⟨S65536x7, .f32⟩ : BufTy).Contents (Elt F) → (⟨S65536x512, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., unary_bufs_sub .., ternary_bufs_sub ..⟩

/-- On the one device, from any memory with zero counters: every weakly fair execution of @main terminates with the
    result the specification of the argument's launch contents and the argument unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v7)
            = (Cert.Proof.Spec.spec (F := Ideal) (m ((c.tc : Thread Cert.ReferenceIdeal.nD Cert.ReferenceIdeal.τ).loc Cert.ReferenceIdeal.main_arg0)) : FVec Ideal Cert.ReferenceIdeal.S65536x512 .f32)
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)) :=
  (θ_run defs _ _).mono (fun _ h c => ⟨(h c main_v7).trans (by
        after_results
        refine value (F := Ideal) (m ((c.tc : Thread nD τ).loc main_arg0)) _ _ ?_ ?_
        · intro b; fin_cases b <;> decide
        · intro j; rfl),
      (h c main_arg0).trans (by after_results)⟩)
    (run_seq scopedRefs_eq scopedSems_eq defs main (fun _ => ops) main_eq (fun _ => ops_sub) m ρ)

end Cert.Proof.Ref

end
-- ==== Proof.lean ====
/-
  The proof of `Cert.Claim`: frame_Kernel ∧ frame_KernelIdeal ∧ frame_ReferenceIdeal ∧ preserves_Kernel_KernelIdeal ∧
  algebraic_KernelIdeal_ReferenceIdeal.

  The kernel: on each of the 32 vector subcores of the two SparseCores, 2048 rows of a 65536 × 512 array are copied in
  chunks of 32 rows into staging buffers, the seven disabled columns {8, 123, 264, 265, 326, 338, 379} of every row are
  overwritten by zero, and the chunk is copied out to the same rows of the result. The reference: one scatter of zeros
  into those seven columns of the array. Both results are one function of the argument (Proof/Spec.lean `spec`): zero
  in the disabled columns, the argument elsewhere.

  The kernel's run — every weakly fair execution terminates, the result array at `spec` of the argument's launch
  contents, the argument unchanged — is proved once for any float instance, of the idealized program in Proof/KI/ (its
  last module, Proof/KI/Launch.lean, states `run_main`) and of the word-level program, the same text, in Proof/KB/. The
  reference's run, with the same post, is Proof/RefRun.lean's `run`. The three frames are these runs with the value
  forgotten; the idealization rewrote no operation, so what it preserves is `True`; and at the ideal instance, from
  memories agreeing on the argument, both programs end at `spec` of that argument. The programs' stated side
  conditions are the instances of Proof/Gen/.
-/
import proofs.«205590_g25494925869706_cont_9to1_307_11_alg».proof.Defs
import proofs.«205590_g25494925869706_cont_9to1_307_11_alg».proof.Proof.Gen.Kernel
import proofs.«205590_g25494925869706_cont_9to1_307_11_alg».proof.Proof.Gen.KernelIdeal
import proofs.«205590_g25494925869706_cont_9to1_307_11_alg».proof.Proof.Gen.ReferenceIdeal
import proofs.«205590_g25494925869706_cont_9to1_307_11_alg».proof.Proof.Gen.Pre_finite_inputs
import proofs.«205590_g25494925869706_cont_9to1_307_11_alg».proof.Proof.KI.Launch
import proofs.«205590_g25494925869706_cont_9to1_307_11_alg».proof.Proof.KB.Launch
import proofs.«205590_g25494925869706_cont_9to1_307_11_alg».proof.Proof.RefRun

noncomputable section

namespace Cert.Proof

open Idealize.ShloMosaic Idealize.ShloMosaic.TcCoe Idealize.SL.Sem

/-- The word-level program runs and leaves its argument array unchanged. -/
theorem frame_Kernel : Cert.frame_Kernel := fun m ρ _ =>
  (θ_run Cert.Kernel.defs _ _).mono (fun _ h c => (h c).2) (Cert.Proof.KB.run_main (F := Bits) m ρ)

/-- The idealized program runs and leaves its argument array unchanged. -/
theorem frame_KernelIdeal : Cert.frame_KernelIdeal := fun m ρ _ =>
  (θ_run Cert.KernelIdeal.defs _ _).mono (fun _ h c => (h c).2) (Cert.Proof.KI.run_main (F := Ideal) m ρ)

/-- The reference runs and leaves its argument array unchanged. -/
theorem frame_ReferenceIdeal : Cert.frame_ReferenceIdeal := fun m ρ _ =>
  (θ_run Cert.ReferenceIdeal.defs _ _).mono (fun _ h c => (h c).2) (Cert.Proof.Ref.run m ρ)

/-- The idealization rewrote no operation. -/
theorem preserves : Cert.preserves_Kernel_KernelIdeal := trivial

/-- At the ideal instance, from memories agreeing on the argument, the kernel's result array and the reference's both
    end at the specification of that argument, the arguments unchanged. -/
theorem algebraic : Cert.algebraic_KernelIdeal_ReferenceIdeal := by
  intro m ρ m' ρ' _ hagree
  refine ⟨fun c => Cert.Proof.KI.outFinal m c, Cert.Proof.KI.run_main (F := Ideal) m ρ, ?_⟩
  refine (θ_run Cert.ReferenceIdeal.defs _ _).mono (fun _ h c => ⟨(h c).1.trans ?_, (h c).2⟩) (Cert.Proof.Ref.run m' ρ')
  rw [hagree c]

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
